-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v84)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v84) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v128) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x800000 : Shape := ⟨2, ![2, 800000]⟩
abbrev S64x64 : Shape := ⟨2, ![64, 64]⟩
abbrev S64 : Shape := ⟨1, ![64]⟩
abbrev S192x64 : Shape := ⟨2, ![192, 64]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S192x64 : S_.BroadcastsInDim S192x64 (![] : Fin 0 → Fin S192x64.rank)
  reducesTo_S192x64_S_d0_1 : S192x64.ReducesTo [0, 1] S_

variable [Facts]

def fn_part4 {F : FTy → Type} [FloatOps F] (main_arg15 : FVec F S64 .f32) (main_v63 : IVec S_ 1) (main_v67 : IVec S_ 1) : IVec S_ 1 :=
  let main_v68 : IVec S_ 1 := andi main_v63 main_v67
  let main_v69 : FVec F S64 .f32 := Host.absf main_arg15
  let main_cst_26 : FVec F S_ .f32 := constant S_ .f32 0x7F800000#32
  let main_v70 : FVec F S64 .f32 := broadcastInDim S64 ![] bcast_S_S64 main_cst_26
  let main_v71 : IVec S64 1 := cmpf .olt main_v69 main_v70
  let main_c_27 : IVec S_ 1 := constantI S_ 1 1#1
  let main_v72 : IVec S_ 1 := (fun x v => Host.reduce IntOp.andi x v reducesTo_S64_S_d0 h_S_) main_v71 main_c_27
  let main_v73 : IVec S_ 1 := andi main_v68 main_v72
  main_v73

def fn_part3 {F : FTy → Type} [FloatOps F] (main_arg12 : FVec F S64x64 .f32) (main_arg13 : FVec F S64 .f32) (main_arg14 : FVec F S192x64 .f32) (main_arg15 : FVec F S64 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S64x64 .f32 := Host.absf main_arg12
  let main_cst_20 : FVec F S_ .f32 := constant S_ .f32 0x7F800000#32
  let main_v55 : FVec F S64x64 .f32 := broadcastInDim S64x64 ![] bcast_S_S64x64 main_cst_20
  let main_v56 : IVec S64x64 1 := cmpf .olt main_v54 main_v55
  let main_c_21 : IVec S_ 1 := constantI S_ 1 1#1
  let main_v57 : IVec S_ 1 := (fun x v => Host.reduce IntOp.andi x v reducesTo_S64x64_S_d0_1 h_S_) main_v56 main_c_21
  let main_v58 : IVec S_ 1 := andi main_v53 main_v57
  let main_v59 : FVec F S64 .f32 := Host.absf main_arg13
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  let main_v64 : FVec F S192x64 .f32 := Host.absf main_arg14
  let main_cst_24 : FVec F S_ .f32 := constant S_ .f32 0x7F800000#32
  let main_v65 : FVec F S192x64 .f32 := broadcastInDim S192x64 ![] bcast_S_S192x64 main_cst_24
  let main_v66 : IVec S192x64 1 := cmpf .olt main_v64 main_v65
  let main_c_25 : IVec S_ 1 := constantI S_ 1 1#1
  let main_v67 : IVec S_ 1 := (fun x v => Host.reduce IntOp.andi x v reducesTo_S192x64_S_d0_1 h_S_) main_v66 main_c_25
  fn_part4 (F := F) main_arg15 main_v63 main_v67

def fn_part2 {F : FTy → Type} [FloatOps F] (main_arg8 : FVec F S64x64 .f32) (main_arg9 : FVec F S64 .f32) (main_arg10 : FVec F S64x64 .f32) (main_arg11 : FVec F S64 .f32) (main_arg12 : FVec F S64x64 .f32) (main_arg13 : FVec F S64 .f32) (main_arg14 : FVec F S192x64 .f32) (main_arg15 : FVec F S64 .f32) (main_v33 : IVec S_ 1) : IVec S_ 1 :=
  let main_v34 : FVec F S64x64 .f32 := Host.absf main_arg8
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  let main_v39 : FVec F S64 .f32 := Host.absf main_arg9
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64x64 .f32 := Host.absf main_arg10
  let main_cst_16 : FVec F S_ .f32 := constant S_ .f32 0x7F800000#32
  let main_v45 : FVec F S64x64 .f32 := broadcastInDim S64x64 ![] bcast_S_S64x64 main_cst_16
  let main_v46 : IVec S64x64 1 := cmpf .olt main_v44 main_v45
  let main_c_17 : IVec S_ 1 := constantI S_ 1 1#1
  let main_v47 : IVec S_ 1 := (fun x v => Host.reduce IntOp.andi x v reducesTo_S64x64_S_d0_1 h_S_) main_v46 main_c_17
  let main_v48 : IVec S_ 1 := andi main_v43 main_v47
  let main_v49 : FVec F S64 .f32 := Host.absf main_arg11
  let main_cst_18 : FVec F S_ .f32 := constant S_ .f32 0x7F800000#32
  let main_v50 : FVec F S64 .f32 := broadcastInDim S64 ![] bcast_S_S64 main_cst_18
  fn_part3 (F := F) main_arg12 main_arg13 main_arg14 main_arg15 main_v48 main_v49 main_v50

def fn_part1 {F : FTy → Type} [FloatOps F] (main_arg5 : FVec F S64 .f32) (main_arg6 : FVec F S64x64 .f32) (main_arg7 : FVec F S64 .f32) (main_arg8 : FVec F S64x64 .f32) (main_arg9 : FVec F S64 .f32) (main_arg10 : FVec F S64x64 .f32) (main_arg11 : FVec F S64 .f32) (main_arg12 : FVec F S64x64 .f32) (main_arg13 : FVec F S64 .f32) (main_arg14 : FVec F S192x64 .f32) (main_arg15 : FVec F S64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg6
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg8 main_arg9 main_arg10 main_arg11 main_arg12 main_arg13 main_arg14 main_arg15 main_v33

def fn {F : FTy → Type} [FloatOps F] (main_arg0 : FVec F S50000x64 .f32) (main_arg1 : IVec S2x800000 32) (main_arg2 : FVec F S64x64 .f32) (main_arg3 : FVec F S64 .f32) (main_arg4 : FVec F S64x64 .f32) (main_arg5 : FVec F S64 .f32) (main_arg6 : FVec F S64x64 .f32) (main_arg7 : FVec F S64 .f32) (main_arg8 : FVec F S64x64 .f32) (main_arg9 : FVec F S64 .f32) (main_arg10 : FVec F S64x64 .f32) (main_arg11 : FVec F S64 .f32) (main_arg12 : FVec F S64x64 .f32) (main_arg13 : FVec F S64 .f32) (main_arg14 : FVec F S192x64 .f32) (main_arg15 : FVec F S64 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_arg6 main_arg7 main_arg8 main_arg9 main_arg10 main_arg11 main_arg12 main_arg13 main_arg14 main_arg15 main_v13 main_v16
-- ==== Kernel.lean ====
abbrev S50000x64 : Shape := ⟨2, ![50000, 64]⟩
abbrev S2x800000 : Shape := ⟨2, ![2, 800000]⟩
abbrev S64x64 : Shape := ⟨2, ![64, 64]⟩
abbrev S64 : Shape := ⟨1, ![64]⟩
abbrev S192x64 : Shape := ⟨2, ![192, 64]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x64 : Shape := ⟨2, ![800000, 64]⟩
abbrev S1x64 : Shape := ⟨2, ![1, 64]⟩
abbrev S2000x64 : Shape := ⟨2, ![2000, 64]⟩
abbrev S50000x192 : Shape := ⟨2, ![50000, 192]⟩
abbrev S2000x192 : Shape := ⟨2, ![2000, 192]⟩

abbrev nBuf : Space → Nat
  | .hbm => 119
  | .vmem => 66
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S64x64, .f32⟩
  | .hbm, ⟨9, _⟩ => ⟨S64, .f32⟩
  | .hbm, ⟨10, _⟩ => ⟨S64x64, .f32⟩
  | .hbm, ⟨11, _⟩ => ⟨S64, .f32⟩
  | .hbm, ⟨12, _⟩ => ⟨S64x64, .f32⟩
  | .hbm, ⟨13, _⟩ => ⟨S64, .f32⟩
  | .hbm, ⟨14, _⟩ => ⟨S192x64, .f32⟩
  | .hbm, ⟨15, _⟩ => ⟨S64, .f32⟩
  | .hbm, ⟨16, _⟩ => ⟨S1x800000, .i32⟩
  | .hbm, ⟨17, _⟩ => ⟨S800000, .i32⟩
  | .hbm, ⟨18, _⟩ => ⟨S1x800000, .i32⟩
  | .hbm, ⟨19, _⟩ => ⟨S800000, .i32⟩
  | .hbm, ⟨20, _⟩ => ⟨S_, .i32⟩
  | .hbm, ⟨21, _⟩ => ⟨S800000, .i32⟩
  | .hbm, ⟨22, _⟩ => ⟨S800000, .i1⟩
  | .hbm, ⟨23, _⟩ => ⟨S_, .i32⟩
  | .hbm, ⟨24, _⟩ => ⟨S800000, .i32⟩
  | .hbm, ⟨25, _⟩ => ⟨S800000, .i32⟩
  | .hbm, ⟨26, _⟩ => ⟨S800000, .i32⟩
  | .hbm, ⟨27, _⟩ => ⟨S800000x1, .i32⟩
  | .hbm, ⟨28, _⟩ => ⟨S800000x64, .f32⟩
  | .hbm, ⟨29, _⟩ => ⟨S_, .f32⟩
  | .hbm, ⟨30, _⟩ => ⟨S50000x64, .f32⟩
  | .hbm, ⟨31, _⟩ => ⟨S800000x1, .i32⟩
  | .hbm, ⟨32, _⟩ => ⟨S50000x64, .f32⟩
  | .hbm, ⟨33, _⟩ => ⟨S1x64, .f32⟩
  | .hbm, ⟨34, _⟩ => ⟨S1x64, .f32⟩
  | .hbm, ⟨35, _⟩ => ⟨S50000x64, .f32⟩
  | .hbm, ⟨36, _⟩ => ⟨S_, .i32⟩
  | .hbm, ⟨37, _⟩ => ⟨S800000, .i32⟩
  | .hbm, ⟨38, _⟩ => ⟨S800000, .i1⟩
  | .hbm, ⟨39, _⟩ => ⟨S_, .i32⟩
  | .hbm, ⟨40, _⟩ => ⟨S800000, .i32⟩
  | .hbm, ⟨41, _⟩ => ⟨S800000, .i32⟩
  | .hbm, ⟨42, _⟩ => ⟨S800000, .i32⟩
  | .hbm, ⟨43, _⟩ => ⟨S800000x1, .i32⟩
  | .hbm, ⟨44, _⟩ => ⟨S800000x64, .f32⟩
  | .hbm, ⟨45, _⟩ => ⟨S_, .f32⟩
  | .hbm, ⟨46, _⟩ => ⟨S50000x64, .f32⟩
  | .hbm, ⟨47, _⟩ => ⟨S800000x1, .i32⟩
  | .hbm, ⟨48, _⟩ => ⟨S50000x64, .f32⟩
  | .hbm, ⟨49, _⟩ => ⟨S1x64, .f32⟩
  | .hbm, ⟨50, _⟩ => ⟨S1x64, .f32⟩
  | .hbm, ⟨51, _⟩ => ⟨S50000x64, .f32⟩
  | .hbm, ⟨52, _⟩ => ⟨S_, .i32⟩
  | .hbm, ⟨53, _⟩ => ⟨S800000, .i32⟩
  | .hbm, ⟨54, _⟩ => ⟨S800000, .i1⟩
  | .hbm, ⟨55, _⟩ => ⟨S_, .i32⟩
  | .hbm, ⟨56, _⟩ => ⟨S800000, .i32⟩
  | .hbm, ⟨57, _⟩ => ⟨S800000, .i32⟩
  | .hbm, ⟨58, _⟩ => ⟨S800000, .i32⟩
  | .hbm, ⟨59, _⟩ => ⟨S800000x1, .i32⟩
  | .hbm, ⟨60, _⟩ => ⟨S800000x64, .f32⟩
  | .hbm, ⟨61, _⟩ => ⟨S_, .f32⟩
  | .hbm, ⟨62, _⟩ => ⟨S50000x64, .f32⟩
  | .hbm, ⟨63, _⟩ => ⟨S800000x1, .i32⟩
  | .hbm, ⟨64, _⟩ => ⟨S50000x64, .f32⟩
  | .hbm, ⟨65, _⟩ => ⟨S1x64, .f32⟩
  | .hbm, ⟨66, _⟩ => ⟨S1x64, .f32⟩
  | .hbm, ⟨67, _⟩ => ⟨S50000x64, .f32⟩
  | .hbm, ⟨68, _⟩ => ⟨S_, .i32⟩
  | .hbm, ⟨69, _⟩ => ⟨S800000, .i32⟩
  | .hbm, ⟨70, _⟩ => ⟨S800000, .i1⟩
  | .hbm, ⟨71, _⟩ => ⟨S_, .i32⟩
  | .hbm, ⟨72, _⟩ => ⟨S800000, .i32⟩
  | .hbm, ⟨73, _⟩ => ⟨S800000, .i32⟩
  | .hbm, ⟨74, _⟩ => ⟨S800000, .i32⟩
  | .hbm, ⟨75, _⟩ => ⟨S800000x1, .i32⟩
  | .hbm, ⟨76, _⟩ => ⟨S800000x64, .f32⟩
  | .hbm, ⟨77, _⟩ => ⟨S_, .f32⟩
  | .hbm, ⟨78, _⟩ => ⟨S50000x64, .f32⟩
  | .hbm, ⟨79, _⟩ => ⟨S800000x1, .i32⟩
  | .hbm, ⟨80, _⟩ => ⟨S50000x64, .f32⟩
  | .hbm, ⟨81, _⟩ => ⟨S1x64, .f32⟩
  | .hbm, ⟨82, _⟩ => ⟨S1x64, .f32⟩
  | .hbm, ⟨83, _⟩ => ⟨S50000x64, .f32⟩
  | .hbm, ⟨84, _⟩ => ⟨S_, .i32⟩
  | .hbm, ⟨85, _⟩ => ⟨S800000, .i32⟩
  | .hbm, ⟨86, _⟩ => ⟨S800000, .i1⟩
  | .hbm, ⟨87, _⟩ => ⟨S_, .i32⟩
  | .hbm, ⟨88, _⟩ => ⟨S800000, .i32⟩
  | .hbm, ⟨89, _⟩ => ⟨S800000, .i32⟩
  | .hbm, ⟨90, _⟩ => ⟨S800000, .i32⟩
  | .hbm, ⟨91, _⟩ => ⟨S800000x1, .i32⟩
  | .hbm, ⟨92, _⟩ => ⟨S800000x64, .f32⟩
  | .hbm, ⟨93, _⟩ => ⟨S_, .f32⟩
  | .hbm, ⟨94, _⟩ => ⟨S50000x64, .f32⟩
  | .hbm, ⟨95, _⟩ => ⟨S800000x1, .i32⟩
  | .hbm, ⟨96, _⟩ => ⟨S50000x64, .f32⟩
  | .hbm, ⟨97, _⟩ => ⟨S1x64, .f32⟩
  | .hbm, ⟨98, _⟩ => ⟨S1x64, .f32⟩
  | .hbm, ⟨99, _⟩ => ⟨S50000x64, .f32⟩
  | .hbm, ⟨100, _⟩ => ⟨S_, .i32⟩
  | .hbm, ⟨101, _⟩ => ⟨S800000, .i32⟩
  | .hbm, ⟨102, _⟩ => ⟨S800000, .i1⟩
  | .hbm, ⟨103, _⟩ => ⟨S_, .i32⟩
  | .hbm, ⟨104, _⟩ => ⟨S800000, .i32⟩
  | .hbm, ⟨105, _⟩ => ⟨S800000, .i32⟩
  | .hbm, ⟨106, _⟩ => ⟨S800000, .i32⟩
  | .hbm, ⟨107, _⟩ => ⟨S800000x1, .i32⟩
  | .hbm, ⟨108, _⟩ => ⟨S800000x64, .f32⟩
  | .hbm, ⟨109, _⟩ => ⟨S_, .f32⟩
  | .hbm, ⟨110, _⟩ => ⟨S50000x64, .f32⟩
  | .hbm, ⟨111, _⟩ => ⟨S800000x1, .i32⟩
  | .hbm, ⟨112, _⟩ => ⟨S50000x64, .f32⟩
  | .hbm, ⟨113, _⟩ => ⟨S1x64, .f32⟩
  | .hbm, ⟨114, _⟩ => ⟨S1x64, .f32⟩
  | .hbm, ⟨115, _⟩ => ⟨S50000x64, .f32⟩
  | .hbm, ⟨116, _⟩ => ⟨S50000x192, .f32⟩
  | .hbm, ⟨117, _⟩ => ⟨S1x64, .f32⟩
  | .hbm, ⟨118, _⟩ => ⟨S50000x64, .f32⟩
  | .local _ .vmem, ⟨0, _⟩ => ⟨S2000x64, .f32⟩
  | .local _ .vmem, ⟨1, _⟩ => ⟨S2000x64, .f32⟩
  | .local _ .vmem, ⟨2, _⟩ => ⟨S2000x64, .f32⟩
  | .local _ .vmem, ⟨3, _⟩ => ⟨S2000x64, .f32⟩
  | .local _ .vmem, ⟨4, _⟩ => ⟨S64x64, .f32⟩
  | .local _ .vmem, ⟨5, _⟩ => ⟨S1x64, .f32⟩
  | .local _ .vmem, ⟨6, _⟩ => ⟨S64x64, .f32⟩
  | .local _ .vmem, ⟨7, _⟩ => ⟨S1x64, .f32⟩
  | .local _ .vmem, ⟨8, _⟩ => ⟨S2000x64, .f32⟩
  | .local _ .vmem, ⟨9, _⟩ => ⟨S2000x64, .f32⟩
  | .local _ .vmem, ⟨10, _⟩ => ⟨S2000x64, .f32⟩
  | .local _ .vmem, ⟨11, _⟩ => ⟨S2000x64, .f32⟩
  | .local _ .vmem, ⟨12, _⟩ => ⟨S2000x64, .f32⟩
  | .local _ .vmem, ⟨13, _⟩ => ⟨S2000x64, .f32⟩
  | .local _ .vmem, ⟨14, _⟩ => ⟨S64x64, .f32⟩
  | .local _ .vmem, ⟨15, _⟩ => ⟨S1x64, .f32⟩
  | .local _ .vmem, ⟨16, _⟩ => ⟨S64x64, .f32⟩
  | .local _ .vmem, ⟨17, _⟩ => ⟨S1x64, .f32⟩
  | .local _ .vmem, ⟨18, _⟩ => ⟨S2000x64, .f32⟩
  | .local _ .vmem, ⟨19, _⟩ => ⟨S2000x64, .f32⟩
  | .local _ .vmem, ⟨20, _⟩ => ⟨S2000x64, .f32⟩
  | .local _ .vmem, ⟨21, _⟩ => ⟨S2000x64, .f32⟩
  | .local _ .vmem, ⟨22, _⟩ => ⟨S2000x64, .f32⟩
  | .local _ .vmem, ⟨23, _⟩ => ⟨S2000x64, .f32⟩
  | .local _ .vmem, ⟨24, _⟩ => ⟨S64x64, .f32⟩
  | .local _ .vmem, ⟨25, _⟩ => ⟨S1x64, .f32⟩
  | .local _ .vmem, ⟨26, _⟩ => ⟨S64x64, .f32⟩
  | .local _ .vmem, ⟨27, _⟩ => ⟨S1x64, .f32⟩
  | .local _ .vmem, ⟨28, _⟩ => ⟨S2000x64, .f32⟩
  | .local _ .vmem, ⟨29, _⟩ => ⟨S2000x64, .f32⟩
  | .local _ .vmem, ⟨30, _⟩ => ⟨S2000x64, .f32⟩
  | .local _ .vmem, ⟨31, _⟩ => ⟨S2000x64, .f32⟩
  | .local _ .vmem, ⟨32, _⟩ => ⟨S2000x64, .f32⟩
  | .local _ .vmem, ⟨33, _⟩ => ⟨S2000x64, .f32⟩
  | .local _ .vmem, ⟨34, _⟩ => ⟨S64x64, .f32⟩
  | .local _ .vmem, ⟨35, _⟩ => ⟨S1x64, .f32⟩
  | .local _ .vmem, ⟨36, _⟩ => ⟨S64x64, .f32⟩
  | .local _ .vmem, ⟨37, _⟩ => ⟨S1x64, .f32⟩
  | .local _ .vmem, ⟨38, _⟩ => ⟨S2000x64, .f32⟩
  | .local _ .vmem, ⟨39, _⟩ => ⟨S2000x64, .f32⟩
  | .local _ .vmem, ⟨40, _⟩ => ⟨S2000x64, .f32⟩
  | .local _ .vmem, ⟨41, _⟩ => ⟨S2000x64, .f32⟩
  | .local _ .vmem, ⟨42, _⟩ => ⟨S2000x64, .f32⟩
  | .local _ .vmem, ⟨43, _⟩ => ⟨S2000x64, .f32⟩
  | .local _ .vmem, ⟨44, _⟩ => ⟨S64x64, .f32⟩
  | .local _ .vmem, ⟨45, _⟩ => ⟨S1x64, .f32⟩
  | .local _ .vmem, ⟨46, _⟩ => ⟨S64x64, .f32⟩
  | .local _ .vmem, ⟨47, _⟩ => ⟨S1x64, .f32⟩
  | .local _ .vmem, ⟨48, _⟩ => ⟨S2000x64, .f32⟩
  | .local _ .vmem, ⟨49, _⟩ => ⟨S2000x64, .f32⟩
  | .local _ .vmem, ⟨50, _⟩ => ⟨S2000x64, .f32⟩
  | .local _ .vmem, ⟨51, _⟩ => ⟨S2000x64, .f32⟩
  | .local _ .vmem, ⟨52, _⟩ => ⟨S2000x64, .f32⟩
  | .local _ .vmem, ⟨53, _⟩ => ⟨S2000x64, .f32⟩
  | .local _ .vmem, ⟨54, _⟩ => ⟨S64x64, .f32⟩
  | .local _ .vmem, ⟨55, _⟩ => ⟨S1x64, .f32⟩
  | .local _ .vmem, ⟨56, _⟩ => ⟨S64x64, .f32⟩
  | .local _ .vmem, ⟨57, _⟩ => ⟨S1x64, .f32⟩
  | .local _ .vmem, ⟨58, _⟩ => ⟨S2000x64, .f32⟩
  | .local _ .vmem, ⟨59, _⟩ => ⟨S2000x64, .f32⟩
  | .local _ .vmem, ⟨60, _⟩ => ⟨S2000x192, .f32⟩
  | .local _ .vmem, ⟨61, _⟩ => ⟨S2000x192, .f32⟩
  | .local _ .vmem, ⟨62, _⟩ => ⟨S192x64, .f32⟩
  | .local _ .vmem, ⟨63, _⟩ => ⟨S1x64, .f32⟩
  | .local _ .vmem, ⟨64, _⟩ => ⟨S2000x64, .f32⟩
  | .local _ .vmem, ⟨65, _⟩ => ⟨S2000x64, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | _, _ => false

abbrev semScoped : Fin 0 → Bool
  | ⟨_, h⟩ => absurd h (Nat.not_lt_zero _)

abbrev dmaSemScoped : Fin 66 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | _ => false

abbrev sig : RefSig :=
  ofTc nBuf bufTy 0 66 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_c : Ref sig .tc := ⟨.hbm, 20, rfl⟩
abbrev main_v4 : Ref sig .tc := ⟨.hbm, 21, rfl⟩
abbrev main_v5 : Ref sig .tc := ⟨.hbm, 22, rfl⟩
abbrev main_c_0 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_cst : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_c_1 : Ref sig .tc := ⟨.hbm, 36, rfl⟩
abbrev main_v17 : Ref sig .tc := ⟨.hbm, 37, rfl⟩
abbrev main_v18 : Ref sig .tc := ⟨.hbm, 38, rfl⟩
abbrev main_c_2 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_cst_3 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_c_4 : Ref sig .tc := ⟨.hbm, 52, rfl⟩
abbrev main_v30 : Ref sig .tc := ⟨.hbm, 53, rfl⟩
abbrev main_v31 : Ref sig .tc := ⟨.hbm, 54, rfl⟩
abbrev main_c_5 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_cst_6 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_c_7 : Ref sig .tc := ⟨.hbm, 68, rfl⟩
abbrev main_v43 : Ref sig .tc := ⟨.hbm, 69, rfl⟩
abbrev main_v44 : Ref sig .tc := ⟨.hbm, 70, rfl⟩
abbrev main_c_8 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_cst_9 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_c_10 : Ref sig .tc := ⟨.hbm, 84, rfl⟩
abbrev main_v56 : Ref sig .tc := ⟨.hbm, 85, rfl⟩
abbrev main_v57 : Ref sig .tc := ⟨.hbm, 86, rfl⟩
abbrev main_c_11 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_cst_12 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_c_13 : Ref sig .tc := ⟨.hbm, 100, rfl⟩
abbrev main_v69 : Ref sig .tc := ⟨.hbm, 101, rfl⟩
abbrev main_v70 : Ref sig .tc := ⟨.hbm, 102, rfl⟩
abbrev main_c_14 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_cst_15 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg6_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg1_1 : Ref sig .tc := ⟨.vmem, 23, rfl⟩
abbrev cc2_stg2_0 : Ref sig .tc := ⟨.vmem, 24, rfl⟩
abbrev cc2_stg3_0 : Ref sig .tc := ⟨.vmem, 25, rfl⟩
abbrev cc2_stg4_0 : Ref sig .tc := ⟨.vmem, 26, rfl⟩
abbrev cc2_stg5_0 : Ref sig .tc := ⟨.vmem, 27, rfl⟩
abbrev cc2_stg6_0 : Ref sig .tc := ⟨.vmem, 28, rfl⟩
abbrev cc2_stg6_1 : Ref sig .tc := ⟨.vmem, 29, rfl⟩
abbrev cc3_stg0_0 : Ref sig .tc := ⟨.vmem, 30, rfl⟩
abbrev cc3_stg0_1 : Ref sig .tc := ⟨.vmem, 31, rfl⟩
abbrev cc3_stg1_0 : Ref sig .tc := ⟨.vmem, 32, rfl⟩
abbrev cc3_stg1_1 : Ref sig .tc := ⟨.vmem, 33, rfl⟩
abbrev cc3_stg2_0 : Ref sig .tc := ⟨.vmem, 34, rfl⟩
abbrev cc3_stg3_0 : Ref sig .tc := ⟨.vmem, 35, rfl⟩
abbrev cc3_stg4_0 : Ref sig .tc := ⟨.vmem, 36, rfl⟩
abbrev cc3_stg5_0 : Ref sig .tc := ⟨.vmem, 37, rfl⟩
abbrev cc3_stg6_0 : Ref sig .tc := ⟨.vmem, 38, rfl⟩
abbrev cc3_stg6_1 : Ref sig .tc := ⟨.vmem, 39, rfl⟩
abbrev cc4_stg0_0 : Ref sig .tc := ⟨.vmem, 40, rfl⟩
abbrev cc4_stg0_1 : Ref sig .tc := ⟨.vmem, 41, rfl⟩
abbrev cc4_stg1_0 : Ref sig .tc := ⟨.vmem, 42, rfl⟩
abbrev cc4_stg1_1 : Ref sig .tc := ⟨.vmem, 43, rfl⟩
abbrev cc4_stg2_0 : Ref sig .tc := ⟨.vmem, 44, rfl⟩
abbrev cc4_stg3_0 : Ref sig .tc := ⟨.vmem, 45, rfl⟩
abbrev cc4_stg4_0 : Ref sig .tc := ⟨.vmem, 46, rfl⟩
abbrev cc4_stg5_0 : Ref sig .tc := ⟨.vmem, 47, rfl⟩
abbrev cc4_stg6_0 : Ref sig .tc := ⟨.vmem, 48, rfl⟩
abbrev cc4_stg6_1 : Ref sig .tc := ⟨.vmem, 49, rfl⟩
abbrev cc5_stg0_0 : Ref sig .tc := ⟨.vmem, 50, rfl⟩
abbrev cc5_stg0_1 : Ref sig .tc := ⟨.vmem, 51, rfl⟩
abbrev cc5_stg1_0 : Ref sig .tc := ⟨.vmem, 52, rfl⟩
abbrev cc5_stg1_1 : Ref sig .tc := ⟨.vmem, 53, rfl⟩
abbrev cc5_stg2_0 : Ref sig .tc := ⟨.vmem, 54, rfl⟩
abbrev cc5_stg3_0 : Ref sig .tc := ⟨.vmem, 55, rfl⟩
abbrev cc5_stg4_0 : Ref sig .tc := ⟨.vmem, 56, rfl⟩
abbrev cc5_stg5_0 : Ref sig .tc := ⟨.vmem, 57, rfl⟩
abbrev cc5_stg6_0 : Ref sig .tc := ⟨.vmem, 58, rfl⟩
abbrev cc5_stg6_1 : Ref sig .tc := ⟨.vmem, 59, rfl⟩
abbrev cc6_stg0_0 : Ref sig .tc := ⟨.vmem, 60, rfl⟩
abbrev cc6_stg0_1 : Ref sig .tc := ⟨.vmem, 61, rfl⟩
abbrev cc6_stg1_0 : Ref sig .tc := ⟨.vmem, 62, rfl⟩
abbrev cc6_stg2_0 : Ref sig .tc := ⟨.vmem, 63, rfl⟩
abbrev cc6_stg3_0 : Ref sig .tc := ⟨.vmem, 64, rfl⟩
abbrev cc6_stg3_1 : Ref sig .tc := ⟨.vmem, 65, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem6_1 : DmaSem sig := 19
abbrev cc2_sem0_0 : DmaSem sig := 20
abbrev cc2_sem0_1 : DmaSem sig := 21
abbrev cc2_sem1_0 : DmaSem sig := 22
abbrev cc2_sem1_1 : DmaSem sig := 23
abbrev cc2_sem2_0 : DmaSem sig := 24
abbrev cc2_sem3_0 : DmaSem sig := 25
abbrev cc2_sem4_0 : DmaSem sig := 26
abbrev cc2_sem5_0 : DmaSem sig := 27
abbrev cc2_sem6_0 : DmaSem sig := 28
abbrev cc2_sem6_1 : DmaSem sig := 29
abbrev cc3_sem0_0 : DmaSem sig := 30
abbrev cc3_sem0_1 : DmaSem sig := 31
abbrev cc3_sem1_0 : DmaSem sig := 32
abbrev cc3_sem1_1 : DmaSem sig := 33
abbrev cc3_sem2_0 : DmaSem sig := 34
abbrev cc3_sem3_0 : DmaSem sig := 35
abbrev cc3_sem4_0 : DmaSem sig := 36
abbrev cc3_sem5_0 : DmaSem sig := 37
abbrev cc3_sem6_0 : DmaSem sig := 38
abbrev cc3_sem6_1 : DmaSem sig := 39
abbrev cc4_sem0_0 : DmaSem sig := 40
abbrev cc4_sem0_1 : DmaSem sig := 41
abbrev cc4_sem1_0 : DmaSem sig := 42
abbrev cc4_sem1_1 : DmaSem sig := 43
abbrev cc4_sem2_0 : DmaSem sig := 44
abbrev cc4_sem3_0 : DmaSem sig := 45
abbrev cc4_sem4_0 : DmaSem sig := 46
abbrev cc4_sem5_0 : DmaSem sig := 47
abbrev cc4_sem6_0 : DmaSem sig := 48
abbrev cc4_sem6_1 : DmaSem sig := 49
abbrev cc5_sem0_0 : DmaSem sig := 50
abbrev cc5_sem0_1 : DmaSem sig := 51
abbrev cc5_sem1_0 : DmaSem sig := 52
abbrev cc5_sem1_1 : DmaSem sig := 53
abbrev cc5_sem2_0 : DmaSem sig := 54
abbrev cc5_sem3_0 : DmaSem sig := 55
abbrev cc5_sem4_0 : DmaSem sig := 56
abbrev cc5_sem5_0 : DmaSem sig := 57
abbrev cc5_sem6_0 : DmaSem sig := 58
abbrev cc5_sem6_1 : DmaSem sig := 59
abbrev cc6_sem0_0 : DmaSem sig := 60
abbrev cc6_sem0_1 : DmaSem sig := 61
abbrev cc6_sem1_0 : DmaSem sig := 62
abbrev cc6_sem2_0 : DmaSem sig := 63
abbrev cc6_sem3_0 : DmaSem sig := 64
abbrev cc6_sem3_1 : DmaSem sig := 65

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2000x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S2000x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S64x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S2000x64 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S64x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S64x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x64 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S2000x64 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S2000x64 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S64x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x64 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S64x64 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S1x64 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 2 → Memref sig .tc .vmem S2000x64 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

abbrev grid5 : Pipeline.Grid := ⟨1, ![25], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S2000x64 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S64x64 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x64 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S64x64 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S1x64 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 2 → Memref sig .tc .vmem S2000x64 .f32 := fun | 0 => Memref.whole cc5_stg6_0 | 1 => Memref.whole cc5_stg6_1 | ⟨_ + 2, h⟩ => absurd h (Nat.not_lt.2 (Nat.le_add_left _ _))
abbrev sem5_6 : Fin 2 → DmaSem sig := fun | 0 => cc5_sem6_0 | 1 => cc5_sem6_1 | ⟨_ + 2, h⟩ => absurd h (Nat.not_lt.2 (Nat.le_add_left _ _))
abbrev reads5_6 : Fin grid5.rank → Bool := ![true]

abbrev grid6 : Pipeline.Grid := ⟨1, ![25], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S2000x192 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S192x64 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x64 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 2 → Memref sig .tc .vmem S2000x64 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x64 : S_.BroadcastsInDim S50000x64 (![] : Fin 0 → Fin S50000x64.rank)
  shapeCasts_S64_S1x64 : S64.ShapeCasts S1x64
  inb_S2000x64_S2000x64_0_0 : ∀ a, (![0, 0] : Fin 2 → Nat) a + S2000x64.size a ≤ S2000x64.size a
  h_S2000x64 : 0 < S2000x64.numel
  shapeCasts_S2000x64_S2000x64 : S2000x64.ShapeCasts S2000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  concatenates_S50000x64_S50000x64_S50000x64_S50000x192_d1 : Shape.Concatenates [S50000x64, S50000x64, S50000x64] S50000x192 1
  inb_S2000x192_S2000x192_0_0 : ∀ a, (![0, 0] : Fin 2 → Nat) a + S2000x192.size a ≤ S2000x192.size a
  h_S2000x192 : 0 < S2000x192.numel
  shapeCasts_S2000x192_S2000x192 : S2000x192.ShapeCasts S2000x192
  inb_S192x64_S192x64_0_0 : ∀ a, (![0, 0] : Fin 2 → Nat) a + S192x64.size a ≤ S192x64.size a
  h_S192x64 : 0 < S192x64.numel
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S2000x64_S64x64_S2000x64_1_0_0_1_n_n_wf : DotDims.WF S2000x64 S64x64 S2000x64 [1] [0] [0] [1] [] []
  dot_S2000x192_S192x64_S2000x64_1_0_0_1_n_n_wf : DotDims.WF S2000x192 S192x64 S2000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x64.size a ≤ S50000x64.size a
  hwx0_0 : ∀ i : grid0.Coords, EltTy.bits .f32 = 32 ∨ (Rect.block (s := S50000x64) S2000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x64.size a ≤ S50000x64.size a
  hwx0_1 : ∀ i : grid0.Coords, EltTy.bits .f32 = 32 ∨ (Rect.block (s := S50000x64) S2000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2000x64.size a ≤ S50000x64.size a
  hwx0_6 : ∀ i : grid0.Coords, EltTy.bits .f32 = 32 ∨ (Rect.block (s := S50000x64) S2000x64.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x64.size a ≤ S50000x64.size a
  hwx1_0 : ∀ i : grid1.Coords, EltTy.bits .f32 = 32 ∨ (Rect.block (s := S50000x64) S2000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x64.size a ≤ S50000x64.size a
  hwx1_1 : ∀ i : grid1.Coords, EltTy.bits .f32 = 32 ∨ (Rect.block (s := S50000x64) S2000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x64.size a ≤ S64x64.size a
  hwx1_4 : ∀ i : grid1.Coords, EltTy.bits .f32 = 32 ∨ (Rect.block (s := S64x64) S64x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x64.size a ≤ S1x64.size a
  hwx1_5 : ∀ i : grid1.Coords, EltTy.bits .f32 = 32 ∨ (Rect.block (s := S1x64) S1x64.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S2000x64.size a ≤ S50000x64.size a
  hwx1_6 : ∀ i : grid1.Coords, EltTy.bits .f32 = 32 ∨ (Rect.block (s := S50000x64) S2000x64.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x64.size a ≤ S50000x64.size a
  hwx2_0 : ∀ i : grid2.Coords, EltTy.bits .f32 = 32 ∨ (Rect.block (s := S50000x64) S2000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x64.size a ≤ S50000x64.size a
  hwx2_1 : ∀ i : grid2.Coords, EltTy.bits .f32 = 32 ∨ (Rect.block (s := S50000x64) S2000x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x64.size a ≤ S64x64.size a
  hwx2_2 : ∀ i : grid2.Coords, EltTy.bits .f32 = 32 ∨ (Rect.block (s := S64x64) S64x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64x64.size a ≤ S64x64.size a
  hwx2_4 : ∀ i : grid2.Coords, EltTy.bits .f32 = 32 ∨ (Rect.block (s := S64x64) S64x64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x64.size a ≤ S1x64.size a
  hwx2_5 : ∀ i : grid2.Coords, EltTy.bits .f32 = 32 ∨ (Rect.block (s := S1x64) S1x64.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S2000x64.size a ≤ S50000x64.size a
  hwx2_6 : ∀ i : grid2.Coords, EltTy.bits .f32 = 32 ∨ (Rect.block (s := S50000x64) S2000x64.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x64.size a ≤ S50000x64.size a
  hwx3_0 : ∀ i : grid3.Coords, EltTy.bits .f32 = 32 ∨ (Rect.block (s := S50000x64) S2000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x64.size a ≤ S50000x64.size a
  hwx3_1 : ∀ i : grid3.Coords, EltTy.bits .f32 = 32 ∨ (Rect.block (s := S50000x64) S2000x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S64x64.size a ≤ S64x64.size a
  hwx3_2 : ∀ i : grid3.Coords, EltTy.bits .f32 = 32 ∨ (Rect.block (s := S64x64) S64x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x64.size a ≤ S1x64.size a
  hwx3_3 : ∀ i : grid3.Coords, EltTy.bits .f32 = 32 ∨ (Rect.block (s := S1x64) S1x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S64x64.size a ≤ S64x64.size a
  hwx3_4 : ∀ i : grid3.Coords, EltTy.bits .f32 = 32 ∨ (Rect.block (s := S64x64) S64x64.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x64.size a ≤ S1x64.size a
  hwx3_5 : ∀ i : grid3.Coords, EltTy.bits .f32 = 32 ∨ (Rect.block (s := S1x64) S1x64.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S2000x64.size a ≤ S50000x64.size a
  hwx3_6 : ∀ i : grid3.Coords, EltTy.bits .f32 = 32 ∨ (Rect.block (s := S50000x64) S2000x64.size (cc3_transform_6 i) (hinb3_6 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x64.size a ≤ S50000x64.size a
  hwx4_0 : ∀ i : grid4.Coords, EltTy.bits .f32 = 32 ∨ (Rect.block (s := S50000x64) S2000x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S2000x64.size a ≤ S50000x64.size a
  hwx4_1 : ∀ i : grid4.Coords, EltTy.bits .f32 = 32 ∨ (Rect.block (s := S50000x64) S2000x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S64x64.size a ≤ S64x64.size a
  hwx4_2 : ∀ i : grid4.Coords, EltTy.bits .f32 = 32 ∨ (Rect.block (s := S64x64) S64x64.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x64.size a ≤ S1x64.size a
  hwx4_3 : ∀ i : grid4.Coords, EltTy.bits .f32 = 32 ∨ (Rect.block (s := S1x64) S1x64.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S64x64.size a ≤ S64x64.size a
  hwx4_4 : ∀ i : grid4.Coords, EltTy.bits .f32 = 32 ∨ (Rect.block (s := S64x64) S64x64.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x64.size a ≤ S1x64.size a
  hwx4_5 : ∀ i : grid4.Coords, EltTy.bits .f32 = 32 ∨ (Rect.block (s := S1x64) S1x64.size (cc4_transform_5 i) (hinb4_5 i)).WholeWords (EltTy.packing .f32)
  hstage4_6 : ∀ j, (stage4_6 j).IsWhole
  nbuf4_6 : grid4.bufCount reads4_6 false = 2
  hreads4_6 : ∀ i i' : grid4.Coords, (∀ a, reads4_6 a = true → i a = i' a) → cc4_transform_6 i = cc4_transform_6 i'
  hinb4_6 : ∀ (i : grid4.Coords) a, (cc4_transform_6 i a + 1) * S2000x64.size a ≤ S50000x64.size a
  hwx4_6 : ∀ i : grid4.Coords, EltTy.bits .f32 = 32 ∨ (Rect.block (s := S50000x64) S2000x64.size (cc4_transform_6 i) (hinb4_6 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x64.size a ≤ S50000x64.size a
  hwx5_0 : ∀ i : grid5.Coords, EltTy.bits .f32 = 32 ∨ (Rect.block (s := S50000x64) S2000x64.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S2000x64.size a ≤ S50000x64.size a
  hwx5_1 : ∀ i : grid5.Coords, EltTy.bits .f32 = 32 ∨ (Rect.block (s := S50000x64) S2000x64.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S64x64.size a ≤ S64x64.size a
  hwx5_2 : ∀ i : grid5.Coords, EltTy.bits .f32 = 32 ∨ (Rect.block (s := S64x64) S64x64.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x64.size a ≤ S1x64.size a
  hwx5_3 : ∀ i : grid5.Coords, EltTy.bits .f32 = 32 ∨ (Rect.block (s := S1x64) S1x64.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S64x64.size a ≤ S64x64.size a
  hwx5_4 : ∀ i : grid5.Coords, EltTy.bits .f32 = 32 ∨ (Rect.block (s := S64x64) S64x64.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S1x64.size a ≤ S1x64.size a
  hwx5_5 : ∀ i : grid5.Coords, EltTy.bits .f32 = 32 ∨ (Rect.block (s := S1x64) S1x64.size (cc5_transform_5 i) (hinb5_5 i)).WholeWords (EltTy.packing .f32)
  hstage5_6 : ∀ j, (stage5_6 j).IsWhole
  nbuf5_6 : grid5.bufCount reads5_6 false = 2
  hreads5_6 : ∀ i i' : grid5.Coords, (∀ a, reads5_6 a = true → i a = i' a) → cc5_transform_6 i = cc5_transform_6 i'
  hinb5_6 : ∀ (i : grid5.Coords) a, (cc5_transform_6 i a + 1) * S2000x64.size a ≤ S50000x64.size a
  hwx5_6 : ∀ i : grid5.Coords, EltTy.bits .f32 = 32 ∨ (Rect.block (s := S50000x64) S2000x64.size (cc5_transform_6 i) (hinb5_6 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S2000x192.size a ≤ S50000x192.size a
  hwx6_0 : ∀ i : grid6.Coords, EltTy.bits .f32 = 32 ∨ (Rect.block (s := S50000x192) S2000x192.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S192x64.size a ≤ S192x64.size a
  hwx6_1 : ∀ i : grid6.Coords, EltTy.bits .f32 = 32 ∨ (Rect.block (s := S192x64) S192x64.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x64.size a ≤ S1x64.size a
  hwx6_2 : ∀ i : grid6.Coords, EltTy.bits .f32 = 32 ∨ (Rect.block (s := S1x64) S1x64.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S2000x64.size a ≤ S50000x64.size a
  hwx6_3 : ∀ i : grid6.Coords, EltTy.bits .f32 = 32 ∨ (Rect.block (s := S50000x64) S2000x64.size (cc6_transform_3 i) (hinb6_3 i)).WholeWords (EltTy.packing .f32)

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S2000x64_S64x64_S2000x64_1_0_0_1_n_n : DotDims S2000x64 S64x64 S2000x64 where
  lhsContracting := [1]
  rhsContracting := [0]
  lhsNonContracting := [0]
  rhsNonContracting := [1]
  lhsBatch := []
  rhsBatch := []
  wf := dot_S2000x64_S64x64_S2000x64_1_0_0_1_n_n_wf
def dot_S2000x192_S192x64_S2000x64_1_0_0_1_n_n : DotDims S2000x192 S192x64 S2000x64 where
  lhsContracting := [1]
  rhsContracting := [0]
  lhsNonContracting := [0]
  rhsNonContracting := [1]
  lhsBatch := []
  rhsBatch := []
  wf := dot_S2000x192_S192x64_S2000x64_1_0_0_1_n_n_wf

abbrev win0_0 : Pipeline.Window sig grid0 :=
  Pipeline.Window.ofSpec (Memref.whole main_arg0) S2000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S2000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v15) S1x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v16) S2000x64.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_arg0) S2000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v26) S2000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v27) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg8) S64x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v28) S1x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v29) S2000x64.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v29) S2000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v39) S2000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg6) S64x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v40) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg8) S64x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v41) S1x64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v42) S2000x64.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_arg0) S2000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v52) S2000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg10) S64x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v53) S1x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_arg12) S64x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v54) S1x64.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v55) S2000x64.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev win4_0 : Pipeline.Window sig grid4 :=
  Pipeline.Window.ofSpec (Memref.whole main_v55) S2000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v65) S2000x64.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_arg10) S64x64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v66) S1x64.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_arg12) S64x64.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v67) S1x64.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v68) S2000x64.size cc4_transform_6 reads4_6 true false 2 stage4_6 sem4_6
    hrank4 hreads4_6 hinb4_6 nbuf4_6 (Memref.isWhole_whole _) hwx4_6 hstage4_6

abbrev win4 : Fin 7 → Pipeline.Window sig grid4 := fun | 0 => win4_0 | 1 => win4_1 | 2 => win4_2 | 3 => win4_3 | 4 => win4_4 | 5 => win4_5 | 6 => win4_6 | ⟨_ + 7, h⟩ => absurd h (Nat.not_lt.2 (Nat.le_add_left _ _))
abbrev spec4 : Fin 7 → Pipeline.WinSpec sig grid4.rank := fun w => (win4 w).toWinSpec

abbrev win5_0 : Pipeline.Window sig grid5 :=
  Pipeline.Window.ofSpec (Memref.whole main_v68) S2000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v78) S2000x64.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_arg10) S64x64.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v79) S1x64.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_arg12) S64x64.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v80) S1x64.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v81) S2000x64.size cc5_transform_6 reads5_6 true false 2 stage5_6 sem5_6
    hrank5 hreads5_6 hinb5_6 nbuf5_6 (Memref.isWhole_whole _) hwx5_6 hstage5_6

abbrev win5 : Fin 7 → Pipeline.Window sig grid5 := fun | 0 => win5_0 | 1 => win5_1 | 2 => win5_2 | 3 => win5_3 | 4 => win5_4 | 5 => win5_5 | 6 => win5_6 | ⟨_ + 7, h⟩ => absurd h (Nat.not_lt.2 (Nat.le_add_left _ _))
abbrev spec5 : Fin 7 → Pipeline.WinSpec sig grid5.rank := fun w => (win5 w).toWinSpec

abbrev win6_0 : Pipeline.Window sig grid6 :=
  Pipeline.Window.ofSpec (Memref.whole main_v82) S2000x192.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg14) S192x64.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v83) S1x64.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v84) S2000x64.size cc6_transform_3 reads6_3 true false 2 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

class Facts : Prop extends Facts₀ where

variable [Facts]
-- ==== ReferenceIdeal.lean ====
abbrev S50000x64 : Shape := ⟨2, ![50000, 64]⟩
abbrev S2x800000 : Shape := ⟨2, ![2, 800000]⟩
abbrev S64x64 : Shape := ⟨2, ![64, 64]⟩
abbrev S64 : Shape := ⟨1, ![64]⟩
abbrev S192x64 : Shape := ⟨2, ![192, 64]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x64 : Shape := ⟨2, ![800000, 64]⟩
abbrev S1x64 : Shape := ⟨2, ![1, 64]⟩
abbrev S50000x192 : Shape := ⟨2, ![50000, 192]⟩

abbrev nBuf : Space → Nat
  | .hbm => 175
  | .vmem => 0
  | .smem => 0
  | _ => 0

abbrev hbmTy0_0 (i : Nat) : BufTy := match i % 128 with
  | 0 => ⟨S50000x64, .f32⟩
  | 1 => ⟨S2x800000, .i32⟩
  | 2 => ⟨S64x64, .f32⟩
  | 3 => ⟨S64, .f32⟩
  | 4 => ⟨S64x64, .f32⟩
  | 5 => ⟨S64, .f32⟩
  | 6 => ⟨S64x64, .f32⟩
  | 7 => ⟨S64, .f32⟩
  | 8 => ⟨S64x64, .f32⟩
  | 9 => ⟨S64, .f32⟩
  | 10 => ⟨S64x64, .f32⟩
  | 11 => ⟨S64, .f32⟩
  | 12 => ⟨S64x64, .f32⟩
  | 13 => ⟨S64, .f32⟩
  | 14 => ⟨S192x64, .f32⟩
  | 15 => ⟨S64, .f32⟩
  | 16 => ⟨S1x800000, .i32⟩
  | 17 => ⟨S800000, .i32⟩
  | 18 => ⟨S1x800000, .i32⟩
  | 19 => ⟨S800000, .i32⟩
  | 20 => ⟨S_, .i32⟩
  | 21 => ⟨S800000, .i32⟩
  | 22 => ⟨S800000, .i1⟩
  | 23 => ⟨S_, .i32⟩
  | 24 => ⟨S800000, .i32⟩
  | 25 => ⟨S800000, .i32⟩
  | 26 => ⟨S800000, .i32⟩
  | 27 => ⟨S800000x1, .i32⟩
  | 28 => ⟨S800000x64, .f32⟩
  | 29 => ⟨S_, .f32⟩
  | 30 => ⟨S50000x64, .f32⟩
  | 31 => ⟨S800000x1, .i32⟩
  | 32 => ⟨S50000x64, .f32⟩
  | 33 => ⟨S50000x64, .f32⟩
  | 34 => ⟨S50000x64, .f32⟩
  | 35 => ⟨S1x64, .f32⟩
  | 36 => ⟨S50000x64, .f32⟩
  | 37 => ⟨S50000x64, .f32⟩
  | 38 => ⟨S_, .f32⟩
  | 39 => ⟨S50000x64, .f32⟩
  | 40 => ⟨S50000x64, .f32⟩
  | 41 => ⟨S50000x64, .f32⟩
  | 42 => ⟨S1x64, .f32⟩
  | 43 => ⟨S50000x64, .f32⟩
  | 44 => ⟨S50000x64, .f32⟩
  | 45 => ⟨S_, .i32⟩
  | 46 => ⟨S800000, .i32⟩
  | 47 => ⟨S800000, .i1⟩
  | 48 => ⟨S_, .i32⟩
  | 49 => ⟨S800000, .i32⟩
  | 50 => ⟨S800000, .i32⟩
  | 51 => ⟨S800000, .i32⟩
  | 52 => ⟨S800000x1, .i32⟩
  | 53 => ⟨S800000x64, .f32⟩
  | 54 => ⟨S_, .f32⟩
  | 55 => ⟨S50000x64, .f32⟩
  | 56 => ⟨S800000x1, .i32⟩
  | 57 => ⟨S50000x64, .f32⟩
  | 58 => ⟨S50000x64, .f32⟩
  | 59 => ⟨S50000x64, .f32⟩
  | 60 => ⟨S1x64, .f32⟩
  | 61 => ⟨S50000x64, .f32⟩
  | 62 => ⟨S50000x64, .f32⟩
  | 63 => ⟨S_, .f32⟩
  | 64 => ⟨S50000x64, .f32⟩
  | 65 => ⟨S50000x64, .f32⟩
  | 66 => ⟨S50000x64, .f32⟩
  | 67 => ⟨S1x64, .f32⟩
  | 68 => ⟨S50000x64, .f32⟩
  | 69 => ⟨S50000x64, .f32⟩
  | 70 => ⟨S_, .i32⟩
  | 71 => ⟨S800000, .i32⟩
  | 72 => ⟨S800000, .i1⟩
  | 73 => ⟨S_, .i32⟩
  | 74 => ⟨S800000, .i32⟩
  | 75 => ⟨S800000, .i32⟩
  | 76 => ⟨S800000, .i32⟩
  | 77 => ⟨S800000x1, .i32⟩
  | 78 => ⟨S800000x64, .f32⟩
  | 79 => ⟨S_, .f32⟩
  | 80 => ⟨S50000x64, .f32⟩
  | 81 => ⟨S800000x1, .i32⟩
  | 82 => ⟨S50000x64, .f32⟩
  | 83 => ⟨S50000x64, .f32⟩
  | 84 => ⟨S50000x64, .f32⟩
  | 85 => ⟨S1x64, .f32⟩
  | 86 => ⟨S50000x64, .f32⟩
  | 87 => ⟨S50000x64, .f32⟩
  | 88 => ⟨S_, .f32⟩
  | 89 => ⟨S50000x64, .f32⟩
  | 90 => ⟨S50000x64, .f32⟩
  | 91 => ⟨S50000x64, .f32⟩
  | 92 => ⟨S1x64, .f32⟩
  | 93 => ⟨S50000x64, .f32⟩
  | 94 => ⟨S50000x64, .f32⟩
  | 95 => ⟨S_, .i32⟩
  | 96 => ⟨S800000, .i32⟩
  | 97 => ⟨S800000, .i1⟩
  | 98 => ⟨S_, .i32⟩
  | 99 => ⟨S800000, .i32⟩
  | 100 => ⟨S800000, .i32⟩
  | 101 => ⟨S800000, .i32⟩
  | 102 => ⟨S800000x1, .i32⟩
  | 103 => ⟨S800000x64, .f32⟩
  | 104 => ⟨S_, .f32⟩
  | 105 => ⟨S50000x64, .f32⟩
  | 106 => ⟨S800000x1, .i32⟩
  | 107 => ⟨S50000x64, .f32⟩
  | 108 => ⟨S50000x64, .f32⟩
  | 109 => ⟨S50000x64, .f32⟩
  | 110 => ⟨S1x64, .f32⟩
  | 111 => ⟨S50000x64, .f32⟩
  | 112 => ⟨S50000x64, .f32⟩
  | 113 => ⟨S_, .f32⟩
  | 114 => ⟨S50000x64, .f32⟩
  | 115 => ⟨S50000x64, .f32⟩
  | 116 => ⟨S50000x64, .f32⟩
  | 117 => ⟨S1x64, .f32⟩
  | 118 => ⟨S50000x64, .f32⟩
  | 119 => ⟨S50000x64, .f32⟩
  | 120 => ⟨S_, .i32⟩
  | 121 => ⟨S800000, .i32⟩
  | 122 => ⟨S800000, .i1⟩
  | 123 => ⟨S_, .i32⟩
  | 124 => ⟨S800000, .i32⟩
  | 125 => ⟨S800000, .i32⟩
  | 126 => ⟨S800000, .i32⟩
  | 127 => ⟨S800000x1, .i32⟩
  | _ => ⟨S50000x64, .f32⟩

abbrev hbmTy0_1 (i : Nat) : BufTy := match i % 128 with
  | 0 => ⟨S800000x64, .f32⟩
  | 1 => ⟨S_, .f32⟩
  | 2 => ⟨S50000x64, .f32⟩
  | 3 => ⟨S800000x1, .i32⟩
  | 4 => ⟨S50000x64, .f32⟩
  | 5 => ⟨S50000x64, .f32⟩
  | 6 => ⟨S50000x64, .f32⟩
  | 7 => ⟨S1x64, .f32⟩
  | 8 => ⟨S50000x64, .f32⟩
  | 9 => ⟨S50000x64, .f32⟩
  | 10 => ⟨S_, .f32⟩
  | 11 => ⟨S50000x64, .f32⟩
  | 12 => ⟨S50000x64, .f32⟩
  | 13 => ⟨S50000x64, .f32⟩
  | 14 => ⟨S1x64, .f32⟩
  | 15 => ⟨S50000x64, .f32⟩
  | 16 => ⟨S50000x64, .f32⟩
  | 17 => ⟨S_, .i32⟩
  | 18 => ⟨S800000, .i32⟩
  | 19 => ⟨S800000, .i1⟩
  | 20 => ⟨S_, .i32⟩
  | 21 => ⟨S800000, .i32⟩
  | 22 => ⟨S800000, .i32⟩
  | 23 => ⟨S800000, .i32⟩
  | 24 => ⟨S800000x1, .i32⟩
  | 25 => ⟨S800000x64, .f32⟩
  | 26 => ⟨S_, .f32⟩
  | 27 => ⟨S50000x64, .f32⟩
  | 28 => ⟨S800000x1, .i32⟩
  | 29 => ⟨S50000x64, .f32⟩
  | 30 => ⟨S50000x64, .f32⟩
  | 31 => ⟨S50000x64, .f32⟩
  | 32 => ⟨S1x64, .f32⟩
  | 33 => ⟨S50000x64, .f32⟩
  | 34 => ⟨S50000x64, .f32⟩
  | 35 => ⟨S_, .f32⟩
  | 36 => ⟨S50000x64, .f32⟩
  | 37 => ⟨S50000x64, .f32⟩
  | 38 => ⟨S50000x64, .f32⟩
  | 39 => ⟨S1x64, .f32⟩
  | 40 => ⟨S50000x64, .f32⟩
  | 41 => ⟨S50000x64, .f32⟩
  | 42 => ⟨S50000x192, .f32⟩
  | 43 => ⟨S50000x64, .f32⟩
  | 44 => ⟨S1x64, .f32⟩
  | 45 => ⟨S50000x64, .f32⟩
  | 46 => ⟨S50000x64, .f32⟩
  | _ => ⟨S50000x64, .f32⟩

abbrev hbmTy (i : Nat) : BufTy := match i / 128 with
  | 0 => hbmTy0_0 i
  | 1 => hbmTy0_1 i
  | _ => ⟨S50000x64, .f32⟩

abbrev bufTy : (tb : Table) → Fin (tcTables nBuf tb) → BufTy
  | .hbm, ⟨i, _⟩ => hbmTy i
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_c : Ref sig .tc := ⟨.hbm, 20, rfl⟩
abbrev main_v4 : Ref sig .tc := ⟨.hbm, 21, rfl⟩
abbrev main_v5 : Ref sig .tc := ⟨.hbm, 22, rfl⟩
abbrev main_c_0 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_cst : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_call0_cst : Ref sig .tc := ⟨.hbm, 38, rfl⟩
abbrev main_call0_v0 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_c_1 : Ref sig .tc := ⟨.hbm, 45, rfl⟩
abbrev main_v24 : Ref sig .tc := ⟨.hbm, 46, rfl⟩
abbrev main_v25 : Ref sig .tc := ⟨.hbm, 47, rfl⟩
abbrev main_c_2 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_cst_3 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_call1_cst : Ref sig .tc := ⟨.hbm, 63, rfl⟩
abbrev main_call1_v0 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_c_4 : Ref sig .tc := ⟨.hbm, 70, rfl⟩
abbrev main_v44 : Ref sig .tc := ⟨.hbm, 71, rfl⟩
abbrev main_v45 : Ref sig .tc := ⟨.hbm, 72, rfl⟩
abbrev main_c_5 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_cst_6 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_call2_cst : Ref sig .tc := ⟨.hbm, 88, rfl⟩
abbrev main_call2_v0 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_c_7 : Ref sig .tc := ⟨.hbm, 95, rfl⟩
abbrev main_v64 : Ref sig .tc := ⟨.hbm, 96, rfl⟩
abbrev main_v65 : Ref sig .tc := ⟨.hbm, 97, rfl⟩
abbrev main_c_8 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_cst_9 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_call3_cst : Ref sig .tc := ⟨.hbm, 113, rfl⟩
abbrev main_call3_v0 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_c_10 : Ref sig .tc := ⟨.hbm, 120, rfl⟩
abbrev main_v84 : Ref sig .tc := ⟨.hbm, 121, rfl⟩
abbrev main_v85 : Ref sig .tc := ⟨.hbm, 122, rfl⟩
abbrev main_c_11 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_cst_12 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩
abbrev main_v98 : Ref sig .tc := ⟨.hbm, 137, rfl⟩
abbrev main_call4_cst : Ref sig .tc := ⟨.hbm, 138, rfl⟩
abbrev main_call4_v0 : Ref sig .tc := ⟨.hbm, 139, rfl⟩
abbrev main_v99 : Ref sig .tc := ⟨.hbm, 140, rfl⟩
abbrev main_v100 : Ref sig .tc := ⟨.hbm, 141, rfl⟩
abbrev main_v101 : Ref sig .tc := ⟨.hbm, 142, rfl⟩
abbrev main_v102 : Ref sig .tc := ⟨.hbm, 143, rfl⟩
abbrev main_v103 : Ref sig .tc := ⟨.hbm, 144, rfl⟩
abbrev main_c_13 : Ref sig .tc := ⟨.hbm, 145, rfl⟩
abbrev main_v104 : Ref sig .tc := ⟨.hbm, 146, rfl⟩
abbrev main_v105 : Ref sig .tc := ⟨.hbm, 147, rfl⟩
abbrev main_c_14 : Ref sig .tc := ⟨.hbm, 148, rfl⟩
abbrev main_v106 : Ref sig .tc := ⟨.hbm, 149, rfl⟩
abbrev main_v107 : Ref sig .tc := ⟨.hbm, 150, rfl⟩
abbrev main_v108 : Ref sig .tc := ⟨.hbm, 151, rfl⟩
abbrev main_v109 : Ref sig .tc := ⟨.hbm, 152, rfl⟩
abbrev main_v110 : Ref sig .tc := ⟨.hbm, 153, rfl⟩
abbrev main_cst_15 : Ref sig .tc := ⟨.hbm, 154, rfl⟩
abbrev main_v111 : Ref sig .tc := ⟨.hbm, 155, rfl⟩
abbrev main_v112 : Ref sig .tc := ⟨.hbm, 156, rfl⟩
abbrev main_v113 : Ref sig .tc := ⟨.hbm, 157, rfl⟩
abbrev main_v114 : Ref sig .tc := ⟨.hbm, 158, rfl⟩
abbrev main_v115 : Ref sig .tc := ⟨.hbm, 159, rfl⟩
abbrev main_v116 : Ref sig .tc := ⟨.hbm, 160, rfl⟩
abbrev main_v117 : Ref sig .tc := ⟨.hbm, 161, rfl⟩
abbrev main_v118 : Ref sig .tc := ⟨.hbm, 162, rfl⟩
abbrev main_call5_cst : Ref sig .tc := ⟨.hbm, 163, rfl⟩
abbrev main_call5_v0 : Ref sig .tc := ⟨.hbm, 164, rfl⟩
abbrev main_v119 : Ref sig .tc := ⟨.hbm, 165, rfl⟩
abbrev main_v120 : Ref sig .tc := ⟨.hbm, 166, rfl⟩
abbrev main_v121 : Ref sig .tc := ⟨.hbm, 167, rfl⟩
abbrev main_v122 : Ref sig .tc := ⟨.hbm, 168, rfl⟩
abbrev main_v123 : Ref sig .tc := ⟨.hbm, 169, rfl⟩
abbrev main_v124 : Ref sig .tc := ⟨.hbm, 170, rfl⟩
abbrev main_v125 : Ref sig .tc := ⟨.hbm, 171, rfl⟩
abbrev main_v126 : Ref sig .tc := ⟨.hbm, 172, rfl⟩
abbrev main_v127 : Ref sig .tc := ⟨.hbm, 173, rfl⟩
abbrev main_v128 : Ref sig .tc := ⟨.hbm, 174, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  concatenates_S50000x64_S50000x64_S50000x64_S50000x192_d1 : Shape.Concatenates [S50000x64, S50000x64, S50000x64] S50000x192 1
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S50000x64_S64x64_S50000x64_1_0_0_1_n_n_wf : DotDims.WF S50000x64 S64x64 S50000x64 [1] [0] [0] [1] [] []
  dot_S50000x192_S192x64_S50000x64_1_0_0_1_n_n_wf : DotDims.WF S50000x192 S192x64 S50000x64 [1] [0] [0] [1] [] []

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def dot_S50000x192_S192x64_S50000x64_1_0_0_1_n_n : DotDims S50000x192 S192x64 S50000x64 where
  lhsContracting := [1]
  rhsContracting := [0]
  lhsNonContracting := [0]
  rhsNonContracting := [1]
  lhsBatch := []
  rhsBatch := []
  wf := dot_S50000x192_S192x64_S50000x64_1_0_0_1_n_n_wf

class Facts : Prop extends Facts₀ where

variable [Facts]
-- ==== Proof.BitsTile0.lean ====
/-
  Launch 0 of the program (one graph-convolution's two dense layers on a tile of 2000 nodes), entered with the
  TensorCore's buffers at any contents `V`: what each window's block is at a grid point, what the body leaves in the
  output block as a function of the 6 input blocks (the one store of the body's arithmetic `k0_pay1`, covering the
  block), the body's triple, and the proof data of the pipeline: after the body at point `t` every input block is as it
  was fetched and the output block holds that function of them. The body reads each input block whole, reads the output
  block once without using what it read, and overwrites the output block whole.
-/
import proofs.«169468_j20469814133013_1_alg».proof.Proof.Gen.Kernel.Launch
import proofs.«169468_j20469814133013_1_alg».proof.Proof.Gen.Kernel.Skeleton
import proofs.«169468_j20469814133013_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Tiles

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the launch finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds its block at every point, whether the pipeline fetched it there or kept it
    (its block index has not moved since the fetch), for any proof data whose array is `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's staging buffer holds its block at every point, whether the pipeline fetched it there or kept it
    (its block index has not moved since the fetch), for any proof data whose array is `V`'s and whose body leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's staging buffer holds its block at every point, whether the pipeline fetched it there or kept it
    (its block index has not moved since the fetch), for any proof data whose array is `V`'s and whose body leaves the block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's staging buffer holds its block at every point, whether the pipeline fetched it there or kept it
    (its block index has not moved since the fetch), for any proof data whose array is `V`'s and whose body leaves the block in place. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's staging buffer holds its block at every point, whether the pipeline fetched it there or kept it
    (its block index has not moved since the fetch), for any proof data whose array is `V`'s and whose body leaves the block in place. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5's staging buffer holds its block at every point, whether the pipeline fetched it there or kept it
    (its block index has not moved since the fetch), for any proof data whose array is `V`'s and whose body leaves the block in place. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-- The output block after the body, from the input blocks: the body's one store, of its arithmetic on the blocks it loaded. -/
def out0_6 (x0 : Vec F S2000x64 .f32) (x1 : Vec F S2000x64 .f32) (x2 : Vec F S64x64 .f32) (x3 : Vec F S1x64 .f32) (x4 : Vec F S64x64 .f32) (x5 : Vec F S1x64 .f32) : Vec F S2000x64 .f32 :=
  View.canon [⟨(Rect.unit (s := S2000x64) ![0, 0] S2000x64.size inb_S2000x64_S2000x64_0_0), k0_pay1 (View.ld x0 (Rect.unit (s := S2000x64) ![0, 0] S2000x64.size inb_S2000x64_S2000x64_0_0)) (View.ld x1 (Rect.unit (s := S2000x64) ![0, 0] S2000x64.size inb_S2000x64_S2000x64_0_0)) (View.ld x2 (Rect.unit (s := S64x64) ![0, 0] S64x64.size inb_S64x64_S64x64_0_0)) (View.ld x3 (Rect.unit (s := S1x64) ![0, 0] S1x64.size inb_S1x64_S1x64_0_0)) (View.ld x4 (Rect.unit (s := S64x64) ![0, 0] S64x64.size inb_S64x64_S64x64_0_0)) (View.ld x5 (Rect.unit (s := S1x64) ![0, 0] S1x64.size inb_S1x64_S1x64_0_0))⟩]

/-- That store covers the block. -/
theorem cover0_6 (p0 : Vec F S2000x64 .f32) (y : S2000x64.Idx) :
    ∃ pc ∈ ([⟨(Rect.unit (s := S2000x64) ![0, 0] S2000x64.size inb_S2000x64_S2000x64_0_0), p0⟩] : List (View.Piece (Elt F) S2000x64 .f32)), y ∈ pc.1.set :=
  View.cover_of_tiled [⟨(Rect.unit (s := S2000x64) ![0, 0] S2000x64.size inb_S2000x64_S2000x64_0_0), p0⟩] S2000x64.size (by rfl) y

set_option maxHeartbeats 4000000 in
/-- The body on whole staging buffers, the input blocks at `x0 … x5` and the output block at anything, runs to its return
    with the input blocks as they were and the output block at `out0_6` of them. -/
theorem sound_kernel0 (c : Dev nD) (E : Set ℕ) (i : grid0.Coords) (arg1 : Memref sig .tc .vmem S2000x64 .f32) (harg1 : arg1.IsWhole) (arg2 : Memref sig .tc .vmem S2000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S2000x64 .f32) (harg7 : arg7.IsWhole)
    (x0 : Vec F S2000x64 .f32) (x1 : Vec F S2000x64 .f32) (x2 : Vec F S64x64 .f32) (x3 : Vec F S1x64 .f32) (x4 : Vec F S64x64 .f32) (x5 : Vec F S1x64 .f32) (Kc : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out0_6 x0 x1 x2 x3 x4 x5)) -∗ Kc ⟨⟩))
      ⊢ wp frame (wpE (defs₀ (F := F)) Variants.none c none) E (cc0__gin_mlp_kernel i arg1 harg1 arg2 harg2 arg3 harg3 arg4 harg4 arg5 harg5 arg6 harg6 arg7 harg7) Kc := by
  simp only [cc0__gin_mlp_kernel_eq_skeleton]; unfold cc0__gin_mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0
  subst hf1
  subst hf2
  subst hf3
  subst hf4
  subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover0_6 _)

/-- The proof data of launch 0 on core `c`: the arrays as the launch finds them; after the body at point `t` each input block
    as fetched and the output block at `out0_6` of them; the invariant is the buffers and the generator register the
    body never touches; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => out0_6 (iblk0 V c 0 t) (iblk0 V c 1 t) (iblk0 V c 2 t) (iblk0 V c 3 t) (iblk0 V c 4 t) (iblk0 V c 5 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = out0_6 (iblk0 V c 0 t) (iblk0 V c 1 t) (iblk0 V c 2 t) (iblk0 V c 3 t) (iblk0 V c 4 t) (iblk0 V c 5 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

/-- What the body is called with at point `t`, window by window, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

/-- The body at any point: the input buffers hold their blocks, so `sound_kernel0` applies; the invariant and what the
    core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ _ _ _ _ _ _ _ _ _ _ _ _ _ _ _ (iblk0 V c 0 t) (iblk0 V c 1 t) (iblk0 V c 2 t) (iblk0 V c 3 t) (iblk0 V c 4 t) (iblk0 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Tiles

end
-- ==== Proof.BitsTile1.lean ====
/-
  Launch 1 of the program (one graph-convolution's two dense layers on a tile of 2000 nodes), entered with the
  TensorCore's buffers at any contents `V`: what each window's block is at a grid point, what the body leaves in the
  output block as a function of the 6 input blocks (the one store of the body's arithmetic `k1_pay1`, covering the
  block), the body's triple, and the proof data of the pipeline: after the body at point `t` every input block is as it
  was fetched and the output block holds that function of them. The body reads each input block whole, reads the output
  block once without using what it read, and overwrites the output block whole.
-/
import proofs.«169468_j20469814133013_1_alg».proof.Proof.Gen.Kernel.Launch
import proofs.«169468_j20469814133013_1_alg».proof.Proof.Gen.Kernel.Skeleton
import proofs.«169468_j20469814133013_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Tiles

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the launch finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds its block at every point, whether the pipeline fetched it there or kept it
    (its block index has not moved since the fetch), for any proof data whose array is `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's staging buffer holds its block at every point, whether the pipeline fetched it there or kept it
    (its block index has not moved since the fetch), for any proof data whose array is `V`'s and whose body leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's staging buffer holds its block at every point, whether the pipeline fetched it there or kept it
    (its block index has not moved since the fetch), for any proof data whose array is `V`'s and whose body leaves the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's staging buffer holds its block at every point, whether the pipeline fetched it there or kept it
    (its block index has not moved since the fetch), for any proof data whose array is `V`'s and whose body leaves the block in place. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's staging buffer holds its block at every point, whether the pipeline fetched it there or kept it
    (its block index has not moved since the fetch), for any proof data whose array is `V`'s and whose body leaves the block in place. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's staging buffer holds its block at every point, whether the pipeline fetched it there or kept it
    (its block index has not moved since the fetch), for any proof data whose array is `V`'s and whose body leaves the block in place. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- The output block after the body, from the input blocks: the body's one store, of its arithmetic on the blocks it loaded. -/
def out1_6 (x0 : Vec F S2000x64 .f32) (x1 : Vec F S2000x64 .f32) (x2 : Vec F S64x64 .f32) (x3 : Vec F S1x64 .f32) (x4 : Vec F S64x64 .f32) (x5 : Vec F S1x64 .f32) : Vec F S2000x64 .f32 :=
  View.canon [⟨(Rect.unit (s := S2000x64) ![0, 0] S2000x64.size inb_S2000x64_S2000x64_0_0), k1_pay1 (View.ld x0 (Rect.unit (s := S2000x64) ![0, 0] S2000x64.size inb_S2000x64_S2000x64_0_0)) (View.ld x1 (Rect.unit (s := S2000x64) ![0, 0] S2000x64.size inb_S2000x64_S2000x64_0_0)) (View.ld x2 (Rect.unit (s := S64x64) ![0, 0] S64x64.size inb_S64x64_S64x64_0_0)) (View.ld x3 (Rect.unit (s := S1x64) ![0, 0] S1x64.size inb_S1x64_S1x64_0_0)) (View.ld x4 (Rect.unit (s := S64x64) ![0, 0] S64x64.size inb_S64x64_S64x64_0_0)) (View.ld x5 (Rect.unit (s := S1x64) ![0, 0] S1x64.size inb_S1x64_S1x64_0_0))⟩]

/-- That store covers the block. -/
theorem cover1_6 (p0 : Vec F S2000x64 .f32) (y : S2000x64.Idx) :
    ∃ pc ∈ ([⟨(Rect.unit (s := S2000x64) ![0, 0] S2000x64.size inb_S2000x64_S2000x64_0_0), p0⟩] : List (View.Piece (Elt F) S2000x64 .f32)), y ∈ pc.1.set :=
  View.cover_of_tiled [⟨(Rect.unit (s := S2000x64) ![0, 0] S2000x64.size inb_S2000x64_S2000x64_0_0), p0⟩] S2000x64.size (by rfl) y

set_option maxHeartbeats 4000000 in
/-- The body on whole staging buffers, the input blocks at `x0 … x5` and the output block at anything, runs to its return
    with the input blocks as they were and the output block at `out1_6` of them. -/
theorem sound_kernel1 (c : Dev nD) (E : Set ℕ) (i : grid1.Coords) (arg1 : Memref sig .tc .vmem S2000x64 .f32) (harg1 : arg1.IsWhole) (arg2 : Memref sig .tc .vmem S2000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S2000x64 .f32) (harg7 : arg7.IsWhole)
    (x0 : Vec F S2000x64 .f32) (x1 : Vec F S2000x64 .f32) (x2 : Vec F S64x64 .f32) (x3 : Vec F S1x64 .f32) (x4 : Vec F S64x64 .f32) (x5 : Vec F S1x64 .f32) (Kc : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out1_6 x0 x1 x2 x3 x4 x5)) -∗ Kc ⟨⟩))
      ⊢ wp frame (wpE (defs₀ (F := F)) Variants.none c none) E (cc1__gin_mlp_kernel i arg1 harg1 arg2 harg2 arg3 harg3 arg4 harg4 arg5 harg5 arg6 harg6 arg7 harg7) Kc := by
  simp only [cc1__gin_mlp_kernel_eq_skeleton]; unfold cc1__gin_mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0
  subst hf1
  subst hf2
  subst hf3
  subst hf4
  subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover1_6 _)

/-- The proof data of launch 1 on core `c`: the arrays as the launch finds them; after the body at point `t` each input block
    as fetched and the output block at `out1_6` of them; the invariant is the buffers and the generator register the
    body never touches; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 (iblk1 V c 0 t) (iblk1 V c 1 t) (iblk1 V c 2 t) (iblk1 V c 3 t) (iblk1 V c 4 t) (iblk1 V c 5 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = out1_6 (iblk1 V c 0 t) (iblk1 V c 1 t) (iblk1 V c 2 t) (iblk1 V c 3 t) (iblk1 V c 4 t) (iblk1 V c 5 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-- What the body is called with at point `t`, window by window, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

/-- The body at any point: the input buffers hold their blocks, so `sound_kernel1` applies; the invariant and what the
    core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel1 c Set.univ _ _ _ _ _ _ _ _ _ _ _ _ _ _ _ (iblk1 V c 0 t) (iblk1 V c 1 t) (iblk1 V c 2 t) (iblk1 V c 3 t) (iblk1 V c 4 t) (iblk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The pipeline's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Tiles

end
-- ==== Proof.BitsTile2.lean ====
/-
  Launch 2 of the program (one graph-convolution's two dense layers on a tile of 2000 nodes), entered with the
  TensorCore's buffers at any contents `V`: what each window's block is at a grid point, what the body leaves in the
  output block as a function of the 6 input blocks (the one store of the body's arithmetic `k2_pay1`, covering the
  block), the body's triple, and the proof data of the pipeline: after the body at point `t` every input block is as it
  was fetched and the output block holds that function of them. The body reads each input block whole, reads the output
  block once without using what it read, and overwrites the output block whole.
-/
import proofs.«169468_j20469814133013_1_alg».proof.Proof.Gen.Kernel.Launch
import proofs.«169468_j20469814133013_1_alg».proof.Proof.Gen.Kernel.Skeleton
import proofs.«169468_j20469814133013_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Tiles

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the launch finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's staging buffer holds its block at every point, whether the pipeline fetched it there or kept it
    (its block index has not moved since the fetch), for any proof data whose array is `V`'s and whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's staging buffer holds its block at every point, whether the pipeline fetched it there or kept it
    (its block index has not moved since the fetch), for any proof data whose array is `V`'s and whose body leaves the block in place. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's staging buffer holds its block at every point, whether the pipeline fetched it there or kept it
    (its block index has not moved since the fetch), for any proof data whose array is `V`'s and whose body leaves the block in place. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's staging buffer holds its block at every point, whether the pipeline fetched it there or kept it
    (its block index has not moved since the fetch), for any proof data whose array is `V`'s and whose body leaves the block in place. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's staging buffer holds its block at every point, whether the pipeline fetched it there or kept it
    (its block index has not moved since the fetch), for any proof data whose array is `V`'s and whose body leaves the block in place. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- Input window 5's staging buffer holds its block at every point, whether the pipeline fetched it there or kept it
    (its block index has not moved since the fetch), for any proof data whose array is `V`'s and whose body leaves the block in place. -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-- The output block after the body, from the input blocks: the body's one store, of its arithmetic on the blocks it loaded. -/
def out2_6 (x0 : Vec F S2000x64 .f32) (x1 : Vec F S2000x64 .f32) (x2 : Vec F S64x64 .f32) (x3 : Vec F S1x64 .f32) (x4 : Vec F S64x64 .f32) (x5 : Vec F S1x64 .f32) : Vec F S2000x64 .f32 :=
  View.canon [⟨(Rect.unit (s := S2000x64) ![0, 0] S2000x64.size inb_S2000x64_S2000x64_0_0), k2_pay1 (View.ld x0 (Rect.unit (s := S2000x64) ![0, 0] S2000x64.size inb_S2000x64_S2000x64_0_0)) (View.ld x1 (Rect.unit (s := S2000x64) ![0, 0] S2000x64.size inb_S2000x64_S2000x64_0_0)) (View.ld x2 (Rect.unit (s := S64x64) ![0, 0] S64x64.size inb_S64x64_S64x64_0_0)) (View.ld x3 (Rect.unit (s := S1x64) ![0, 0] S1x64.size inb_S1x64_S1x64_0_0)) (View.ld x4 (Rect.unit (s := S64x64) ![0, 0] S64x64.size inb_S64x64_S64x64_0_0)) (View.ld x5 (Rect.unit (s := S1x64) ![0, 0] S1x64.size inb_S1x64_S1x64_0_0))⟩]

/-- That store covers the block. -/
theorem cover2_6 (p0 : Vec F S2000x64 .f32) (y : S2000x64.Idx) :
    ∃ pc ∈ ([⟨(Rect.unit (s := S2000x64) ![0, 0] S2000x64.size inb_S2000x64_S2000x64_0_0), p0⟩] : List (View.Piece (Elt F) S2000x64 .f32)), y ∈ pc.1.set :=
  View.cover_of_tiled [⟨(Rect.unit (s := S2000x64) ![0, 0] S2000x64.size inb_S2000x64_S2000x64_0_0), p0⟩] S2000x64.size (by rfl) y

set_option maxHeartbeats 4000000 in
/-- The body on whole staging buffers, the input blocks at `x0 … x5` and the output block at anything, runs to its return
    with the input blocks as they were and the output block at `out2_6` of them. -/
theorem sound_kernel2 (c : Dev nD) (E : Set ℕ) (i : grid2.Coords) (arg1 : Memref sig .tc .vmem S2000x64 .f32) (harg1 : arg1.IsWhole) (arg2 : Memref sig .tc .vmem S2000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S2000x64 .f32) (harg7 : arg7.IsWhole)
    (x0 : Vec F S2000x64 .f32) (x1 : Vec F S2000x64 .f32) (x2 : Vec F S64x64 .f32) (x3 : Vec F S1x64 .f32) (x4 : Vec F S64x64 .f32) (x5 : Vec F S1x64 .f32) (Kc : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out2_6 x0 x1 x2 x3 x4 x5)) -∗ Kc ⟨⟩))
      ⊢ wp frame (wpE (defs₀ (F := F)) Variants.none c none) E (cc2__gin_mlp_kernel i arg1 harg1 arg2 harg2 arg3 harg3 arg4 harg4 arg5 harg5 arg6 harg6 arg7 harg7) Kc := by
  simp only [cc2__gin_mlp_kernel_eq_skeleton]; unfold cc2__gin_mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0
  subst hf1
  subst hf2
  subst hf3
  subst hf4
  subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover2_6 _)

/-- The proof data of launch 2 on core `c`: the arrays as the launch finds them; after the body at point `t` each input block
    as fetched and the output block at `out2_6` of them; the invariant is the buffers and the generator register the
    body never touches; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => out2_6 (iblk2 V c 0 t) (iblk2 V c 1 t) (iblk2 V c 2 t) (iblk2 V c 3 t) (iblk2 V c 4 t) (iblk2 V c 5 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = out2_6 (iblk2 V c 0 t) (iblk2 V c 1 t) (iblk2 V c 2 t) (iblk2 V c 3 t) (iblk2 V c 4 t) (iblk2 V c 5 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d

/-- What the body is called with at point `t`, window by window, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t))

/-- The body at any point: the input buffers hold their blocks, so `sound_kernel2` applies; the invariant and what the
    core owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel2 c Set.univ _ _ _ _ _ _ _ _ _ _ _ _ _ _ _ (iblk2 V c 0 t) (iblk2 V c 1 t) (iblk2 V c 2 t) (iblk2 V c 3 t) (iblk2 V c 4 t) (iblk2 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The pipeline's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Tiles

end
-- ==== Proof.BitsTile3.lean ====
/-
  Launch 3 of the program (one graph-convolution's two dense layers on a tile of 2000 nodes), entered with the
  TensorCore's buffers at any contents `V`: what each window's block is at a grid point, what the body leaves in the
  output block as a function of the 6 input blocks (the one store of the body's arithmetic `k3_pay1`, covering the
  block), the body's triple, and the proof data of the pipeline: after the body at point `t` every input block is as it
  was fetched and the output block holds that function of them. The body reads each input block whole, reads the output
  block once without using what it read, and overwrites the output block whole.
-/
import proofs.«169468_j20469814133013_1_alg».proof.Proof.Gen.Kernel.Launch
import proofs.«169468_j20469814133013_1_alg».proof.Proof.Gen.Kernel.Skeleton
import proofs.«169468_j20469814133013_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Tiles

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the launch finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's staging buffer holds its block at every point, whether the pipeline fetched it there or kept it
    (its block index has not moved since the fetch), for any proof data whose array is `V`'s and whose body leaves the block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's staging buffer holds its block at every point, whether the pipeline fetched it there or kept it
    (its block index has not moved since the fetch), for any proof data whose array is `V`'s and whose body leaves the block in place. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's staging buffer holds its block at every point, whether the pipeline fetched it there or kept it
    (its block index has not moved since the fetch), for any proof data whose array is `V`'s and whose body leaves the block in place. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- Input window 3's staging buffer holds its block at every point, whether the pipeline fetched it there or kept it
    (its block index has not moved since the fetch), for any proof data whose array is `V`'s and whose body leaves the block in place. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-- Input window 4's staging buffer holds its block at every point, whether the pipeline fetched it there or kept it
    (its block index has not moved since the fetch), for any proof data whose array is `V`'s and whose body leaves the block in place. -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

/-- Input window 5's staging buffer holds its block at every point, whether the pipeline fetched it there or kept it
    (its block index has not moved since the fetch), for any proof data whose array is `V`'s and whose body leaves the block in place. -/
theorem before3_5_of {c : Dev nD} (dat : Dat τ (Elt F) Unit ℕ (UR sig nD τ) ℕ cfg3 c) (hA : dat.A 5 = V c (Pipeline.arrRef spec3 5))
    (hafter : ∀ t, dat.after 5 t = iblk3 V c 5 t) (t : Fin cfg3.N) (d) : dat.before 5 t d = iblk3 V c 5 t :=
  (dat.before_in_eq_fetched 5 rfl (fun _ => rfl) (fun _ _ _ => rfl) (fun t => by rw [hafter]; unfold Dat.blockOf iblk3; rw [hA]; try rfl) t d).trans
    (by unfold Dat.fetched Dat.blockOf iblk3; rw [hA]; try rfl)

/-- The output block after the body, from the input blocks: the body's one store, of its arithmetic on the blocks it loaded. -/
def out3_6 (x0 : Vec F S2000x64 .f32) (x1 : Vec F S2000x64 .f32) (x2 : Vec F S64x64 .f32) (x3 : Vec F S1x64 .f32) (x4 : Vec F S64x64 .f32) (x5 : Vec F S1x64 .f32) : Vec F S2000x64 .f32 :=
  View.canon [⟨(Rect.unit (s := S2000x64) ![0, 0] S2000x64.size inb_S2000x64_S2000x64_0_0), k3_pay1 (View.ld x0 (Rect.unit (s := S2000x64) ![0, 0] S2000x64.size inb_S2000x64_S2000x64_0_0)) (View.ld x1 (Rect.unit (s := S2000x64) ![0, 0] S2000x64.size inb_S2000x64_S2000x64_0_0)) (View.ld x2 (Rect.unit (s := S64x64) ![0, 0] S64x64.size inb_S64x64_S64x64_0_0)) (View.ld x3 (Rect.unit (s := S1x64) ![0, 0] S1x64.size inb_S1x64_S1x64_0_0)) (View.ld x4 (Rect.unit (s := S64x64) ![0, 0] S64x64.size inb_S64x64_S64x64_0_0)) (View.ld x5 (Rect.unit (s := S1x64) ![0, 0] S1x64.size inb_S1x64_S1x64_0_0))⟩]

/-- That store covers the block. -/
theorem cover3_6 (p0 : Vec F S2000x64 .f32) (y : S2000x64.Idx) :
    ∃ pc ∈ ([⟨(Rect.unit (s := S2000x64) ![0, 0] S2000x64.size inb_S2000x64_S2000x64_0_0), p0⟩] : List (View.Piece (Elt F) S2000x64 .f32)), y ∈ pc.1.set :=
  View.cover_of_tiled [⟨(Rect.unit (s := S2000x64) ![0, 0] S2000x64.size inb_S2000x64_S2000x64_0_0), p0⟩] S2000x64.size (by rfl) y

set_option maxHeartbeats 4000000 in
/-- The body on whole staging buffers, the input blocks at `x0 … x5` and the output block at anything, runs to its return
    with the input blocks as they were and the output block at `out3_6` of them. -/
theorem sound_kernel3 (c : Dev nD) (E : Set ℕ) (i : grid3.Coords) (arg1 : Memref sig .tc .vmem S2000x64 .f32) (harg1 : arg1.IsWhole) (arg2 : Memref sig .tc .vmem S2000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S2000x64 .f32) (harg7 : arg7.IsWhole)
    (x0 : Vec F S2000x64 .f32) (x1 : Vec F S2000x64 .f32) (x2 : Vec F S64x64 .f32) (x3 : Vec F S1x64 .f32) (x4 : Vec F S64x64 .f32) (x5 : Vec F S1x64 .f32) (Kc : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out3_6 x0 x1 x2 x3 x4 x5)) -∗ Kc ⟨⟩))
      ⊢ wp frame (wpE (defs₀ (F := F)) Variants.none c none) E (cc3__gin_mlp_kernel i arg1 harg1 arg2 harg2 arg3 harg3 arg4 harg4 arg5 harg5 arg6 harg6 arg7 harg7) Kc := by
  simp only [cc3__gin_mlp_kernel_eq_skeleton]; unfold cc3__gin_mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0
  subst hf1
  subst hf2
  subst hf3
  subst hf4
  subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover3_6 _)

/-- The proof data of launch 3 on core `c`: the arrays as the launch finds them; after the body at point `t` each input block
    as fetched and the output block at `out3_6` of them; the invariant is the buffers and the generator register the
    body never touches; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => out3_6 (iblk3 V c 0 t) (iblk3 V c 1 t) (iblk3 V c 2 t) (iblk3 V c 3 t) (iblk3 V c 4 t) (iblk3 V c 5 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t = out3_6 (iblk3 V c 0 t) (iblk3 V c 1 t) (iblk3 V c 2 t) (iblk3 V c 3 t) (iblk3 V c 4 t) (iblk3 V c 5 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d
theorem before3_5 (c : Dev nD) (t : Fin cfg3.N) (d) : (dat3 V c).before 5 t d = iblk3 V c 5 t :=
  before3_5_of V (dat3 V c) (A_eq3 V c 5) (after3_5 V c) t d

/-- What the body is called with at point `t`, window by window, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t))

/-- The body at any point: the input buffers hold their blocks, so `sound_kernel3` applies; the invariant and what the
    core owes pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5]
  rw [show (dat3 V c).Φ t.succ = (dat3 V c).Φ t.castSucc from rfl,
    show (dat3 V c).owesAt () t.succ = (dat3 V c).owesAt () t.castSucc from rfl,
    after3_0, after3_1, after3_2, after3_3, after3_4, after3_5, after3_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel3 c Set.univ _ _ _ _ _ _ _ _ _ _ _ _ _ _ _ (iblk3 V c 0 t) (iblk3 V c 1 t) (iblk3 V c 2 t) (iblk3 V c 3 t) (iblk3 V c 4 t) (iblk3 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The pipeline's body obligation, at every point. -/
theorem body_obligation3 (c : Dev nD) : BodyObligation (dat3 (F := F) V c) (defs₀ (F := F)) Variants.none () Set.univ := fun t => by
  rw [bigSep_W3, bigSep_W3]
  exact sound_body3 V c t

end Cert.Kernel.Tiles

end
-- ==== Proof.BitsTile4.lean ====
/-
  Launch 4 of the program (one graph-convolution's two dense layers on a tile of 2000 nodes), entered with the
  TensorCore's buffers at any contents `V`: what each window's block is at a grid point, what the body leaves in the
  output block as a function of the 6 input blocks (the one store of the body's arithmetic `k4_pay1`, covering the
  block), the body's triple, and the proof data of the pipeline: after the body at point `t` every input block is as it
  was fetched and the output block holds that function of them. The body reads each input block whole, reads the output
  block once without using what it read, and overwrites the output block whole.
-/
import proofs.«169468_j20469814133013_1_alg».proof.Proof.Gen.Kernel.Launch
import proofs.«169468_j20469814133013_1_alg».proof.Proof.Gen.Kernel.Skeleton
import proofs.«169468_j20469814133013_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Tiles

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the launch finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's staging buffer holds its block at every point, whether the pipeline fetched it there or kept it
    (its block index has not moved since the fetch), for any proof data whose array is `V`'s and whose body leaves the block in place. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- Input window 1's staging buffer holds its block at every point, whether the pipeline fetched it there or kept it
    (its block index has not moved since the fetch), for any proof data whose array is `V`'s and whose body leaves the block in place. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- Input window 2's staging buffer holds its block at every point, whether the pipeline fetched it there or kept it
    (its block index has not moved since the fetch), for any proof data whose array is `V`'s and whose body leaves the block in place. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-- Input window 3's staging buffer holds its block at every point, whether the pipeline fetched it there or kept it
    (its block index has not moved since the fetch), for any proof data whose array is `V`'s and whose body leaves the block in place. -/
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

/-- Input window 4's staging buffer holds its block at every point, whether the pipeline fetched it there or kept it
    (its block index has not moved since the fetch), for any proof data whose array is `V`'s and whose body leaves the block in place. -/
theorem before4_4_of {c : Dev nD} (dat : Dat τ (Elt F) Unit ℕ (UR sig nD τ) ℕ cfg4 c) (hA : dat.A 4 = V c (Pipeline.arrRef spec4 4))
    (hafter : ∀ t, dat.after 4 t = iblk4 V c 4 t) (t : Fin cfg4.N) (d) : dat.before 4 t d = iblk4 V c 4 t :=
  (dat.before_in_eq_fetched 4 rfl (fun _ => rfl) (fun _ _ _ => rfl) (fun t => by rw [hafter]; unfold Dat.blockOf iblk4; rw [hA]; try rfl) t d).trans
    (by unfold Dat.fetched Dat.blockOf iblk4; rw [hA]; try rfl)

/-- Input window 5's staging buffer holds its block at every point, whether the pipeline fetched it there or kept it
    (its block index has not moved since the fetch), for any proof data whose array is `V`'s and whose body leaves the block in place. -/
theorem before4_5_of {c : Dev nD} (dat : Dat τ (Elt F) Unit ℕ (UR sig nD τ) ℕ cfg4 c) (hA : dat.A 5 = V c (Pipeline.arrRef spec4 5))
    (hafter : ∀ t, dat.after 5 t = iblk4 V c 5 t) (t : Fin cfg4.N) (d) : dat.before 5 t d = iblk4 V c 5 t :=
  (dat.before_in_eq_fetched 5 rfl (fun _ => rfl) (fun _ _ _ => rfl) (fun t => by rw [hafter]; unfold Dat.blockOf iblk4; rw [hA]; try rfl) t d).trans
    (by unfold Dat.fetched Dat.blockOf iblk4; rw [hA]; try rfl)

/-- The output block after the body, from the input blocks: the body's one store, of its arithmetic on the blocks it loaded. -/
def out4_6 (x0 : Vec F S2000x64 .f32) (x1 : Vec F S2000x64 .f32) (x2 : Vec F S64x64 .f32) (x3 : Vec F S1x64 .f32) (x4 : Vec F S64x64 .f32) (x5 : Vec F S1x64 .f32) : Vec F S2000x64 .f32 :=
  View.canon [⟨(Rect.unit (s := S2000x64) ![0, 0] S2000x64.size inb_S2000x64_S2000x64_0_0), k4_pay1 (View.ld x0 (Rect.unit (s := S2000x64) ![0, 0] S2000x64.size inb_S2000x64_S2000x64_0_0)) (View.ld x1 (Rect.unit (s := S2000x64) ![0, 0] S2000x64.size inb_S2000x64_S2000x64_0_0)) (View.ld x2 (Rect.unit (s := S64x64) ![0, 0] S64x64.size inb_S64x64_S64x64_0_0)) (View.ld x3 (Rect.unit (s := S1x64) ![0, 0] S1x64.size inb_S1x64_S1x64_0_0)) (View.ld x4 (Rect.unit (s := S64x64) ![0, 0] S64x64.size inb_S64x64_S64x64_0_0)) (View.ld x5 (Rect.unit (s := S1x64) ![0, 0] S1x64.size inb_S1x64_S1x64_0_0))⟩]

/-- That store covers the block. -/
theorem cover4_6 (p0 : Vec F S2000x64 .f32) (y : S2000x64.Idx) :
    ∃ pc ∈ ([⟨(Rect.unit (s := S2000x64) ![0, 0] S2000x64.size inb_S2000x64_S2000x64_0_0), p0⟩] : List (View.Piece (Elt F) S2000x64 .f32)), y ∈ pc.1.set :=
  View.cover_of_tiled [⟨(Rect.unit (s := S2000x64) ![0, 0] S2000x64.size inb_S2000x64_S2000x64_0_0), p0⟩] S2000x64.size (by rfl) y

set_option maxHeartbeats 4000000 in
/-- The body on whole staging buffers, the input blocks at `x0 … x5` and the output block at anything, runs to its return
    with the input blocks as they were and the output block at `out4_6` of them. -/
theorem sound_kernel4 (c : Dev nD) (E : Set ℕ) (i : grid4.Coords) (arg1 : Memref sig .tc .vmem S2000x64 .f32) (harg1 : arg1.IsWhole) (arg2 : Memref sig .tc .vmem S2000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S2000x64 .f32) (harg7 : arg7.IsWhole)
    (x0 : Vec F S2000x64 .f32) (x1 : Vec F S2000x64 .f32) (x2 : Vec F S64x64 .f32) (x3 : Vec F S1x64 .f32) (x4 : Vec F S64x64 .f32) (x5 : Vec F S1x64 .f32) (Kc : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out4_6 x0 x1 x2 x3 x4 x5)) -∗ Kc ⟨⟩))
      ⊢ wp frame (wpE (defs₀ (F := F)) Variants.none c none) E (cc4__gin_mlp_kernel i arg1 harg1 arg2 harg2 arg3 harg3 arg4 harg4 arg5 harg5 arg6 harg6 arg7 harg7) Kc := by
  simp only [cc4__gin_mlp_kernel_eq_skeleton]; unfold cc4__gin_mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0
  subst hf1
  subst hf2
  subst hf3
  subst hf4
  subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover4_6 _)

/-- The proof data of launch 4 on core `c`: the arrays as the launch finds them; after the body at point `t` each input block
    as fetched and the output block at `out4_6` of them; the invariant is the buffers and the generator register the
    body never touches; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => iblk4 V c 5 t
    | ⟨6, _⟩ => out4_6 (iblk4 V c 0 t) (iblk4 V c 1 t) (iblk4 V c 2 t) (iblk4 V c 3 t) (iblk4 V c 4 t) (iblk4 V c 5 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t = iblk4 V c 5 t := by dsimp only [dat4]
theorem after4_6 (c : Dev nD) (t : Fin cfg4.N) : (dat4 V c).after 6 t = out4_6 (iblk4 V c 0 t) (iblk4 V c 1 t) (iblk4 V c 2 t) (iblk4 V c 3 t) (iblk4 V c 4 t) (iblk4 V c 5 t) := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d
theorem before4_4 (c : Dev nD) (t : Fin cfg4.N) (d) : (dat4 V c).before 4 t d = iblk4 V c 4 t :=
  before4_4_of V (dat4 V c) (A_eq4 V c 4) (after4_4 V c) t d
theorem before4_5 (c : Dev nD) (t : Fin cfg4.N) (d) : (dat4 V c).before 5 t d = iblk4 V c 5 t :=
  before4_5_of V (dat4 V c) (A_eq4 V c 5) (after4_5 V c) t d

/-- What the body is called with at point `t`, window by window, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d))
    ∗ (∃ d, owns (c : Thread nD τ) (st4_6 t) fullShare ((dat4 V c).before 6 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t)
    ∗ owns (c : Thread nD τ) (st4_5 t) fullShare ((dat4 V c).after 5 t)
    ∗ owns (c : Thread nD τ) (st4_6 t) fullShare ((dat4 V c).after 6 t))

/-- The body at any point: the input buffers hold their blocks, so `sound_kernel4` applies; the invariant and what the
    core owes pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4, before4_5]
  rw [show (dat4 V c).Φ t.succ = (dat4 V c).Φ t.castSucc from rfl,
    show (dat4 V c).owesAt () t.succ = (dat4 V c).owesAt () t.castSucc from rfl,
    after4_0, after4_1, after4_2, after4_3, after4_4, after4_5, after4_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel4 c Set.univ _ _ _ _ _ _ _ _ _ _ _ _ _ _ _ (iblk4 V c 0 t) (iblk4 V c 1 t) (iblk4 V c 2 t) (iblk4 V c 3 t) (iblk4 V c 4 t) (iblk4 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The pipeline's body obligation, at every point. -/
theorem body_obligation4 (c : Dev nD) : BodyObligation (dat4 (F := F) V c) (defs₀ (F := F)) Variants.none () Set.univ := fun t => by
  rw [bigSep_W4, bigSep_W4]
  exact sound_body4 V c t

end Cert.Kernel.Tiles

end
-- ==== Proof.BitsTile5.lean ====
/-
  Launch 5 of the program (one graph-convolution's two dense layers on a tile of 2000 nodes), entered with the
  TensorCore's buffers at any contents `V`: what each window's block is at a grid point, what the body leaves in the
  output block as a function of the 6 input blocks (the one store of the body's arithmetic `k5_pay1`, covering the
  block), the body's triple, and the proof data of the pipeline: after the body at point `t` every input block is as it
  was fetched and the output block holds that function of them. The body reads each input block whole, reads the output
  block once without using what it read, and overwrites the output block whole.
-/
import proofs.«169468_j20469814133013_1_alg».proof.Proof.Gen.Kernel.Launch
import proofs.«169468_j20469814133013_1_alg».proof.Proof.Gen.Kernel.Skeleton
import proofs.«169468_j20469814133013_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Tiles

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the launch finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0's staging buffer holds its block at every point, whether the pipeline fetched it there or kept it
    (its block index has not moved since the fetch), for any proof data whose array is `V`'s and whose body leaves the block in place. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- Input window 1's staging buffer holds its block at every point, whether the pipeline fetched it there or kept it
    (its block index has not moved since the fetch), for any proof data whose array is `V`'s and whose body leaves the block in place. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-- Input window 2's staging buffer holds its block at every point, whether the pipeline fetched it there or kept it
    (its block index has not moved since the fetch), for any proof data whose array is `V`'s and whose body leaves the block in place. -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-- Input window 3's staging buffer holds its block at every point, whether the pipeline fetched it there or kept it
    (its block index has not moved since the fetch), for any proof data whose array is `V`'s and whose body leaves the block in place. -/
theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)

/-- Input window 4's staging buffer holds its block at every point, whether the pipeline fetched it there or kept it
    (its block index has not moved since the fetch), for any proof data whose array is `V`'s and whose body leaves the block in place. -/
theorem before5_4_of {c : Dev nD} (dat : Dat τ (Elt F) Unit ℕ (UR sig nD τ) ℕ cfg5 c) (hA : dat.A 4 = V c (Pipeline.arrRef spec5 4))
    (hafter : ∀ t, dat.after 4 t = iblk5 V c 4 t) (t : Fin cfg5.N) (d) : dat.before 4 t d = iblk5 V c 4 t :=
  (dat.before_in_eq_fetched 4 rfl (fun _ => rfl) (fun _ _ _ => rfl) (fun t => by rw [hafter]; unfold Dat.blockOf iblk5; rw [hA]; try rfl) t d).trans
    (by unfold Dat.fetched Dat.blockOf iblk5; rw [hA]; try rfl)

/-- Input window 5's staging buffer holds its block at every point, whether the pipeline fetched it there or kept it
    (its block index has not moved since the fetch), for any proof data whose array is `V`'s and whose body leaves the block in place. -/
theorem before5_5_of {c : Dev nD} (dat : Dat τ (Elt F) Unit ℕ (UR sig nD τ) ℕ cfg5 c) (hA : dat.A 5 = V c (Pipeline.arrRef spec5 5))
    (hafter : ∀ t, dat.after 5 t = iblk5 V c 5 t) (t : Fin cfg5.N) (d) : dat.before 5 t d = iblk5 V c 5 t :=
  (dat.before_in_eq_fetched 5 rfl (fun _ => rfl) (fun _ _ _ => rfl) (fun t => by rw [hafter]; unfold Dat.blockOf iblk5; rw [hA]; try rfl) t d).trans
    (by unfold Dat.fetched Dat.blockOf iblk5; rw [hA]; try rfl)

/-- The output block after the body, from the input blocks: the body's one store, of its arithmetic on the blocks it loaded. -/
def out5_6 (x0 : Vec F S2000x64 .f32) (x1 : Vec F S2000x64 .f32) (x2 : Vec F S64x64 .f32) (x3 : Vec F S1x64 .f32) (x4 : Vec F S64x64 .f32) (x5 : Vec F S1x64 .f32) : Vec F S2000x64 .f32 :=
  View.canon [⟨(Rect.unit (s := S2000x64) ![0, 0] S2000x64.size inb_S2000x64_S2000x64_0_0), k5_pay1 (View.ld x0 (Rect.unit (s := S2000x64) ![0, 0] S2000x64.size inb_S2000x64_S2000x64_0_0)) (View.ld x1 (Rect.unit (s := S2000x64) ![0, 0] S2000x64.size inb_S2000x64_S2000x64_0_0)) (View.ld x2 (Rect.unit (s := S64x64) ![0, 0] S64x64.size inb_S64x64_S64x64_0_0)) (View.ld x3 (Rect.unit (s := S1x64) ![0, 0] S1x64.size inb_S1x64_S1x64_0_0)) (View.ld x4 (Rect.unit (s := S64x64) ![0, 0] S64x64.size inb_S64x64_S64x64_0_0)) (View.ld x5 (Rect.unit (s := S1x64) ![0, 0] S1x64.size inb_S1x64_S1x64_0_0))⟩]

/-- That store covers the block. -/
theorem cover5_6 (p0 : Vec F S2000x64 .f32) (y : S2000x64.Idx) :
    ∃ pc ∈ ([⟨(Rect.unit (s := S2000x64) ![0, 0] S2000x64.size inb_S2000x64_S2000x64_0_0), p0⟩] : List (View.Piece (Elt F) S2000x64 .f32)), y ∈ pc.1.set :=
  View.cover_of_tiled [⟨(Rect.unit (s := S2000x64) ![0, 0] S2000x64.size inb_S2000x64_S2000x64_0_0), p0⟩] S2000x64.size (by rfl) y

set_option maxHeartbeats 4000000 in
/-- The body on whole staging buffers, the input blocks at `x0 … x5` and the output block at anything, runs to its return
    with the input blocks as they were and the output block at `out5_6` of them. -/
theorem sound_kernel5 (c : Dev nD) (E : Set ℕ) (i : grid5.Coords) (arg1 : Memref sig .tc .vmem S2000x64 .f32) (harg1 : arg1.IsWhole) (arg2 : Memref sig .tc .vmem S2000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S2000x64 .f32) (harg7 : arg7.IsWhole)
    (x0 : Vec F S2000x64 .f32) (x1 : Vec F S2000x64 .f32) (x2 : Vec F S64x64 .f32) (x3 : Vec F S1x64 .f32) (x4 : Vec F S64x64 .f32) (x5 : Vec F S1x64 .f32) (Kc : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out5_6 x0 x1 x2 x3 x4 x5)) -∗ Kc ⟨⟩))
      ⊢ wp frame (wpE (defs₀ (F := F)) Variants.none c none) E (cc5__gin_mlp_kernel i arg1 harg1 arg2 harg2 arg3 harg3 arg4 harg4 arg5 harg5 arg6 harg6 arg7 harg7) Kc := by
  simp only [cc5__gin_mlp_kernel_eq_skeleton]; unfold cc5__gin_mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0
  subst hf1
  subst hf2
  subst hf3
  subst hf4
  subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover5_6 _)

/-- The proof data of launch 5 on core `c`: the arrays as the launch finds them; after the body at point `t` each input block
    as fetched and the output block at `out5_6` of them; the invariant is the buffers and the generator register the
    body never touches; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => iblk5 V c 5 t
    | ⟨6, _⟩ => out5_6 (iblk5 V c 0 t) (iblk5 V c 1 t) (iblk5 V c 2 t) (iblk5 V c 3 t) (iblk5 V c 4 t) (iblk5 V c 5 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t = iblk5 V c 5 t := by dsimp only [dat5]
theorem after5_6 (c : Dev nD) (t : Fin cfg5.N) : (dat5 V c).after 6 t = out5_6 (iblk5 V c 0 t) (iblk5 V c 1 t) (iblk5 V c 2 t) (iblk5 V c 3 t) (iblk5 V c 4 t) (iblk5 V c 5 t) := by dsimp only [dat5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d
theorem before5_4 (c : Dev nD) (t : Fin cfg5.N) (d) : (dat5 V c).before 4 t d = iblk5 V c 4 t :=
  before5_4_of V (dat5 V c) (A_eq5 V c 4) (after5_4 V c) t d
theorem before5_5 (c : Dev nD) (t : Fin cfg5.N) (d) : (dat5 V c).before 5 t d = iblk5 V c 5 t :=
  before5_5_of V (dat5 V c) (A_eq5 V c 5) (after5_5 V c) t d

/-- What the body is called with at point `t`, window by window, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d))
    ∗ (∃ d, owns (c : Thread nD τ) (st5_6 t) fullShare ((dat5 V c).before 6 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t)
    ∗ owns (c : Thread nD τ) (st5_6 t) fullShare ((dat5 V c).after 6 t))

/-- The body at any point: the input buffers hold their blocks, so `sound_kernel5` applies; the invariant and what the
    core owes pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4, before5_5]
  rw [show (dat5 V c).Φ t.succ = (dat5 V c).Φ t.castSucc from rfl,
    show (dat5 V c).owesAt () t.succ = (dat5 V c).owesAt () t.castSucc from rfl,
    after5_0, after5_1, after5_2, after5_3, after5_4, after5_5, after5_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel5 c Set.univ _ _ _ _ _ _ _ _ _ _ _ _ _ _ _ (iblk5 V c 0 t) (iblk5 V c 1 t) (iblk5 V c 2 t) (iblk5 V c 3 t) (iblk5 V c 4 t) (iblk5 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The pipeline's body obligation, at every point. -/
theorem body_obligation5 (c : Dev nD) : BodyObligation (dat5 (F := F) V c) (defs₀ (F := F)) Variants.none () Set.univ := fun t => by
  rw [bigSep_W5, bigSep_W5]
  exact sound_body5 V c t

end Cert.Kernel.Tiles

end
-- ==== Proof.BitsTile6.lean ====
/-
  Launch 6 of the program (the output projection on a tile of 2000 nodes), entered with the
  TensorCore's buffers at any contents `V`: what each window's block is at a grid point, what the body leaves in the
  output block as a function of the 3 input blocks (the one store of the body's arithmetic `k6_pay1`, covering the
  block), the body's triple, and the proof data of the pipeline: after the body at point `t` every input block is as it
  was fetched and the output block holds that function of them. The body reads each input block whole, reads the output
  block once without using what it read, and overwrites the output block whole.
-/
import proofs.«169468_j20469814133013_1_alg».proof.Proof.Gen.Kernel.Launch
import proofs.«169468_j20469814133013_1_alg».proof.Proof.Gen.Kernel.Skeleton
import proofs.«169468_j20469814133013_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Tiles

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the launch finds it. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- Input window 0's staging buffer holds its block at every point, whether the pipeline fetched it there or kept it
    (its block index has not moved since the fetch), for any proof data whose array is `V`'s and whose body leaves the block in place. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

/-- Input window 1's staging buffer holds its block at every point, whether the pipeline fetched it there or kept it
    (its block index has not moved since the fetch), for any proof data whose array is `V`'s and whose body leaves the block in place. -/
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

/-- Input window 2's staging buffer holds its block at every point, whether the pipeline fetched it there or kept it
    (its block index has not moved since the fetch), for any proof data whose array is `V`'s and whose body leaves the block in place. -/
theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)

/-- The output block after the body, from the input blocks: the body's one store, of its arithmetic on the blocks it loaded. -/
def out6_3 (x0 : Vec F S2000x192 .f32) (x1 : Vec F S192x64 .f32) (x2 : Vec F S1x64 .f32) : Vec F S2000x64 .f32 :=
  View.canon [⟨(Rect.unit (s := S2000x64) ![0, 0] S2000x64.size inb_S2000x64_S2000x64_0_0), k6_pay1 (View.ld x0 (Rect.unit (s := S2000x192) ![0, 0] S2000x192.size inb_S2000x192_S2000x192_0_0)) (View.ld x1 (Rect.unit (s := S192x64) ![0, 0] S192x64.size inb_S192x64_S192x64_0_0)) (View.ld x2 (Rect.unit (s := S1x64) ![0, 0] S1x64.size inb_S1x64_S1x64_0_0))⟩]

/-- That store covers the block. -/
theorem cover6_3 (p0 : Vec F S2000x64 .f32) (y : S2000x64.Idx) :
    ∃ pc ∈ ([⟨(Rect.unit (s := S2000x64) ![0, 0] S2000x64.size inb_S2000x64_S2000x64_0_0), p0⟩] : List (View.Piece (Elt F) S2000x64 .f32)), y ∈ pc.1.set :=
  View.cover_of_tiled [⟨(Rect.unit (s := S2000x64) ![0, 0] S2000x64.size inb_S2000x64_S2000x64_0_0), p0⟩] S2000x64.size (by rfl) y

set_option maxHeartbeats 4000000 in
/-- The body on whole staging buffers, the input blocks at `x0 … x2` and the output block at anything, runs to its return
    with the input blocks as they were and the output block at `out6_3` of them. -/
theorem sound_kernel6 (c : Dev nD) (E : Set ℕ) (i : grid6.Coords) (arg1 : Memref sig .tc .vmem S2000x192 .f32) (harg1 : arg1.IsWhole) (arg2 : Memref sig .tc .vmem S192x64 .f32) (harg2 : arg2.IsWhole) (arg3 : Memref sig .tc .vmem S1x64 .f32) (harg3 : arg3.IsWhole) (arg4 : Memref sig .tc .vmem S2000x64 .f32) (harg4 : arg4.IsWhole)
    (x0 : Vec F S2000x192 .f32) (x1 : Vec F S192x64 .f32) (x2 : Vec F S1x64 .f32) (Kc : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out6_3 x0 x1 x2)) -∗ Kc ⟨⟩))
      ⊢ wp frame (wpE (defs₀ (F := F)) Variants.none c none) E (cc6__final_kernel i arg1 harg1 arg2 harg2 arg3 harg3 arg4 harg4) Kc := by
  simp only [cc6__final_kernel_eq_skeleton]; unfold cc6__final_kernel_skel
  unfold owns
  iintro ⟨⟨%f0, %hf0, H0⟩, ⟨%f1, %hf1, H1⟩, ⟨%f2, %hf2, H2⟩, ⟨%d3, %f3, -, H3⟩, Hk⟩
  subst hf0
  subst hf1
  subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover6_3 _)

/-- The proof data of launch 6 on core `c`: the arrays as the launch finds them; after the body at point `t` each input block
    as fetched and the output block at `out6_3` of them; the invariant is the buffers and the generator register the
    body never touches; nothing owed; full shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => out6_3 (iblk6 V c 0 t) (iblk6 V c 1 t) (iblk6 V c 2 t)
  Φ _ := Pipeline.ΦA spec6 c
  q _ := fullShare
  owed _ := 0

theorem A_eq6 (c : Dev nD) (w : Fin cfg6.W) : (dat6 V c).A w = V c (Pipeline.arrRef spec6 w) := by
  dsimp only [dat6]

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = out6_3 (iblk6 V c 0 t) (iblk6 V c 1 t) (iblk6 V c 2 t) := by dsimp only [dat6]

theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d

/-- What the body is called with at point `t`, window by window, -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d)))

/-- and what it returns. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t))

/-- The body at any point: the input buffers hold their blocks, so `sound_kernel6` applies; the invariant and what the
    core owes pass through unread. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2]
  rw [show (dat6 V c).Φ t.succ = (dat6 V c).Φ t.castSucc from rfl,
    show (dat6 V c).owesAt () t.succ = (dat6 V c).owesAt () t.castSucc from rfl,
    after6_0, after6_1, after6_2, after6_3]
  iintro ⟨HΦ, Ho, ⟨%d0, H0⟩, ⟨%d1, H1⟩, ⟨%d2, H2⟩, ⟨%d3, H3⟩⟩
  iapply (sound_kernel6 c Set.univ _ _ _ _ _ _ _ _ _ (iblk6 V c 0 t) (iblk6 V c 1 t) (iblk6 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem body_obligation6 (c : Dev nD) : BodyObligation (dat6 (F := F) V c) (defs₀ (F := F)) Variants.none () Set.univ := fun t => by
  rw [bigSep_W6, bigSep_W6]
  exact sound_body6 V c t

end Cert.Kernel.Tiles

end
-- ==== Proof.BitsLaunches.lean ====
/-
  The program's seven launches in sequence. Between two items of the program the TensorCore's buffers hold: the launch
  memory, then what each stretch of host operations computes from what it finds, then — after a launch — the same
  contents with the launch's result array replaced by what its pipeline writes back over its 25 tiles of 2000 nodes.
  Each launch is entered from the contents the stretch before it left and gives its input arrays back unchanged; every
  argument array therefore ends as launched.
-/
import proofs.«169468_j20469814133013_1_alg».proof.Proof.Gen.Kernel.Regions
import proofs.«169468_j20469814133013_1_alg».proof.Proof.BitsTile0
import proofs.«169468_j20469814133013_1_alg».proof.Proof.BitsTile1
import proofs.«169468_j20469814133013_1_alg».proof.Proof.BitsTile2
import proofs.«169468_j20469814133013_1_alg».proof.Proof.BitsTile3
import proofs.«169468_j20469814133013_1_alg».proof.Proof.BitsTile4
import proofs.«169468_j20469814133013_1_alg».proof.Proof.BitsTile5
import proofs.«169468_j20469814133013_1_alg».proof.Proof.BitsTile6

set_option maxRecDepth 16384

noncomputable section

namespace Cert.Kernel.Tiles

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffers' contents between items -/

/-- After the first stretch of host operations. -/
abbrev U1 (c : Dev nD) : Valuation τ sig (Elt F) := StableHlo.after hostOps0 (fun b => m (c, b))
/-- The same, read at the TensorCore's references. -/
abbrev T1 : (c : Dev nD) → (b : Ref sig .tc) → Buf (Elt F) ((c : Thread nD τ).loc b) := fun c b => U1 m c b
/-- What launch 0 writes back into its result array over the whole grid. -/
def o2 (c : Dev nD) : Buf (Elt F) ((c : Thread nD τ).loc main_v16) := (dat0 (T1 m) c).arrAt 6 cfg0.N
/-- After launch 0: its result array replaced, every other buffer as it was. -/
abbrev U2 (c : Dev nD) : Valuation τ sig (Elt F) := Function.update (U1 m c) main_v16 (o2 m c)
abbrev T2 : (c : Dev nD) → (b : Ref sig .tc) → Buf (Elt F) ((c : Thread nD τ).loc b) := fun c b => U2 m c b
/-- After the next stretch of host operations. -/
abbrev U3 (c : Dev nD) : Valuation τ sig (Elt F) := StableHlo.after hostOps1 (U2 m c)
abbrev T3 : (c : Dev nD) → (b : Ref sig .tc) → Buf (Elt F) ((c : Thread nD τ).loc b) := fun c b => U3 m c b
/-- What launch 1 writes back into its result array over the whole grid. -/
def o4 (c : Dev nD) : Buf (Elt F) ((c : Thread nD τ).loc main_v29) := (dat1 (T3 m) c).arrAt 6 cfg1.N
/-- After launch 1: its result array replaced, every other buffer as it was. -/
abbrev U4 (c : Dev nD) : Valuation τ sig (Elt F) := Function.update (U3 m c) main_v29 (o4 m c)
abbrev T4 : (c : Dev nD) → (b : Ref sig .tc) → Buf (Elt F) ((c : Thread nD τ).loc b) := fun c b => U4 m c b
/-- After the next stretch of host operations. -/
abbrev U5 (c : Dev nD) : Valuation τ sig (Elt F) := StableHlo.after hostOps2 (U4 m c)
abbrev T5 : (c : Dev nD) → (b : Ref sig .tc) → Buf (Elt F) ((c : Thread nD τ).loc b) := fun c b => U5 m c b
/-- What launch 2 writes back into its result array over the whole grid. -/
def o6 (c : Dev nD) : Buf (Elt F) ((c : Thread nD τ).loc main_v42) := (dat2 (T5 m) c).arrAt 6 cfg2.N
/-- After launch 2: its result array replaced, every other buffer as it was. -/
abbrev U6 (c : Dev nD) : Valuation τ sig (Elt F) := Function.update (U5 m c) main_v42 (o6 m c)
abbrev T6 : (c : Dev nD) → (b : Ref sig .tc) → Buf (Elt F) ((c : Thread nD τ).loc b) := fun c b => U6 m c b
/-- After the next stretch of host operations. -/
abbrev U7 (c : Dev nD) : Valuation τ sig (Elt F) := StableHlo.after hostOps3 (U6 m c)
abbrev T7 : (c : Dev nD) → (b : Ref sig .tc) → Buf (Elt F) ((c : Thread nD τ).loc b) := fun c b => U7 m c b
/-- What launch 3 writes back into its result array over the whole grid. -/
def o8 (c : Dev nD) : Buf (Elt F) ((c : Thread nD τ).loc main_v55) := (dat3 (T7 m) c).arrAt 6 cfg3.N
/-- After launch 3: its result array replaced, every other buffer as it was. -/
abbrev U8 (c : Dev nD) : Valuation τ sig (Elt F) := Function.update (U7 m c) main_v55 (o8 m c)
abbrev T8 : (c : Dev nD) → (b : Ref sig .tc) → Buf (Elt F) ((c : Thread nD τ).loc b) := fun c b => U8 m c b
/-- After the next stretch of host operations. -/
abbrev U9 (c : Dev nD) : Valuation τ sig (Elt F) := StableHlo.after hostOps4 (U8 m c)
abbrev T9 : (c : Dev nD) → (b : Ref sig .tc) → Buf (Elt F) ((c : Thread nD τ).loc b) := fun c b => U9 m c b
/-- What launch 4 writes back into its result array over the whole grid. -/
def o10 (c : Dev nD) : Buf (Elt F) ((c : Thread nD τ).loc main_v68) := (dat4 (T9 m) c).arrAt 6 cfg4.N
/-- After launch 4: its result array replaced, every other buffer as it was. -/
abbrev U10 (c : Dev nD) : Valuation τ sig (Elt F) := Function.update (U9 m c) main_v68 (o10 m c)
abbrev T10 : (c : Dev nD) → (b : Ref sig .tc) → Buf (Elt F) ((c : Thread nD τ).loc b) := fun c b => U10 m c b
/-- After the next stretch of host operations. -/
abbrev U11 (c : Dev nD) : Valuation τ sig (Elt F) := StableHlo.after hostOps5 (U10 m c)
abbrev T11 : (c : Dev nD) → (b : Ref sig .tc) → Buf (Elt F) ((c : Thread nD τ).loc b) := fun c b => U11 m c b
/-- What launch 5 writes back into its result array over the whole grid. -/
def o12 (c : Dev nD) : Buf (Elt F) ((c : Thread nD τ).loc main_v81) := (dat5 (T11 m) c).arrAt 6 cfg5.N
/-- After launch 5: its result array replaced, every other buffer as it was. -/
abbrev U12 (c : Dev nD) : Valuation τ sig (Elt F) := Function.update (U11 m c) main_v81 (o12 m c)
abbrev T12 : (c : Dev nD) → (b : Ref sig .tc) → Buf (Elt F) ((c : Thread nD τ).loc b) := fun c b => U12 m c b
/-- After the next stretch of host operations. -/
abbrev U13 (c : Dev nD) : Valuation τ sig (Elt F) := StableHlo.after hostOps6 (U12 m c)
abbrev T13 : (c : Dev nD) → (b : Ref sig .tc) → Buf (Elt F) ((c : Thread nD τ).loc b) := fun c b => U13 m c b
/-- What launch 6 writes back into its result array over the whole grid. -/
def o14 (c : Dev nD) : Buf (Elt F) ((c : Thread nD τ).loc main_v84) := (dat6 (T13 m) c).arrAt 3 cfg6.N
/-- After launch 6: its result array replaced, every other buffer as it was. -/
abbrev U14 (c : Dev nD) : Valuation τ sig (Elt F) := Function.update (U13 m c) main_v84 (o14 m c)
abbrev T14 : (c : Dev nD) → (b : Ref sig .tc) → Buf (Elt F) ((c : Thread nD τ).loc b) := fun c b => U14 m c b

/-- What each launch leaves in the buffer it may change, as a family over the item numbers: the contents after that item. -/
def outs : Gen.Outs (F := F) := fun J r c =>
  if J = 2 then U2 m c r else if J = 4 then U4 m c r else if J = 6 then U6 m c r else if J = 8 then U8 m c r else if J = 10 then U10 m c r else if J = 12 then U12 m c r else if J = 14 then U14 m c r else m (c, r)

theorem outs_2 (r : Ref sig .tc) (c : Dev nD) : outs m 2 r c = U2 m c r := if_pos rfl
theorem outs_4 (r : Ref sig .tc) (c : Dev nD) : outs m 4 r c = U4 m c r := (if_neg (by decide)).trans <| if_pos rfl
theorem outs_6 (r : Ref sig .tc) (c : Dev nD) : outs m 6 r c = U6 m c r := (if_neg (by decide)).trans <| (if_neg (by decide)).trans <| if_pos rfl
theorem outs_8 (r : Ref sig .tc) (c : Dev nD) : outs m 8 r c = U8 m c r := (if_neg (by decide)).trans <| (if_neg (by decide)).trans <| (if_neg (by decide)).trans <| if_pos rfl
theorem outs_10 (r : Ref sig .tc) (c : Dev nD) : outs m 10 r c = U10 m c r := (if_neg (by decide)).trans <| (if_neg (by decide)).trans <| (if_neg (by decide)).trans <| (if_neg (by decide)).trans <| if_pos rfl
theorem outs_12 (r : Ref sig .tc) (c : Dev nD) : outs m 12 r c = U12 m c r := (if_neg (by decide)).trans <| (if_neg (by decide)).trans <| (if_neg (by decide)).trans <| (if_neg (by decide)).trans <| (if_neg (by decide)).trans <| if_pos rfl
theorem outs_14 (r : Ref sig .tc) (c : Dev nD) : outs m 14 r c = U14 m c r := (if_neg (by decide)).trans <| (if_neg (by decide)).trans <| (if_neg (by decide)).trans <| (if_neg (by decide)).trans <| (if_neg (by decide)).trans <| (if_neg (by decide)).trans <| if_pos rfl

/-! The contents the conditional frame is stated at are these. -/
theorem V1_eq (c : Dev nD) : Gen.V1 m c = U1 m c := rfl
theorem V2_eq (c : Dev nD) : Gen.V2 m (outs m) c = U2 m c := by
  rw [show Gen.V2 m (outs m) c = Function.update (Gen.V1 m c) (Proc.devRef .tc main_v16) (outs m 2 main_v16 c) from rfl, V1_eq, outs_2]
  exact congrArg (Function.update (U1 m c) (Proc.devRef .tc main_v16)) (Function.update_self _ _ _)
theorem V3_eq (c : Dev nD) : Gen.V3 m (outs m) c = U3 m c := congrArg (StableHlo.after hostOps1) (V2_eq m c)
theorem V4_eq (c : Dev nD) : Gen.V4 m (outs m) c = U4 m c := by
  rw [show Gen.V4 m (outs m) c = Function.update (Gen.V3 m (outs m) c) (Proc.devRef .tc main_v29) (outs m 4 main_v29 c) from rfl, V3_eq, outs_4]
  exact congrArg (Function.update (U3 m c) (Proc.devRef .tc main_v29)) (Function.update_self _ _ _)
theorem V5_eq (c : Dev nD) : Gen.V5 m (outs m) c = U5 m c := congrArg (StableHlo.after hostOps2) (V4_eq m c)
theorem V6_eq (c : Dev nD) : Gen.V6 m (outs m) c = U6 m c := by
  rw [show Gen.V6 m (outs m) c = Function.update (Gen.V5 m (outs m) c) (Proc.devRef .tc main_v42) (outs m 6 main_v42 c) from rfl, V5_eq, outs_6]
  exact congrArg (Function.update (U5 m c) (Proc.devRef .tc main_v42)) (Function.update_self _ _ _)
theorem V7_eq (c : Dev nD) : Gen.V7 m (outs m) c = U7 m c := congrArg (StableHlo.after hostOps3) (V6_eq m c)
theorem V8_eq (c : Dev nD) : Gen.V8 m (outs m) c = U8 m c := by
  rw [show Gen.V8 m (outs m) c = Function.update (Gen.V7 m (outs m) c) (Proc.devRef .tc main_v55) (outs m 8 main_v55 c) from rfl, V7_eq, outs_8]
  exact congrArg (Function.update (U7 m c) (Proc.devRef .tc main_v55)) (Function.update_self _ _ _)
theorem V9_eq (c : Dev nD) : Gen.V9 m (outs m) c = U9 m c := congrArg (StableHlo.after hostOps4) (V8_eq m c)
theorem V10_eq (c : Dev nD) : Gen.V10 m (outs m) c = U10 m c := by
  rw [show Gen.V10 m (outs m) c = Function.update (Gen.V9 m (outs m) c) (Proc.devRef .tc main_v68) (outs m 10 main_v68 c) from rfl, V9_eq, outs_10]
  exact congrArg (Function.update (U9 m c) (Proc.devRef .tc main_v68)) (Function.update_self _ _ _)
theorem V11_eq (c : Dev nD) : Gen.V11 m (outs m) c = U11 m c := congrArg (StableHlo.after hostOps5) (V10_eq m c)
theorem V12_eq (c : Dev nD) : Gen.V12 m (outs m) c = U12 m c := by
  rw [show Gen.V12 m (outs m) c = Function.update (Gen.V11 m (outs m) c) (Proc.devRef .tc main_v81) (outs m 12 main_v81 c) from rfl, V11_eq, outs_12]
  exact congrArg (Function.update (U11 m c) (Proc.devRef .tc main_v81)) (Function.update_self _ _ _)
theorem V13_eq (c : Dev nD) : Gen.V13 m (outs m) c = U13 m c := congrArg (StableHlo.after hostOps6) (V12_eq m c)
theorem V14_eq (c : Dev nD) : Gen.V14 m (outs m) c = U14 m c := by
  rw [show Gen.V14 m (outs m) c = Function.update (Gen.V13 m (outs m) c) (Proc.devRef .tc main_v84) (outs m 14 main_v84 c) from rfl, V13_eq, outs_14]
  exact congrArg (Function.update (U13 m c) (Proc.devRef .tc main_v84)) (Function.update_self _ _ _)

/-! ## What a launch leaves: its result array at the write-backs, everything else as entered -/
set_option maxHeartbeats 2000000 in
theorem hF0 (c : Dev nD) (w : Fin 7) : (dat0 (T1 m) c).arrAt w cfg0.N = T2 m c (Pipeline.arrRef spec0 w) := by
  match w with
  | ⟨0, _⟩ => exact ((dat0 (T1 m) c).arrAt_in 0 rfl _).trans ((A_eq0 (T1 m) c 0).trans (Function.update_of_ne (StableHlo.devRef_ne_of_ne (by decide) : (Proc.devRef .tc (Pipeline.arrRef spec0 0) : DevRef τ sig) ≠ Proc.devRef .tc main_v16) (o2 m c) (U1 m c)).symm)
  | ⟨1, _⟩ => exact ((dat0 (T1 m) c).arrAt_in 1 rfl _).trans ((A_eq0 (T1 m) c 1).trans (Function.update_of_ne (StableHlo.devRef_ne_of_ne (by decide) : (Proc.devRef .tc (Pipeline.arrRef spec0 1) : DevRef τ sig) ≠ Proc.devRef .tc main_v16) (o2 m c) (U1 m c)).symm)
  | ⟨2, _⟩ => exact ((dat0 (T1 m) c).arrAt_in 2 rfl _).trans ((A_eq0 (T1 m) c 2).trans (Function.update_of_ne (StableHlo.devRef_ne_of_ne (by decide) : (Proc.devRef .tc (Pipeline.arrRef spec0 2) : DevRef τ sig) ≠ Proc.devRef .tc main_v16) (o2 m c) (U1 m c)).symm)
  | ⟨3, _⟩ => exact ((dat0 (T1 m) c).arrAt_in 3 rfl _).trans ((A_eq0 (T1 m) c 3).trans (Function.update_of_ne (StableHlo.devRef_ne_of_ne (by decide) : (Proc.devRef .tc (Pipeline.arrRef spec0 3) : DevRef τ sig) ≠ Proc.devRef .tc main_v16) (o2 m c) (U1 m c)).symm)
  | ⟨4, _⟩ => exact ((dat0 (T1 m) c).arrAt_in 4 rfl _).trans ((A_eq0 (T1 m) c 4).trans (Function.update_of_ne (StableHlo.devRef_ne_of_ne (by decide) : (Proc.devRef .tc (Pipeline.arrRef spec0 4) : DevRef τ sig) ≠ Proc.devRef .tc main_v16) (o2 m c) (U1 m c)).symm)
  | ⟨5, _⟩ => exact ((dat0 (T1 m) c).arrAt_in 5 rfl _).trans ((A_eq0 (T1 m) c 5).trans (Function.update_of_ne (StableHlo.devRef_ne_of_ne (by decide) : (Proc.devRef .tc (Pipeline.arrRef spec0 5) : DevRef τ sig) ≠ Proc.devRef .tc main_v16) (o2 m c) (U1 m c)).symm)
  | ⟨6, _⟩ => exact (Function.update_self (Proc.devRef .tc main_v16 : DevRef τ sig) (o2 m c) (U1 m c)).symm
theorem hrest0 (c : Dev nD) : ∀ b, b ∉ Finset.univ.image (Pipeline.arrRef spec0) → T2 m c b = T1 m c b :=
  fun b hb => Function.update_of_ne (StableHlo.devRef_ne_of_ne fun e => hb (Finset.mem_image.mpr ⟨6, Finset.mem_univ _, e.symm⟩)) (o2 m c) (U1 m c)
set_option maxHeartbeats 2000000 in
theorem hF1 (c : Dev nD) (w : Fin 7) : (dat1 (T3 m) c).arrAt w cfg1.N = T4 m c (Pipeline.arrRef spec1 w) := by
  match w with
  | ⟨0, _⟩ => exact ((dat1 (T3 m) c).arrAt_in 0 rfl _).trans ((A_eq1 (T3 m) c 0).trans (Function.update_of_ne (StableHlo.devRef_ne_of_ne (by decide) : (Proc.devRef .tc (Pipeline.arrRef spec1 0) : DevRef τ sig) ≠ Proc.devRef .tc main_v29) (o4 m c) (U3 m c)).symm)
  | ⟨1, _⟩ => exact ((dat1 (T3 m) c).arrAt_in 1 rfl _).trans ((A_eq1 (T3 m) c 1).trans (Function.update_of_ne (StableHlo.devRef_ne_of_ne (by decide) : (Proc.devRef .tc (Pipeline.arrRef spec1 1) : DevRef τ sig) ≠ Proc.devRef .tc main_v29) (o4 m c) (U3 m c)).symm)
  | ⟨2, _⟩ => exact ((dat1 (T3 m) c).arrAt_in 2 rfl _).trans ((A_eq1 (T3 m) c 2).trans (Function.update_of_ne (StableHlo.devRef_ne_of_ne (by decide) : (Proc.devRef .tc (Pipeline.arrRef spec1 2) : DevRef τ sig) ≠ Proc.devRef .tc main_v29) (o4 m c) (U3 m c)).symm)
  | ⟨3, _⟩ => exact ((dat1 (T3 m) c).arrAt_in 3 rfl _).trans ((A_eq1 (T3 m) c 3).trans (Function.update_of_ne (StableHlo.devRef_ne_of_ne (by decide) : (Proc.devRef .tc (Pipeline.arrRef spec1 3) : DevRef τ sig) ≠ Proc.devRef .tc main_v29) (o4 m c) (U3 m c)).symm)
  | ⟨4, _⟩ => exact ((dat1 (T3 m) c).arrAt_in 4 rfl _).trans ((A_eq1 (T3 m) c 4).trans (Function.update_of_ne (StableHlo.devRef_ne_of_ne (by decide) : (Proc.devRef .tc (Pipeline.arrRef spec1 4) : DevRef τ sig) ≠ Proc.devRef .tc main_v29) (o4 m c) (U3 m c)).symm)
  | ⟨5, _⟩ => exact ((dat1 (T3 m) c).arrAt_in 5 rfl _).trans ((A_eq1 (T3 m) c 5).trans (Function.update_of_ne (StableHlo.devRef_ne_of_ne (by decide) : (Proc.devRef .tc (Pipeline.arrRef spec1 5) : DevRef τ sig) ≠ Proc.devRef .tc main_v29) (o4 m c) (U3 m c)).symm)
  | ⟨6, _⟩ => exact (Function.update_self (Proc.devRef .tc main_v29 : DevRef τ sig) (o4 m c) (U3 m c)).symm
theorem hrest1 (c : Dev nD) : ∀ b, b ∉ Finset.univ.image (Pipeline.arrRef spec1) → T4 m c b = T3 m c b :=
  fun b hb => Function.update_of_ne (StableHlo.devRef_ne_of_ne fun e => hb (Finset.mem_image.mpr ⟨6, Finset.mem_univ _, e.symm⟩)) (o4 m c) (U3 m c)
set_option maxHeartbeats 2000000 in
theorem hF2 (c : Dev nD) (w : Fin 7) : (dat2 (T5 m) c).arrAt w cfg2.N = T6 m c (Pipeline.arrRef spec2 w) := by
  match w with
  | ⟨0, _⟩ => exact ((dat2 (T5 m) c).arrAt_in 0 rfl _).trans ((A_eq2 (T5 m) c 0).trans (Function.update_of_ne (StableHlo.devRef_ne_of_ne (by decide) : (Proc.devRef .tc (Pipeline.arrRef spec2 0) : DevRef τ sig) ≠ Proc.devRef .tc main_v42) (o6 m c) (U5 m c)).symm)
  | ⟨1, _⟩ => exact ((dat2 (T5 m) c).arrAt_in 1 rfl _).trans ((A_eq2 (T5 m) c 1).trans (Function.update_of_ne (StableHlo.devRef_ne_of_ne (by decide) : (Proc.devRef .tc (Pipeline.arrRef spec2 1) : DevRef τ sig) ≠ Proc.devRef .tc main_v42) (o6 m c) (U5 m c)).symm)
  | ⟨2, _⟩ => exact ((dat2 (T5 m) c).arrAt_in 2 rfl _).trans ((A_eq2 (T5 m) c 2).trans (Function.update_of_ne (StableHlo.devRef_ne_of_ne (by decide) : (Proc.devRef .tc (Pipeline.arrRef spec2 2) : DevRef τ sig) ≠ Proc.devRef .tc main_v42) (o6 m c) (U5 m c)).symm)
  | ⟨3, _⟩ => exact ((dat2 (T5 m) c).arrAt_in 3 rfl _).trans ((A_eq2 (T5 m) c 3).trans (Function.update_of_ne (StableHlo.devRef_ne_of_ne (by decide) : (Proc.devRef .tc (Pipeline.arrRef spec2 3) : DevRef τ sig) ≠ Proc.devRef .tc main_v42) (o6 m c) (U5 m c)).symm)
  | ⟨4, _⟩ => exact ((dat2 (T5 m) c).arrAt_in 4 rfl _).trans ((A_eq2 (T5 m) c 4).trans (Function.update_of_ne (StableHlo.devRef_ne_of_ne (by decide) : (Proc.devRef .tc (Pipeline.arrRef spec2 4) : DevRef τ sig) ≠ Proc.devRef .tc main_v42) (o6 m c) (U5 m c)).symm)
  | ⟨5, _⟩ => exact ((dat2 (T5 m) c).arrAt_in 5 rfl _).trans ((A_eq2 (T5 m) c 5).trans (Function.update_of_ne (StableHlo.devRef_ne_of_ne (by decide) : (Proc.devRef .tc (Pipeline.arrRef spec2 5) : DevRef τ sig) ≠ Proc.devRef .tc main_v42) (o6 m c) (U5 m c)).symm)
  | ⟨6, _⟩ => exact (Function.update_self (Proc.devRef .tc main_v42 : DevRef τ sig) (o6 m c) (U5 m c)).symm
theorem hrest2 (c : Dev nD) : ∀ b, b ∉ Finset.univ.image (Pipeline.arrRef spec2) → T6 m c b = T5 m c b :=
  fun b hb => Function.update_of_ne (StableHlo.devRef_ne_of_ne fun e => hb (Finset.mem_image.mpr ⟨6, Finset.mem_univ _, e.symm⟩)) (o6 m c) (U5 m c)
set_option maxHeartbeats 2000000 in
theorem hF3 (c : Dev nD) (w : Fin 7) : (dat3 (T7 m) c).arrAt w cfg3.N = T8 m c (Pipeline.arrRef spec3 w) := by
  match w with
  | ⟨0, _⟩ => exact ((dat3 (T7 m) c).arrAt_in 0 rfl _).trans ((A_eq3 (T7 m) c 0).trans (Function.update_of_ne (StableHlo.devRef_ne_of_ne (by decide) : (Proc.devRef .tc (Pipeline.arrRef spec3 0) : DevRef τ sig) ≠ Proc.devRef .tc main_v55) (o8 m c) (U7 m c)).symm)
  | ⟨1, _⟩ => exact ((dat3 (T7 m) c).arrAt_in 1 rfl _).trans ((A_eq3 (T7 m) c 1).trans (Function.update_of_ne (StableHlo.devRef_ne_of_ne (by decide) : (Proc.devRef .tc (Pipeline.arrRef spec3 1) : DevRef τ sig) ≠ Proc.devRef .tc main_v55) (o8 m c) (U7 m c)).symm)
  | ⟨2, _⟩ => exact ((dat3 (T7 m) c).arrAt_in 2 rfl _).trans ((A_eq3 (T7 m) c 2).trans (Function.update_of_ne (StableHlo.devRef_ne_of_ne (by decide) : (Proc.devRef .tc (Pipeline.arrRef spec3 2) : DevRef τ sig) ≠ Proc.devRef .tc main_v55) (o8 m c) (U7 m c)).symm)
  | ⟨3, _⟩ => exact ((dat3 (T7 m) c).arrAt_in 3 rfl _).trans ((A_eq3 (T7 m) c 3).trans (Function.update_of_ne (StableHlo.devRef_ne_of_ne (by decide) : (Proc.devRef .tc (Pipeline.arrRef spec3 3) : DevRef τ sig) ≠ Proc.devRef .tc main_v55) (o8 m c) (U7 m c)).symm)
  | ⟨4, _⟩ => exact ((dat3 (T7 m) c).arrAt_in 4 rfl _).trans ((A_eq3 (T7 m) c 4).trans (Function.update_of_ne (StableHlo.devRef_ne_of_ne (by decide) : (Proc.devRef .tc (Pipeline.arrRef spec3 4) : DevRef τ sig) ≠ Proc.devRef .tc main_v55) (o8 m c) (U7 m c)).symm)
  | ⟨5, _⟩ => exact ((dat3 (T7 m) c).arrAt_in 5 rfl _).trans ((A_eq3 (T7 m) c 5).trans (Function.update_of_ne (StableHlo.devRef_ne_of_ne (by decide) : (Proc.devRef .tc (Pipeline.arrRef spec3 5) : DevRef τ sig) ≠ Proc.devRef .tc main_v55) (o8 m c) (U7 m c)).symm)
  | ⟨6, _⟩ => exact (Function.update_self (Proc.devRef .tc main_v55 : DevRef τ sig) (o8 m c) (U7 m c)).symm
theorem hrest3 (c : Dev nD) : ∀ b, b ∉ Finset.univ.image (Pipeline.arrRef spec3) → T8 m c b = T7 m c b :=
  fun b hb => Function.update_of_ne (StableHlo.devRef_ne_of_ne fun e => hb (Finset.mem_image.mpr ⟨6, Finset.mem_univ _, e.symm⟩)) (o8 m c) (U7 m c)
set_option maxHeartbeats 2000000 in
theorem hF4 (c : Dev nD) (w : Fin 7) : (dat4 (T9 m) c).arrAt w cfg4.N = T10 m c (Pipeline.arrRef spec4 w) := by
  match w with
  | ⟨0, _⟩ => exact ((dat4 (T9 m) c).arrAt_in 0 rfl _).trans ((A_eq4 (T9 m) c 0).trans (Function.update_of_ne (StableHlo.devRef_ne_of_ne (by decide) : (Proc.devRef .tc (Pipeline.arrRef spec4 0) : DevRef τ sig) ≠ Proc.devRef .tc main_v68) (o10 m c) (U9 m c)).symm)
  | ⟨1, _⟩ => exact ((dat4 (T9 m) c).arrAt_in 1 rfl _).trans ((A_eq4 (T9 m) c 1).trans (Function.update_of_ne (StableHlo.devRef_ne_of_ne (by decide) : (Proc.devRef .tc (Pipeline.arrRef spec4 1) : DevRef τ sig) ≠ Proc.devRef .tc main_v68) (o10 m c) (U9 m c)).symm)
  | ⟨2, _⟩ => exact ((dat4 (T9 m) c).arrAt_in 2 rfl _).trans ((A_eq4 (T9 m) c 2).trans (Function.update_of_ne (StableHlo.devRef_ne_of_ne (by decide) : (Proc.devRef .tc (Pipeline.arrRef spec4 2) : DevRef τ sig) ≠ Proc.devRef .tc main_v68) (o10 m c) (U9 m c)).symm)
  | ⟨3, _⟩ => exact ((dat4 (T9 m) c).arrAt_in 3 rfl _).trans ((A_eq4 (T9 m) c 3).trans (Function.update_of_ne (StableHlo.devRef_ne_of_ne (by decide) : (Proc.devRef .tc (Pipeline.arrRef spec4 3) : DevRef τ sig) ≠ Proc.devRef .tc main_v68) (o10 m c) (U9 m c)).symm)
  | ⟨4, _⟩ => exact ((dat4 (T9 m) c).arrAt_in 4 rfl _).trans ((A_eq4 (T9 m) c 4).trans (Function.update_of_ne (StableHlo.devRef_ne_of_ne (by decide) : (Proc.devRef .tc (Pipeline.arrRef spec4 4) : DevRef τ sig) ≠ Proc.devRef .tc main_v68) (o10 m c) (U9 m c)).symm)
  | ⟨5, _⟩ => exact ((dat4 (T9 m) c).arrAt_in 5 rfl _).trans ((A_eq4 (T9 m) c 5).trans (Function.update_of_ne (StableHlo.devRef_ne_of_ne (by decide) : (Proc.devRef .tc (Pipeline.arrRef spec4 5) : DevRef τ sig) ≠ Proc.devRef .tc main_v68) (o10 m c) (U9 m c)).symm)
  | ⟨6, _⟩ => exact (Function.update_self (Proc.devRef .tc main_v68 : DevRef τ sig) (o10 m c) (U9 m c)).symm
theorem hrest4 (c : Dev nD) : ∀ b, b ∉ Finset.univ.image (Pipeline.arrRef spec4) → T10 m c b = T9 m c b :=
  fun b hb => Function.update_of_ne (StableHlo.devRef_ne_of_ne fun e => hb (Finset.mem_image.mpr ⟨6, Finset.mem_univ _, e.symm⟩)) (o10 m c) (U9 m c)
set_option maxHeartbeats 2000000 in
theorem hF5 (c : Dev nD) (w : Fin 7) : (dat5 (T11 m) c).arrAt w cfg5.N = T12 m c (Pipeline.arrRef spec5 w) := by
  match w with
  | ⟨0, _⟩ => exact ((dat5 (T11 m) c).arrAt_in 0 rfl _).trans ((A_eq5 (T11 m) c 0).trans (Function.update_of_ne (StableHlo.devRef_ne_of_ne (by decide) : (Proc.devRef .tc (Pipeline.arrRef spec5 0) : DevRef τ sig) ≠ Proc.devRef .tc main_v81) (o12 m c) (U11 m c)).symm)
  | ⟨1, _⟩ => exact ((dat5 (T11 m) c).arrAt_in 1 rfl _).trans ((A_eq5 (T11 m) c 1).trans (Function.update_of_ne (StableHlo.devRef_ne_of_ne (by decide) : (Proc.devRef .tc (Pipeline.arrRef spec5 1) : DevRef τ sig) ≠ Proc.devRef .tc main_v81) (o12 m c) (U11 m c)).symm)
  | ⟨2, _⟩ => exact ((dat5 (T11 m) c).arrAt_in 2 rfl _).trans ((A_eq5 (T11 m) c 2).trans (Function.update_of_ne (StableHlo.devRef_ne_of_ne (by decide) : (Proc.devRef .tc (Pipeline.arrRef spec5 2) : DevRef τ sig) ≠ Proc.devRef .tc main_v81) (o12 m c) (U11 m c)).symm)
  | ⟨3, _⟩ => exact ((dat5 (T11 m) c).arrAt_in 3 rfl _).trans ((A_eq5 (T11 m) c 3).trans (Function.update_of_ne (StableHlo.devRef_ne_of_ne (by decide) : (Proc.devRef .tc (Pipeline.arrRef spec5 3) : DevRef τ sig) ≠ Proc.devRef .tc main_v81) (o12 m c) (U11 m c)).symm)
  | ⟨4, _⟩ => exact ((dat5 (T11 m) c).arrAt_in 4 rfl _).trans ((A_eq5 (T11 m) c 4).trans (Function.update_of_ne (StableHlo.devRef_ne_of_ne (by decide) : (Proc.devRef .tc (Pipeline.arrRef spec5 4) : DevRef τ sig) ≠ Proc.devRef .tc main_v81) (o12 m c) (U11 m c)).symm)
  | ⟨5, _⟩ => exact ((dat5 (T11 m) c).arrAt_in 5 rfl _).trans ((A_eq5 (T11 m) c 5).trans (Function.update_of_ne (StableHlo.devRef_ne_of_ne (by decide) : (Proc.devRef .tc (Pipeline.arrRef spec5 5) : DevRef τ sig) ≠ Proc.devRef .tc main_v81) (o12 m c) (U11 m c)).symm)
  | ⟨6, _⟩ => exact (Function.update_self (Proc.devRef .tc main_v81 : DevRef τ sig) (o12 m c) (U11 m c)).symm
theorem hrest5 (c : Dev nD) : ∀ b, b ∉ Finset.univ.image (Pipeline.arrRef spec5) → T12 m c b = T11 m c b :=
  fun b hb => Function.update_of_ne (StableHlo.devRef_ne_of_ne fun e => hb (Finset.mem_image.mpr ⟨6, Finset.mem_univ _, e.symm⟩)) (o12 m c) (U11 m c)
set_option maxHeartbeats 2000000 in
theorem hF6 (c : Dev nD) (w : Fin 4) : (dat6 (T13 m) c).arrAt w cfg6.N = T14 m c (Pipeline.arrRef spec6 w) := by
  match w with
  | ⟨0, _⟩ => exact ((dat6 (T13 m) c).arrAt_in 0 rfl _).trans ((A_eq6 (T13 m) c 0).trans (Function.update_of_ne (StableHlo.devRef_ne_of_ne (by decide) : (Proc.devRef .tc (Pipeline.arrRef spec6 0) : DevRef τ sig) ≠ Proc.devRef .tc main_v84) (o14 m c) (U13 m c)).symm)
  | ⟨1, _⟩ => exact ((dat6 (T13 m) c).arrAt_in 1 rfl _).trans ((A_eq6 (T13 m) c 1).trans (Function.update_of_ne (StableHlo.devRef_ne_of_ne (by decide) : (Proc.devRef .tc (Pipeline.arrRef spec6 1) : DevRef τ sig) ≠ Proc.devRef .tc main_v84) (o14 m c) (U13 m c)).symm)
  | ⟨2, _⟩ => exact ((dat6 (T13 m) c).arrAt_in 2 rfl _).trans ((A_eq6 (T13 m) c 2).trans (Function.update_of_ne (StableHlo.devRef_ne_of_ne (by decide) : (Proc.devRef .tc (Pipeline.arrRef spec6 2) : DevRef τ sig) ≠ Proc.devRef .tc main_v84) (o14 m c) (U13 m c)).symm)
  | ⟨3, _⟩ => exact (Function.update_self (Proc.devRef .tc main_v84 : DevRef τ sig) (o14 m c) (U13 m c)).symm
theorem hrest6 (c : Dev nD) : ∀ b, b ∉ Finset.univ.image (Pipeline.arrRef spec6) → T14 m c b = T13 m c b :=
  fun b hb => Function.update_of_ne (StableHlo.devRef_ne_of_ne fun e => hb (Finset.mem_image.mpr ⟨3, Finset.mem_univ _, e.symm⟩)) (o14 m c) (U13 m c)

/-! ## The proof data family and the thread states -/

/-- Every pipeline's proof data, each at the contents its launch is entered with. -/
def pdats : (p : Fin 7) → (c : Dev nD) → Dat τ (Elt F) Unit ℕ (UR sig nD τ) ℕ (cfgs p) c
  | ⟨0, _⟩ => fun c => dat0 (T1 m) c
  | ⟨1, _⟩ => fun c => dat1 (T3 m) c
  | ⟨2, _⟩ => fun c => dat2 (T5 m) c
  | ⟨3, _⟩ => fun c => dat3 (T7 m) c
  | ⟨4, _⟩ => fun c => dat4 (T9 m) c
  | ⟨5, _⟩ => fun c => dat5 (T11 m) c
  | ⟨6, _⟩ => fun c => dat6 (T13 m) c

abbrev 𝒱₀ : Variants := Variants.none
/-- No core owes another anything. -/
abbrev L : GSem nD τ sig → Finset Unit := fun _ => ∅
abbrev lv : GSem nD τ sig → Unit → ℕ := fun _ _ => 0
/-- What rides beside the buffers through every item: the core's generator register at some state and the core owing nothing. -/
abbrev Rd (c : Dev nD) : sProp 𝕄 := iprop((∃ r, prngReg c r) ∗ ∃ W, owes (c : Thread nD τ) (0 : CellTallies nD τ sig Unit) W)

/-! ## The launches as items over those thread states -/

set_option backward.isDefEq.respectTransparency.types false in
/-- Launch 0: its arrays are split out of the unscoped buffers at entry and put back at exit with the result array at
    the write-backs; the generator register goes into the pipeline's invariant and comes back; nothing is owed. -/
def reg0 : Pipeline.RegionSeg (pcfgs (F := F)) Gen.adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (T1 m) c).loose
  hwaits := Pipeline.hwaits_of_owed_zero _ _ _ _ L lv 0 fun _ _ => rfl
  pre c := iprop(StableHlo.held (c : Thread nD τ) (Pipeline.ucRefs τ sig) (U1 m c) ∗ Rd c)
  post c := iprop(StableHlo.held (c : Thread nD τ) (Pipeline.ucRefs τ sig) (U2 m c) ∗ Rd c)
  X c := iprop(∃ r, prngReg c r)
  Y c := iprop(∃ r, prngReg c r)
  Z c := Pipeline.unscopedRest (Ix := Unit) (Name := ℕ) (U := UR sig nD τ) (Lvl := ℕ) spec0 c (T1 m c)
  hentry c := by
    rw [Pipeline.ownSems0_none]
    have hsplit := Pipeline.arrays_of_unscopedBufs (p := 0) (pcfgs (F := F)) Gen.adm (pdats m) launch0.win launch0.arr_whole c
      ((pdats m 0 c).share_full fun _ => rfl) (T1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c (pdats m) ((pdats m 0 c).share_full fun _ => rfl)
      (T1 m c) (T2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Launch 1: its arrays are split out of the unscoped buffers at entry and put back at exit with the result array at
    the write-backs; the generator register goes into the pipeline's invariant and comes back; nothing is owed. -/
def reg1 : Pipeline.RegionSeg (pcfgs (F := F)) Gen.adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (T3 m) c).loose
  hwaits := Pipeline.hwaits_of_owed_zero _ _ _ _ L lv 1 fun _ _ => rfl
  pre c := iprop(StableHlo.held (c : Thread nD τ) (Pipeline.ucRefs τ sig) (U3 m c) ∗ Rd c)
  post c := iprop(StableHlo.held (c : Thread nD τ) (Pipeline.ucRefs τ sig) (U4 m c) ∗ Rd c)
  X c := iprop(∃ r, prngReg c r)
  Y c := iprop(∃ r, prngReg c r)
  Z c := Pipeline.unscopedRest (Ix := Unit) (Name := ℕ) (U := UR sig nD τ) (Lvl := ℕ) spec1 c (T3 m c)
  hentry c := by
    rw [Pipeline.ownSems0_none]
    have hsplit := Pipeline.arrays_of_unscopedBufs (p := 1) (pcfgs (F := F)) Gen.adm (pdats m) launch1.win launch1.arr_whole c
      ((pdats m 1 c).share_full fun _ => rfl) (T3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) Gen.adm (Ix := Unit) (Name := ℕ) (U := UR sig nD τ) (Lvl := ℕ)
      launch1.win launch1.arr_whole c (pdats m) ((pdats m 1 c).share_full fun _ => rfl)
      (T3 m c) (T4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Launch 2: its arrays are split out of the unscoped buffers at entry and put back at exit with the result array at
    the write-backs; the generator register goes into the pipeline's invariant and comes back; nothing is owed. -/
def reg2 : Pipeline.RegionSeg (pcfgs (F := F)) Gen.adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (T5 m) c).loose
  hwaits := Pipeline.hwaits_of_owed_zero _ _ _ _ L lv 2 fun _ _ => rfl
  pre c := iprop(StableHlo.held (c : Thread nD τ) (Pipeline.ucRefs τ sig) (U5 m c) ∗ Rd c)
  post c := iprop(StableHlo.held (c : Thread nD τ) (Pipeline.ucRefs τ sig) (U6 m c) ∗ Rd c)
  X c := iprop(∃ r, prngReg c r)
  Y c := iprop(∃ r, prngReg c r)
  Z c := Pipeline.unscopedRest (Ix := Unit) (Name := ℕ) (U := UR sig nD τ) (Lvl := ℕ) spec2 c (T5 m c)
  hentry c := by
    rw [Pipeline.ownSems0_none]
    have hsplit := Pipeline.arrays_of_unscopedBufs (p := 2) (pcfgs (F := F)) Gen.adm (pdats m) launch2.win launch2.arr_whole c
      ((pdats m 2 c).share_full fun _ => rfl) (T5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) Gen.adm (Ix := Unit) (Name := ℕ) (U := UR sig nD τ) (Lvl := ℕ)
      launch2.win launch2.arr_whole c (pdats m) ((pdats m 2 c).share_full fun _ => rfl)
      (T5 m c) (T6 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Launch 3: its arrays are split out of the unscoped buffers at entry and put back at exit with the result array at
    the write-backs; the generator register goes into the pipeline's invariant and comes back; nothing is owed. -/
def reg3 : Pipeline.RegionSeg (pcfgs (F := F)) Gen.adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (T7 m) c).loose
  hwaits := Pipeline.hwaits_of_owed_zero _ _ _ _ L lv 3 fun _ _ => rfl
  pre c := iprop(StableHlo.held (c : Thread nD τ) (Pipeline.ucRefs τ sig) (U7 m c) ∗ Rd c)
  post c := iprop(StableHlo.held (c : Thread nD τ) (Pipeline.ucRefs τ sig) (U8 m c) ∗ Rd c)
  X c := iprop(∃ r, prngReg c r)
  Y c := iprop(∃ r, prngReg c r)
  Z c := Pipeline.unscopedRest (Ix := Unit) (Name := ℕ) (U := UR sig nD τ) (Lvl := ℕ) spec3 c (T7 m c)
  hentry c := by
    rw [Pipeline.ownSems0_none]
    have hsplit := Pipeline.arrays_of_unscopedBufs (p := 3) (pcfgs (F := F)) Gen.adm (pdats m) launch3.win launch3.arr_whole c
      ((pdats m 3 c).share_full fun _ => rfl) (T7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) Gen.adm (Ix := Unit) (Name := ℕ) (U := UR sig nD τ) (Lvl := ℕ)
      launch3.win launch3.arr_whole c (pdats m) ((pdats m 3 c).share_full fun _ => rfl)
      (T7 m c) (T8 m c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Launch 4: its arrays are split out of the unscoped buffers at entry and put back at exit with the result array at
    the write-backs; the generator register goes into the pipeline's invariant and comes back; nothing is owed. -/
def reg4 : Pipeline.RegionSeg (pcfgs (F := F)) Gen.adm (pdats m) () defs₀ 𝒱₀ L lv 4 where
  win := launch4.win.to₀
  block_pos := launch4.block_pos
  stage_whole := launch4.stage_whole
  K := PEmpty
  osem k := k.elim
  ho := Pipeline.OwnSemFacts.none _
  hbody c := (body_obligation4 (T9 m) c).loose
  hwaits := Pipeline.hwaits_of_owed_zero _ _ _ _ L lv 4 fun _ _ => rfl
  pre c := iprop(StableHlo.held (c : Thread nD τ) (Pipeline.ucRefs τ sig) (U9 m c) ∗ Rd c)
  post c := iprop(StableHlo.held (c : Thread nD τ) (Pipeline.ucRefs τ sig) (U10 m c) ∗ Rd c)
  X c := iprop(∃ r, prngReg c r)
  Y c := iprop(∃ r, prngReg c r)
  Z c := Pipeline.unscopedRest (Ix := Unit) (Name := ℕ) (U := UR sig nD τ) (Lvl := ℕ) spec4 c (T9 m c)
  hentry c := by
    rw [Pipeline.ownSems0_none]
    have hsplit := Pipeline.arrays_of_unscopedBufs (p := 4) (pcfgs (F := F)) Gen.adm (pdats m) launch4.win launch4.arr_whole c
      ((pdats m 4 c).share_full fun _ => rfl) (T9 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) Gen.adm (Ix := Unit) (Name := ℕ) (U := UR sig nD τ) (Lvl := ℕ)
      launch4.win launch4.arr_whole c (pdats m) ((pdats m 4 c).share_full fun _ => rfl)
      (T9 m c) (T10 m c) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Launch 5: its arrays are split out of the unscoped buffers at entry and put back at exit with the result array at
    the write-backs; the generator register goes into the pipeline's invariant and comes back; nothing is owed. -/
def reg5 : Pipeline.RegionSeg (pcfgs (F := F)) Gen.adm (pdats m) () defs₀ 𝒱₀ L lv 5 where
  win := launch5.win.to₀
  block_pos := launch5.block_pos
  stage_whole := launch5.stage_whole
  K := PEmpty
  osem k := k.elim
  ho := Pipeline.OwnSemFacts.none _
  hbody c := (body_obligation5 (T11 m) c).loose
  hwaits := Pipeline.hwaits_of_owed_zero _ _ _ _ L lv 5 fun _ _ => rfl
  pre c := iprop(StableHlo.held (c : Thread nD τ) (Pipeline.ucRefs τ sig) (U11 m c) ∗ Rd c)
  post c := iprop(StableHlo.held (c : Thread nD τ) (Pipeline.ucRefs τ sig) (U12 m c) ∗ Rd c)
  X c := iprop(∃ r, prngReg c r)
  Y c := iprop(∃ r, prngReg c r)
  Z c := Pipeline.unscopedRest (Ix := Unit) (Name := ℕ) (U := UR sig nD τ) (Lvl := ℕ) spec5 c (T11 m c)
  hentry c := by
    rw [Pipeline.ownSems0_none]
    have hsplit := Pipeline.arrays_of_unscopedBufs (p := 5) (pcfgs (F := F)) Gen.adm (pdats m) launch5.win launch5.arr_whole c
      ((pdats m 5 c).share_full fun _ => rfl) (T11 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) Gen.adm (Ix := Unit) (Name := ℕ) (U := UR sig nD τ) (Lvl := ℕ)
      launch5.win launch5.arr_whole c (pdats m) ((pdats m 5 c).share_full fun _ => rfl)
      (T11 m c) (T12 m c) ((pdats m 5 c).arrAt · cfg5.N) (hF5 m c) (hrest5 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Launch 6: its arrays are split out of the unscoped buffers at entry and put back at exit with the result array at
    the write-backs; the generator register goes into the pipeline's invariant and comes back; nothing is owed. -/
def reg6 : Pipeline.RegionSeg (pcfgs (F := F)) Gen.adm (pdats m) () defs₀ 𝒱₀ L lv 6 where
  win := launch6.win.to₀
  block_pos := launch6.block_pos
  stage_whole := launch6.stage_whole
  K := PEmpty
  osem k := k.elim
  ho := Pipeline.OwnSemFacts.none _
  hbody c := (body_obligation6 (T13 m) c).loose
  hwaits := Pipeline.hwaits_of_owed_zero _ _ _ _ L lv 6 fun _ _ => rfl
  pre c := iprop(StableHlo.held (c : Thread nD τ) (Pipeline.ucRefs τ sig) (U13 m c) ∗ Rd c)
  post c := iprop(StableHlo.held (c : Thread nD τ) (Pipeline.ucRefs τ sig) (U14 m c) ∗ Rd c)
  X c := iprop(∃ r, prngReg c r)
  Y c := iprop(∃ r, prngReg c r)
  Z c := Pipeline.unscopedRest (Ix := Unit) (Name := ℕ) (U := UR sig nD τ) (Lvl := ℕ) spec6 c (T13 m c)
  hentry c := by
    rw [Pipeline.ownSems0_none]
    have hsplit := Pipeline.arrays_of_unscopedBufs (p := 6) (pcfgs (F := F)) Gen.adm (pdats m) launch6.win launch6.arr_whole c
      ((pdats m 6 c).share_full fun _ => rfl) (T13 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 6 c).Φ 0 = Pipeline.ΦA spec6 c from rfl]; unfold Pipeline.ΦA
    iintro ⟨Hp, -, Hr⟩
    isplitl [Hr]; · iexact Hr
    iexact Hp
  hout c := by
    rw [Pipeline.ownSems0_none, show (pdats m 6 c).Φ (Fin.last _) = Pipeline.ΦA spec6 c from rfl]; unfold Pipeline.ΦA
    iintro ⟨Hr, Hp⟩
    isplitl [Hp]; · iexact Hp
    isplitr; · iempintro
    iexact Hr
  hexit c := by
    have hjoin := Pipeline.unscopedBufs_of_arrays (p := 6) (pcfgs (F := F)) Gen.adm (Ix := Unit) (Name := ℕ) (U := UR sig nD τ) (Lvl := ℕ)
      launch6.win launch6.arr_whole c (pdats m) ((pdats m 6 c).share_full fun _ => rfl)
      (T13 m c) (T14 m c) ((pdats m 6 c).arrAt · cfg6.N) (hF6 m c) (hrest6 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run -/

/-- A stretch of host operations as an item of the run: entered with every unscoped buffer at `W c`, the rest riding along;
    it leaves them at what the operations compute from `W c`. -/
abbrev stretch (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rd

/-- The program's fourteen items in order: a stretch of host operations, then a launch, seven times. -/
abbrev items : List (Pipeline.Seg (pcfgs (F := F)) Gen.adm (pdats m) () defs₀ 𝒱₀ L lv) :=
  [ .host (stretch hostOps0 hostOps0_sub Gen.hostOps0_fresh (fun c b => m (c, b))),
    .region (reg0 m),
    .host (stretch hostOps1 hostOps1_sub Gen.hostOps1_fresh (U2 m)),
    .region (reg1 m),
    .host (stretch hostOps2 hostOps2_sub Gen.hostOps2_fresh (U4 m)),
    .region (reg2 m),
    .host (stretch hostOps3 hostOps3_sub Gen.hostOps3_fresh (U6 m)),
    .region (reg3 m),
    .host (stretch hostOps4 hostOps4_sub Gen.hostOps4_fresh (U8 m)),
    .region (reg4 m),
    .host (stretch hostOps5 hostOps5_sub Gen.hostOps5_fresh (U10 m)),
    .region (reg5 m),
    .host (stretch hostOps6 hostOps6_sub Gen.hostOps6_fresh (U12 m)),
    .region (reg6 m) ]

/-- The program is the run of those items. -/
theorem main_items (c : Dev nD) : main (F := F) c = Pipeline.Seg.run (items m) := (main_chain c).trans (by chain_rfl)

/-- An unscoped TensorCore reference is among those the thread states hold. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- Every weakly fair execution of the program terminates, nothing faulting, and every unscoped buffer of the final memory
    holds the last contents of the chain: the launch over the fourteen items, the states chaining by construction, the
    first state made from what the launch deals each core, the last read against the final memory. -/
theorem run_all (ρ : Dev nD → PrngReg) :
    θ_run defs (onTc (τ := τ) (main (F := F))) ⟨m, fun _ => 0, ρ⟩
      (fun r => ∀ c : Dev nD, ∀ b ∈ Pipeline.ucRefs τ sig, r.2.mem (((c : Thread nD τ)).1, b) = U14 m c b) :=
  Pipeline.θ_run_regions_kit (pcfgs (F := F)) Gen.adm (pdats m) () cellOf_inj emb₁ defs₀ 𝒱₀ L lv m ρ main (items m)
    (fun c Q => by rw [main_items m c])
    (by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (fun b => m (c, b)) ∗ Rd c))
    (Tₙ := fun c => iprop(StableHlo.held (c : Thread nD τ) (Pipeline.ucRefs τ sig) (U14 m c) ∗ ∃ r, prngReg c r))
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl,
      fun c => by
        show iprop(StableHlo.held (c : Thread nD τ) (Pipeline.ucRefs τ sig) (U14 m c) ∗ (∃ r, prngReg c r) ∗ ∃ W, owes (c : Thread nD τ) (0 : CellTallies nD τ sig Unit) W)
          ⊢ (iprop((StableHlo.held (c : Thread nD τ) (Pipeline.ucRefs τ sig) (U14 m c) ∗ ∃ r, prngReg c r) ∗ ∃ W, owes (c : Thread nD τ) (0 : CellTallies nD τ sig Unit) W) : sProp 𝕄)
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (fun b => m (c, b))
        from Pipeline.unscopedBufs_held c (fun b => m (c, b))]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = U14 m c b)
    (hfin := fun c s' => by
      iintro ⟨⟨Hh, -⟩, HSI⟩
      unfold StableHlo.held
      imodintro
      iapply (pointsTo_read_all (Pipeline.ucRefs τ sig) (fun b => (((c : Thread nD τ)).1, b)) (U14 m c) s')
      isplitl [Hh] <;> iassumption)
    (hQ := fun s h c => h c)

/-- No item writes an argument array: each ends the chain as launched. -/
theorem kept (c : Dev nD) :
      U14 m c main_arg0 = m ((c : Thread nD τ).loc main_arg0)
      ∧ U14 m c main_arg1 = m ((c : Thread nD τ).loc main_arg1)
      ∧ U14 m c main_arg2 = m ((c : Thread nD τ).loc main_arg2)
      ∧ U14 m c main_arg3 = m ((c : Thread nD τ).loc main_arg3)
      ∧ U14 m c main_arg4 = m ((c : Thread nD τ).loc main_arg4)
      ∧ U14 m c main_arg5 = m ((c : Thread nD τ).loc main_arg5)
      ∧ U14 m c main_arg6 = m ((c : Thread nD τ).loc main_arg6)
      ∧ U14 m c main_arg7 = m ((c : Thread nD τ).loc main_arg7)
      ∧ U14 m c main_arg8 = m ((c : Thread nD τ).loc main_arg8)
      ∧ U14 m c main_arg9 = m ((c : Thread nD τ).loc main_arg9)
      ∧ U14 m c main_arg10 = m ((c : Thread nD τ).loc main_arg10)
      ∧ U14 m c main_arg11 = m ((c : Thread nD τ).loc main_arg11)
      ∧ U14 m c main_arg12 = m ((c : Thread nD τ).loc main_arg12)
      ∧ U14 m c main_arg13 = m ((c : Thread nD τ).loc main_arg13)
      ∧ U14 m c main_arg14 = m ((c : Thread nD τ).loc main_arg14)
      ∧ U14 m c main_arg15 = m ((c : Thread nD τ).loc main_arg15) :=
  ⟨(congrFun (V14_eq m c).symm _).trans (Gen.V14_main_arg0 m (outs m) c),
   (congrFun (V14_eq m c).symm _).trans (Gen.V14_main_arg1 m (outs m) c),
   (congrFun (V14_eq m c).symm _).trans (Gen.V14_main_arg2 m (outs m) c),
   (congrFun (V14_eq m c).symm _).trans (Gen.V14_main_arg3 m (outs m) c),
   (congrFun (V14_eq m c).symm _).trans (Gen.V14_main_arg4 m (outs m) c),
   (congrFun (V14_eq m c).symm _).trans (Gen.V14_main_arg5 m (outs m) c),
   (congrFun (V14_eq m c).symm _).trans (Gen.V14_main_arg6 m (outs m) c),
   (congrFun (V14_eq m c).symm _).trans (Gen.V14_main_arg7 m (outs m) c),
   (congrFun (V14_eq m c).symm _).trans (Gen.V14_main_arg8 m (outs m) c),
   (congrFun (V14_eq m c).symm _).trans (Gen.V14_main_arg9 m (outs m) c),
   (congrFun (V14_eq m c).symm _).trans (Gen.V14_main_arg10 m (outs m) c),
   (congrFun (V14_eq m c).symm _).trans (Gen.V14_main_arg11 m (outs m) c),
   (congrFun (V14_eq m c).symm _).trans (Gen.V14_main_arg12 m (outs m) c),
   (congrFun (V14_eq m c).symm _).trans (Gen.V14_main_arg13 m (outs m) c),
   (congrFun (V14_eq m c).symm _).trans (Gen.V14_main_arg14 m (outs m) c),
   (congrFun (V14_eq m c).symm _).trans (Gen.V14_main_arg15 m (outs m) c)⟩

/-- The last launch's result array ends at its write-backs. -/
theorem out_last (c : Dev nD) : U14 m c main_v84 = o14 m c := Function.update_self _ _ _

/-- The run with its result named: the result array ends at the last launch's write-backs, every argument array as launched. -/
theorem run_out (ρ : Dev nD → PrngReg) :
    θ_run defs (onTc (τ := τ) (main (F := F))) ⟨m, fun _ => 0, ρ⟩ (fun r => ∀ c : Dev nD,
      r.2.mem ((c.tc : Thread nD τ).loc main_v84) = o14 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun r h c =>
    ⟨(h c _ (mem_uc main_v84 (by decide))).trans (out_last m c),
     (h c _ (mem_uc main_arg0 (by decide))).trans (kept m c).1,
     (h c _ (mem_uc main_arg1 (by decide))).trans (kept m c).2.1,
     (h c _ (mem_uc main_arg2 (by decide))).trans (kept m c).2.2.1,
     (h c _ (mem_uc main_arg3 (by decide))).trans (kept m c).2.2.2.1,
     (h c _ (mem_uc main_arg4 (by decide))).trans (kept m c).2.2.2.2.1,
     (h c _ (mem_uc main_arg5 (by decide))).trans (kept m c).2.2.2.2.2.1,
     (h c _ (mem_uc main_arg6 (by decide))).trans (kept m c).2.2.2.2.2.2.1,
     (h c _ (mem_uc main_arg7 (by decide))).trans (kept m c).2.2.2.2.2.2.2.1,
     (h c _ (mem_uc main_arg8 (by decide))).trans (kept m c).2.2.2.2.2.2.2.2.1,
     (h c _ (mem_uc main_arg9 (by decide))).trans (kept m c).2.2.2.2.2.2.2.2.2.1,
     (h c _ (mem_uc main_arg10 (by decide))).trans (kept m c).2.2.2.2.2.2.2.2.2.2.1,
     (h c _ (mem_uc main_arg11 (by decide))).trans (kept m c).2.2.2.2.2.2.2.2.2.2.2.1,
     (h c _ (mem_uc main_arg12 (by decide))).trans (kept m c).2.2.2.2.2.2.2.2.2.2.2.2.1,
     (h c _ (mem_uc main_arg13 (by decide))).trans (kept m c).2.2.2.2.2.2.2.2.2.2.2.2.2.1,
     (h c _ (mem_uc main_arg14 (by decide))).trans (kept m c).2.2.2.2.2.2.2.2.2.2.2.2.2.2.1,
     (h c _ (mem_uc main_arg15 (by decide))).trans (kept m c).2.2.2.2.2.2.2.2.2.2.2.2.2.2.2⟩) (run_all m ρ)

/-- The frame: every argument array ends as launched. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun r h c => (h c).2) (run_out m ρ)

end Cert.Kernel.Tiles

end
-- ==== Proof.IdealTile0.lean ====
/-
  Launch 0 of the program (one graph-convolution's two dense layers on a tile of 2000 nodes), entered with the
  TensorCore's buffers at any contents `V`: what each window's block is at a grid point, what the body leaves in the
  output block as a function of the 6 input blocks (the one store of the body's arithmetic `k0_pay1`, covering the
  block), the body's triple, and the proof data of the pipeline: after the body at point `t` every input block is as it
  was fetched and the output block holds that function of them. The body reads each input block whole, reads the output
  block once without using what it read, and overwrites the output block whole.
-/
import proofs.«169468_j20469814133013_1_alg».proof.Proof.Gen.KernelIdeal.Launch
import proofs.«169468_j20469814133013_1_alg».proof.Proof.Gen.KernelIdeal.Skeleton
import proofs.«169468_j20469814133013_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Tiles

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the launch finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds its block at every point, whether the pipeline fetched it there or kept it
    (its block index has not moved since the fetch), for any proof data whose array is `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's staging buffer holds its block at every point, whether the pipeline fetched it there or kept it
    (its block index has not moved since the fetch), for any proof data whose array is `V`'s and whose body leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's staging buffer holds its block at every point, whether the pipeline fetched it there or kept it
    (its block index has not moved since the fetch), for any proof data whose array is `V`'s and whose body leaves the block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's staging buffer holds its block at every point, whether the pipeline fetched it there or kept it
    (its block index has not moved since the fetch), for any proof data whose array is `V`'s and whose body leaves the block in place. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's staging buffer holds its block at every point, whether the pipeline fetched it there or kept it
    (its block index has not moved since the fetch), for any proof data whose array is `V`'s and whose body leaves the block in place. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5's staging buffer holds its block at every point, whether the pipeline fetched it there or kept it
    (its block index has not moved since the fetch), for any proof data whose array is `V`'s and whose body leaves the block in place. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-- The output block after the body, from the input blocks: the body's one store, of its arithmetic on the blocks it loaded. -/
def out0_6 (x0 : Vec F S2000x64 .f32) (x1 : Vec F S2000x64 .f32) (x2 : Vec F S64x64 .f32) (x3 : Vec F S1x64 .f32) (x4 : Vec F S64x64 .f32) (x5 : Vec F S1x64 .f32) : Vec F S2000x64 .f32 :=
  View.canon [⟨(Rect.unit (s := S2000x64) ![0, 0] S2000x64.size inb_S2000x64_S2000x64_0_0), k0_pay1 (View.ld x0 (Rect.unit (s := S2000x64) ![0, 0] S2000x64.size inb_S2000x64_S2000x64_0_0)) (View.ld x1 (Rect.unit (s := S2000x64) ![0, 0] S2000x64.size inb_S2000x64_S2000x64_0_0)) (View.ld x2 (Rect.unit (s := S64x64) ![0, 0] S64x64.size inb_S64x64_S64x64_0_0)) (View.ld x3 (Rect.unit (s := S1x64) ![0, 0] S1x64.size inb_S1x64_S1x64_0_0)) (View.ld x4 (Rect.unit (s := S64x64) ![0, 0] S64x64.size inb_S64x64_S64x64_0_0)) (View.ld x5 (Rect.unit (s := S1x64) ![0, 0] S1x64.size inb_S1x64_S1x64_0_0))⟩]

/-- That store covers the block. -/
theorem cover0_6 (p0 : Vec F S2000x64 .f32) (y : S2000x64.Idx) :
    ∃ pc ∈ ([⟨(Rect.unit (s := S2000x64) ![0, 0] S2000x64.size inb_S2000x64_S2000x64_0_0), p0⟩] : List (View.Piece (Elt F) S2000x64 .f32)), y ∈ pc.1.set :=
  View.cover_of_tiled [⟨(Rect.unit (s := S2000x64) ![0, 0] S2000x64.size inb_S2000x64_S2000x64_0_0), p0⟩] S2000x64.size (by rfl) y

set_option maxHeartbeats 4000000 in
/-- The body on whole staging buffers, the input blocks at `x0 … x5` and the output block at anything, runs to its return
    with the input blocks as they were and the output block at `out0_6` of them. -/
theorem sound_kernel0 (c : Dev nD) (E : Set ℕ) (i : grid0.Coords) (arg1 : Memref sig .tc .vmem S2000x64 .f32) (harg1 : arg1.IsWhole) (arg2 : Memref sig .tc .vmem S2000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S2000x64 .f32) (harg7 : arg7.IsWhole)
    (x0 : Vec F S2000x64 .f32) (x1 : Vec F S2000x64 .f32) (x2 : Vec F S64x64 .f32) (x3 : Vec F S1x64 .f32) (x4 : Vec F S64x64 .f32) (x5 : Vec F S1x64 .f32) (Kc : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out0_6 x0 x1 x2 x3 x4 x5)) -∗ Kc ⟨⟩))
      ⊢ wp frame (wpE (defs₀ (F := F)) Variants.none c none) E (cc0__gin_mlp_kernel i arg1 harg1 arg2 harg2 arg3 harg3 arg4 harg4 arg5 harg5 arg6 harg6 arg7 harg7) Kc := by
  simp only [cc0__gin_mlp_kernel_eq_skeleton]; unfold cc0__gin_mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0
  subst hf1
  subst hf2
  subst hf3
  subst hf4
  subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover0_6 _)

/-- The proof data of launch 0 on core `c`: the arrays as the launch finds them; after the body at point `t` each input block
    as fetched and the output block at `out0_6` of them; the invariant is the buffers and the generator register the
    body never touches; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => out0_6 (iblk0 V c 0 t) (iblk0 V c 1 t) (iblk0 V c 2 t) (iblk0 V c 3 t) (iblk0 V c 4 t) (iblk0 V c 5 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = out0_6 (iblk0 V c 0 t) (iblk0 V c 1 t) (iblk0 V c 2 t) (iblk0 V c 3 t) (iblk0 V c 4 t) (iblk0 V c 5 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

/-- What the body is called with at point `t`, window by window, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

/-- The body at any point: the input buffers hold their blocks, so `sound_kernel0` applies; the invariant and what the
    core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ _ _ _ _ _ _ _ _ _ _ _ _ _ _ _ (iblk0 V c 0 t) (iblk0 V c 1 t) (iblk0 V c 2 t) (iblk0 V c 3 t) (iblk0 V c 4 t) (iblk0 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Tiles

end
-- ==== Proof.IdealTile1.lean ====
/-
  Launch 1 of the program (one graph-convolution's two dense layers on a tile of 2000 nodes), entered with the
  TensorCore's buffers at any contents `V`: what each window's block is at a grid point, what the body leaves in the
  output block as a function of the 6 input blocks (the one store of the body's arithmetic `k1_pay1`, covering the
  block), the body's triple, and the proof data of the pipeline: after the body at point `t` every input block is as it
  was fetched and the output block holds that function of them. The body reads each input block whole, reads the output
  block once without using what it read, and overwrites the output block whole.
-/
import proofs.«169468_j20469814133013_1_alg».proof.Proof.Gen.KernelIdeal.Launch
import proofs.«169468_j20469814133013_1_alg».proof.Proof.Gen.KernelIdeal.Skeleton
import proofs.«169468_j20469814133013_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Tiles

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the launch finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds its block at every point, whether the pipeline fetched it there or kept it
    (its block index has not moved since the fetch), for any proof data whose array is `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's staging buffer holds its block at every point, whether the pipeline fetched it there or kept it
    (its block index has not moved since the fetch), for any proof data whose array is `V`'s and whose body leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's staging buffer holds its block at every point, whether the pipeline fetched it there or kept it
    (its block index has not moved since the fetch), for any proof data whose array is `V`'s and whose body leaves the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's staging buffer holds its block at every point, whether the pipeline fetched it there or kept it
    (its block index has not moved since the fetch), for any proof data whose array is `V`'s and whose body leaves the block in place. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's staging buffer holds its block at every point, whether the pipeline fetched it there or kept it
    (its block index has not moved since the fetch), for any proof data whose array is `V`'s and whose body leaves the block in place. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's staging buffer holds its block at every point, whether the pipeline fetched it there or kept it
    (its block index has not moved since the fetch), for any proof data whose array is `V`'s and whose body leaves the block in place. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- The output block after the body, from the input blocks: the body's one store, of its arithmetic on the blocks it loaded. -/
def out1_6 (x0 : Vec F S2000x64 .f32) (x1 : Vec F S2000x64 .f32) (x2 : Vec F S64x64 .f32) (x3 : Vec F S1x64 .f32) (x4 : Vec F S64x64 .f32) (x5 : Vec F S1x64 .f32) : Vec F S2000x64 .f32 :=
  View.canon [⟨(Rect.unit (s := S2000x64) ![0, 0] S2000x64.size inb_S2000x64_S2000x64_0_0), k1_pay1 (View.ld x0 (Rect.unit (s := S2000x64) ![0, 0] S2000x64.size inb_S2000x64_S2000x64_0_0)) (View.ld x1 (Rect.unit (s := S2000x64) ![0, 0] S2000x64.size inb_S2000x64_S2000x64_0_0)) (View.ld x2 (Rect.unit (s := S64x64) ![0, 0] S64x64.size inb_S64x64_S64x64_0_0)) (View.ld x3 (Rect.unit (s := S1x64) ![0, 0] S1x64.size inb_S1x64_S1x64_0_0)) (View.ld x4 (Rect.unit (s := S64x64) ![0, 0] S64x64.size inb_S64x64_S64x64_0_0)) (View.ld x5 (Rect.unit (s := S1x64) ![0, 0] S1x64.size inb_S1x64_S1x64_0_0))⟩]

/-- That store covers the block. -/
theorem cover1_6 (p0 : Vec F S2000x64 .f32) (y : S2000x64.Idx) :
    ∃ pc ∈ ([⟨(Rect.unit (s := S2000x64) ![0, 0] S2000x64.size inb_S2000x64_S2000x64_0_0), p0⟩] : List (View.Piece (Elt F) S2000x64 .f32)), y ∈ pc.1.set :=
  View.cover_of_tiled [⟨(Rect.unit (s := S2000x64) ![0, 0] S2000x64.size inb_S2000x64_S2000x64_0_0), p0⟩] S2000x64.size (by rfl) y

set_option maxHeartbeats 4000000 in
/-- The body on whole staging buffers, the input blocks at `x0 … x5` and the output block at anything, runs to its return
    with the input blocks as they were and the output block at `out1_6` of them. -/
theorem sound_kernel1 (c : Dev nD) (E : Set ℕ) (i : grid1.Coords) (arg1 : Memref sig .tc .vmem S2000x64 .f32) (harg1 : arg1.IsWhole) (arg2 : Memref sig .tc .vmem S2000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S2000x64 .f32) (harg7 : arg7.IsWhole)
    (x0 : Vec F S2000x64 .f32) (x1 : Vec F S2000x64 .f32) (x2 : Vec F S64x64 .f32) (x3 : Vec F S1x64 .f32) (x4 : Vec F S64x64 .f32) (x5 : Vec F S1x64 .f32) (Kc : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out1_6 x0 x1 x2 x3 x4 x5)) -∗ Kc ⟨⟩))
      ⊢ wp frame (wpE (defs₀ (F := F)) Variants.none c none) E (cc1__gin_mlp_kernel i arg1 harg1 arg2 harg2 arg3 harg3 arg4 harg4 arg5 harg5 arg6 harg6 arg7 harg7) Kc := by
  simp only [cc1__gin_mlp_kernel_eq_skeleton]; unfold cc1__gin_mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0
  subst hf1
  subst hf2
  subst hf3
  subst hf4
  subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover1_6 _)

/-- The proof data of launch 1 on core `c`: the arrays as the launch finds them; after the body at point `t` each input block
    as fetched and the output block at `out1_6` of them; the invariant is the buffers and the generator register the
    body never touches; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 (iblk1 V c 0 t) (iblk1 V c 1 t) (iblk1 V c 2 t) (iblk1 V c 3 t) (iblk1 V c 4 t) (iblk1 V c 5 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = out1_6 (iblk1 V c 0 t) (iblk1 V c 1 t) (iblk1 V c 2 t) (iblk1 V c 3 t) (iblk1 V c 4 t) (iblk1 V c 5 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-- What the body is called with at point `t`, window by window, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

/-- The body at any point: the input buffers hold their blocks, so `sound_kernel1` applies; the invariant and what the
    core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel1 c Set.univ _ _ _ _ _ _ _ _ _ _ _ _ _ _ _ (iblk1 V c 0 t) (iblk1 V c 1 t) (iblk1 V c 2 t) (iblk1 V c 3 t) (iblk1 V c 4 t) (iblk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The pipeline's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Tiles

end
-- ==== Proof.IdealTile2.lean ====
/-
  Launch 2 of the program (one graph-convolution's two dense layers on a tile of 2000 nodes), entered with the
  TensorCore's buffers at any contents `V`: what each window's block is at a grid point, what the body leaves in the
  output block as a function of the 6 input blocks (the one store of the body's arithmetic `k2_pay1`, covering the
  block), the body's triple, and the proof data of the pipeline: after the body at point `t` every input block is as it
  was fetched and the output block holds that function of them. The body reads each input block whole, reads the output
  block once without using what it read, and overwrites the output block whole.
-/
import proofs.«169468_j20469814133013_1_alg».proof.Proof.Gen.KernelIdeal.Launch
import proofs.«169468_j20469814133013_1_alg».proof.Proof.Gen.KernelIdeal.Skeleton
import proofs.«169468_j20469814133013_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Tiles

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the launch finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's staging buffer holds its block at every point, whether the pipeline fetched it there or kept it
    (its block index has not moved since the fetch), for any proof data whose array is `V`'s and whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's staging buffer holds its block at every point, whether the pipeline fetched it there or kept it
    (its block index has not moved since the fetch), for any proof data whose array is `V`'s and whose body leaves the block in place. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's staging buffer holds its block at every point, whether the pipeline fetched it there or kept it
    (its block index has not moved since the fetch), for any proof data whose array is `V`'s and whose body leaves the block in place. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's staging buffer holds its block at every point, whether the pipeline fetched it there or kept it
    (its block index has not moved since the fetch), for any proof data whose array is `V`'s and whose body leaves the block in place. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's staging buffer holds its block at every point, whether the pipeline fetched it there or kept it
    (its block index has not moved since the fetch), for any proof data whose array is `V`'s and whose body leaves the block in place. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- Input window 5's staging buffer holds its block at every point, whether the pipeline fetched it there or kept it
    (its block index has not moved since the fetch), for any proof data whose array is `V`'s and whose body leaves the block in place. -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-- The output block after the body, from the input blocks: the body's one store, of its arithmetic on the blocks it loaded. -/
def out2_6 (x0 : Vec F S2000x64 .f32) (x1 : Vec F S2000x64 .f32) (x2 : Vec F S64x64 .f32) (x3 : Vec F S1x64 .f32) (x4 : Vec F S64x64 .f32) (x5 : Vec F S1x64 .f32) : Vec F S2000x64 .f32 :=
  View.canon [⟨(Rect.unit (s := S2000x64) ![0, 0] S2000x64.size inb_S2000x64_S2000x64_0_0), k2_pay1 (View.ld x0 (Rect.unit (s := S2000x64) ![0, 0] S2000x64.size inb_S2000x64_S2000x64_0_0)) (View.ld x1 (Rect.unit (s := S2000x64) ![0, 0] S2000x64.size inb_S2000x64_S2000x64_0_0)) (View.ld x2 (Rect.unit (s := S64x64) ![0, 0] S64x64.size inb_S64x64_S64x64_0_0)) (View.ld x3 (Rect.unit (s := S1x64) ![0, 0] S1x64.size inb_S1x64_S1x64_0_0)) (View.ld x4 (Rect.unit (s := S64x64) ![0, 0] S64x64.size inb_S64x64_S64x64_0_0)) (View.ld x5 (Rect.unit (s := S1x64) ![0, 0] S1x64.size inb_S1x64_S1x64_0_0))⟩]

/-- That store covers the block. -/
theorem cover2_6 (p0 : Vec F S2000x64 .f32) (y : S2000x64.Idx) :
    ∃ pc ∈ ([⟨(Rect.unit (s := S2000x64) ![0, 0] S2000x64.size inb_S2000x64_S2000x64_0_0), p0⟩] : List (View.Piece (Elt F) S2000x64 .f32)), y ∈ pc.1.set :=
  View.cover_of_tiled [⟨(Rect.unit (s := S2000x64) ![0, 0] S2000x64.size inb_S2000x64_S2000x64_0_0), p0⟩] S2000x64.size (by rfl) y

set_option maxHeartbeats 4000000 in
/-- The body on whole staging buffers, the input blocks at `x0 … x5` and the output block at anything, runs to its return
    with the input blocks as they were and the output block at `out2_6` of them. -/
theorem sound_kernel2 (c : Dev nD) (E : Set ℕ) (i : grid2.Coords) (arg1 : Memref sig .tc .vmem S2000x64 .f32) (harg1 : arg1.IsWhole) (arg2 : Memref sig .tc .vmem S2000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S2000x64 .f32) (harg7 : arg7.IsWhole)
    (x0 : Vec F S2000x64 .f32) (x1 : Vec F S2000x64 .f32) (x2 : Vec F S64x64 .f32) (x3 : Vec F S1x64 .f32) (x4 : Vec F S64x64 .f32) (x5 : Vec F S1x64 .f32) (Kc : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out2_6 x0 x1 x2 x3 x4 x5)) -∗ Kc ⟨⟩))
      ⊢ wp frame (wpE (defs₀ (F := F)) Variants.none c none) E (cc2__gin_mlp_kernel i arg1 harg1 arg2 harg2 arg3 harg3 arg4 harg4 arg5 harg5 arg6 harg6 arg7 harg7) Kc := by
  simp only [cc2__gin_mlp_kernel_eq_skeleton]; unfold cc2__gin_mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0
  subst hf1
  subst hf2
  subst hf3
  subst hf4
  subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover2_6 _)

/-- The proof data of launch 2 on core `c`: the arrays as the launch finds them; after the body at point `t` each input block
    as fetched and the output block at `out2_6` of them; the invariant is the buffers and the generator register the
    body never touches; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => out2_6 (iblk2 V c 0 t) (iblk2 V c 1 t) (iblk2 V c 2 t) (iblk2 V c 3 t) (iblk2 V c 4 t) (iblk2 V c 5 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = out2_6 (iblk2 V c 0 t) (iblk2 V c 1 t) (iblk2 V c 2 t) (iblk2 V c 3 t) (iblk2 V c 4 t) (iblk2 V c 5 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d

/-- What the body is called with at point `t`, window by window, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t))

/-- The body at any point: the input buffers hold their blocks, so `sound_kernel2` applies; the invariant and what the
    core owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel2 c Set.univ _ _ _ _ _ _ _ _ _ _ _ _ _ _ _ (iblk2 V c 0 t) (iblk2 V c 1 t) (iblk2 V c 2 t) (iblk2 V c 3 t) (iblk2 V c 4 t) (iblk2 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The pipeline's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Tiles

end
-- ==== Proof.IdealTile3.lean ====
/-
  Launch 3 of the program (one graph-convolution's two dense layers on a tile of 2000 nodes), entered with the
  TensorCore's buffers at any contents `V`: what each window's block is at a grid point, what the body leaves in the
  output block as a function of the 6 input blocks (the one store of the body's arithmetic `k3_pay1`, covering the
  block), the body's triple, and the proof data of the pipeline: after the body at point `t` every input block is as it
  was fetched and the output block holds that function of them. The body reads each input block whole, reads the output
  block once without using what it read, and overwrites the output block whole.
-/
import proofs.«169468_j20469814133013_1_alg».proof.Proof.Gen.KernelIdeal.Launch
import proofs.«169468_j20469814133013_1_alg».proof.Proof.Gen.KernelIdeal.Skeleton
import proofs.«169468_j20469814133013_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Tiles

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the launch finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's staging buffer holds its block at every point, whether the pipeline fetched it there or kept it
    (its block index has not moved since the fetch), for any proof data whose array is `V`'s and whose body leaves the block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's staging buffer holds its block at every point, whether the pipeline fetched it there or kept it
    (its block index has not moved since the fetch), for any proof data whose array is `V`'s and whose body leaves the block in place. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's staging buffer holds its block at every point, whether the pipeline fetched it there or kept it
    (its block index has not moved since the fetch), for any proof data whose array is `V`'s and whose body leaves the block in place. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- Input window 3's staging buffer holds its block at every point, whether the pipeline fetched it there or kept it
    (its block index has not moved since the fetch), for any proof data whose array is `V`'s and whose body leaves the block in place. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-- Input window 4's staging buffer holds its block at every point, whether the pipeline fetched it there or kept it
    (its block index has not moved since the fetch), for any proof data whose array is `V`'s and whose body leaves the block in place. -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

/-- Input window 5's staging buffer holds its block at every point, whether the pipeline fetched it there or kept it
    (its block index has not moved since the fetch), for any proof data whose array is `V`'s and whose body leaves the block in place. -/
theorem before3_5_of {c : Dev nD} (dat : Dat τ (Elt F) Unit ℕ (UR sig nD τ) ℕ cfg3 c) (hA : dat.A 5 = V c (Pipeline.arrRef spec3 5))
    (hafter : ∀ t, dat.after 5 t = iblk3 V c 5 t) (t : Fin cfg3.N) (d) : dat.before 5 t d = iblk3 V c 5 t :=
  (dat.before_in_eq_fetched 5 rfl (fun _ => rfl) (fun _ _ _ => rfl) (fun t => by rw [hafter]; unfold Dat.blockOf iblk3; rw [hA]; try rfl) t d).trans
    (by unfold Dat.fetched Dat.blockOf iblk3; rw [hA]; try rfl)

/-- The output block after the body, from the input blocks: the body's one store, of its arithmetic on the blocks it loaded. -/
def out3_6 (x0 : Vec F S2000x64 .f32) (x1 : Vec F S2000x64 .f32) (x2 : Vec F S64x64 .f32) (x3 : Vec F S1x64 .f32) (x4 : Vec F S64x64 .f32) (x5 : Vec F S1x64 .f32) : Vec F S2000x64 .f32 :=
  View.canon [⟨(Rect.unit (s := S2000x64) ![0, 0] S2000x64.size inb_S2000x64_S2000x64_0_0), k3_pay1 (View.ld x0 (Rect.unit (s := S2000x64) ![0, 0] S2000x64.size inb_S2000x64_S2000x64_0_0)) (View.ld x1 (Rect.unit (s := S2000x64) ![0, 0] S2000x64.size inb_S2000x64_S2000x64_0_0)) (View.ld x2 (Rect.unit (s := S64x64) ![0, 0] S64x64.size inb_S64x64_S64x64_0_0)) (View.ld x3 (Rect.unit (s := S1x64) ![0, 0] S1x64.size inb_S1x64_S1x64_0_0)) (View.ld x4 (Rect.unit (s := S64x64) ![0, 0] S64x64.size inb_S64x64_S64x64_0_0)) (View.ld x5 (Rect.unit (s := S1x64) ![0, 0] S1x64.size inb_S1x64_S1x64_0_0))⟩]

/-- That store covers the block. -/
theorem cover3_6 (p0 : Vec F S2000x64 .f32) (y : S2000x64.Idx) :
    ∃ pc ∈ ([⟨(Rect.unit (s := S2000x64) ![0, 0] S2000x64.size inb_S2000x64_S2000x64_0_0), p0⟩] : List (View.Piece (Elt F) S2000x64 .f32)), y ∈ pc.1.set :=
  View.cover_of_tiled [⟨(Rect.unit (s := S2000x64) ![0, 0] S2000x64.size inb_S2000x64_S2000x64_0_0), p0⟩] S2000x64.size (by rfl) y

set_option maxHeartbeats 4000000 in
/-- The body on whole staging buffers, the input blocks at `x0 … x5` and the output block at anything, runs to its return
    with the input blocks as they were and the output block at `out3_6` of them. -/
theorem sound_kernel3 (c : Dev nD) (E : Set ℕ) (i : grid3.Coords) (arg1 : Memref sig .tc .vmem S2000x64 .f32) (harg1 : arg1.IsWhole) (arg2 : Memref sig .tc .vmem S2000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S2000x64 .f32) (harg7 : arg7.IsWhole)
    (x0 : Vec F S2000x64 .f32) (x1 : Vec F S2000x64 .f32) (x2 : Vec F S64x64 .f32) (x3 : Vec F S1x64 .f32) (x4 : Vec F S64x64 .f32) (x5 : Vec F S1x64 .f32) (Kc : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out3_6 x0 x1 x2 x3 x4 x5)) -∗ Kc ⟨⟩))
      ⊢ wp frame (wpE (defs₀ (F := F)) Variants.none c none) E (cc3__gin_mlp_kernel i arg1 harg1 arg2 harg2 arg3 harg3 arg4 harg4 arg5 harg5 arg6 harg6 arg7 harg7) Kc := by
  simp only [cc3__gin_mlp_kernel_eq_skeleton]; unfold cc3__gin_mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0
  subst hf1
  subst hf2
  subst hf3
  subst hf4
  subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover3_6 _)

/-- The proof data of launch 3 on core `c`: the arrays as the launch finds them; after the body at point `t` each input block
    as fetched and the output block at `out3_6` of them; the invariant is the buffers and the generator register the
    body never touches; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => out3_6 (iblk3 V c 0 t) (iblk3 V c 1 t) (iblk3 V c 2 t) (iblk3 V c 3 t) (iblk3 V c 4 t) (iblk3 V c 5 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t = out3_6 (iblk3 V c 0 t) (iblk3 V c 1 t) (iblk3 V c 2 t) (iblk3 V c 3 t) (iblk3 V c 4 t) (iblk3 V c 5 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d
theorem before3_5 (c : Dev nD) (t : Fin cfg3.N) (d) : (dat3 V c).before 5 t d = iblk3 V c 5 t :=
  before3_5_of V (dat3 V c) (A_eq3 V c 5) (after3_5 V c) t d

/-- What the body is called with at point `t`, window by window, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t))

/-- The body at any point: the input buffers hold their blocks, so `sound_kernel3` applies; the invariant and what the
    core owes pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5]
  rw [show (dat3 V c).Φ t.succ = (dat3 V c).Φ t.castSucc from rfl,
    show (dat3 V c).owesAt () t.succ = (dat3 V c).owesAt () t.castSucc from rfl,
    after3_0, after3_1, after3_2, after3_3, after3_4, after3_5, after3_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel3 c Set.univ _ _ _ _ _ _ _ _ _ _ _ _ _ _ _ (iblk3 V c 0 t) (iblk3 V c 1 t) (iblk3 V c 2 t) (iblk3 V c 3 t) (iblk3 V c 4 t) (iblk3 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The pipeline's body obligation, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Tiles

end
-- ==== Proof.IdealTile4.lean ====
/-
  Launch 4 of the program (one graph-convolution's two dense layers on a tile of 2000 nodes), entered with the
  TensorCore's buffers at any contents `V`: what each window's block is at a grid point, what the body leaves in the
  output block as a function of the 6 input blocks (the one store of the body's arithmetic `k4_pay1`, covering the
  block), the body's triple, and the proof data of the pipeline: after the body at point `t` every input block is as it
  was fetched and the output block holds that function of them. The body reads each input block whole, reads the output
  block once without using what it read, and overwrites the output block whole.
-/
import proofs.«169468_j20469814133013_1_alg».proof.Proof.Gen.KernelIdeal.Launch
import proofs.«169468_j20469814133013_1_alg».proof.Proof.Gen.KernelIdeal.Skeleton
import proofs.«169468_j20469814133013_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Tiles

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the launch finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's staging buffer holds its block at every point, whether the pipeline fetched it there or kept it
    (its block index has not moved since the fetch), for any proof data whose array is `V`'s and whose body leaves the block in place. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- Input window 1's staging buffer holds its block at every point, whether the pipeline fetched it there or kept it
    (its block index has not moved since the fetch), for any proof data whose array is `V`'s and whose body leaves the block in place. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- Input window 2's staging buffer holds its block at every point, whether the pipeline fetched it there or kept it
    (its block index has not moved since the fetch), for any proof data whose array is `V`'s and whose body leaves the block in place. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-- Input window 3's staging buffer holds its block at every point, whether the pipeline fetched it there or kept it
    (its block index has not moved since the fetch), for any proof data whose array is `V`'s and whose body leaves the block in place. -/
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

/-- Input window 4's staging buffer holds its block at every point, whether the pipeline fetched it there or kept it
    (its block index has not moved since the fetch), for any proof data whose array is `V`'s and whose body leaves the block in place. -/
theorem before4_4_of {c : Dev nD} (dat : Dat τ (Elt F) Unit ℕ (UR sig nD τ) ℕ cfg4 c) (hA : dat.A 4 = V c (Pipeline.arrRef spec4 4))
    (hafter : ∀ t, dat.after 4 t = iblk4 V c 4 t) (t : Fin cfg4.N) (d) : dat.before 4 t d = iblk4 V c 4 t :=
  (dat.before_in_eq_fetched 4 rfl (fun _ => rfl) (fun _ _ _ => rfl) (fun t => by rw [hafter]; unfold Dat.blockOf iblk4; rw [hA]; try rfl) t d).trans
    (by unfold Dat.fetched Dat.blockOf iblk4; rw [hA]; try rfl)

/-- Input window 5's staging buffer holds its block at every point, whether the pipeline fetched it there or kept it
    (its block index has not moved since the fetch), for any proof data whose array is `V`'s and whose body leaves the block in place. -/
theorem before4_5_of {c : Dev nD} (dat : Dat τ (Elt F) Unit ℕ (UR sig nD τ) ℕ cfg4 c) (hA : dat.A 5 = V c (Pipeline.arrRef spec4 5))
    (hafter : ∀ t, dat.after 5 t = iblk4 V c 5 t) (t : Fin cfg4.N) (d) : dat.before 5 t d = iblk4 V c 5 t :=
  (dat.before_in_eq_fetched 5 rfl (fun _ => rfl) (fun _ _ _ => rfl) (fun t => by rw [hafter]; unfold Dat.blockOf iblk4; rw [hA]; try rfl) t d).trans
    (by unfold Dat.fetched Dat.blockOf iblk4; rw [hA]; try rfl)

/-- The output block after the body, from the input blocks: the body's one store, of its arithmetic on the blocks it loaded. -/
def out4_6 (x0 : Vec F S2000x64 .f32) (x1 : Vec F S2000x64 .f32) (x2 : Vec F S64x64 .f32) (x3 : Vec F S1x64 .f32) (x4 : Vec F S64x64 .f32) (x5 : Vec F S1x64 .f32) : Vec F S2000x64 .f32 :=
  View.canon [⟨(Rect.unit (s := S2000x64) ![0, 0] S2000x64.size inb_S2000x64_S2000x64_0_0), k4_pay1 (View.ld x0 (Rect.unit (s := S2000x64) ![0, 0] S2000x64.size inb_S2000x64_S2000x64_0_0)) (View.ld x1 (Rect.unit (s := S2000x64) ![0, 0] S2000x64.size inb_S2000x64_S2000x64_0_0)) (View.ld x2 (Rect.unit (s := S64x64) ![0, 0] S64x64.size inb_S64x64_S64x64_0_0)) (View.ld x3 (Rect.unit (s := S1x64) ![0, 0] S1x64.size inb_S1x64_S1x64_0_0)) (View.ld x4 (Rect.unit (s := S64x64) ![0, 0] S64x64.size inb_S64x64_S64x64_0_0)) (View.ld x5 (Rect.unit (s := S1x64) ![0, 0] S1x64.size inb_S1x64_S1x64_0_0))⟩]

/-- That store covers the block. -/
theorem cover4_6 (p0 : Vec F S2000x64 .f32) (y : S2000x64.Idx) :
    ∃ pc ∈ ([⟨(Rect.unit (s := S2000x64) ![0, 0] S2000x64.size inb_S2000x64_S2000x64_0_0), p0⟩] : List (View.Piece (Elt F) S2000x64 .f32)), y ∈ pc.1.set :=
  View.cover_of_tiled [⟨(Rect.unit (s := S2000x64) ![0, 0] S2000x64.size inb_S2000x64_S2000x64_0_0), p0⟩] S2000x64.size (by rfl) y

set_option maxHeartbeats 4000000 in
/-- The body on whole staging buffers, the input blocks at `x0 … x5` and the output block at anything, runs to its return
    with the input blocks as they were and the output block at `out4_6` of them. -/
theorem sound_kernel4 (c : Dev nD) (E : Set ℕ) (i : grid4.Coords) (arg1 : Memref sig .tc .vmem S2000x64 .f32) (harg1 : arg1.IsWhole) (arg2 : Memref sig .tc .vmem S2000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S2000x64 .f32) (harg7 : arg7.IsWhole)
    (x0 : Vec F S2000x64 .f32) (x1 : Vec F S2000x64 .f32) (x2 : Vec F S64x64 .f32) (x3 : Vec F S1x64 .f32) (x4 : Vec F S64x64 .f32) (x5 : Vec F S1x64 .f32) (Kc : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out4_6 x0 x1 x2 x3 x4 x5)) -∗ Kc ⟨⟩))
      ⊢ wp frame (wpE (defs₀ (F := F)) Variants.none c none) E (cc4__gin_mlp_kernel i arg1 harg1 arg2 harg2 arg3 harg3 arg4 harg4 arg5 harg5 arg6 harg6 arg7 harg7) Kc := by
  simp only [cc4__gin_mlp_kernel_eq_skeleton]; unfold cc4__gin_mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0
  subst hf1
  subst hf2
  subst hf3
  subst hf4
  subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover4_6 _)

/-- The proof data of launch 4 on core `c`: the arrays as the launch finds them; after the body at point `t` each input block
    as fetched and the output block at `out4_6` of them; the invariant is the buffers and the generator register the
    body never touches; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => iblk4 V c 5 t
    | ⟨6, _⟩ => out4_6 (iblk4 V c 0 t) (iblk4 V c 1 t) (iblk4 V c 2 t) (iblk4 V c 3 t) (iblk4 V c 4 t) (iblk4 V c 5 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t = iblk4 V c 5 t := by dsimp only [dat4]
theorem after4_6 (c : Dev nD) (t : Fin cfg4.N) : (dat4 V c).after 6 t = out4_6 (iblk4 V c 0 t) (iblk4 V c 1 t) (iblk4 V c 2 t) (iblk4 V c 3 t) (iblk4 V c 4 t) (iblk4 V c 5 t) := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d
theorem before4_4 (c : Dev nD) (t : Fin cfg4.N) (d) : (dat4 V c).before 4 t d = iblk4 V c 4 t :=
  before4_4_of V (dat4 V c) (A_eq4 V c 4) (after4_4 V c) t d
theorem before4_5 (c : Dev nD) (t : Fin cfg4.N) (d) : (dat4 V c).before 5 t d = iblk4 V c 5 t :=
  before4_5_of V (dat4 V c) (A_eq4 V c 5) (after4_5 V c) t d

/-- What the body is called with at point `t`, window by window, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d))
    ∗ (∃ d, owns (c : Thread nD τ) (st4_6 t) fullShare ((dat4 V c).before 6 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t)
    ∗ owns (c : Thread nD τ) (st4_5 t) fullShare ((dat4 V c).after 5 t)
    ∗ owns (c : Thread nD τ) (st4_6 t) fullShare ((dat4 V c).after 6 t))

/-- The body at any point: the input buffers hold their blocks, so `sound_kernel4` applies; the invariant and what the
    core owes pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4, before4_5]
  rw [show (dat4 V c).Φ t.succ = (dat4 V c).Φ t.castSucc from rfl,
    show (dat4 V c).owesAt () t.succ = (dat4 V c).owesAt () t.castSucc from rfl,
    after4_0, after4_1, after4_2, after4_3, after4_4, after4_5, after4_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel4 c Set.univ _ _ _ _ _ _ _ _ _ _ _ _ _ _ _ (iblk4 V c 0 t) (iblk4 V c 1 t) (iblk4 V c 2 t) (iblk4 V c 3 t) (iblk4 V c 4 t) (iblk4 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The pipeline's body obligation, at every point. -/
theorem body_obligation4 (c : Dev nD) : BodyObligation (dat4 (F := F) V c) (defs₀ (F := F)) Variants.none () Set.univ := fun t => by
  rw [bigSep_W4, bigSep_W4]
  exact sound_body4 V c t

end Cert.KernelIdeal.Tiles

end
-- ==== Proof.IdealTile5.lean ====
/-
  Launch 5 of the program (one graph-convolution's two dense layers on a tile of 2000 nodes), entered with the
  TensorCore's buffers at any contents `V`: what each window's block is at a grid point, what the body leaves in the
  output block as a function of the 6 input blocks (the one store of the body's arithmetic `k5_pay1`, covering the
  block), the body's triple, and the proof data of the pipeline: after the body at point `t` every input block is as it
  was fetched and the output block holds that function of them. The body reads each input block whole, reads the output
  block once without using what it read, and overwrites the output block whole.
-/
import proofs.«169468_j20469814133013_1_alg».proof.Proof.Gen.KernelIdeal.Launch
import proofs.«169468_j20469814133013_1_alg».proof.Proof.Gen.KernelIdeal.Skeleton
import proofs.«169468_j20469814133013_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Tiles

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the launch finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0's staging buffer holds its block at every point, whether the pipeline fetched it there or kept it
    (its block index has not moved since the fetch), for any proof data whose array is `V`'s and whose body leaves the block in place. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- Input window 1's staging buffer holds its block at every point, whether the pipeline fetched it there or kept it
    (its block index has not moved since the fetch), for any proof data whose array is `V`'s and whose body leaves the block in place. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-- Input window 2's staging buffer holds its block at every point, whether the pipeline fetched it there or kept it
    (its block index has not moved since the fetch), for any proof data whose array is `V`'s and whose body leaves the block in place. -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-- Input window 3's staging buffer holds its block at every point, whether the pipeline fetched it there or kept it
    (its block index has not moved since the fetch), for any proof data whose array is `V`'s and whose body leaves the block in place. -/
theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)

/-- Input window 4's staging buffer holds its block at every point, whether the pipeline fetched it there or kept it
    (its block index has not moved since the fetch), for any proof data whose array is `V`'s and whose body leaves the block in place. -/
theorem before5_4_of {c : Dev nD} (dat : Dat τ (Elt F) Unit ℕ (UR sig nD τ) ℕ cfg5 c) (hA : dat.A 4 = V c (Pipeline.arrRef spec5 4))
    (hafter : ∀ t, dat.after 4 t = iblk5 V c 4 t) (t : Fin cfg5.N) (d) : dat.before 4 t d = iblk5 V c 4 t :=
  (dat.before_in_eq_fetched 4 rfl (fun _ => rfl) (fun _ _ _ => rfl) (fun t => by rw [hafter]; unfold Dat.blockOf iblk5; rw [hA]; try rfl) t d).trans
    (by unfold Dat.fetched Dat.blockOf iblk5; rw [hA]; try rfl)

/-- Input window 5's staging buffer holds its block at every point, whether the pipeline fetched it there or kept it
    (its block index has not moved since the fetch), for any proof data whose array is `V`'s and whose body leaves the block in place. -/
theorem before5_5_of {c : Dev nD} (dat : Dat τ (Elt F) Unit ℕ (UR sig nD τ) ℕ cfg5 c) (hA : dat.A 5 = V c (Pipeline.arrRef spec5 5))
    (hafter : ∀ t, dat.after 5 t = iblk5 V c 5 t) (t : Fin cfg5.N) (d) : dat.before 5 t d = iblk5 V c 5 t :=
  (dat.before_in_eq_fetched 5 rfl (fun _ => rfl) (fun _ _ _ => rfl) (fun t => by rw [hafter]; unfold Dat.blockOf iblk5; rw [hA]; try rfl) t d).trans
    (by unfold Dat.fetched Dat.blockOf iblk5; rw [hA]; try rfl)

/-- The output block after the body, from the input blocks: the body's one store, of its arithmetic on the blocks it loaded. -/
def out5_6 (x0 : Vec F S2000x64 .f32) (x1 : Vec F S2000x64 .f32) (x2 : Vec F S64x64 .f32) (x3 : Vec F S1x64 .f32) (x4 : Vec F S64x64 .f32) (x5 : Vec F S1x64 .f32) : Vec F S2000x64 .f32 :=
  View.canon [⟨(Rect.unit (s := S2000x64) ![0, 0] S2000x64.size inb_S2000x64_S2000x64_0_0), k5_pay1 (View.ld x0 (Rect.unit (s := S2000x64) ![0, 0] S2000x64.size inb_S2000x64_S2000x64_0_0)) (View.ld x1 (Rect.unit (s := S2000x64) ![0, 0] S2000x64.size inb_S2000x64_S2000x64_0_0)) (View.ld x2 (Rect.unit (s := S64x64) ![0, 0] S64x64.size inb_S64x64_S64x64_0_0)) (View.ld x3 (Rect.unit (s := S1x64) ![0, 0] S1x64.size inb_S1x64_S1x64_0_0)) (View.ld x4 (Rect.unit (s := S64x64) ![0, 0] S64x64.size inb_S64x64_S64x64_0_0)) (View.ld x5 (Rect.unit (s := S1x64) ![0, 0] S1x64.size inb_S1x64_S1x64_0_0))⟩]

/-- That store covers the block. -/
theorem cover5_6 (p0 : Vec F S2000x64 .f32) (y : S2000x64.Idx) :
    ∃ pc ∈ ([⟨(Rect.unit (s := S2000x64) ![0, 0] S2000x64.size inb_S2000x64_S2000x64_0_0), p0⟩] : List (View.Piece (Elt F) S2000x64 .f32)), y ∈ pc.1.set :=
  View.cover_of_tiled [⟨(Rect.unit (s := S2000x64) ![0, 0] S2000x64.size inb_S2000x64_S2000x64_0_0), p0⟩] S2000x64.size (by rfl) y

set_option maxHeartbeats 4000000 in
/-- The body on whole staging buffers, the input blocks at `x0 … x5` and the output block at anything, runs to its return
    with the input blocks as they were and the output block at `out5_6` of them. -/
theorem sound_kernel5 (c : Dev nD) (E : Set ℕ) (i : grid5.Coords) (arg1 : Memref sig .tc .vmem S2000x64 .f32) (harg1 : arg1.IsWhole) (arg2 : Memref sig .tc .vmem S2000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S2000x64 .f32) (harg7 : arg7.IsWhole)
    (x0 : Vec F S2000x64 .f32) (x1 : Vec F S2000x64 .f32) (x2 : Vec F S64x64 .f32) (x3 : Vec F S1x64 .f32) (x4 : Vec F S64x64 .f32) (x5 : Vec F S1x64 .f32) (Kc : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out5_6 x0 x1 x2 x3 x4 x5)) -∗ Kc ⟨⟩))
      ⊢ wp frame (wpE (defs₀ (F := F)) Variants.none c none) E (cc5__gin_mlp_kernel i arg1 harg1 arg2 harg2 arg3 harg3 arg4 harg4 arg5 harg5 arg6 harg6 arg7 harg7) Kc := by
  simp only [cc5__gin_mlp_kernel_eq_skeleton]; unfold cc5__gin_mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0
  subst hf1
  subst hf2
  subst hf3
  subst hf4
  subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover5_6 _)

/-- The proof data of launch 5 on core `c`: the arrays as the launch finds them; after the body at point `t` each input block
    as fetched and the output block at `out5_6` of them; the invariant is the buffers and the generator register the
    body never touches; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => iblk5 V c 5 t
    | ⟨6, _⟩ => out5_6 (iblk5 V c 0 t) (iblk5 V c 1 t) (iblk5 V c 2 t) (iblk5 V c 3 t) (iblk5 V c 4 t) (iblk5 V c 5 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t = iblk5 V c 5 t := by dsimp only [dat5]
theorem after5_6 (c : Dev nD) (t : Fin cfg5.N) : (dat5 V c).after 6 t = out5_6 (iblk5 V c 0 t) (iblk5 V c 1 t) (iblk5 V c 2 t) (iblk5 V c 3 t) (iblk5 V c 4 t) (iblk5 V c 5 t) := by dsimp only [dat5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d
theorem before5_4 (c : Dev nD) (t : Fin cfg5.N) (d) : (dat5 V c).before 4 t d = iblk5 V c 4 t :=
  before5_4_of V (dat5 V c) (A_eq5 V c 4) (after5_4 V c) t d
theorem before5_5 (c : Dev nD) (t : Fin cfg5.N) (d) : (dat5 V c).before 5 t d = iblk5 V c 5 t :=
  before5_5_of V (dat5 V c) (A_eq5 V c 5) (after5_5 V c) t d

/-- What the body is called with at point `t`, window by window, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d))
    ∗ (∃ d, owns (c : Thread nD τ) (st5_6 t) fullShare ((dat5 V c).before 6 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t)
    ∗ owns (c : Thread nD τ) (st5_6 t) fullShare ((dat5 V c).after 6 t))

/-- The body at any point: the input buffers hold their blocks, so `sound_kernel5` applies; the invariant and what the
    core owes pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4, before5_5]
  rw [show (dat5 V c).Φ t.succ = (dat5 V c).Φ t.castSucc from rfl,
    show (dat5 V c).owesAt () t.succ = (dat5 V c).owesAt () t.castSucc from rfl,
    after5_0, after5_1, after5_2, after5_3, after5_4, after5_5, after5_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel5 c Set.univ _ _ _ _ _ _ _ _ _ _ _ _ _ _ _ (iblk5 V c 0 t) (iblk5 V c 1 t) (iblk5 V c 2 t) (iblk5 V c 3 t) (iblk5 V c 4 t) (iblk5 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The pipeline's body obligation, at every point. -/
theorem body_obligation5 (c : Dev nD) : BodyObligation (dat5 (F := F) V c) (defs₀ (F := F)) Variants.none () Set.univ := fun t => by
  rw [bigSep_W5, bigSep_W5]
  exact sound_body5 V c t

end Cert.KernelIdeal.Tiles

end
-- ==== Proof.IdealTile6.lean ====
/-
  Launch 6 of the program (the output projection on a tile of 2000 nodes), entered with the
  TensorCore's buffers at any contents `V`: what each window's block is at a grid point, what the body leaves in the
  output block as a function of the 3 input blocks (the one store of the body's arithmetic `k6_pay1`, covering the
  block), the body's triple, and the proof data of the pipeline: after the body at point `t` every input block is as it
  was fetched and the output block holds that function of them. The body reads each input block whole, reads the output
  block once without using what it read, and overwrites the output block whole.
-/
import proofs.«169468_j20469814133013_1_alg».proof.Proof.Gen.KernelIdeal.Launch
import proofs.«169468_j20469814133013_1_alg».proof.Proof.Gen.KernelIdeal.Skeleton
import proofs.«169468_j20469814133013_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Tiles

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the launch finds it. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- Input window 0's staging buffer holds its block at every point, whether the pipeline fetched it there or kept it
    (its block index has not moved since the fetch), for any proof data whose array is `V`'s and whose body leaves the block in place. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

/-- Input window 1's staging buffer holds its block at every point, whether the pipeline fetched it there or kept it
    (its block index has not moved since the fetch), for any proof data whose array is `V`'s and whose body leaves the block in place. -/
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

/-- Input window 2's staging buffer holds its block at every point, whether the pipeline fetched it there or kept it
    (its block index has not moved since the fetch), for any proof data whose array is `V`'s and whose body leaves the block in place. -/
theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)

/-- The output block after the body, from the input blocks: the body's one store, of its arithmetic on the blocks it loaded. -/
def out6_3 (x0 : Vec F S2000x192 .f32) (x1 : Vec F S192x64 .f32) (x2 : Vec F S1x64 .f32) : Vec F S2000x64 .f32 :=
  View.canon [⟨(Rect.unit (s := S2000x64) ![0, 0] S2000x64.size inb_S2000x64_S2000x64_0_0), k6_pay1 (View.ld x0 (Rect.unit (s := S2000x192) ![0, 0] S2000x192.size inb_S2000x192_S2000x192_0_0)) (View.ld x1 (Rect.unit (s := S192x64) ![0, 0] S192x64.size inb_S192x64_S192x64_0_0)) (View.ld x2 (Rect.unit (s := S1x64) ![0, 0] S1x64.size inb_S1x64_S1x64_0_0))⟩]

/-- That store covers the block. -/
theorem cover6_3 (p0 : Vec F S2000x64 .f32) (y : S2000x64.Idx) :
    ∃ pc ∈ ([⟨(Rect.unit (s := S2000x64) ![0, 0] S2000x64.size inb_S2000x64_S2000x64_0_0), p0⟩] : List (View.Piece (Elt F) S2000x64 .f32)), y ∈ pc.1.set :=
  View.cover_of_tiled [⟨(Rect.unit (s := S2000x64) ![0, 0] S2000x64.size inb_S2000x64_S2000x64_0_0), p0⟩] S2000x64.size (by rfl) y

set_option maxHeartbeats 4000000 in
/-- The body on whole staging buffers, the input blocks at `x0 … x2` and the output block at anything, runs to its return
    with the input blocks as they were and the output block at `out6_3` of them. -/
theorem sound_kernel6 (c : Dev nD) (E : Set ℕ) (i : grid6.Coords) (arg1 : Memref sig .tc .vmem S2000x192 .f32) (harg1 : arg1.IsWhole) (arg2 : Memref sig .tc .vmem S192x64 .f32) (harg2 : arg2.IsWhole) (arg3 : Memref sig .tc .vmem S1x64 .f32) (harg3 : arg3.IsWhole) (arg4 : Memref sig .tc .vmem S2000x64 .f32) (harg4 : arg4.IsWhole)
    (x0 : Vec F S2000x192 .f32) (x1 : Vec F S192x64 .f32) (x2 : Vec F S1x64 .f32) (Kc : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out6_3 x0 x1 x2)) -∗ Kc ⟨⟩))
      ⊢ wp frame (wpE (defs₀ (F := F)) Variants.none c none) E (cc6__final_kernel i arg1 harg1 arg2 harg2 arg3 harg3 arg4 harg4) Kc := by
  simp only [cc6__final_kernel_eq_skeleton]; unfold cc6__final_kernel_skel
  unfold owns
  iintro ⟨⟨%f0, %hf0, H0⟩, ⟨%f1, %hf1, H1⟩, ⟨%f2, %hf2, H2⟩, ⟨%d3, %f3, -, H3⟩, Hk⟩
  subst hf0
  subst hf1
  subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover6_3 _)

/-- The proof data of launch 6 on core `c`: the arrays as the launch finds them; after the body at point `t` each input block
    as fetched and the output block at `out6_3` of them; the invariant is the buffers and the generator register the
    body never touches; nothing owed; full shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => out6_3 (iblk6 V c 0 t) (iblk6 V c 1 t) (iblk6 V c 2 t)
  Φ _ := Pipeline.ΦA spec6 c
  q _ := fullShare
  owed _ := 0

theorem A_eq6 (c : Dev nD) (w : Fin cfg6.W) : (dat6 V c).A w = V c (Pipeline.arrRef spec6 w) := by
  dsimp only [dat6]

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = out6_3 (iblk6 V c 0 t) (iblk6 V c 1 t) (iblk6 V c 2 t) := by dsimp only [dat6]

theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d

/-- What the body is called with at point `t`, window by window, -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d)))

/-- and what it returns. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t))

/-- The body at any point: the input buffers hold their blocks, so `sound_kernel6` applies; the invariant and what the
    core owes pass through unread. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2]
  rw [show (dat6 V c).Φ t.succ = (dat6 V c).Φ t.castSucc from rfl,
    show (dat6 V c).owesAt () t.succ = (dat6 V c).owesAt () t.castSucc from rfl,
    after6_0, after6_1, after6_2, after6_3]
  iintro ⟨HΦ, Ho, ⟨%d0, H0⟩, ⟨%d1, H1⟩, ⟨%d2, H2⟩, ⟨%d3, H3⟩⟩
  iapply (sound_kernel6 c Set.univ _ _ _ _ _ _ _ _ _ (iblk6 V c 0 t) (iblk6 V c 1 t) (iblk6 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem body_obligation6 (c : Dev nD) : BodyObligation (dat6 (F := F) V c) (defs₀ (F := F)) Variants.none () Set.univ := fun t => by
  rw [bigSep_W6, bigSep_W6]
  exact sound_body6 V c t

end Cert.KernelIdeal.Tiles

end
-- ==== Proof.IdealLaunches.lean ====
/-
  The program's seven launches in sequence. Between two items of the program the TensorCore's buffers hold: the launch
  memory, then what each stretch of host operations computes from what it finds, then — after a launch — the same
  contents with the launch's result array replaced by what its pipeline writes back over its 25 tiles of 2000 nodes.
  Each launch is entered from the contents the stretch before it left and gives its input arrays back unchanged; every
  argument array therefore ends as launched.
-/
import proofs.«169468_j20469814133013_1_alg».proof.Proof.Gen.KernelIdeal.Regions
import proofs.«169468_j20469814133013_1_alg».proof.Proof.IdealTile0
import proofs.«169468_j20469814133013_1_alg».proof.Proof.IdealTile1
import proofs.«169468_j20469814133013_1_alg».proof.Proof.IdealTile2
import proofs.«169468_j20469814133013_1_alg».proof.Proof.IdealTile3
import proofs.«169468_j20469814133013_1_alg».proof.Proof.IdealTile4
import proofs.«169468_j20469814133013_1_alg».proof.Proof.IdealTile5
import proofs.«169468_j20469814133013_1_alg».proof.Proof.IdealTile6

set_option maxRecDepth 16384

noncomputable section

namespace Cert.KernelIdeal.Tiles

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffers' contents between items -/

/-- After the first stretch of host operations. -/
abbrev U1 (c : Dev nD) : Valuation τ sig (Elt F) := StableHlo.after hostOps0 (fun b => m (c, b))
/-- The same, read at the TensorCore's references. -/
abbrev T1 : (c : Dev nD) → (b : Ref sig .tc) → Buf (Elt F) ((c : Thread nD τ).loc b) := fun c b => U1 m c b
/-- What launch 0 writes back into its result array over the whole grid. -/
def o2 (c : Dev nD) : Buf (Elt F) ((c : Thread nD τ).loc main_v16) := (dat0 (T1 m) c).arrAt 6 cfg0.N
/-- After launch 0: its result array replaced, every other buffer as it was. -/
abbrev U2 (c : Dev nD) : Valuation τ sig (Elt F) := Function.update (U1 m c) main_v16 (o2 m c)
abbrev T2 : (c : Dev nD) → (b : Ref sig .tc) → Buf (Elt F) ((c : Thread nD τ).loc b) := fun c b => U2 m c b
/-- After the next stretch of host operations. -/
abbrev U3 (c : Dev nD) : Valuation τ sig (Elt F) := StableHlo.after hostOps1 (U2 m c)
abbrev T3 : (c : Dev nD) → (b : Ref sig .tc) → Buf (Elt F) ((c : Thread nD τ).loc b) := fun c b => U3 m c b
/-- What launch 1 writes back into its result array over the whole grid. -/
def o4 (c : Dev nD) : Buf (Elt F) ((c : Thread nD τ).loc main_v29) := (dat1 (T3 m) c).arrAt 6 cfg1.N
/-- After launch 1: its result array replaced, every other buffer as it was. -/
abbrev U4 (c : Dev nD) : Valuation τ sig (Elt F) := Function.update (U3 m c) main_v29 (o4 m c)
abbrev T4 : (c : Dev nD) → (b : Ref sig .tc) → Buf (Elt F) ((c : Thread nD τ).loc b) := fun c b => U4 m c b
/-- After the next stretch of host operations. -/
abbrev U5 (c : Dev nD) : Valuation τ sig (Elt F) := StableHlo.after hostOps2 (U4 m c)
abbrev T5 : (c : Dev nD) → (b : Ref sig .tc) → Buf (Elt F) ((c : Thread nD τ).loc b) := fun c b => U5 m c b
/-- What launch 2 writes back into its result array over the whole grid. -/
def o6 (c : Dev nD) : Buf (Elt F) ((c : Thread nD τ).loc main_v42) := (dat2 (T5 m) c).arrAt 6 cfg2.N
/-- After launch 2: its result array replaced, every other buffer as it was. -/
abbrev U6 (c : Dev nD) : Valuation τ sig (Elt F) := Function.update (U5 m c) main_v42 (o6 m c)
abbrev T6 : (c : Dev nD) → (b : Ref sig .tc) → Buf (Elt F) ((c : Thread nD τ).loc b) := fun c b => U6 m c b
/-- After the next stretch of host operations. -/
abbrev U7 (c : Dev nD) : Valuation τ sig (Elt F) := StableHlo.after hostOps3 (U6 m c)
abbrev T7 : (c : Dev nD) → (b : Ref sig .tc) → Buf (Elt F) ((c : Thread nD τ).loc b) := fun c b => U7 m c b
/-- What launch 3 writes back into its result array over the whole grid. -/
def o8 (c : Dev nD) : Buf (Elt F) ((c : Thread nD τ).loc main_v55) := (dat3 (T7 m) c).arrAt 6 cfg3.N
/-- After launch 3: its result array replaced, every other buffer as it was. -/
abbrev U8 (c : Dev nD) : Valuation τ sig (Elt F) := Function.update (U7 m c) main_v55 (o8 m c)
abbrev T8 : (c : Dev nD) → (b : Ref sig .tc) → Buf (Elt F) ((c : Thread nD τ).loc b) := fun c b => U8 m c b
/-- After the next stretch of host operations. -/
abbrev U9 (c : Dev nD) : Valuation τ sig (Elt F) := StableHlo.after hostOps4 (U8 m c)
abbrev T9 : (c : Dev nD) → (b : Ref sig .tc) → Buf (Elt F) ((c : Thread nD τ).loc b) := fun c b => U9 m c b
/-- What launch 4 writes back into its result array over the whole grid. -/
def o10 (c : Dev nD) : Buf (Elt F) ((c : Thread nD τ).loc main_v68) := (dat4 (T9 m) c).arrAt 6 cfg4.N
/-- After launch 4: its result array replaced, every other buffer as it was. -/
abbrev U10 (c : Dev nD) : Valuation τ sig (Elt F) := Function.update (U9 m c) main_v68 (o10 m c)
abbrev T10 : (c : Dev nD) → (b : Ref sig .tc) → Buf (Elt F) ((c : Thread nD τ).loc b) := fun c b => U10 m c b
/-- After the next stretch of host operations. -/
abbrev U11 (c : Dev nD) : Valuation τ sig (Elt F) := StableHlo.after hostOps5 (U10 m c)
abbrev T11 : (c : Dev nD) → (b : Ref sig .tc) → Buf (Elt F) ((c : Thread nD τ).loc b) := fun c b => U11 m c b
/-- What launch 5 writes back into its result array over the whole grid. -/
def o12 (c : Dev nD) : Buf (Elt F) ((c : Thread nD τ).loc main_v81) := (dat5 (T11 m) c).arrAt 6 cfg5.N
/-- After launch 5: its result array replaced, every other buffer as it was. -/
abbrev U12 (c : Dev nD) : Valuation τ sig (Elt F) := Function.update (U11 m c) main_v81 (o12 m c)
abbrev T12 : (c : Dev nD) → (b : Ref sig .tc) → Buf (Elt F) ((c : Thread nD τ).loc b) := fun c b => U12 m c b
/-- After the next stretch of host operations. -/
abbrev U13 (c : Dev nD) : Valuation τ sig (Elt F) := StableHlo.after hostOps6 (U12 m c)
abbrev T13 : (c : Dev nD) → (b : Ref sig .tc) → Buf (Elt F) ((c : Thread nD τ).loc b) := fun c b => U13 m c b
/-- What launch 6 writes back into its result array over the whole grid. -/
def o14 (c : Dev nD) : Buf (Elt F) ((c : Thread nD τ).loc main_v84) := (dat6 (T13 m) c).arrAt 3 cfg6.N
/-- After launch 6: its result array replaced, every other buffer as it was. -/
abbrev U14 (c : Dev nD) : Valuation τ sig (Elt F) := Function.update (U13 m c) main_v84 (o14 m c)
abbrev T14 : (c : Dev nD) → (b : Ref sig .tc) → Buf (Elt F) ((c : Thread nD τ).loc b) := fun c b => U14 m c b

/-- What each launch leaves in the buffer it may change, as a family over the item numbers: the contents after that item. -/
def outs : Gen.Outs (F := F) := fun J r c =>
  if J = 2 then U2 m c r else if J = 4 then U4 m c r else if J = 6 then U6 m c r else if J = 8 then U8 m c r else if J = 10 then U10 m c r else if J = 12 then U12 m c r else if J = 14 then U14 m c r else m (c, r)

theorem outs_2 (r : Ref sig .tc) (c : Dev nD) : outs m 2 r c = U2 m c r := if_pos rfl
theorem outs_4 (r : Ref sig .tc) (c : Dev nD) : outs m 4 r c = U4 m c r := (if_neg (by decide)).trans <| if_pos rfl
theorem outs_6 (r : Ref sig .tc) (c : Dev nD) : outs m 6 r c = U6 m c r := (if_neg (by decide)).trans <| (if_neg (by decide)).trans <| if_pos rfl
theorem outs_8 (r : Ref sig .tc) (c : Dev nD) : outs m 8 r c = U8 m c r := (if_neg (by decide)).trans <| (if_neg (by decide)).trans <| (if_neg (by decide)).trans <| if_pos rfl
theorem outs_10 (r : Ref sig .tc) (c : Dev nD) : outs m 10 r c = U10 m c r := (if_neg (by decide)).trans <| (if_neg (by decide)).trans <| (if_neg (by decide)).trans <| (if_neg (by decide)).trans <| if_pos rfl
theorem outs_12 (r : Ref sig .tc) (c : Dev nD) : outs m 12 r c = U12 m c r := (if_neg (by decide)).trans <| (if_neg (by decide)).trans <| (if_neg (by decide)).trans <| (if_neg (by decide)).trans <| (if_neg (by decide)).trans <| if_pos rfl
theorem outs_14 (r : Ref sig .tc) (c : Dev nD) : outs m 14 r c = U14 m c r := (if_neg (by decide)).trans <| (if_neg (by decide)).trans <| (if_neg (by decide)).trans <| (if_neg (by decide)).trans <| (if_neg (by decide)).trans <| (if_neg (by decide)).trans <| if_pos rfl

/-! The contents the conditional frame is stated at are these. -/
theorem V1_eq (c : Dev nD) : Gen.V1 m c = U1 m c := rfl
theorem V2_eq (c : Dev nD) : Gen.V2 m (outs m) c = U2 m c := by
  rw [show Gen.V2 m (outs m) c = Function.update (Gen.V1 m c) (Proc.devRef .tc main_v16) (outs m 2 main_v16 c) from rfl, V1_eq, outs_2]
  exact congrArg (Function.update (U1 m c) (Proc.devRef .tc main_v16)) (Function.update_self _ _ _)
theorem V3_eq (c : Dev nD) : Gen.V3 m (outs m) c = U3 m c := congrArg (StableHlo.after hostOps1) (V2_eq m c)
theorem V4_eq (c : Dev nD) : Gen.V4 m (outs m) c = U4 m c := by
  rw [show Gen.V4 m (outs m) c = Function.update (Gen.V3 m (outs m) c) (Proc.devRef .tc main_v29) (outs m 4 main_v29 c) from rfl, V3_eq, outs_4]
  exact congrArg (Function.update (U3 m c) (Proc.devRef .tc main_v29)) (Function.update_self _ _ _)
theorem V5_eq (c : Dev nD) : Gen.V5 m (outs m) c = U5 m c := congrArg (StableHlo.after hostOps2) (V4_eq m c)
theorem V6_eq (c : Dev nD) : Gen.V6 m (outs m) c = U6 m c := by
  rw [show Gen.V6 m (outs m) c = Function.update (Gen.V5 m (outs m) c) (Proc.devRef .tc main_v42) (outs m 6 main_v42 c) from rfl, V5_eq, outs_6]
  exact congrArg (Function.update (U5 m c) (Proc.devRef .tc main_v42)) (Function.update_self _ _ _)
theorem V7_eq (c : Dev nD) : Gen.V7 m (outs m) c = U7 m c := congrArg (StableHlo.after hostOps3) (V6_eq m c)
theorem V8_eq (c : Dev nD) : Gen.V8 m (outs m) c = U8 m c := by
  rw [show Gen.V8 m (outs m) c = Function.update (Gen.V7 m (outs m) c) (Proc.devRef .tc main_v55) (outs m 8 main_v55 c) from rfl, V7_eq, outs_8]
  exact congrArg (Function.update (U7 m c) (Proc.devRef .tc main_v55)) (Function.update_self _ _ _)
theorem V9_eq (c : Dev nD) : Gen.V9 m (outs m) c = U9 m c := congrArg (StableHlo.after hostOps4) (V8_eq m c)
theorem V10_eq (c : Dev nD) : Gen.V10 m (outs m) c = U10 m c := by
  rw [show Gen.V10 m (outs m) c = Function.update (Gen.V9 m (outs m) c) (Proc.devRef .tc main_v68) (outs m 10 main_v68 c) from rfl, V9_eq, outs_10]
  exact congrArg (Function.update (U9 m c) (Proc.devRef .tc main_v68)) (Function.update_self _ _ _)
theorem V11_eq (c : Dev nD) : Gen.V11 m (outs m) c = U11 m c := congrArg (StableHlo.after hostOps5) (V10_eq m c)
theorem V12_eq (c : Dev nD) : Gen.V12 m (outs m) c = U12 m c := by
  rw [show Gen.V12 m (outs m) c = Function.update (Gen.V11 m (outs m) c) (Proc.devRef .tc main_v81) (outs m 12 main_v81 c) from rfl, V11_eq, outs_12]
  exact congrArg (Function.update (U11 m c) (Proc.devRef .tc main_v81)) (Function.update_self _ _ _)
theorem V13_eq (c : Dev nD) : Gen.V13 m (outs m) c = U13 m c := congrArg (StableHlo.after hostOps6) (V12_eq m c)
theorem V14_eq (c : Dev nD) : Gen.V14 m (outs m) c = U14 m c := by
  rw [show Gen.V14 m (outs m) c = Function.update (Gen.V13 m (outs m) c) (Proc.devRef .tc main_v84) (outs m 14 main_v84 c) from rfl, V13_eq, outs_14]
  exact congrArg (Function.update (U13 m c) (Proc.devRef .tc main_v84)) (Function.update_self _ _ _)

/-! ## What a launch leaves: its result array at the write-backs, everything else as entered -/
set_option maxHeartbeats 2000000 in
theorem hF0 (c : Dev nD) (w : Fin 7) : (dat0 (T1 m) c).arrAt w cfg0.N = T2 m c (Pipeline.arrRef spec0 w) := by
  match w with
  | ⟨0, _⟩ => exact ((dat0 (T1 m) c).arrAt_in 0 rfl _).trans ((A_eq0 (T1 m) c 0).trans (Function.update_of_ne (StableHlo.devRef_ne_of_ne (by decide) : (Proc.devRef .tc (Pipeline.arrRef spec0 0) : DevRef τ sig) ≠ Proc.devRef .tc main_v16) (o2 m c) (U1 m c)).symm)
  | ⟨1, _⟩ => exact ((dat0 (T1 m) c).arrAt_in 1 rfl _).trans ((A_eq0 (T1 m) c 1).trans (Function.update_of_ne (StableHlo.devRef_ne_of_ne (by decide) : (Proc.devRef .tc (Pipeline.arrRef spec0 1) : DevRef τ sig) ≠ Proc.devRef .tc main_v16) (o2 m c) (U1 m c)).symm)
  | ⟨2, _⟩ => exact ((dat0 (T1 m) c).arrAt_in 2 rfl _).trans ((A_eq0 (T1 m) c 2).trans (Function.update_of_ne (StableHlo.devRef_ne_of_ne (by decide) : (Proc.devRef .tc (Pipeline.arrRef spec0 2) : DevRef τ sig) ≠ Proc.devRef .tc main_v16) (o2 m c) (U1 m c)).symm)
  | ⟨3, _⟩ => exact ((dat0 (T1 m) c).arrAt_in 3 rfl _).trans ((A_eq0 (T1 m) c 3).trans (Function.update_of_ne (StableHlo.devRef_ne_of_ne (by decide) : (Proc.devRef .tc (Pipeline.arrRef spec0 3) : DevRef τ sig) ≠ Proc.devRef .tc main_v16) (o2 m c) (U1 m c)).symm)
  | ⟨4, _⟩ => exact ((dat0 (T1 m) c).arrAt_in 4 rfl _).trans ((A_eq0 (T1 m) c 4).trans (Function.update_of_ne (StableHlo.devRef_ne_of_ne (by decide) : (Proc.devRef .tc (Pipeline.arrRef spec0 4) : DevRef τ sig) ≠ Proc.devRef .tc main_v16) (o2 m c) (U1 m c)).symm)
  | ⟨5, _⟩ => exact ((dat0 (T1 m) c).arrAt_in 5 rfl _).trans ((A_eq0 (T1 m) c 5).trans (Function.update_of_ne (StableHlo.devRef_ne_of_ne (by decide) : (Proc.devRef .tc (Pipeline.arrRef spec0 5) : DevRef τ sig) ≠ Proc.devRef .tc main_v16) (o2 m c) (U1 m c)).symm)
  | ⟨6, _⟩ => exact (Function.update_self (Proc.devRef .tc main_v16 : DevRef τ sig) (o2 m c) (U1 m c)).symm
theorem hrest0 (c : Dev nD) : ∀ b, b ∉ Finset.univ.image (Pipeline.arrRef spec0) → T2 m c b = T1 m c b :=
  fun b hb => Function.update_of_ne (StableHlo.devRef_ne_of_ne fun e => hb (Finset.mem_image.mpr ⟨6, Finset.mem_univ _, e.symm⟩)) (o2 m c) (U1 m c)
set_option maxHeartbeats 2000000 in
theorem hF1 (c : Dev nD) (w : Fin 7) : (dat1 (T3 m) c).arrAt w cfg1.N = T4 m c (Pipeline.arrRef spec1 w) := by
  match w with
  | ⟨0, _⟩ => exact ((dat1 (T3 m) c).arrAt_in 0 rfl _).trans ((A_eq1 (T3 m) c 0).trans (Function.update_of_ne (StableHlo.devRef_ne_of_ne (by decide) : (Proc.devRef .tc (Pipeline.arrRef spec1 0) : DevRef τ sig) ≠ Proc.devRef .tc main_v29) (o4 m c) (U3 m c)).symm)
  | ⟨1, _⟩ => exact ((dat1 (T3 m) c).arrAt_in 1 rfl _).trans ((A_eq1 (T3 m) c 1).trans (Function.update_of_ne (StableHlo.devRef_ne_of_ne (by decide) : (Proc.devRef .tc (Pipeline.arrRef spec1 1) : DevRef τ sig) ≠ Proc.devRef .tc main_v29) (o4 m c) (U3 m c)).symm)
  | ⟨2, _⟩ => exact ((dat1 (T3 m) c).arrAt_in 2 rfl _).trans ((A_eq1 (T3 m) c 2).trans (Function.update_of_ne (StableHlo.devRef_ne_of_ne (by decide) : (Proc.devRef .tc (Pipeline.arrRef spec1 2) : DevRef τ sig) ≠ Proc.devRef .tc main_v29) (o4 m c) (U3 m c)).symm)
  | ⟨3, _⟩ => exact ((dat1 (T3 m) c).arrAt_in 3 rfl _).trans ((A_eq1 (T3 m) c 3).trans (Function.update_of_ne (StableHlo.devRef_ne_of_ne (by decide) : (Proc.devRef .tc (Pipeline.arrRef spec1 3) : DevRef τ sig) ≠ Proc.devRef .tc main_v29) (o4 m c) (U3 m c)).symm)
  | ⟨4, _⟩ => exact ((dat1 (T3 m) c).arrAt_in 4 rfl _).trans ((A_eq1 (T3 m) c 4).trans (Function.update_of_ne (StableHlo.devRef_ne_of_ne (by decide) : (Proc.devRef .tc (Pipeline.arrRef spec1 4) : DevRef τ sig) ≠ Proc.devRef .tc main_v29) (o4 m c) (U3 m c)).symm)
  | ⟨5, _⟩ => exact ((dat1 (T3 m) c).arrAt_in 5 rfl _).trans ((A_eq1 (T3 m) c 5).trans (Function.update_of_ne (StableHlo.devRef_ne_of_ne (by decide) : (Proc.devRef .tc (Pipeline.arrRef spec1 5) : DevRef τ sig) ≠ Proc.devRef .tc main_v29) (o4 m c) (U3 m c)).symm)
  | ⟨6, _⟩ => exact (Function.update_self (Proc.devRef .tc main_v29 : DevRef τ sig) (o4 m c) (U3 m c)).symm
theorem hrest1 (c : Dev nD) : ∀ b, b ∉ Finset.univ.image (Pipeline.arrRef spec1) → T4 m c b = T3 m c b :=
  fun b hb => Function.update_of_ne (StableHlo.devRef_ne_of_ne fun e => hb (Finset.mem_image.mpr ⟨6, Finset.mem_univ _, e.symm⟩)) (o4 m c) (U3 m c)
set_option maxHeartbeats 2000000 in
theorem hF2 (c : Dev nD) (w : Fin 7) : (dat2 (T5 m) c).arrAt w cfg2.N = T6 m c (Pipeline.arrRef spec2 w) := by
  match w with
  | ⟨0, _⟩ => exact ((dat2 (T5 m) c).arrAt_in 0 rfl _).trans ((A_eq2 (T5 m) c 0).trans (Function.update_of_ne (StableHlo.devRef_ne_of_ne (by decide) : (Proc.devRef .tc (Pipeline.arrRef spec2 0) : DevRef τ sig) ≠ Proc.devRef .tc main_v42) (o6 m c) (U5 m c)).symm)
  | ⟨1, _⟩ => exact ((dat2 (T5 m) c).arrAt_in 1 rfl _).trans ((A_eq2 (T5 m) c 1).trans (Function.update_of_ne (StableHlo.devRef_ne_of_ne (by decide) : (Proc.devRef .tc (Pipeline.arrRef spec2 1) : DevRef τ sig) ≠ Proc.devRef .tc main_v42) (o6 m c) (U5 m c)).symm)
  | ⟨2, _⟩ => exact ((dat2 (T5 m) c).arrAt_in 2 rfl _).trans ((A_eq2 (T5 m) c 2).trans (Function.update_of_ne (StableHlo.devRef_ne_of_ne (by decide) : (Proc.devRef .tc (Pipeline.arrRef spec2 2) : DevRef τ sig) ≠ Proc.devRef .tc main_v42) (o6 m c) (U5 m c)).symm)
  | ⟨3, _⟩ => exact ((dat2 (T5 m) c).arrAt_in 3 rfl _).trans ((A_eq2 (T5 m) c 3).trans (Function.update_of_ne (StableHlo.devRef_ne_of_ne (by decide) : (Proc.devRef .tc (Pipeline.arrRef spec2 3) : DevRef τ sig) ≠ Proc.devRef .tc main_v42) (o6 m c) (U5 m c)).symm)
  | ⟨4, _⟩ => exact ((dat2 (T5 m) c).arrAt_in 4 rfl _).trans ((A_eq2 (T5 m) c 4).trans (Function.update_of_ne (StableHlo.devRef_ne_of_ne (by decide) : (Proc.devRef .tc (Pipeline.arrRef spec2 4) : DevRef τ sig) ≠ Proc.devRef .tc main_v42) (o6 m c) (U5 m c)).symm)
  | ⟨5, _⟩ => exact ((dat2 (T5 m) c).arrAt_in 5 rfl _).trans ((A_eq2 (T5 m) c 5).trans (Function.update_of_ne (StableHlo.devRef_ne_of_ne (by decide) : (Proc.devRef .tc (Pipeline.arrRef spec2 5) : DevRef τ sig) ≠ Proc.devRef .tc main_v42) (o6 m c) (U5 m c)).symm)
  | ⟨6, _⟩ => exact (Function.update_self (Proc.devRef .tc main_v42 : DevRef τ sig) (o6 m c) (U5 m c)).symm
theorem hrest2 (c : Dev nD) : ∀ b, b ∉ Finset.univ.image (Pipeline.arrRef spec2) → T6 m c b = T5 m c b :=
  fun b hb => Function.update_of_ne (StableHlo.devRef_ne_of_ne fun e => hb (Finset.mem_image.mpr ⟨6, Finset.mem_univ _, e.symm⟩)) (o6 m c) (U5 m c)
set_option maxHeartbeats 2000000 in
theorem hF3 (c : Dev nD) (w : Fin 7) : (dat3 (T7 m) c).arrAt w cfg3.N = T8 m c (Pipeline.arrRef spec3 w) := by
  match w with
  | ⟨0, _⟩ => exact ((dat3 (T7 m) c).arrAt_in 0 rfl _).trans ((A_eq3 (T7 m) c 0).trans (Function.update_of_ne (StableHlo.devRef_ne_of_ne (by decide) : (Proc.devRef .tc (Pipeline.arrRef spec3 0) : DevRef τ sig) ≠ Proc.devRef .tc main_v55) (o8 m c) (U7 m c)).symm)
  | ⟨1, _⟩ => exact ((dat3 (T7 m) c).arrAt_in 1 rfl _).trans ((A_eq3 (T7 m) c 1).trans (Function.update_of_ne (StableHlo.devRef_ne_of_ne (by decide) : (Proc.devRef .tc (Pipeline.arrRef spec3 1) : DevRef τ sig) ≠ Proc.devRef .tc main_v55) (o8 m c) (U7 m c)).symm)
  | ⟨2, _⟩ => exact ((dat3 (T7 m) c).arrAt_in 2 rfl _).trans ((A_eq3 (T7 m) c 2).trans (Function.update_of_ne (StableHlo.devRef_ne_of_ne (by decide) : (Proc.devRef .tc (Pipeline.arrRef spec3 2) : DevRef τ sig) ≠ Proc.devRef .tc main_v55) (o8 m c) (U7 m c)).symm)
  | ⟨3, _⟩ => exact ((dat3 (T7 m) c).arrAt_in 3 rfl _).trans ((A_eq3 (T7 m) c 3).trans (Function.update_of_ne (StableHlo.devRef_ne_of_ne (by decide) : (Proc.devRef .tc (Pipeline.arrRef spec3 3) : DevRef τ sig) ≠ Proc.devRef .tc main_v55) (o8 m c) (U7 m c)).symm)
  | ⟨4, _⟩ => exact ((dat3 (T7 m) c).arrAt_in 4 rfl _).trans ((A_eq3 (T7 m) c 4).trans (Function.update_of_ne (StableHlo.devRef_ne_of_ne (by decide) : (Proc.devRef .tc (Pipeline.arrRef spec3 4) : DevRef τ sig) ≠ Proc.devRef .tc main_v55) (o8 m c) (U7 m c)).symm)
  | ⟨5, _⟩ => exact ((dat3 (T7 m) c).arrAt_in 5 rfl _).trans ((A_eq3 (T7 m) c 5).trans (Function.update_of_ne (StableHlo.devRef_ne_of_ne (by decide) : (Proc.devRef .tc (Pipeline.arrRef spec3 5) : DevRef τ sig) ≠ Proc.devRef .tc main_v55) (o8 m c) (U7 m c)).symm)
  | ⟨6, _⟩ => exact (Function.update_self (Proc.devRef .tc main_v55 : DevRef τ sig) (o8 m c) (U7 m c)).symm
theorem hrest3 (c : Dev nD) : ∀ b, b ∉ Finset.univ.image (Pipeline.arrRef spec3) → T8 m c b = T7 m c b :=
  fun b hb => Function.update_of_ne (StableHlo.devRef_ne_of_ne fun e => hb (Finset.mem_image.mpr ⟨6, Finset.mem_univ _, e.symm⟩)) (o8 m c) (U7 m c)
set_option maxHeartbeats 2000000 in
theorem hF4 (c : Dev nD) (w : Fin 7) : (dat4 (T9 m) c).arrAt w cfg4.N = T10 m c (Pipeline.arrRef spec4 w) := by
  match w with
  | ⟨0, _⟩ => exact ((dat4 (T9 m) c).arrAt_in 0 rfl _).trans ((A_eq4 (T9 m) c 0).trans (Function.update_of_ne (StableHlo.devRef_ne_of_ne (by decide) : (Proc.devRef .tc (Pipeline.arrRef spec4 0) : DevRef τ sig) ≠ Proc.devRef .tc main_v68) (o10 m c) (U9 m c)).symm)
  | ⟨1, _⟩ => exact ((dat4 (T9 m) c).arrAt_in 1 rfl _).trans ((A_eq4 (T9 m) c 1).trans (Function.update_of_ne (StableHlo.devRef_ne_of_ne (by decide) : (Proc.devRef .tc (Pipeline.arrRef spec4 1) : DevRef τ sig) ≠ Proc.devRef .tc main_v68) (o10 m c) (U9 m c)).symm)
  | ⟨2, _⟩ => exact ((dat4 (T9 m) c).arrAt_in 2 rfl _).trans ((A_eq4 (T9 m) c 2).trans (Function.update_of_ne (StableHlo.devRef_ne_of_ne (by decide) : (Proc.devRef .tc (Pipeline.arrRef spec4 2) : DevRef τ sig) ≠ Proc.devRef .tc main_v68) (o10 m c) (U9 m c)).symm)
  | ⟨3, _⟩ => exact ((dat4 (T9 m) c).arrAt_in 3 rfl _).trans ((A_eq4 (T9 m) c 3).trans (Function.update_of_ne (StableHlo.devRef_ne_of_ne (by decide) : (Proc.devRef .tc (Pipeline.arrRef spec4 3) : DevRef τ sig) ≠ Proc.devRef .tc main_v68) (o10 m c) (U9 m c)).symm)
  | ⟨4, _⟩ => exact ((dat4 (T9 m) c).arrAt_in 4 rfl _).trans ((A_eq4 (T9 m) c 4).trans (Function.update_of_ne (StableHlo.devRef_ne_of_ne (by decide) : (Proc.devRef .tc (Pipeline.arrRef spec4 4) : DevRef τ sig) ≠ Proc.devRef .tc main_v68) (o10 m c) (U9 m c)).symm)
  | ⟨5, _⟩ => exact ((dat4 (T9 m) c).arrAt_in 5 rfl _).trans ((A_eq4 (T9 m) c 5).trans (Function.update_of_ne (StableHlo.devRef_ne_of_ne (by decide) : (Proc.devRef .tc (Pipeline.arrRef spec4 5) : DevRef τ sig) ≠ Proc.devRef .tc main_v68) (o10 m c) (U9 m c)).symm)
  | ⟨6, _⟩ => exact (Function.update_self (Proc.devRef .tc main_v68 : DevRef τ sig) (o10 m c) (U9 m c)).symm
theorem hrest4 (c : Dev nD) : ∀ b, b ∉ Finset.univ.image (Pipeline.arrRef spec4) → T10 m c b = T9 m c b :=
  fun b hb => Function.update_of_ne (StableHlo.devRef_ne_of_ne fun e => hb (Finset.mem_image.mpr ⟨6, Finset.mem_univ _, e.symm⟩)) (o10 m c) (U9 m c)
set_option maxHeartbeats 2000000 in
theorem hF5 (c : Dev nD) (w : Fin 7) : (dat5 (T11 m) c).arrAt w cfg5.N = T12 m c (Pipeline.arrRef spec5 w) := by
  match w with
  | ⟨0, _⟩ => exact ((dat5 (T11 m) c).arrAt_in 0 rfl _).trans ((A_eq5 (T11 m) c 0).trans (Function.update_of_ne (StableHlo.devRef_ne_of_ne (by decide) : (Proc.devRef .tc (Pipeline.arrRef spec5 0) : DevRef τ sig) ≠ Proc.devRef .tc main_v81) (o12 m c) (U11 m c)).symm)
  | ⟨1, _⟩ => exact ((dat5 (T11 m) c).arrAt_in 1 rfl _).trans ((A_eq5 (T11 m) c 1).trans (Function.update_of_ne (StableHlo.devRef_ne_of_ne (by decide) : (Proc.devRef .tc (Pipeline.arrRef spec5 1) : DevRef τ sig) ≠ Proc.devRef .tc main_v81) (o12 m c) (U11 m c)).symm)
  | ⟨2, _⟩ => exact ((dat5 (T11 m) c).arrAt_in 2 rfl _).trans ((A_eq5 (T11 m) c 2).trans (Function.update_of_ne (StableHlo.devRef_ne_of_ne (by decide) : (Proc.devRef .tc (Pipeline.arrRef spec5 2) : DevRef τ sig) ≠ Proc.devRef .tc main_v81) (o12 m c) (U11 m c)).symm)
  | ⟨3, _⟩ => exact ((dat5 (T11 m) c).arrAt_in 3 rfl _).trans ((A_eq5 (T11 m) c 3).trans (Function.update_of_ne (StableHlo.devRef_ne_of_ne (by decide) : (Proc.devRef .tc (Pipeline.arrRef spec5 3) : DevRef τ sig) ≠ Proc.devRef .tc main_v81) (o12 m c) (U11 m c)).symm)
  | ⟨4, _⟩ => exact ((dat5 (T11 m) c).arrAt_in 4 rfl _).trans ((A_eq5 (T11 m) c 4).trans (Function.update_of_ne (StableHlo.devRef_ne_of_ne (by decide) : (Proc.devRef .tc (Pipeline.arrRef spec5 4) : DevRef τ sig) ≠ Proc.devRef .tc main_v81) (o12 m c) (U11 m c)).symm)
  | ⟨5, _⟩ => exact ((dat5 (T11 m) c).arrAt_in 5 rfl _).trans ((A_eq5 (T11 m) c 5).trans (Function.update_of_ne (StableHlo.devRef_ne_of_ne (by decide) : (Proc.devRef .tc (Pipeline.arrRef spec5 5) : DevRef τ sig) ≠ Proc.devRef .tc main_v81) (o12 m c) (U11 m c)).symm)
  | ⟨6, _⟩ => exact (Function.update_self (Proc.devRef .tc main_v81 : DevRef τ sig) (o12 m c) (U11 m c)).symm
theorem hrest5 (c : Dev nD) : ∀ b, b ∉ Finset.univ.image (Pipeline.arrRef spec5) → T12 m c b = T11 m c b :=
  fun b hb => Function.update_of_ne (StableHlo.devRef_ne_of_ne fun e => hb (Finset.mem_image.mpr ⟨6, Finset.mem_univ _, e.symm⟩)) (o12 m c) (U11 m c)
set_option maxHeartbeats 2000000 in
theorem hF6 (c : Dev nD) (w : Fin 4) : (dat6 (T13 m) c).arrAt w cfg6.N = T14 m c (Pipeline.arrRef spec6 w) := by
  match w with
  | ⟨0, _⟩ => exact ((dat6 (T13 m) c).arrAt_in 0 rfl _).trans ((A_eq6 (T13 m) c 0).trans (Function.update_of_ne (StableHlo.devRef_ne_of_ne (by decide) : (Proc.devRef .tc (Pipeline.arrRef spec6 0) : DevRef τ sig) ≠ Proc.devRef .tc main_v84) (o14 m c) (U13 m c)).symm)
  | ⟨1, _⟩ => exact ((dat6 (T13 m) c).arrAt_in 1 rfl _).trans ((A_eq6 (T13 m) c 1).trans (Function.update_of_ne (StableHlo.devRef_ne_of_ne (by decide) : (Proc.devRef .tc (Pipeline.arrRef spec6 1) : DevRef τ sig) ≠ Proc.devRef .tc main_v84) (o14 m c) (U13 m c)).symm)
  | ⟨2, _⟩ => exact ((dat6 (T13 m) c).arrAt_in 2 rfl _).trans ((A_eq6 (T13 m) c 2).trans (Function.update_of_ne (StableHlo.devRef_ne_of_ne (by decide) : (Proc.devRef .tc (Pipeline.arrRef spec6 2) : DevRef τ sig) ≠ Proc.devRef .tc main_v84) (o14 m c) (U13 m c)).symm)
  | ⟨3, _⟩ => exact (Function.update_self (Proc.devRef .tc main_v84 : DevRef τ sig) (o14 m c) (U13 m c)).symm
theorem hrest6 (c : Dev nD) : ∀ b, b ∉ Finset.univ.image (Pipeline.arrRef spec6) → T14 m c b = T13 m c b :=
  fun b hb => Function.update_of_ne (StableHlo.devRef_ne_of_ne fun e => hb (Finset.mem_image.mpr ⟨3, Finset.mem_univ _, e.symm⟩)) (o14 m c) (U13 m c)

/-! ## The proof data family and the thread states -/

/-- Every pipeline's proof data, each at the contents its launch is entered with. -/
def pdats : (p : Fin 7) → (c : Dev nD) → Dat τ (Elt F) Unit ℕ (UR sig nD τ) ℕ (cfgs p) c
  | ⟨0, _⟩ => fun c => dat0 (T1 m) c
  | ⟨1, _⟩ => fun c => dat1 (T3 m) c
  | ⟨2, _⟩ => fun c => dat2 (T5 m) c
  | ⟨3, _⟩ => fun c => dat3 (T7 m) c
  | ⟨4, _⟩ => fun c => dat4 (T9 m) c
  | ⟨5, _⟩ => fun c => dat5 (T11 m) c
  | ⟨6, _⟩ => fun c => dat6 (T13 m) c

abbrev 𝒱₀ : Variants := Variants.none
/-- No core owes another anything. -/
abbrev L : GSem nD τ sig → Finset Unit := fun _ => ∅
abbrev lv : GSem nD τ sig → Unit → ℕ := fun _ _ => 0
/-- What rides beside the buffers through every item: the core's generator register at some state and the core owing nothing. -/
abbrev Rd (c : Dev nD) : sProp 𝕄 := iprop((∃ r, prngReg c r) ∗ ∃ W, owes (c : Thread nD τ) (0 : CellTallies nD τ sig Unit) W)

/-! ## The launches as items over those thread states -/

set_option backward.isDefEq.respectTransparency.types false in
/-- Launch 0: its arrays are split out of the unscoped buffers at entry and put back at exit with the result array at
    the write-backs; the generator register goes into the pipeline's invariant and comes back; nothing is owed. -/
def reg0 : Pipeline.RegionSeg (pcfgs (F := F)) Gen.adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (T1 m) c).loose
  hwaits := Pipeline.hwaits_of_owed_zero _ _ _ _ L lv 0 fun _ _ => rfl
  pre c := iprop(StableHlo.held (c : Thread nD τ) (Pipeline.ucRefs τ sig) (U1 m c) ∗ Rd c)
  post c := iprop(StableHlo.held (c : Thread nD τ) (Pipeline.ucRefs τ sig) (U2 m c) ∗ Rd c)
  X c := iprop(∃ r, prngReg c r)
  Y c := iprop(∃ r, prngReg c r)
  Z c := Pipeline.unscopedRest (Ix := Unit) (Name := ℕ) (U := UR sig nD τ) (Lvl := ℕ) spec0 c (T1 m c)
  hentry c := by
    rw [Pipeline.ownSems0_none]
    have hsplit := Pipeline.arrays_of_unscopedBufs (p := 0) (pcfgs (F := F)) Gen.adm (pdats m) launch0.win launch0.arr_whole c
      ((pdats m 0 c).share_full fun _ => rfl) (T1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c (pdats m) ((pdats m 0 c).share_full fun _ => rfl)
      (T1 m c) (T2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Launch 1: its arrays are split out of the unscoped buffers at entry and put back at exit with the result array at
    the write-backs; the generator register goes into the pipeline's invariant and comes back; nothing is owed. -/
def reg1 : Pipeline.RegionSeg (pcfgs (F := F)) Gen.adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (T3 m) c).loose
  hwaits := Pipeline.hwaits_of_owed_zero _ _ _ _ L lv 1 fun _ _ => rfl
  pre c := iprop(StableHlo.held (c : Thread nD τ) (Pipeline.ucRefs τ sig) (U3 m c) ∗ Rd c)
  post c := iprop(StableHlo.held (c : Thread nD τ) (Pipeline.ucRefs τ sig) (U4 m c) ∗ Rd c)
  X c := iprop(∃ r, prngReg c r)
  Y c := iprop(∃ r, prngReg c r)
  Z c := Pipeline.unscopedRest (Ix := Unit) (Name := ℕ) (U := UR sig nD τ) (Lvl := ℕ) spec1 c (T3 m c)
  hentry c := by
    rw [Pipeline.ownSems0_none]
    have hsplit := Pipeline.arrays_of_unscopedBufs (p := 1) (pcfgs (F := F)) Gen.adm (pdats m) launch1.win launch1.arr_whole c
      ((pdats m 1 c).share_full fun _ => rfl) (T3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) Gen.adm (Ix := Unit) (Name := ℕ) (U := UR sig nD τ) (Lvl := ℕ)
      launch1.win launch1.arr_whole c (pdats m) ((pdats m 1 c).share_full fun _ => rfl)
      (T3 m c) (T4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Launch 2: its arrays are split out of the unscoped buffers at entry and put back at exit with the result array at
    the write-backs; the generator register goes into the pipeline's invariant and comes back; nothing is owed. -/
def reg2 : Pipeline.RegionSeg (pcfgs (F := F)) Gen.adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (T5 m) c).loose
  hwaits := Pipeline.hwaits_of_owed_zero _ _ _ _ L lv 2 fun _ _ => rfl
  pre c := iprop(StableHlo.held (c : Thread nD τ) (Pipeline.ucRefs τ sig) (U5 m c) ∗ Rd c)
  post c := iprop(StableHlo.held (c : Thread nD τ) (Pipeline.ucRefs τ sig) (U6 m c) ∗ Rd c)
  X c := iprop(∃ r, prngReg c r)
  Y c := iprop(∃ r, prngReg c r)
  Z c := Pipeline.unscopedRest (Ix := Unit) (Name := ℕ) (U := UR sig nD τ) (Lvl := ℕ) spec2 c (T5 m c)
  hentry c := by
    rw [Pipeline.ownSems0_none]
    have hsplit := Pipeline.arrays_of_unscopedBufs (p := 2) (pcfgs (F := F)) Gen.adm (pdats m) launch2.win launch2.arr_whole c
      ((pdats m 2 c).share_full fun _ => rfl) (T5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) Gen.adm (Ix := Unit) (Name := ℕ) (U := UR sig nD τ) (Lvl := ℕ)
      launch2.win launch2.arr_whole c (pdats m) ((pdats m 2 c).share_full fun _ => rfl)
      (T5 m c) (T6 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Launch 3: its arrays are split out of the unscoped buffers at entry and put back at exit with the result array at
    the write-backs; the generator register goes into the pipeline's invariant and comes back; nothing is owed. -/
def reg3 : Pipeline.RegionSeg (pcfgs (F := F)) Gen.adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (T7 m) c).loose
  hwaits := Pipeline.hwaits_of_owed_zero _ _ _ _ L lv 3 fun _ _ => rfl
  pre c := iprop(StableHlo.held (c : Thread nD τ) (Pipeline.ucRefs τ sig) (U7 m c) ∗ Rd c)
  post c := iprop(StableHlo.held (c : Thread nD τ) (Pipeline.ucRefs τ sig) (U8 m c) ∗ Rd c)
  X c := iprop(∃ r, prngReg c r)
  Y c := iprop(∃ r, prngReg c r)
  Z c := Pipeline.unscopedRest (Ix := Unit) (Name := ℕ) (U := UR sig nD τ) (Lvl := ℕ) spec3 c (T7 m c)
  hentry c := by
    rw [Pipeline.ownSems0_none]
    have hsplit := Pipeline.arrays_of_unscopedBufs (p := 3) (pcfgs (F := F)) Gen.adm (pdats m) launch3.win launch3.arr_whole c
      ((pdats m 3 c).share_full fun _ => rfl) (T7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) Gen.adm (Ix := Unit) (Name := ℕ) (U := UR sig nD τ) (Lvl := ℕ)
      launch3.win launch3.arr_whole c (pdats m) ((pdats m 3 c).share_full fun _ => rfl)
      (T7 m c) (T8 m c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Launch 4: its arrays are split out of the unscoped buffers at entry and put back at exit with the result array at
    the write-backs; the generator register goes into the pipeline's invariant and comes back; nothing is owed. -/
def reg4 : Pipeline.RegionSeg (pcfgs (F := F)) Gen.adm (pdats m) () defs₀ 𝒱₀ L lv 4 where
  win := launch4.win.to₀
  block_pos := launch4.block_pos
  stage_whole := launch4.stage_whole
  K := PEmpty
  osem k := k.elim
  ho := Pipeline.OwnSemFacts.none _
  hbody c := (body_obligation4 (T9 m) c).loose
  hwaits := Pipeline.hwaits_of_owed_zero _ _ _ _ L lv 4 fun _ _ => rfl
  pre c := iprop(StableHlo.held (c : Thread nD τ) (Pipeline.ucRefs τ sig) (U9 m c) ∗ Rd c)
  post c := iprop(StableHlo.held (c : Thread nD τ) (Pipeline.ucRefs τ sig) (U10 m c) ∗ Rd c)
  X c := iprop(∃ r, prngReg c r)
  Y c := iprop(∃ r, prngReg c r)
  Z c := Pipeline.unscopedRest (Ix := Unit) (Name := ℕ) (U := UR sig nD τ) (Lvl := ℕ) spec4 c (T9 m c)
  hentry c := by
    rw [Pipeline.ownSems0_none]
    have hsplit := Pipeline.arrays_of_unscopedBufs (p := 4) (pcfgs (F := F)) Gen.adm (pdats m) launch4.win launch4.arr_whole c
      ((pdats m 4 c).share_full fun _ => rfl) (T9 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) Gen.adm (Ix := Unit) (Name := ℕ) (U := UR sig nD τ) (Lvl := ℕ)
      launch4.win launch4.arr_whole c (pdats m) ((pdats m 4 c).share_full fun _ => rfl)
      (T9 m c) (T10 m c) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Launch 5: its arrays are split out of the unscoped buffers at entry and put back at exit with the result array at
    the write-backs; the generator register goes into the pipeline's invariant and comes back; nothing is owed. -/
def reg5 : Pipeline.RegionSeg (pcfgs (F := F)) Gen.adm (pdats m) () defs₀ 𝒱₀ L lv 5 where
  win := launch5.win.to₀
  block_pos := launch5.block_pos
  stage_whole := launch5.stage_whole
  K := PEmpty
  osem k := k.elim
  ho := Pipeline.OwnSemFacts.none _
  hbody c := (body_obligation5 (T11 m) c).loose
  hwaits := Pipeline.hwaits_of_owed_zero _ _ _ _ L lv 5 fun _ _ => rfl
  pre c := iprop(StableHlo.held (c : Thread nD τ) (Pipeline.ucRefs τ sig) (U11 m c) ∗ Rd c)
  post c := iprop(StableHlo.held (c : Thread nD τ) (Pipeline.ucRefs τ sig) (U12 m c) ∗ Rd c)
  X c := iprop(∃ r, prngReg c r)
  Y c := iprop(∃ r, prngReg c r)
  Z c := Pipeline.unscopedRest (Ix := Unit) (Name := ℕ) (U := UR sig nD τ) (Lvl := ℕ) spec5 c (T11 m c)
  hentry c := by
    rw [Pipeline.ownSems0_none]
    have hsplit := Pipeline.arrays_of_unscopedBufs (p := 5) (pcfgs (F := F)) Gen.adm (pdats m) launch5.win launch5.arr_whole c
      ((pdats m 5 c).share_full fun _ => rfl) (T11 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) Gen.adm (Ix := Unit) (Name := ℕ) (U := UR sig nD τ) (Lvl := ℕ)
      launch5.win launch5.arr_whole c (pdats m) ((pdats m 5 c).share_full fun _ => rfl)
      (T11 m c) (T12 m c) ((pdats m 5 c).arrAt · cfg5.N) (hF5 m c) (hrest5 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Launch 6: its arrays are split out of the unscoped buffers at entry and put back at exit with the result array at
    the write-backs; the generator register goes into the pipeline's invariant and comes back; nothing is owed. -/
def reg6 : Pipeline.RegionSeg (pcfgs (F := F)) Gen.adm (pdats m) () defs₀ 𝒱₀ L lv 6 where
  win := launch6.win.to₀
  block_pos := launch6.block_pos
  stage_whole := launch6.stage_whole
  K := PEmpty
  osem k := k.elim
  ho := Pipeline.OwnSemFacts.none _
  hbody c := (body_obligation6 (T13 m) c).loose
  hwaits := Pipeline.hwaits_of_owed_zero _ _ _ _ L lv 6 fun _ _ => rfl
  pre c := iprop(StableHlo.held (c : Thread nD τ) (Pipeline.ucRefs τ sig) (U13 m c) ∗ Rd c)
  post c := iprop(StableHlo.held (c : Thread nD τ) (Pipeline.ucRefs τ sig) (U14 m c) ∗ Rd c)
  X c := iprop(∃ r, prngReg c r)
  Y c := iprop(∃ r, prngReg c r)
  Z c := Pipeline.unscopedRest (Ix := Unit) (Name := ℕ) (U := UR sig nD τ) (Lvl := ℕ) spec6 c (T13 m c)
  hentry c := by
    rw [Pipeline.ownSems0_none]
    have hsplit := Pipeline.arrays_of_unscopedBufs (p := 6) (pcfgs (F := F)) Gen.adm (pdats m) launch6.win launch6.arr_whole c
      ((pdats m 6 c).share_full fun _ => rfl) (T13 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 6 c).Φ 0 = Pipeline.ΦA spec6 c from rfl]; unfold Pipeline.ΦA
    iintro ⟨Hp, -, Hr⟩
    isplitl [Hr]; · iexact Hr
    iexact Hp
  hout c := by
    rw [Pipeline.ownSems0_none, show (pdats m 6 c).Φ (Fin.last _) = Pipeline.ΦA spec6 c from rfl]; unfold Pipeline.ΦA
    iintro ⟨Hr, Hp⟩
    isplitl [Hp]; · iexact Hp
    isplitr; · iempintro
    iexact Hr
  hexit c := by
    have hjoin := Pipeline.unscopedBufs_of_arrays (p := 6) (pcfgs (F := F)) Gen.adm (Ix := Unit) (Name := ℕ) (U := UR sig nD τ) (Lvl := ℕ)
      launch6.win launch6.arr_whole c (pdats m) ((pdats m 6 c).share_full fun _ => rfl)
      (T13 m c) (T14 m c) ((pdats m 6 c).arrAt · cfg6.N) (hF6 m c) (hrest6 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run -/

/-- A stretch of host operations as an item of the run: entered with every unscoped buffer at `W c`, the rest riding along;
    it leaves them at what the operations compute from `W c`. -/
abbrev stretch (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rd

/-- The program's fourteen items in order: a stretch of host operations, then a launch, seven times. -/
abbrev items : List (Pipeline.Seg (pcfgs (F := F)) Gen.adm (pdats m) () defs₀ 𝒱₀ L lv) :=
  [ .host (stretch hostOps0 hostOps0_sub Gen.hostOps0_fresh (fun c b => m (c, b))),
    .region (reg0 m),
    .host (stretch hostOps1 hostOps1_sub Gen.hostOps1_fresh (U2 m)),
    .region (reg1 m),
    .host (stretch hostOps2 hostOps2_sub Gen.hostOps2_fresh (U4 m)),
    .region (reg2 m),
    .host (stretch hostOps3 hostOps3_sub Gen.hostOps3_fresh (U6 m)),
    .region (reg3 m),
    .host (stretch hostOps4 hostOps4_sub Gen.hostOps4_fresh (U8 m)),
    .region (reg4 m),
    .host (stretch hostOps5 hostOps5_sub Gen.hostOps5_fresh (U10 m)),
    .region (reg5 m),
    .host (stretch hostOps6 hostOps6_sub Gen.hostOps6_fresh (U12 m)),
    .region (reg6 m) ]

/-- The program is the run of those items. -/
theorem main_items (c : Dev nD) : main (F := F) c = Pipeline.Seg.run (items m) := (main_chain c).trans (by chain_rfl)

/-- An unscoped TensorCore reference is among those the thread states hold. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- Every weakly fair execution of the program terminates, nothing faulting, and every unscoped buffer of the final memory
    holds the last contents of the chain: the launch over the fourteen items, the states chaining by construction, the
    first state made from what the launch deals each core, the last read against the final memory. -/
theorem run_all (ρ : Dev nD → PrngReg) :
    θ_run defs (onTc (τ := τ) (main (F := F))) ⟨m, fun _ => 0, ρ⟩
      (fun r => ∀ c : Dev nD, ∀ b ∈ Pipeline.ucRefs τ sig, r.2.mem (((c : Thread nD τ)).1, b) = U14 m c b) :=
  Pipeline.θ_run_regions_kit (pcfgs (F := F)) Gen.adm (pdats m) () cellOf_inj emb₁ defs₀ 𝒱₀ L lv m ρ main (items m)
    (fun c Q => by rw [main_items m c])
    (by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (fun b => m (c, b)) ∗ Rd c))
    (Tₙ := fun c => iprop(StableHlo.held (c : Thread nD τ) (Pipeline.ucRefs τ sig) (U14 m c) ∗ ∃ r, prngReg c r))
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl,
      fun c => by
        show iprop(StableHlo.held (c : Thread nD τ) (Pipeline.ucRefs τ sig) (U14 m c) ∗ (∃ r, prngReg c r) ∗ ∃ W, owes (c : Thread nD τ) (0 : CellTallies nD τ sig Unit) W)
          ⊢ (iprop((StableHlo.held (c : Thread nD τ) (Pipeline.ucRefs τ sig) (U14 m c) ∗ ∃ r, prngReg c r) ∗ ∃ W, owes (c : Thread nD τ) (0 : CellTallies nD τ sig Unit) W) : sProp 𝕄)
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (fun b => m (c, b))
        from Pipeline.unscopedBufs_held c (fun b => m (c, b))]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = U14 m c b)
    (hfin := fun c s' => by
      iintro ⟨⟨Hh, -⟩, HSI⟩
      unfold StableHlo.held
      imodintro
      iapply (pointsTo_read_all (Pipeline.ucRefs τ sig) (fun b => (((c : Thread nD τ)).1, b)) (U14 m c) s')
      isplitl [Hh] <;> iassumption)
    (hQ := fun s h c => h c)

/-- No item writes an argument array: each ends the chain as launched. -/
theorem kept (c : Dev nD) :
      U14 m c main_arg0 = m ((c : Thread nD τ).loc main_arg0)
      ∧ U14 m c main_arg1 = m ((c : Thread nD τ).loc main_arg1)
      ∧ U14 m c main_arg2 = m ((c : Thread nD τ).loc main_arg2)
      ∧ U14 m c main_arg3 = m ((c : Thread nD τ).loc main_arg3)
      ∧ U14 m c main_arg4 = m ((c : Thread nD τ).loc main_arg4)
      ∧ U14 m c main_arg5 = m ((c : Thread nD τ).loc main_arg5)
      ∧ U14 m c main_arg6 = m ((c : Thread nD τ).loc main_arg6)
      ∧ U14 m c main_arg7 = m ((c : Thread nD τ).loc main_arg7)
      ∧ U14 m c main_arg8 = m ((c : Thread nD τ).loc main_arg8)
      ∧ U14 m c main_arg9 = m ((c : Thread nD τ).loc main_arg9)
      ∧ U14 m c main_arg10 = m ((c : Thread nD τ).loc main_arg10)
      ∧ U14 m c main_arg11 = m ((c : Thread nD τ).loc main_arg11)
      ∧ U14 m c main_arg12 = m ((c : Thread nD τ).loc main_arg12)
      ∧ U14 m c main_arg13 = m ((c : Thread nD τ).loc main_arg13)
      ∧ U14 m c main_arg14 = m ((c : Thread nD τ).loc main_arg14)
      ∧ U14 m c main_arg15 = m ((c : Thread nD τ).loc main_arg15) :=
  ⟨(congrFun (V14_eq m c).symm _).trans (Gen.V14_main_arg0 m (outs m) c),
   (congrFun (V14_eq m c).symm _).trans (Gen.V14_main_arg1 m (outs m) c),
   (congrFun (V14_eq m c).symm _).trans (Gen.V14_main_arg2 m (outs m) c),
   (congrFun (V14_eq m c).symm _).trans (Gen.V14_main_arg3 m (outs m) c),
   (congrFun (V14_eq m c).symm _).trans (Gen.V14_main_arg4 m (outs m) c),
   (congrFun (V14_eq m c).symm _).trans (Gen.V14_main_arg5 m (outs m) c),
   (congrFun (V14_eq m c).symm _).trans (Gen.V14_main_arg6 m (outs m) c),
   (congrFun (V14_eq m c).symm _).trans (Gen.V14_main_arg7 m (outs m) c),
   (congrFun (V14_eq m c).symm _).trans (Gen.V14_main_arg8 m (outs m) c),
   (congrFun (V14_eq m c).symm _).trans (Gen.V14_main_arg9 m (outs m) c),
   (congrFun (V14_eq m c).symm _).trans (Gen.V14_main_arg10 m (outs m) c),
   (congrFun (V14_eq m c).symm _).trans (Gen.V14_main_arg11 m (outs m) c),
   (congrFun (V14_eq m c).symm _).trans (Gen.V14_main_arg12 m (outs m) c),
   (congrFun (V14_eq m c).symm _).trans (Gen.V14_main_arg13 m (outs m) c),
   (congrFun (V14_eq m c).symm _).trans (Gen.V14_main_arg14 m (outs m) c),
   (congrFun (V14_eq m c).symm _).trans (Gen.V14_main_arg15 m (outs m) c)⟩

/-- The last launch's result array ends at its write-backs. -/
theorem out_last (c : Dev nD) : U14 m c main_v84 = o14 m c := Function.update_self _ _ _

/-- The run with its result named: the result array ends at the last launch's write-backs, every argument array as launched. -/
theorem run_out (ρ : Dev nD → PrngReg) :
    θ_run defs (onTc (τ := τ) (main (F := F))) ⟨m, fun _ => 0, ρ⟩ (fun r => ∀ c : Dev nD,
      r.2.mem ((c.tc : Thread nD τ).loc main_v84) = o14 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun r h c =>
    ⟨(h c _ (mem_uc main_v84 (by decide))).trans (out_last m c),
     (h c _ (mem_uc main_arg0 (by decide))).trans (kept m c).1,
     (h c _ (mem_uc main_arg1 (by decide))).trans (kept m c).2.1,
     (h c _ (mem_uc main_arg2 (by decide))).trans (kept m c).2.2.1,
     (h c _ (mem_uc main_arg3 (by decide))).trans (kept m c).2.2.2.1,
     (h c _ (mem_uc main_arg4 (by decide))).trans (kept m c).2.2.2.2.1,
     (h c _ (mem_uc main_arg5 (by decide))).trans (kept m c).2.2.2.2.2.1,
     (h c _ (mem_uc main_arg6 (by decide))).trans (kept m c).2.2.2.2.2.2.1,
     (h c _ (mem_uc main_arg7 (by decide))).trans (kept m c).2.2.2.2.2.2.2.1,
     (h c _ (mem_uc main_arg8 (by decide))).trans (kept m c).2.2.2.2.2.2.2.2.1,
     (h c _ (mem_uc main_arg9 (by decide))).trans (kept m c).2.2.2.2.2.2.2.2.2.1,
     (h c _ (mem_uc main_arg10 (by decide))).trans (kept m c).2.2.2.2.2.2.2.2.2.2.1,
     (h c _ (mem_uc main_arg11 (by decide))).trans (kept m c).2.2.2.2.2.2.2.2.2.2.2.1,
     (h c _ (mem_uc main_arg12 (by decide))).trans (kept m c).2.2.2.2.2.2.2.2.2.2.2.2.1,
     (h c _ (mem_uc main_arg13 (by decide))).trans (kept m c).2.2.2.2.2.2.2.2.2.2.2.2.2.1,
     (h c _ (mem_uc main_arg14 (by decide))).trans (kept m c).2.2.2.2.2.2.2.2.2.2.2.2.2.2.1,
     (h c _ (mem_uc main_arg15 (by decide))).trans (kept m c).2.2.2.2.2.2.2.2.2.2.2.2.2.2.2⟩) (run_all m ρ)

/-- The frame: every argument array ends as launched. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun r h c => (h c).2) (run_out m ρ)

end Cert.KernelIdeal.Tiles

end
-- ==== Proof.LibColumnBlocks.lean ====
/-
  Matrices built from column blocks, and plain matrix products, read at coordinates.

  A concatenation of matrices of equal height along the column axis reads, at `(a, b)`, the block that column `b`
  falls in, at `(a, b - the widths before it)`: stated for two blocks and for four. A matrix product with one
  contracted axis — the left operand's columns against the right operand's rows, no batch axis — reads at `(a, b)`, over
  the extended reals, the sum over `k` of `lhs (a, k) · rhs (k, b)`: stated for the accumulating product into a
  zero accumulator and for the host's product. The dimension record's two non-contracted coordinates are taken as
  hypotheses; at a literal record they hold by computation.
-/
import Idealize.ShloMosaic.PureOps.Ideal.Laws
import Idealize.ShloMosaic.Lib.ValueIdx
import Idealize.ShloMosaic.Lib.Pipeline.Value

noncomputable section

namespace Cert.LibColumnBlocks

open Idealize.ShloMosaic Idealize.ShloMosaic.ValueIdx

variable {α : Type}

/-! ## Two column blocks -/

/-- `[x₁ | x₂]` at a column inside the first block. -/
theorem cat2_left {A B1 B2 B : ℕ} (x₁ : (⟨2, ![A, B1]⟩ : Shape).Idx → α) (x₂ : (⟨2, ![A, B2]⟩ : Shape).Idx → α)
    (h : Shape.Concatenates [⟨2, ![A, B1]⟩, ⟨2, ![A, B2]⟩] ⟨2, ![A, B]⟩ 1) (a : Fin A) (b : Fin B) (hb : b.val < B1) :
    concatenate ⟨2, ![A, B]⟩ 1 [⟨⟨2, ![A, B1]⟩, x₁⟩, ⟨⟨2, ![A, B2]⟩, x₂⟩] h (ix2 a b) = x₁ (ix2 a ⟨b.val, hb⟩) :=
  concatenate_pair_apply_left 1 x₁ x₂ h (ix2 a b) rfl (ix2 a ⟨b.val, hb⟩) fun d => by
    match d with
    | ⟨0, _⟩ => rfl
    | ⟨1, _⟩ => rfl

/-- `[x₁ | x₂]` at a column past the first block. -/
theorem cat2_right {A B1 B2 B : ℕ} (x₁ : (⟨2, ![A, B1]⟩ : Shape).Idx → α) (x₂ : (⟨2, ![A, B2]⟩ : Shape).Idx → α)
    (h : Shape.Concatenates [⟨2, ![A, B1]⟩, ⟨2, ![A, B2]⟩] ⟨2, ![A, B]⟩ 1) (a : Fin A) (b : Fin B) (hb : B1 ≤ b.val)
    (hb' : b.val - B1 < B2) :
    concatenate ⟨2, ![A, B]⟩ 1 [⟨⟨2, ![A, B1]⟩, x₁⟩, ⟨⟨2, ![A, B2]⟩, x₂⟩] h (ix2 a b) = x₂ (ix2 a ⟨b.val - B1, hb'⟩) :=
  concatenate_pair_apply_right 1 x₁ x₂ h (ix2 a b) rfl rfl (ix2 a ⟨b.val - B1, hb'⟩)
    (fun d hd => by
      match d with
      | ⟨0, _⟩ => rfl
      | ⟨1, _⟩ => exact absurd rfl hd)
    (by show (b.val - B1) + B1 = b.val; omega)

/-! ## Four column blocks -/

section Four
variable {A w0 w1 w2 w3 B : ℕ}
  (x0 : (⟨2, ![A, w0]⟩ : Shape).Idx → α) (x1 : (⟨2, ![A, w1]⟩ : Shape).Idx → α)
  (x2 : (⟨2, ![A, w2]⟩ : Shape).Idx → α) (x3 : (⟨2, ![A, w3]⟩ : Shape).Idx → α)
  (h : Shape.Concatenates [⟨2, ![A, w0]⟩, ⟨2, ![A, w1]⟩, ⟨2, ![A, w2]⟩, ⟨2, ![A, w3]⟩] ⟨2, ![A, B]⟩ 1)
  (a : Fin A) (b : Fin B)

/-- `[x0 | x1 | x2 | x3]` at a column of the first block. -/
theorem cat4_0 (hb : b.val < w0) :
    concatenate ⟨2, ![A, B]⟩ 1 [⟨⟨2, ![A, w0]⟩, x0⟩, ⟨⟨2, ![A, w1]⟩, x1⟩, ⟨⟨2, ![A, w2]⟩, x2⟩, ⟨⟨2, ![A, w3]⟩, x3⟩] h (ix2 a b)
      = x0 (ix2 a ⟨b.val, hb⟩) :=
  concatenate_apply_piece 1 [⟨⟨2, ![A, w0]⟩, x0⟩, ⟨⟨2, ![A, w1]⟩, x1⟩, ⟨⟨2, ![A, w2]⟩, x2⟩, ⟨⟨2, ![A, w3]⟩, x3⟩] h (ix2 a b) 0 (by simp) _ x0 rfl rfl 0 rfl (ix2 a ⟨b.val, hb⟩)
    (fun d hd => by
      match d with
      | ⟨0, _⟩ => rfl
      | ⟨1, _⟩ => exact absurd rfl hd)
    (by show 0 + b.val = b.val; omega)

/-- … of the second block. -/
theorem cat4_1 (hb : w0 ≤ b.val) (hb' : b.val - w0 < w1) :
    concatenate ⟨2, ![A, B]⟩ 1 [⟨⟨2, ![A, w0]⟩, x0⟩, ⟨⟨2, ![A, w1]⟩, x1⟩, ⟨⟨2, ![A, w2]⟩, x2⟩, ⟨⟨2, ![A, w3]⟩, x3⟩] h (ix2 a b)
      = x1 (ix2 a ⟨b.val - w0, hb'⟩) :=
  concatenate_apply_piece 1 [⟨⟨2, ![A, w0]⟩, x0⟩, ⟨⟨2, ![A, w1]⟩, x1⟩, ⟨⟨2, ![A, w2]⟩, x2⟩, ⟨⟨2, ![A, w3]⟩, x3⟩] h (ix2 a b) 1 (by simp) _ x1 rfl rfl w0 (by simp) (ix2 a ⟨b.val - w0, hb'⟩)
    (fun d hd => by
      match d with
      | ⟨0, _⟩ => rfl
      | ⟨1, _⟩ => exact absurd rfl hd)
    (by show w0 + (b.val - w0) = b.val; omega)

/-- … of the third block. -/
theorem cat4_2 (hb : w0 + w1 ≤ b.val) (hb' : b.val - (w0 + w1) < w2) :
    concatenate ⟨2, ![A, B]⟩ 1 [⟨⟨2, ![A, w0]⟩, x0⟩, ⟨⟨2, ![A, w1]⟩, x1⟩, ⟨⟨2, ![A, w2]⟩, x2⟩, ⟨⟨2, ![A, w3]⟩, x3⟩] h (ix2 a b)
      = x2 (ix2 a ⟨b.val - (w0 + w1), hb'⟩) :=
  concatenate_apply_piece 1 [⟨⟨2, ![A, w0]⟩, x0⟩, ⟨⟨2, ![A, w1]⟩, x1⟩, ⟨⟨2, ![A, w2]⟩, x2⟩, ⟨⟨2, ![A, w3]⟩, x3⟩] h (ix2 a b) 2 (by simp) _ x2 rfl rfl (w0 + w1) (by simp) (ix2 a ⟨b.val - (w0 + w1), hb'⟩)
    (fun d hd => by
      match d with
      | ⟨0, _⟩ => rfl
      | ⟨1, _⟩ => exact absurd rfl hd)
    (by show w0 + w1 + (b.val - (w0 + w1)) = b.val; omega)

/-- … of the fourth block. -/
theorem cat4_3 (hb : w0 + w1 + w2 ≤ b.val) (hb' : b.val - (w0 + w1 + w2) < w3) :
    concatenate ⟨2, ![A, B]⟩ 1 [⟨⟨2, ![A, w0]⟩, x0⟩, ⟨⟨2, ![A, w1]⟩, x1⟩, ⟨⟨2, ![A, w2]⟩, x2⟩, ⟨⟨2, ![A, w3]⟩, x3⟩] h (ix2 a b)
      = x3 (ix2 a ⟨b.val - (w0 + w1 + w2), hb'⟩) :=
  concatenate_apply_piece 1 [⟨⟨2, ![A, w0]⟩, x0⟩, ⟨⟨2, ![A, w1]⟩, x1⟩, ⟨⟨2, ![A, w2]⟩, x2⟩, ⟨⟨2, ![A, w3]⟩, x3⟩] h (ix2 a b) 3 (by simp) _ x3 rfl rfl (w0 + w1 + w2) (by simp; omega)
    (ix2 a ⟨b.val - (w0 + w1 + w2), hb'⟩)
    (fun d hd => by
      match d with
      | ⟨0, _⟩ => rfl
      | ⟨1, _⟩ => exact absurd rfl hd)
    (by show w0 + w1 + w2 + (b.val - (w0 + w1 + w2)) = b.val; omega)

end Four

/-! ## A plain matrix product as a sum over the contracted coordinate -/

section Dot
variable {A K B : ℕ} {φ₁ φ₂ : FTy}
  (d : DotDims ⟨2, ![A, K]⟩ ⟨2, ![K, B]⟩ ⟨2, ![A, B]⟩)
  (hr : d.contr.rank = 1) (hs : d.contr.size ⟨0, by omega⟩ = K)
  (hlc : d.lhsContracting = [1]) (hrc : d.rhsContracting = [0])
  (hl0 : ∀ j k, (d.lhsIdx j k 0).val = (j 0).val) (hr1 : ∀ j k, (d.rhsIdx j k 1).val = (j 1).val)
  (lhs : FVec Ideal ⟨2, ![A, K]⟩ φ₁) (rhs : FVec Ideal ⟨2, ![K, B]⟩ φ₂) (a : Fin A) (b : Fin B)

include hr hs hlc hrc hl0 hr1 in
/-- The sum over the record's contraction index, re-indexed by the contracted coordinate. -/
theorem contr_sum :
    ∑ k : d.contr.Idx, lhs (d.lhsIdx (ix2 a b) k) * rhs (d.rhsIdx (ix2 a b) k) = ∑ k : Fin K, lhs (ix2 a k) * rhs (ix2 k b) := by
  rw [← Equiv.sum_comp (contrEquiv1 d K hr hs).symm]
  refine Finset.sum_congr rfl fun k _ => ?_
  have e1 : d.lhsIdx (ix2 a b) ((contrEquiv1 d K hr hs).symm k) = ix2 a k := by
    funext c
    apply Fin.ext
    match c with
    | ⟨0, _⟩ => exact hl0 _ _
    | ⟨1, _⟩ => exact (d.lhsIdx_val_of_single hlc _ _).trans (contrEquiv1_symm_val d K hr hs k)
  have e2 : d.rhsIdx (ix2 a b) ((contrEquiv1 d K hr hs).symm k) = ix2 k b := by
    funext c
    apply Fin.ext
    match c with
    | ⟨0, _⟩ => exact (d.rhsIdx_val_of_single hrc _ _).trans (contrEquiv1_symm_val d K hr hs k)
    | ⟨1, _⟩ => exact hr1 _ _
  rw [e1, e2]

include hr hs hlc hrc hl0 hr1 in
/-- The accumulating product into a zero accumulator, at `(a, b)`. -/
theorem matmul_zero_apply (prec : Option ContractPrecision) :
    matmul d prec lhs rhs (constant ⟨2, ![A, B]⟩ .f32 0x00000000#32) (ix2 a b) = ∑ k : Fin K, lhs (ix2 a k) * rhs (ix2 k b) :=
  (Ideal.matmul_constant_zero_apply d prec lhs rhs (ix2 a b)).trans (contr_sum d hr hs hlc hrc hl0 hr1 lhs rhs a b)

include hr hs hlc hrc hl0 hr1 in
/-- The host's product, at `(a, b)`. -/
theorem hostDot_apply (prec : Option ContractPrecision) :
    Host.dotGeneral d prec lhs rhs (ix2 a b) = ∑ k : Fin K, lhs (ix2 a k) * rhs (ix2 k b) :=
  (Ideal.dotGeneral_apply d prec .single lhs rhs (ix2 a b)).trans (contr_sum d hr hs hlc hrc hl0 hr1 lhs rhs a b)

end Dot

end Cert.LibColumnBlocks

end
-- ==== Proof.LibCastForms.lean ====
/-
  Columns, rows and their stretchings read at coordinates, and two ways of writing the same column or row.

  * A one-column matrix [A,1] stretched along the columns by a host `broadcast_in_dim` (dims 0,1) reads, at (a, b), its entry (a, 0);
    a one-row matrix [1,B] stretched along the rows (dims 0,1) reads, at (a, b), its entry (0, b).
  * A vector [B] placed as the one row of a [1,B] matrix by `broadcast_in_dim` (dims 1) reads, at (z, b), the vector at b.
  * A vector [A] recast as an [A,1] column IS the vector placed as a column by `broadcast_in_dim` (dims 0), as whole arrays;
    a vector [B] recast as a [1,B] row IS the vector placed as a row by `broadcast_in_dim` (dims 1), as whole arrays.
-/
import Idealize.ShloMosaic.Lib.ValueIdx
import Idealize.ShloMosaic.Lib.ValueLayout
import Idealize.ShloMosaic.Lib.Pipeline.Value

namespace Cert.LibCastForms

open Idealize.ShloMosaic Idealize.ShloMosaic.ValueIdx

variable {α : Type}

/-- A column stretched over B columns: entry (a, b) is the column's entry in row a. -/
theorem bcast_a1_ab_apply {A B : ℕ} (x : (⟨2, ![A, 1]⟩ : Shape).Idx → α)
    (h : (⟨2, ![A, 1]⟩ : Shape).BroadcastsInDim ⟨2, ![A, B]⟩ (![0, 1] : Fin 2 → Fin 2)) (a : Fin A) (b : Fin B) :
    broadcastInDim ⟨2, ![A, B]⟩ (![0, 1] : Fin 2 → Fin 2) h x (ix2 a b) = x (ix2 a (0 : Fin 1)) := by
  refine broadcastInDim_apply _ h x _ _ fun d => ?_
  match d with
  | ⟨0, _⟩ =>
    show a.val = if A = 1 then 0 else a.val
    split
    · have := a.isLt; omega
    · rfl
  | ⟨1, _⟩ => rfl

/-- A row stretched over A rows: entry (a, b) is the row's entry in column b. -/
theorem bcast_1b_ab_apply {A B : ℕ} (x : (⟨2, ![1, B]⟩ : Shape).Idx → α)
    (h : (⟨2, ![1, B]⟩ : Shape).BroadcastsInDim ⟨2, ![A, B]⟩ (![0, 1] : Fin 2 → Fin 2)) (a : Fin A) (b : Fin B) :
    broadcastInDim ⟨2, ![A, B]⟩ (![0, 1] : Fin 2 → Fin 2) h x (ix2 a b) = x (ix2 (0 : Fin 1) b) := by
  refine broadcastInDim_apply _ h x _ _ fun d => ?_
  match d with
  | ⟨0, _⟩ => rfl
  | ⟨1, _⟩ =>
    show b.val = if B = 1 then 0 else b.val
    split
    · have := b.isLt; omega
    · rfl

/-- A vector placed as the one row of a matrix: entry (z, b) is the vector's entry b. -/
theorem bcast_row {B : ℕ} (x : (⟨1, ![B]⟩ : Shape).Idx → α)
    (h : (⟨1, ![B]⟩ : Shape).BroadcastsInDim ⟨2, ![1, B]⟩ (![1] : Fin 1 → Fin 2)) (z : Fin 1) (b : Fin B) :
    broadcastInDim ⟨2, ![1, B]⟩ (![1] : Fin 1 → Fin 2) h x (ix2 z b) = x (ix1 b) := by
  refine broadcastInDim_apply _ h x _ _ fun d => ?_
  match d with
  | ⟨0, _⟩ =>
    show b.val = if B = 1 then 0 else b.val
    split
    · have := b.isLt; omega
    · rfl

/-- A vector placed as the one column of a matrix: entry (a, z) is the vector's entry a. -/
theorem bcast_col {A : ℕ} (x : (⟨1, ![A]⟩ : Shape).Idx → α)
    (h : (⟨1, ![A]⟩ : Shape).BroadcastsInDim ⟨2, ![A, 1]⟩ (![0] : Fin 1 → Fin 2)) (a : Fin A) (z : Fin 1) :
    broadcastInDim ⟨2, ![A, 1]⟩ (![0] : Fin 1 → Fin 2) h x (ix2 a z) = x (ix1 a) := by
  refine broadcastInDim_apply _ h x _ _ fun d => ?_
  match d with
  | ⟨0, _⟩ =>
    show a.val = if A = 1 then 0 else a.val
    split
    · have := a.isLt; omega
    · rfl

/-- A vector recast as a column: entry (a, z) is the vector's entry a. -/
theorem cast_col {A : ℕ} (x : (⟨1, ![A]⟩ : Shape).Idx → α) (h : (⟨1, ![A]⟩ : Shape).ShapeCasts ⟨2, ![A, 1]⟩)
    (a : Fin A) (z : Fin 1) : shapeCast ⟨2, ![A, 1]⟩ x h (ix2 a z) = x (ix1 a) := by
  refine shapeCast_apply x h _ _ ?_
  rw [Shape.rowMajor_val_one, Shape.rowMajor_val_two]
  have hz : z.val = 0 := by omega
  show a.val = a.val * 1 + z.val
  omega

/-- Recasting a vector as a column and placing it as a column are one array. -/
theorem col_cast_eq_bcast {A : ℕ} (x : (⟨1, ![A]⟩ : Shape).Idx → α) (h : (⟨1, ![A]⟩ : Shape).ShapeCasts ⟨2, ![A, 1]⟩)
    (h' : (⟨1, ![A]⟩ : Shape).BroadcastsInDim ⟨2, ![A, 1]⟩ (![0] : Fin 1 → Fin 2)) :
    shapeCast ⟨2, ![A, 1]⟩ x h = broadcastInDim ⟨2, ![A, 1]⟩ (![0] : Fin 1 → Fin 2) h' x := by
  funext j
  obtain ⟨a, z, rfl⟩ : ∃ (a : Fin A) (z : Fin 1), j = ix2 a z := ⟨j 0, j 1, eq_ix2 j⟩
  rw [cast_col, bcast_col]

/-- Recasting a vector as a row and placing it as a row are one array. -/
theorem row_cast_eq_bcast {B : ℕ} (x : (⟨1, ![B]⟩ : Shape).Idx → α) (h : (⟨1, ![B]⟩ : Shape).ShapeCasts ⟨2, ![1, B]⟩)
    (h' : (⟨1, ![B]⟩ : Shape).BroadcastsInDim ⟨2, ![1, B]⟩ (![1] : Fin 1 → Fin 2)) :
    shapeCast ⟨2, ![1, B]⟩ x h = broadcastInDim ⟨2, ![1, B]⟩ (![1] : Fin 1 → Fin 2) h' x := by
  funext j
  obtain ⟨z, b, rfl⟩ : ∃ (z : Fin 1) (b : Fin B), j = ix2 z b := ⟨j 0, j 1, eq_ix2 j⟩
  rw [shapeCast_a_1a_apply, bcast_row]

end Cert.LibCastForms
-- ==== Proof.LibBlockRows.lean ====
/-
  Small facts about row-blocked arrays, used when a blockwise computation is read as one whole-array function.

  * The offsets `![0, 0]` of a whole-block access are the zero function.
  * A one-column array broadcast along the columns reads, at `(p, c)`, its entry `(p, 0)`.
-/
import Idealize.ShloMosaic.Lib.ValueIdx
import Idealize.ShloMosaic.Lib.ValueLayout
import Idealize.ShloMosaic.Lib.Pipeline.Value

namespace Cert.LibBlockRows

open Idealize.ShloMosaic Idealize.ShloMosaic.ValueIdx

variable {α : Type}

/-- The offsets of an access at the block's origin, as the zero function. -/
theorem zero_offsets : (![0, 0] : Fin 2 → Nat) = fun _ => 0 := funext fun a => by fin_cases a <;> rfl

/-- One column broadcast over many: the result at `(p, c)` is the column's entry in row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibBlockRows
-- ==== Proof.LibAffineTiles.lean ====
/-
  Affine layers and the scaled, clamped hyperbolic tangent, read at coordinates over the extended reals.

  A dense layer `x · W + b` appears in two spellings. On a tile of rows it is an accumulating matrix product into a zero
  accumulator plus a `[1, B]` bias row broadcast over the tile's rows (optionally followed by a maximum with a scalar
  word); on a whole array it is the host's product plus the bias row stretched over all rows (optionally followed by a
  maximum with a broadcast scalar constant). Both read, at `(a, b)`, `(∑ k, x (a, k) · W (k, b)) + bias (0, b)`: the two
  spellings are one function of the operands, with no finiteness needed, because both products are the same finite
  sum. The second family is `tanh (max (y · s) 0)` with `s` one column stretched over the row: on a tile through a
  vector broadcast, on a whole array through the host's `broadcast_in_dim`.
-/
import Idealize.ShloMosaic.PureOps.Ideal.Laws
import Idealize.ShloMosaic.Lib.ValueIdx
import Idealize.ShloMosaic.Lib.ValueLayout
import Idealize.ShloMosaic.Lib.Pipeline.Value
import proofs.«169468_j20469814133013_1_alg».proof.Proof.LibColumnBlocks
import proofs.«169468_j20469814133013_1_alg».proof.Proof.LibCastForms
import proofs.«169468_j20469814133013_1_alg».proof.Proof.LibBlockRows

noncomputable section

namespace Cert.LibAffineTiles

open Idealize.ShloMosaic Idealize.ShloMosaic.ValueIdx

/-- A `[1, B]` row, recast to its own shape and broadcast over `A` rows, at `(p, q)` is the row's entry `q`. -/
theorem rowOver_apply {α : Type} {A B : ℕ} (v : (⟨2, ![1, B]⟩ : Shape).Idx → α)
    (hsc : (⟨2, ![1, B]⟩ : Shape).ShapeCasts ⟨2, ![1, B]⟩) (hbc : (⟨2, ![1, B]⟩ : Shape).Broadcasts ⟨2, ![A, B]⟩)
    (p : Fin A) (q : Fin B) :
    broadcastTo ⟨2, ![A, B]⟩ (shapeCast ⟨2, ![1, B]⟩ v hsc) hbc (ix2 p q) = v (ix2 (0 : Fin 1) q) := by
  rw [shapeCast_self]
  refine broadcastTo_apply v hbc (ix2 p q) (ix2 (0 : Fin 1) q) fun a => ?_
  match a with
  | ⟨0, _⟩ => exact (if_pos rfl).symm
  | ⟨1, _⟩ =>
    show q.val = if B = 1 then 0 else q.val
    split
    · have := q.isLt; omega
    · rfl

/-- A scalar placed everywhere by the host's `broadcast_in_dim` with no dimensions. -/
theorem scalarOver_apply {α : Type} {s : Shape} (x : (⟨0, ![]⟩ : Shape).Idx → α)
    (h : (⟨0, ![]⟩ : Shape).BroadcastsInDim s (![] : Fin 0 → Fin s.rank)) (j : s.Idx) :
    broadcastInDim s (![] : Fin 0 → Fin s.rank) h x j = x ix0 :=
  broadcastInDim_apply _ h x j ix0 fun a => a.elim0

section Affine
variable {A K B : ℕ}
  (d : DotDims ⟨2, ![A, K]⟩ ⟨2, ![K, B]⟩ ⟨2, ![A, B]⟩)
  (hr : d.contr.rank = 1) (hs : d.contr.size ⟨0, by omega⟩ = K)
  (hlc : d.lhsContracting = [1]) (hrc : d.rhsContracting = [0])
  (hl0 : ∀ j k, (d.lhsIdx j k 0).val = (j 0).val) (hr1 : ∀ j k, (d.rhsIdx j k 1).val = (j 1).val)
  (x : FVec Ideal ⟨2, ![A, K]⟩ .f32) (w : FVec Ideal ⟨2, ![K, B]⟩ .f32) (b : FVec Ideal ⟨2, ![1, B]⟩ .f32)
  (p : Fin A) (q : Fin B)

/-- The value of the dense layer at `(p, q)`. -/
def affineAt : EReal := (∑ k : Fin K, x (ix2 p k) * w (ix2 k q)) + b (ix2 (0 : Fin 1) q)

include hr hs hlc hrc hl0 hr1 in
/-- The tile's spelling: product into a zero accumulator, plus the bias row over the tile's rows. -/
theorem tile_apply (hsc : (⟨2, ![1, B]⟩ : Shape).ShapeCasts ⟨2, ![1, B]⟩) (hbc : (⟨2, ![1, B]⟩ : Shape).Broadcasts ⟨2, ![A, B]⟩) :
    addf (matmul d none x w (constant ⟨2, ![A, B]⟩ .f32 0x00000000#32))
      (broadcastTo ⟨2, ![A, B]⟩ (shapeCast ⟨2, ![1, B]⟩ b hsc) hbc) (ix2 p q) = affineAt x w b p q := by
  rw [addf_apply, LibColumnBlocks.matmul_zero_apply d hr hs hlc hrc hl0 hr1, rowOver_apply]
  rfl

include hr hs hlc hrc hl0 hr1 in
/-- The same with the left operand first recast to its own shape. -/
theorem tile_cast_apply (hx : (⟨2, ![A, K]⟩ : Shape).ShapeCasts ⟨2, ![A, K]⟩)
    (hsc : (⟨2, ![1, B]⟩ : Shape).ShapeCasts ⟨2, ![1, B]⟩) (hbc : (⟨2, ![1, B]⟩ : Shape).Broadcasts ⟨2, ![A, B]⟩) :
    addf (matmul d none (shapeCast ⟨2, ![A, K]⟩ x hx) w (constant ⟨2, ![A, B]⟩ .f32 0x00000000#32))
      (broadcastTo ⟨2, ![A, B]⟩ (shapeCast ⟨2, ![1, B]⟩ b hsc) hbc) (ix2 p q) = affineAt x w b p q := by
  rw [shapeCast_self]
  exact tile_apply d hr hs hlc hrc hl0 hr1 x w b p q hsc hbc

include hr hs hlc hrc hl0 hr1 in
/-- … followed by a maximum with a scalar word. -/
theorem tile_cast_max_apply (z : BitVec 32) (hx : (⟨2, ![A, K]⟩ : Shape).ShapeCasts ⟨2, ![A, K]⟩)
    (hsc : (⟨2, ![1, B]⟩ : Shape).ShapeCasts ⟨2, ![1, B]⟩) (hbc : (⟨2, ![1, B]⟩ : Shape).Broadcasts ⟨2, ![A, B]⟩) :
    maximumf (addf (matmul d none (shapeCast ⟨2, ![A, K]⟩ x hx) w (constant ⟨2, ![A, B]⟩ .f32 0x00000000#32))
      (broadcastTo ⟨2, ![A, B]⟩ (shapeCast ⟨2, ![1, B]⟩ b hsc) hbc))
      (broadcast ⟨2, ![A, B]⟩ (Scalar.ofBits (F := Ideal) .f32 z)) (ix2 p q)
      = max (affineAt x w b p q) (Ideal.ofBits .f32 z) := by
  rw [maximumf_apply, tile_cast_apply d hr hs hlc hrc hl0 hr1 x w b p q hx hsc hbc]
  rfl

include hr hs hlc hrc hl0 hr1 in
/-- The whole array's spelling: the host's product plus the bias row stretched over all rows. -/
theorem whole_apply (hb : (⟨2, ![1, B]⟩ : Shape).BroadcastsInDim ⟨2, ![A, B]⟩ (![0, 1] : Fin 2 → Fin 2)) :
    addf (Host.dotGeneral d none x w) (broadcastInDim ⟨2, ![A, B]⟩ (![0, 1] : Fin 2 → Fin 2) hb b) (ix2 p q)
      = affineAt x w b p q := by
  rw [addf_apply, LibColumnBlocks.hostDot_apply d hr hs hlc hrc hl0 hr1, LibCastForms.bcast_1b_ab_apply]
  rfl

include hr hs hlc hrc hl0 hr1 in
/-- … followed by a maximum with a broadcast scalar constant. -/
theorem whole_max_apply (z : BitVec 32) (hb : (⟨2, ![1, B]⟩ : Shape).BroadcastsInDim ⟨2, ![A, B]⟩ (![0, 1] : Fin 2 → Fin 2))
    (h0 : (⟨0, ![]⟩ : Shape).BroadcastsInDim ⟨2, ![A, B]⟩ (![] : Fin 0 → Fin 2)) :
    maximumf (addf (Host.dotGeneral d none x w) (broadcastInDim ⟨2, ![A, B]⟩ (![0, 1] : Fin 2 → Fin 2) hb b))
      (broadcastInDim ⟨2, ![A, B]⟩ (![] : Fin 0 → Fin 2) h0 (constant (F := Ideal) ⟨0, ![]⟩ .f32 z)) (ix2 p q)
      = max (affineAt x w b p q) (Ideal.ofBits .f32 z) := by
  rw [maximumf_apply, whole_apply d hr hs hlc hrc hl0 hr1 x w b p q hb, scalarOver_apply]
  rfl

/-- The dense layer as a whole array. -/
def affine : FVec Ideal ⟨2, ![A, B]⟩ .f32 := fun i => affineAt x w b (i 0) (i 1)

/-- The dense layer followed by a maximum with a scalar word, as a whole array. -/
def affineMax (z : BitVec 32) : FVec Ideal ⟨2, ![A, B]⟩ .f32 := fun i => max (affineAt x w b (i 0) (i 1)) (Ideal.ofBits .f32 z)

include hr hs hlc hrc hl0 hr1 in
/-- The host's spelling of the dense layer is that array. -/
theorem whole_eq (hb : (⟨2, ![1, B]⟩ : Shape).BroadcastsInDim ⟨2, ![A, B]⟩ (![0, 1] : Fin 2 → Fin 2)) :
    addf (Host.dotGeneral d none x w) (broadcastInDim ⟨2, ![A, B]⟩ (![0, 1] : Fin 2 → Fin 2) hb b) = affine x w b := by
  funext j
  obtain ⟨p, q, rfl⟩ : ∃ (p : Fin A) (q : Fin B), j = ix2 p q := ⟨j 0, j 1, eq_ix2 j⟩
  exact whole_apply d hr hs hlc hrc hl0 hr1 x w b p q hb

include hr hs hlc hrc hl0 hr1 in
/-- The host's spelling of the clamped dense layer is that array. -/
theorem whole_max_eq (z : BitVec 32) (hb : (⟨2, ![1, B]⟩ : Shape).BroadcastsInDim ⟨2, ![A, B]⟩ (![0, 1] : Fin 2 → Fin 2))
    (h0 : (⟨0, ![]⟩ : Shape).BroadcastsInDim ⟨2, ![A, B]⟩ (![] : Fin 0 → Fin 2)) :
    maximumf (addf (Host.dotGeneral d none x w) (broadcastInDim ⟨2, ![A, B]⟩ (![0, 1] : Fin 2 → Fin 2) hb b))
      (broadcastInDim ⟨2, ![A, B]⟩ (![] : Fin 0 → Fin 2) h0 (constant (F := Ideal) ⟨0, ![]⟩ .f32 z)) = affineMax x w b z := by
  funext j
  obtain ⟨p, q, rfl⟩ : ∃ (p : Fin A) (q : Fin B), j = ix2 p q := ⟨j 0, j 1, eq_ix2 j⟩
  exact whole_max_apply d hr hs hlc hrc hl0 hr1 x w b p q z hb h0

end Affine

section Squash
variable {A B : ℕ} (y : FVec Ideal ⟨2, ![A, B]⟩ .f32) (s : FVec Ideal ⟨2, ![A, 1]⟩ .f32) (z : BitVec 32) (p : Fin A) (q : Fin B)

/-- `tanh (max (y · s) z)` at `(p, q)`, the factor `s` taken from row `p` of one column. -/
def squashAt : EReal := Ideal.tanh (max (y (ix2 p q) * s (ix2 p (0 : Fin 1))) (Ideal.ofBits .f32 z))

/-- The tile's spelling: both operands recast to their own shapes, the column broadcast over the row. -/
theorem squash_tile_apply (hy : (⟨2, ![A, B]⟩ : Shape).ShapeCasts ⟨2, ![A, B]⟩) (hs : (⟨2, ![A, 1]⟩ : Shape).ShapeCasts ⟨2, ![A, 1]⟩)
    (hbc : (⟨2, ![A, 1]⟩ : Shape).Broadcasts ⟨2, ![A, B]⟩) :
    tanh (maximumf (mulf (shapeCast ⟨2, ![A, B]⟩ y hy) (broadcastTo ⟨2, ![A, B]⟩ (shapeCast ⟨2, ![A, 1]⟩ s hs) hbc))
      (broadcast ⟨2, ![A, B]⟩ (Scalar.ofBits (F := Ideal) .f32 z))) (ix2 p q) = squashAt y s z p q := by
  rw [shapeCast_self, shapeCast_self]
  show Ideal.tanh (max (y (ix2 p q) * broadcastTo ⟨2, ![A, B]⟩ s hbc (ix2 p q)) (Ideal.ofBits .f32 z)) = _
  rw [LibBlockRows.broadcastTo_a1_ab_apply]
  rfl

/-- The whole array's spelling on the host. -/
theorem squash_whole_apply (hb : (⟨2, ![A, 1]⟩ : Shape).BroadcastsInDim ⟨2, ![A, B]⟩ (![0, 1] : Fin 2 → Fin 2))
    (h0 : (⟨0, ![]⟩ : Shape).BroadcastsInDim ⟨2, ![A, B]⟩ (![] : Fin 0 → Fin 2)) :
    Host.tanh (maximumf (mulf y (broadcastInDim ⟨2, ![A, B]⟩ (![0, 1] : Fin 2 → Fin 2) hb s))
      (broadcastInDim ⟨2, ![A, B]⟩ (![] : Fin 0 → Fin 2) h0 (constant (F := Ideal) ⟨0, ![]⟩ .f32 z))) (ix2 p q)
      = squashAt y s z p q := by
  show Ideal.tanh (max (y (ix2 p q) * broadcastInDim ⟨2, ![A, B]⟩ (![0, 1] : Fin 2 → Fin 2) hb s (ix2 p q))
    (broadcastInDim ⟨2, ![A, B]⟩ (![] : Fin 0 → Fin 2) h0 (constant (F := Ideal) ⟨0, ![]⟩ .f32 z) (ix2 p q))) = _
  rw [LibCastForms.bcast_a1_ab_apply, scalarOver_apply]
  rfl

/-- The scaled, clamped hyperbolic tangent as a whole array. -/
def squash : FVec Ideal ⟨2, ![A, B]⟩ .f32 := fun i => squashAt y s z (i 0) (i 1)

/-- The host's spelling is that array. -/
theorem squash_whole_eq (hb : (⟨2, ![A, 1]⟩ : Shape).BroadcastsInDim ⟨2, ![A, B]⟩ (![0, 1] : Fin 2 → Fin 2))
    (h0 : (⟨0, ![]⟩ : Shape).BroadcastsInDim ⟨2, ![A, B]⟩ (![] : Fin 0 → Fin 2)) :
    Host.tanh (maximumf (mulf y (broadcastInDim ⟨2, ![A, B]⟩ (![0, 1] : Fin 2 → Fin 2) hb s))
      (broadcastInDim ⟨2, ![A, B]⟩ (![] : Fin 0 → Fin 2) h0 (constant (F := Ideal) ⟨0, ![]⟩ .f32 z))) = squash y s z := by
  funext j
  obtain ⟨p, q, rfl⟩ : ∃ (p : Fin A) (q : Fin B), j = ix2 p q := ⟨j 0, j 1, eq_ix2 j⟩
  exact squash_whole_apply y s z p q hb h0

end Squash

end Cert.LibAffineTiles

end
-- ==== Proof.Layers.lean ====
/-
  The two dense maps of the network as whole-array functions over the extended reals.

  `conv h a w1 b1 w2 b2` is, row by row, `max ((h + a) · w1 + b1) 0 · w2 + b2`: the sum of a node's feature row and its
  aggregated neighbour row goes through two dense layers with a rectifier between them (the rectifier's floor is the
  zero word). `proj x wo bo` is `x · wo + bo`. Both take their bias as a one-row matrix. Row `r` of either result
  depends on row `r` of the row-indexed operands only, which is what lets a tile of rows be computed by itself.
-/
import Idealize.ShloMosaic.PureOps.Ideal.Laws
import Idealize.ShloMosaic.Lib.ValueIdx
import proofs.«169468_j20469814133013_1_alg».proof.Proof.LibAffineTiles

noncomputable section

namespace Cert.Layers

open Idealize.ShloMosaic Idealize.ShloMosaic.ValueIdx Cert.LibAffineTiles

/-- An `A × B` matrix of extended reals. -/
abbrev Mat (A B : ℕ) : Type := FVec Ideal ⟨2, ![A, B]⟩ .f32

/-- Two dense layers with a rectifier between them, on the sum of the feature rows and the aggregated rows. -/
def conv {N : ℕ} (h a : Mat N 64) (w1 : Mat 64 64) (b1 : Mat 1 64) (w2 : Mat 64 64) (b2 : Mat 1 64) : Mat N 64 :=
  affine (affineMax (addf h a) w1 b1 0x00000000#32) w2 b2

/-- The output projection. -/
def proj {N : ℕ} (x : Mat N 192) (wo : Mat 192 64) (bo : Mat 1 64) : Mat N 64 := affine x wo bo

end Cert.Layers

end
-- ==== Proof.IdealSpec.lean ====
/-
  The network as one function of its sixteen arguments, in the program's own spelling of the host-side pieces.

  `nbrs x e` sums, for every node, the feature rows of its in-neighbours: the rows of `x` gathered at the edges' source
  nodes (a negative index wrapped by the node count) are added into the rows named by the edges' target nodes, starting
  from zero. `row b` is a bias vector recast as a one-row matrix. `hop` is one graph convolution: the dense map
  `Layers.conv` of the features and their neighbour sums. The result applies hop-length 1, 2 and 3 stacks (each stack
  with its own parameters, reused at every level), joins the three outputs side by side and projects them.
-/
import proofs.«169468_j20469814133013_1_alg».proof.Proof.Gen.KernelIdeal
import proofs.«169468_j20469814133013_1_alg».proof.Proof.Layers

noncomputable section

namespace Cert.KernelIdeal.Spec

open Cert.KernelIdeal Cert.KernelIdeal.Facts₀ Idealize.ShloMosaic Cert.Layers

abbrev Feat : Type := (⟨S50000x64, .f32⟩ : BufTy).Contents (Elt Ideal)
abbrev Edges : Type := (⟨S2x800000, .i32⟩ : BufTy).Contents (Elt Ideal)
abbrev Wt : Type := (⟨S64x64, .f32⟩ : BufTy).Contents (Elt Ideal)
abbrev Bias : Type := (⟨S64, .f32⟩ : BufTy).Contents (Elt Ideal)

/-- The edges' source nodes, a negative one wrapped by the node count. -/
def srcs (e : Edges) : (⟨S800000, .i32⟩ : BufTy).Contents (Elt Ideal) :=
  select (cmpi .slt (shapeCast S800000 (extractStridedSlice S1x800000 ![0, 0] e slices_S2x800000_S1x800000_0_0) shapeCasts_S1x800000_S800000)
      (broadcastInDim S800000 ![] bcast_S_S800000 (constantI S_ 32 0#32)))
    (addi (shapeCast S800000 (extractStridedSlice S1x800000 ![0, 0] e slices_S2x800000_S1x800000_0_0) shapeCasts_S1x800000_S800000)
      (broadcastInDim S800000 ![] bcast_S_S800000 (constantI S_ 32 50000#32)))
    (shapeCast S800000 (extractStridedSlice S1x800000 ![0, 0] e slices_S2x800000_S1x800000_0_0) shapeCasts_S1x800000_S800000)

/-- The edges' target nodes. -/
def dsts (e : Edges) : (⟨S800000, .i32⟩ : BufTy).Contents (Elt Ideal) :=
  shapeCast S800000 (extractStridedSlice S1x800000 ![1, 0] e slices_S2x800000_S1x800000_1_0) shapeCasts_S1x800000_S800000

/-- Every node's sum of its in-neighbours' feature rows. -/
def nbrs (x : Feat) (e : Edges) : Feat :=
  Host.scatterAdd (F := Ideal) scatter_S50000x64_S800000x1_S800000x64_1_0_0_1
    (broadcastInDim S50000x64 ![] bcast_S_S50000x64 (constant (F := Ideal) S_ .f32 0x00000000#32))
    (broadcastInDim S800000x1 ![0] bcast_S800000_S800000x1_0 (dsts e))
    (Host.gather gather_S50000x64_S800000x1_S800000x64_1_0_n_n_0_1_164 x (broadcastInDim S800000x1 ![0] bcast_S800000_S800000x1_0 (srcs e)))

/-- A bias vector as a one-row matrix. -/
def row (b : Bias) : (⟨S1x64, .f32⟩ : BufTy).Contents (Elt Ideal) := shapeCast S1x64 b shapeCasts_S64_S1x64

/-- One graph convolution. -/
def hop (h : Feat) (e : Edges) (w1 : Wt) (b1 : Bias) (w2 : Wt) (b2 : Bias) : Feat :=
  conv (N := 50000) h (nbrs h e) w1 (row b1) w2 (row b2)

/-- The three stacks' outputs side by side. -/
def joined (x : Feat) (e : Edges) (w10 : Wt) (b10 : Bias) (w20 : Wt) (b20 : Bias) (w11 : Wt) (b11 : Bias) (w21 : Wt) (b21 : Bias)
    (w12 : Wt) (b12 : Bias) (w22 : Wt) (b22 : Bias) : (⟨S50000x192, .f32⟩ : BufTy).Contents (Elt Ideal) :=
  concatenate S50000x192 1
    [⟨S50000x64, hop x e w10 b10 w20 b20⟩,
     ⟨S50000x64, hop (hop x e w11 b11 w21 b21) e w11 b11 w21 b21⟩,
     ⟨S50000x64, hop (hop (hop x e w12 b12 w22 b22) e w12 b12 w22 b22) e w12 b12 w22 b22⟩]
    concatenates_S50000x64_S50000x64_S50000x64_S50000x192_d1

/-- The network's result. -/
def kspec (x : Feat) (e : Edges) (w10 : Wt) (b10 : Bias) (w20 : Wt) (b20 : Bias) (w11 : Wt) (b11 : Bias) (w21 : Wt) (b21 : Bias)
    (w12 : Wt) (b12 : Bias) (w22 : Wt) (b22 : Bias) (wo : (⟨S192x64, .f32⟩ : BufTy).Contents (Elt Ideal)) (bo : Bias) : Feat :=
  proj (N := 50000) (joined x e w10 b10 w20 b20 w11 b11 w21 b21 w12 b12 w22 b22) wo (row bo)

end Cert.KernelIdeal.Spec

end
-- ==== Proof.IdealStretches.lean ====
/-
  What the host operations between two launches write, as functions of what they read.

  Before the first launch the host slices the edge list into its source and target rows and forms the neighbour sums of
  the input features; before each later convolution launch it forms the neighbour sums of that launch's input from the
  same two rows; before every launch it recasts the launch's bias vectors as one-row matrices; before the last launch it
  joins the three stacks' outputs side by side. Each written array is one fixed term of the arrays read, whatever the
  contents of the other arrays are: the neighbour sums are `nbrsOf h s d` of the features `h`, the source row `s` and
  the target row `d`, and with `s`, `d` the two rows of the edge list `e` that term is `Spec.nbrs h e`.
-/
import proofs.«169468_j20469814133013_1_alg».proof.Proof.Gen.KernelIdeal.Regions
import proofs.«169468_j20469814133013_1_alg».proof.Proof.IdealSpec

noncomputable section

namespace Cert.KernelIdeal.Stretches

open Cert.KernelIdeal Cert.KernelIdeal.Gen Idealize.ShloMosaic Idealize.ShloMosaic.TcCoe Idealize.SL.Sem
  Idealize.ShloMosaic.StableHlo

variable {F : FTy → Type} [FloatOps F]

abbrev Feat (F : FTy → Type) : Type := (⟨S50000x64, .f32⟩ : BufTy).Contents (Elt F)
abbrev Edges (F : FTy → Type) : Type := (⟨S2x800000, .i32⟩ : BufTy).Contents (Elt F)
abbrev Ends (F : FTy → Type) : Type := (⟨S800000, .i32⟩ : BufTy).Contents (Elt F)
abbrev Bias (F : FTy → Type) : Type := (⟨S64, .f32⟩ : BufTy).Contents (Elt F)
abbrev Row (F : FTy → Type) : Type := (⟨S1x64, .f32⟩ : BufTy).Contents (Elt F)

/-- The edges' source row as a vector. -/
def srcRaw (e : Edges F) : Ends F :=
  shapeCast S800000 (extractStridedSlice S1x800000 ![0, 0] e slices_S2x800000_S1x800000_0_0) shapeCasts_S1x800000_S800000

/-- The edges' target row as a vector. -/
def dstRaw (e : Edges F) : Ends F :=
  shapeCast S800000 (extractStridedSlice S1x800000 ![1, 0] e slices_S2x800000_S1x800000_1_0) shapeCasts_S1x800000_S800000

/-- The neighbour sums of `h` along the edges with source row `s` (a negative entry wrapped by the node count) and
target row `d`. -/
def nbrsOf (h : Feat F) (s d : Ends F) : Feat F :=
  Host.scatterAdd scatter_S50000x64_S800000x1_S800000x64_1_0_0_1
    (broadcastInDim S50000x64 ![] bcast_S_S50000x64 (constant S_ .f32 0x00000000#32))
    (broadcastInDim S800000x1 ![0] bcast_S800000_S800000x1_0 d)
    (Host.gather gather_S50000x64_S800000x1_S800000x64_1_0_n_n_0_1_164 h
      (broadcastInDim S800000x1 ![0] bcast_S800000_S800000x1_0
        (select (cmpi .slt s (broadcastInDim S800000 ![] bcast_S_S800000 (constantI S_ 32 0#32)))
          (addi s (broadcastInDim S800000 ![] bcast_S_S800000 (constantI S_ 32 50000#32))) s)))

/-- A bias vector recast as a one-row matrix. -/
def rowOf (b : Bias F) : Row F := shapeCast S1x64 b shapeCasts_S64_S1x64

/-- Three arrays side by side. -/
def joinOf (a b c : Feat F) : (⟨S50000x192, .f32⟩ : BufTy).Contents (Elt F) :=
  concatenate S50000x192 1 [⟨S50000x64, a⟩, ⟨S50000x64, b⟩, ⟨S50000x64, c⟩]
    concatenates_S50000x64_S50000x64_S50000x64_S50000x192_d1

theorem joinOf_congr {a a' b b' c c' : Feat F} (ea : a = a') (eb : b = b') (ec : c = c') :
    joinOf a b c = joinOf a' b' c' := by rw [ea, eb, ec]

theorem nbrsOf_congr {h h' : Feat F} {s s' d d' : Ends F} (eh : h = h') (es : s = s') (ed : d = d') :
    nbrsOf h s d = nbrsOf h' s' d' := by rw [eh, es, ed]

/-- With the two rows of the edge list, the neighbour sums are the specification's. -/
theorem nbrsOf_spec (h : Feat Ideal) (e : Edges Ideal) : nbrsOf h (srcRaw e) (dstRaw e) = Spec.nbrs h e := rfl

/-- The recast bias is the specification's. -/
theorem rowOf_spec (b : Bias Ideal) : rowOf b = Spec.row b := rfl

/-! ## The first stretch -/

theorem s0_src (V : Valuation τ sig (Elt F)) :
    after hostOps0 V (Proc.devRef .tc main_v1) = srcRaw (V (Proc.devRef .tc main_arg1)) := by
  after_results; rfl

theorem s0_dst (V : Valuation τ sig (Elt F)) :
    after hostOps0 V (Proc.devRef .tc main_v3) = dstRaw (V (Proc.devRef .tc main_arg1)) := by
  after_results; rfl

set_option maxHeartbeats 2000000 in
theorem s0_nbrs (V : Valuation τ sig (Elt F)) :
    after hostOps0 V (Proc.devRef .tc main_v13)
      = nbrsOf (V (Proc.devRef .tc main_arg0)) (srcRaw (V (Proc.devRef .tc main_arg1))) (dstRaw (V (Proc.devRef .tc main_arg1))) := by
  after_results_simp; rfl

theorem s0_row1 (V : Valuation τ sig (Elt F)) :
    after hostOps0 V (Proc.devRef .tc main_v14) = rowOf (V (Proc.devRef .tc main_arg3)) := by
  after_results; rfl

theorem s0_row2 (V : Valuation τ sig (Elt F)) :
    after hostOps0 V (Proc.devRef .tc main_v15) = rowOf (V (Proc.devRef .tc main_arg5)) := by
  after_results; rfl

/-! ## The stretch before launch 1 -/

set_option maxHeartbeats 2000000 in
theorem s1_nbrs (V : Valuation τ sig (Elt F)) :
    after hostOps1 V (Proc.devRef .tc main_v26)
      = nbrsOf (V (Proc.devRef .tc main_arg0)) (V (Proc.devRef .tc main_v1)) (V (Proc.devRef .tc main_v3)) := by
  after_results_simp; rfl

theorem s1_row1 (V : Valuation τ sig (Elt F)) :
    after hostOps1 V (Proc.devRef .tc main_v27) = rowOf (V (Proc.devRef .tc main_arg7)) := by
  after_results; rfl

theorem s1_row2 (V : Valuation τ sig (Elt F)) :
    after hostOps1 V (Proc.devRef .tc main_v28) = rowOf (V (Proc.devRef .tc main_arg9)) := by
  after_results; rfl

/-! ## The stretch before launch 2 -/

set_option maxHeartbeats 2000000 in
theorem s2_nbrs (V : Valuation τ sig (Elt F)) :
    after hostOps2 V (Proc.devRef .tc main_v39)
      = nbrsOf (V (Proc.devRef .tc main_v29)) (V (Proc.devRef .tc main_v1)) (V (Proc.devRef .tc main_v3)) := by
  after_results_simp; rfl

theorem s2_row1 (V : Valuation τ sig (Elt F)) :
    after hostOps2 V (Proc.devRef .tc main_v40) = rowOf (V (Proc.devRef .tc main_arg7)) := by
  after_results; rfl

theorem s2_row2 (V : Valuation τ sig (Elt F)) :
    after hostOps2 V (Proc.devRef .tc main_v41) = rowOf (V (Proc.devRef .tc main_arg9)) := by
  after_results; rfl

/-! ## The stretch before launch 3 -/

set_option maxHeartbeats 2000000 in
theorem s3_nbrs (V : Valuation τ sig (Elt F)) :
    after hostOps3 V (Proc.devRef .tc main_v52)
      = nbrsOf (V (Proc.devRef .tc main_arg0)) (V (Proc.devRef .tc main_v1)) (V (Proc.devRef .tc main_v3)) := by
  after_results_simp; rfl

theorem s3_row1 (V : Valuation τ sig (Elt F)) :
    after hostOps3 V (Proc.devRef .tc main_v53) = rowOf (V (Proc.devRef .tc main_arg11)) := by
  after_results; rfl

theorem s3_row2 (V : Valuation τ sig (Elt F)) :
    after hostOps3 V (Proc.devRef .tc main_v54) = rowOf (V (Proc.devRef .tc main_arg13)) := by
  after_results; rfl

/-! ## The stretch before launch 4 -/

set_option maxHeartbeats 2000000 in
theorem s4_nbrs (V : Valuation τ sig (Elt F)) :
    after hostOps4 V (Proc.devRef .tc main_v65)
      = nbrsOf (V (Proc.devRef .tc main_v55)) (V (Proc.devRef .tc main_v1)) (V (Proc.devRef .tc main_v3)) := by
  after_results_simp; rfl

theorem s4_row1 (V : Valuation τ sig (Elt F)) :
    after hostOps4 V (Proc.devRef .tc main_v66) = rowOf (V (Proc.devRef .tc main_arg11)) := by
  after_results; rfl

theorem s4_row2 (V : Valuation τ sig (Elt F)) :
    after hostOps4 V (Proc.devRef .tc main_v67) = rowOf (V (Proc.devRef .tc main_arg13)) := by
  after_results; rfl

/-! ## The stretch before launch 5 -/

set_option maxHeartbeats 2000000 in
theorem s5_nbrs (V : Valuation τ sig (Elt F)) :
    after hostOps5 V (Proc.devRef .tc main_v78)
      = nbrsOf (V (Proc.devRef .tc main_v68)) (V (Proc.devRef .tc main_v1)) (V (Proc.devRef .tc main_v3)) := by
  after_results_simp; rfl

theorem s5_row1 (V : Valuation τ sig (Elt F)) :
    after hostOps5 V (Proc.devRef .tc main_v79) = rowOf (V (Proc.devRef .tc main_arg11)) := by
  after_results; rfl

theorem s5_row2 (V : Valuation τ sig (Elt F)) :
    after hostOps5 V (Proc.devRef .tc main_v80) = rowOf (V (Proc.devRef .tc main_arg13)) := by
  after_results; rfl

/-! ## The stretch before the last launch -/

theorem s6_join (V : Valuation τ sig (Elt F)) :
    after hostOps6 V (Proc.devRef .tc main_v82)
      = joinOf (V (Proc.devRef .tc main_v16)) (V (Proc.devRef .tc main_v42)) (V (Proc.devRef .tc main_v81)) := by
  after_results; rfl

theorem s6_row (V : Valuation τ sig (Elt F)) :
    after hostOps6 V (Proc.devRef .tc main_v83) = rowOf (V (Proc.devRef .tc main_arg15)) := by
  after_results; rfl

end Cert.KernelIdeal.Stretches

end
-- ==== Proof.IdealContents.lean ====
/-
  The contents of every launch's window arrays when the launch is entered.

  No host operation and no launch writes an argument array, so at every launch an argument array holds what the program
  was launched with. The edge list's source and target rows are written once, before the first launch, and never again.
  A launch's result array holds what the launch wrote back from then on. So when a convolution launch is entered, its
  feature array holds the input features `x` or the previous level's result `h`, its neighbour array holds
  `Spec.nbrs` of that array and the edge list, and its two bias arrays hold the bias vectors recast as one-row matrices;
  when the last launch is entered, its input array holds the three stacks' results side by side.
-/
import proofs.«169468_j20469814133013_1_alg».proof.Proof.IdealLaunches
import proofs.«169468_j20469814133013_1_alg».proof.Proof.IdealStretches

noncomputable section

namespace Cert.KernelIdeal.Contents

open Cert.KernelIdeal Cert.KernelIdeal.Gen Cert.KernelIdeal.Tiles Cert.KernelIdeal.Stretches
open Idealize.ShloMosaic Idealize.ShloMosaic.TcCoe Idealize.SL.Sem

/-! ## One item back: a reference the item does not write keeps its contents -/

section Steps
variable {F : FTy → Type} [FloatOps F] (m : (ℓ : Loc nD τ sig) → Buf (Elt F) ℓ) (c : Dev nD) (r : Ref sig .tc)

theorem U1_of (h : r ∉ hostOps0_W) : U1 m c (Proc.devRef .tc r) = m ((c : Thread nD τ).loc r) :=
  StableHlo.after_of_writes_sub hostOps0 _ hostOps0_writes h
theorem U2_of (h : r ≠ main_v16) : U2 m c (Proc.devRef .tc r) = U1 m c (Proc.devRef .tc r) :=
  Function.update_of_ne (StableHlo.devRef_ne_of_ne h) _ _
theorem U3_of (h : r ∉ hostOps1_W) : U3 m c (Proc.devRef .tc r) = U2 m c (Proc.devRef .tc r) :=
  StableHlo.after_of_writes_sub hostOps1 _ hostOps1_writes h
theorem U4_of (h : r ≠ main_v29) : U4 m c (Proc.devRef .tc r) = U3 m c (Proc.devRef .tc r) :=
  Function.update_of_ne (StableHlo.devRef_ne_of_ne h) _ _
theorem U5_of (h : r ∉ hostOps2_W) : U5 m c (Proc.devRef .tc r) = U4 m c (Proc.devRef .tc r) :=
  StableHlo.after_of_writes_sub hostOps2 _ hostOps2_writes h
theorem U6_of (h : r ≠ main_v42) : U6 m c (Proc.devRef .tc r) = U5 m c (Proc.devRef .tc r) :=
  Function.update_of_ne (StableHlo.devRef_ne_of_ne h) _ _
theorem U7_of (h : r ∉ hostOps3_W) : U7 m c (Proc.devRef .tc r) = U6 m c (Proc.devRef .tc r) :=
  StableHlo.after_of_writes_sub hostOps3 _ hostOps3_writes h
theorem U8_of (h : r ≠ main_v55) : U8 m c (Proc.devRef .tc r) = U7 m c (Proc.devRef .tc r) :=
  Function.update_of_ne (StableHlo.devRef_ne_of_ne h) _ _
theorem U9_of (h : r ∉ hostOps4_W) : U9 m c (Proc.devRef .tc r) = U8 m c (Proc.devRef .tc r) :=
  StableHlo.after_of_writes_sub hostOps4 _ hostOps4_writes h
theorem U10_of (h : r ≠ main_v68) : U10 m c (Proc.devRef .tc r) = U9 m c (Proc.devRef .tc r) :=
  Function.update_of_ne (StableHlo.devRef_ne_of_ne h) _ _
theorem U11_of (h : r ∉ hostOps5_W) : U11 m c (Proc.devRef .tc r) = U10 m c (Proc.devRef .tc r) :=
  StableHlo.after_of_writes_sub hostOps5 _ hostOps5_writes h
theorem U12_of (h : r ≠ main_v81) : U12 m c (Proc.devRef .tc r) = U11 m c (Proc.devRef .tc r) :=
  Function.update_of_ne (StableHlo.devRef_ne_of_ne h) _ _
theorem U13_of (h : r ∉ hostOps6_W) : U13 m c (Proc.devRef .tc r) = U12 m c (Proc.devRef .tc r) :=
  StableHlo.after_of_writes_sub hostOps6 _ hostOps6_writes h

end Steps

/-! ## The edge rows and the launches' results, where later items read them -/

section Kept
variable {F : FTy → Type} [FloatOps F] (m : (ℓ : Loc nD τ sig) → Buf (Elt F) ℓ) (c : Dev nD)

theorem U1_src : U1 m c (Proc.devRef .tc main_v1) = srcRaw (m ((c : Thread nD τ).loc main_arg1)) := s0_src _
theorem U1_dst : U1 m c (Proc.devRef .tc main_v3) = dstRaw (m ((c : Thread nD τ).loc main_arg1)) := s0_dst _
theorem U2_src : U2 m c (Proc.devRef .tc main_v1) = srcRaw (m ((c : Thread nD τ).loc main_arg1)) :=
  (U2_of m c main_v1 (by decide)).trans <| U1_src m c
theorem U2_dst : U2 m c (Proc.devRef .tc main_v3) = dstRaw (m ((c : Thread nD τ).loc main_arg1)) :=
  (U2_of m c main_v3 (by decide)).trans <| U1_dst m c
theorem U4_src : U4 m c (Proc.devRef .tc main_v1) = srcRaw (m ((c : Thread nD τ).loc main_arg1)) :=
  (U4_of m c main_v1 (by decide)).trans <| (U3_of m c main_v1 (by decide)).trans <| (U2_of m c main_v1 (by decide)).trans <| U1_src m c
theorem U4_dst : U4 m c (Proc.devRef .tc main_v3) = dstRaw (m ((c : Thread nD τ).loc main_arg1)) :=
  (U4_of m c main_v3 (by decide)).trans <| (U3_of m c main_v3 (by decide)).trans <| (U2_of m c main_v3 (by decide)).trans <| U1_dst m c
theorem U6_src : U6 m c (Proc.devRef .tc main_v1) = srcRaw (m ((c : Thread nD τ).loc main_arg1)) :=
  (U6_of m c main_v1 (by decide)).trans <| (U5_of m c main_v1 (by decide)).trans <| (U4_of m c main_v1 (by decide)).trans <| (U3_of m c main_v1 (by decide)).trans <| (U2_of m c main_v1 (by decide)).trans <| U1_src m c
theorem U6_dst : U6 m c (Proc.devRef .tc main_v3) = dstRaw (m ((c : Thread nD τ).loc main_arg1)) :=
  (U6_of m c main_v3 (by decide)).trans <| (U5_of m c main_v3 (by decide)).trans <| (U4_of m c main_v3 (by decide)).trans <| (U3_of m c main_v3 (by decide)).trans <| (U2_of m c main_v3 (by decide)).trans <| U1_dst m c
theorem U8_src : U8 m c (Proc.devRef .tc main_v1) = srcRaw (m ((c : Thread nD τ).loc main_arg1)) :=
  (U8_of m c main_v1 (by decide)).trans <| (U7_of m c main_v1 (by decide)).trans <| (U6_of m c main_v1 (by decide)).trans <| (U5_of m c main_v1 (by decide)).trans <| (U4_of m c main_v1 (by decide)).trans <| (U3_of m c main_v1 (by decide)).trans <| (U2_of m c main_v1 (by decide)).trans <| U1_src m c
theorem U8_dst : U8 m c (Proc.devRef .tc main_v3) = dstRaw (m ((c : Thread nD τ).loc main_arg1)) :=
  (U8_of m c main_v3 (by decide)).trans <| (U7_of m c main_v3 (by decide)).trans <| (U6_of m c main_v3 (by decide)).trans <| (U5_of m c main_v3 (by decide)).trans <| (U4_of m c main_v3 (by decide)).trans <| (U3_of m c main_v3 (by decide)).trans <| (U2_of m c main_v3 (by decide)).trans <| U1_dst m c
theorem U10_src : U10 m c (Proc.devRef .tc main_v1) = srcRaw (m ((c : Thread nD τ).loc main_arg1)) :=
  (U10_of m c main_v1 (by decide)).trans <| (U9_of m c main_v1 (by decide)).trans <| (U8_of m c main_v1 (by decide)).trans <| (U7_of m c main_v1 (by decide)).trans <| (U6_of m c main_v1 (by decide)).trans <| (U5_of m c main_v1 (by decide)).trans <| (U4_of m c main_v1 (by decide)).trans <| (U3_of m c main_v1 (by decide)).trans <| (U2_of m c main_v1 (by decide)).trans <| U1_src m c
theorem U10_dst : U10 m c (Proc.devRef .tc main_v3) = dstRaw (m ((c : Thread nD τ).loc main_arg1)) :=
  (U10_of m c main_v3 (by decide)).trans <| (U9_of m c main_v3 (by decide)).trans <| (U8_of m c main_v3 (by decide)).trans <| (U7_of m c main_v3 (by decide)).trans <| (U6_of m c main_v3 (by decide)).trans <| (U5_of m c main_v3 (by decide)).trans <| (U4_of m c main_v3 (by decide)).trans <| (U3_of m c main_v3 (by decide)).trans <| (U2_of m c main_v3 (by decide)).trans <| U1_dst m c
theorem U2_out : U2 m c (Proc.devRef .tc main_v16) = o2 m c := Function.update_self _ _ _
theorem U4_out : U4 m c (Proc.devRef .tc main_v29) = o4 m c := Function.update_self _ _ _
theorem U6_out : U6 m c (Proc.devRef .tc main_v42) = o6 m c := Function.update_self _ _ _
theorem U8_out : U8 m c (Proc.devRef .tc main_v55) = o8 m c := Function.update_self _ _ _
theorem U10_out : U10 m c (Proc.devRef .tc main_v68) = o10 m c := Function.update_self _ _ _
theorem U12_out : U12 m c (Proc.devRef .tc main_v81) = o12 m c := Function.update_self _ _ _
theorem U12_out2 : U12 m c (Proc.devRef .tc main_v16) = o2 m c :=
  (U12_of m c main_v16 (by decide)).trans <| (U11_of m c main_v16 (by decide)).trans <| (U10_of m c main_v16 (by decide)).trans <| (U9_of m c main_v16 (by decide)).trans <| (U8_of m c main_v16 (by decide)).trans <| (U7_of m c main_v16 (by decide)).trans <| (U6_of m c main_v16 (by decide)).trans <| (U5_of m c main_v16 (by decide)).trans <| (U4_of m c main_v16 (by decide)).trans <| (U3_of m c main_v16 (by decide)).trans <| U2_out m c
theorem U12_out6 : U12 m c (Proc.devRef .tc main_v42) = o6 m c :=
  (U12_of m c main_v42 (by decide)).trans <| (U11_of m c main_v42 (by decide)).trans <| (U10_of m c main_v42 (by decide)).trans <| (U9_of m c main_v42 (by decide)).trans <| (U8_of m c main_v42 (by decide)).trans <| (U7_of m c main_v42 (by decide)).trans <| U6_out m c

end Kept

/-! ## The windows' arrays at each launch, on the extended reals -/

section Windows
variable (m : (ℓ : Loc nD τ sig) → Buf (Elt Ideal) ℓ) (c : Dev nD)

/-! ### Launch 0 -/

theorem T1_main_arg0 : T1 m c main_arg0 = m ((c : Thread nD τ).loc main_arg0) := (U1_of m c main_arg0 (by decide))
theorem T1_main_v13 : T1 m c main_v13 = Spec.nbrs (m ((c : Thread nD τ).loc main_arg0)) (m ((c : Thread nD τ).loc main_arg1)) :=
  (s0_nbrs _).trans (nbrsOf_spec _ _)
theorem T1_main_arg2 : T1 m c main_arg2 = m ((c : Thread nD τ).loc main_arg2) := (U1_of m c main_arg2 (by decide))
theorem T1_main_v14 : T1 m c main_v14 = Spec.row (m ((c : Thread nD τ).loc main_arg3)) := (s0_row1 _).trans (rowOf_spec _)
theorem T1_main_arg4 : T1 m c main_arg4 = m ((c : Thread nD τ).loc main_arg4) := (U1_of m c main_arg4 (by decide))
theorem T1_main_v15 : T1 m c main_v15 = Spec.row (m ((c : Thread nD τ).loc main_arg5)) := (s0_row2 _).trans (rowOf_spec _)

/-! ### Launch 1 -/

theorem T3_main_arg0 : T3 m c main_arg0 = m ((c : Thread nD τ).loc main_arg0) := (U3_of m c main_arg0 (by decide)).trans <| (U2_of m c main_arg0 (by decide)).trans <| (U1_of m c main_arg0 (by decide))
theorem T3_main_v26 : T3 m c main_v26 = Spec.nbrs (m ((c : Thread nD τ).loc main_arg0)) (m ((c : Thread nD τ).loc main_arg1)) :=
  (s1_nbrs (U2 m c)).trans <| (nbrsOf_congr ((U2_of m c main_arg0 (by decide)).trans <| (U1_of m c main_arg0 (by decide))) (U2_src m c) (U2_dst m c)).trans (nbrsOf_spec _ _)
theorem T3_main_arg6 : T3 m c main_arg6 = m ((c : Thread nD τ).loc main_arg6) := (U3_of m c main_arg6 (by decide)).trans <| (U2_of m c main_arg6 (by decide)).trans <| (U1_of m c main_arg6 (by decide))
theorem T3_main_v27 : T3 m c main_v27 = Spec.row (m ((c : Thread nD τ).loc main_arg7)) :=
  (s1_row1 (U2 m c)).trans <| (congrArg rowOf ((U2_of m c main_arg7 (by decide)).trans <| (U1_of m c main_arg7 (by decide)))).trans (rowOf_spec _)
theorem T3_main_arg8 : T3 m c main_arg8 = m ((c : Thread nD τ).loc main_arg8) := (U3_of m c main_arg8 (by decide)).trans <| (U2_of m c main_arg8 (by decide)).trans <| (U1_of m c main_arg8 (by decide))
theorem T3_main_v28 : T3 m c main_v28 = Spec.row (m ((c : Thread nD τ).loc main_arg9)) :=
  (s1_row2 (U2 m c)).trans <| (congrArg rowOf ((U2_of m c main_arg9 (by decide)).trans <| (U1_of m c main_arg9 (by decide)))).trans (rowOf_spec _)

/-! ### Launch 2 -/

theorem T5_main_v29 : T5 m c main_v29 = o4 m c :=
  (U5_of m c main_v29 (by decide)).trans <| U4_out m c
theorem T5_main_v39 : T5 m c main_v39 = Spec.nbrs (o4 m c) (m ((c : Thread nD τ).loc main_arg1)) :=
  (s2_nbrs (U4 m c)).trans <| (nbrsOf_congr (U4_out m c) (U4_src m c) (U4_dst m c)).trans (nbrsOf_spec _ _)
theorem T5_main_arg6 : T5 m c main_arg6 = m ((c : Thread nD τ).loc main_arg6) := (U5_of m c main_arg6 (by decide)).trans <| (U4_of m c main_arg6 (by decide)).trans <| (U3_of m c main_arg6 (by decide)).trans <| (U2_of m c main_arg6 (by decide)).trans <| (U1_of m c main_arg6 (by decide))
theorem T5_main_v40 : T5 m c main_v40 = Spec.row (m ((c : Thread nD τ).loc main_arg7)) :=
  (s2_row1 (U4 m c)).trans <| (congrArg rowOf ((U4_of m c main_arg7 (by decide)).trans <| (U3_of m c main_arg7 (by decide)).trans <| (U2_of m c main_arg7 (by decide)).trans <| (U1_of m c main_arg7 (by decide)))).trans (rowOf_spec _)
theorem T5_main_arg8 : T5 m c main_arg8 = m ((c : Thread nD τ).loc main_arg8) := (U5_of m c main_arg8 (by decide)).trans <| (U4_of m c main_arg8 (by decide)).trans <| (U3_of m c main_arg8 (by decide)).trans <| (U2_of m c main_arg8 (by decide)).trans <| (U1_of m c main_arg8 (by decide))
theorem T5_main_v41 : T5 m c main_v41 = Spec.row (m ((c : Thread nD τ).loc main_arg9)) :=
  (s2_row2 (U4 m c)).trans <| (congrArg rowOf ((U4_of m c main_arg9 (by decide)).trans <| (U3_of m c main_arg9 (by decide)).trans <| (U2_of m c main_arg9 (by decide)).trans <| (U1_of m c main_arg9 (by decide)))).trans (rowOf_spec _)

/-! ### Launch 3 -/

theorem T7_main_arg0 : T7 m c main_arg0 = m ((c : Thread nD τ).loc main_arg0) := (U7_of m c main_arg0 (by decide)).trans <| (U6_of m c main_arg0 (by decide)).trans <| (U5_of m c main_arg0 (by decide)).trans <| (U4_of m c main_arg0 (by decide)).trans <| (U3_of m c main_arg0 (by decide)).trans <| (U2_of m c main_arg0 (by decide)).trans <| (U1_of m c main_arg0 (by decide))
theorem T7_main_v52 : T7 m c main_v52 = Spec.nbrs (m ((c : Thread nD τ).loc main_arg0)) (m ((c : Thread nD τ).loc main_arg1)) :=
  (s3_nbrs (U6 m c)).trans <| (nbrsOf_congr ((U6_of m c main_arg0 (by decide)).trans <| (U5_of m c main_arg0 (by decide)).trans <| (U4_of m c main_arg0 (by decide)).trans <| (U3_of m c main_arg0 (by decide)).trans <| (U2_of m c main_arg0 (by decide)).trans <| (U1_of m c main_arg0 (by decide))) (U6_src m c) (U6_dst m c)).trans (nbrsOf_spec _ _)
theorem T7_main_arg10 : T7 m c main_arg10 = m ((c : Thread nD τ).loc main_arg10) := (U7_of m c main_arg10 (by decide)).trans <| (U6_of m c main_arg10 (by decide)).trans <| (U5_of m c main_arg10 (by decide)).trans <| (U4_of m c main_arg10 (by decide)).trans <| (U3_of m c main_arg10 (by decide)).trans <| (U2_of m c main_arg10 (by decide)).trans <| (U1_of m c main_arg10 (by decide))
theorem T7_main_v53 : T7 m c main_v53 = Spec.row (m ((c : Thread nD τ).loc main_arg11)) :=
  (s3_row1 (U6 m c)).trans <| (congrArg rowOf ((U6_of m c main_arg11 (by decide)).trans <| (U5_of m c main_arg11 (by decide)).trans <| (U4_of m c main_arg11 (by decide)).trans <| (U3_of m c main_arg11 (by decide)).trans <| (U2_of m c main_arg11 (by decide)).trans <| (U1_of m c main_arg11 (by decide)))).trans (rowOf_spec _)
theorem T7_main_arg12 : T7 m c main_arg12 = m ((c : Thread nD τ).loc main_arg12) := (U7_of m c main_arg12 (by decide)).trans <| (U6_of m c main_arg12 (by decide)).trans <| (U5_of m c main_arg12 (by decide)).trans <| (U4_of m c main_arg12 (by decide)).trans <| (U3_of m c main_arg12 (by decide)).trans <| (U2_of m c main_arg12 (by decide)).trans <| (U1_of m c main_arg12 (by decide))
theorem T7_main_v54 : T7 m c main_v54 = Spec.row (m ((c : Thread nD τ).loc main_arg13)) :=
  (s3_row2 (U6 m c)).trans <| (congrArg rowOf ((U6_of m c main_arg13 (by decide)).trans <| (U5_of m c main_arg13 (by decide)).trans <| (U4_of m c main_arg13 (by decide)).trans <| (U3_of m c main_arg13 (by decide)).trans <| (U2_of m c main_arg13 (by decide)).trans <| (U1_of m c main_arg13 (by decide)))).trans (rowOf_spec _)

/-! ### Launch 4 -/

theorem T9_main_v55 : T9 m c main_v55 = o8 m c :=
  (U9_of m c main_v55 (by decide)).trans <| U8_out m c
theorem T9_main_v65 : T9 m c main_v65 = Spec.nbrs (o8 m c) (m ((c : Thread nD τ).loc main_arg1)) :=
  (s4_nbrs (U8 m c)).trans <| (nbrsOf_congr (U8_out m c) (U8_src m c) (U8_dst m c)).trans (nbrsOf_spec _ _)
theorem T9_main_arg10 : T9 m c main_arg10 = m ((c : Thread nD τ).loc main_arg10) := (U9_of m c main_arg10 (by decide)).trans <| (U8_of m c main_arg10 (by decide)).trans <| (U7_of m c main_arg10 (by decide)).trans <| (U6_of m c main_arg10 (by decide)).trans <| (U5_of m c main_arg10 (by decide)).trans <| (U4_of m c main_arg10 (by decide)).trans <| (U3_of m c main_arg10 (by decide)).trans <| (U2_of m c main_arg10 (by decide)).trans <| (U1_of m c main_arg10 (by decide))
theorem T9_main_v66 : T9 m c main_v66 = Spec.row (m ((c : Thread nD τ).loc main_arg11)) :=
  (s4_row1 (U8 m c)).trans <| (congrArg rowOf ((U8_of m c main_arg11 (by decide)).trans <| (U7_of m c main_arg11 (by decide)).trans <| (U6_of m c main_arg11 (by decide)).trans <| (U5_of m c main_arg11 (by decide)).trans <| (U4_of m c main_arg11 (by decide)).trans <| (U3_of m c main_arg11 (by decide)).trans <| (U2_of m c main_arg11 (by decide)).trans <| (U1_of m c main_arg11 (by decide)))).trans (rowOf_spec _)
theorem T9_main_arg12 : T9 m c main_arg12 = m ((c : Thread nD τ).loc main_arg12) := (U9_of m c main_arg12 (by decide)).trans <| (U8_of m c main_arg12 (by decide)).trans <| (U7_of m c main_arg12 (by decide)).trans <| (U6_of m c main_arg12 (by decide)).trans <| (U5_of m c main_arg12 (by decide)).trans <| (U4_of m c main_arg12 (by decide)).trans <| (U3_of m c main_arg12 (by decide)).trans <| (U2_of m c main_arg12 (by decide)).trans <| (U1_of m c main_arg12 (by decide))
theorem T9_main_v67 : T9 m c main_v67 = Spec.row (m ((c : Thread nD τ).loc main_arg13)) :=
  (s4_row2 (U8 m c)).trans <| (congrArg rowOf ((U8_of m c main_arg13 (by decide)).trans <| (U7_of m c main_arg13 (by decide)).trans <| (U6_of m c main_arg13 (by decide)).trans <| (U5_of m c main_arg13 (by decide)).trans <| (U4_of m c main_arg13 (by decide)).trans <| (U3_of m c main_arg13 (by decide)).trans <| (U2_of m c main_arg13 (by decide)).trans <| (U1_of m c main_arg13 (by decide)))).trans (rowOf_spec _)

/-! ### Launch 5 -/

theorem T11_main_v68 : T11 m c main_v68 = o10 m c :=
  (U11_of m c main_v68 (by decide)).trans <| U10_out m c
theorem T11_main_v78 : T11 m c main_v78 = Spec.nbrs (o10 m c) (m ((c : Thread nD τ).loc main_arg1)) :=
  (s5_nbrs (U10 m c)).trans <| (nbrsOf_congr (U10_out m c) (U10_src m c) (U10_dst m c)).trans (nbrsOf_spec _ _)
theorem T11_main_arg10 : T11 m c main_arg10 = m ((c : Thread nD τ).loc main_arg10) := (U11_of m c main_arg10 (by decide)).trans <| (U10_of m c main_arg10 (by decide)).trans <| (U9_of m c main_arg10 (by decide)).trans <| (U8_of m c main_arg10 (by decide)).trans <| (U7_of m c main_arg10 (by decide)).trans <| (U6_of m c main_arg10 (by decide)).trans <| (U5_of m c main_arg10 (by decide)).trans <| (U4_of m c main_arg10 (by decide)).trans <| (U3_of m c main_arg10 (by decide)).trans <| (U2_of m c main_arg10 (by decide)).trans <| (U1_of m c main_arg10 (by decide))
theorem T11_main_v79 : T11 m c main_v79 = Spec.row (m ((c : Thread nD τ).loc main_arg11)) :=
  (s5_row1 (U10 m c)).trans <| (congrArg rowOf ((U10_of m c main_arg11 (by decide)).trans <| (U9_of m c main_arg11 (by decide)).trans <| (U8_of m c main_arg11 (by decide)).trans <| (U7_of m c main_arg11 (by decide)).trans <| (U6_of m c main_arg11 (by decide)).trans <| (U5_of m c main_arg11 (by decide)).trans <| (U4_of m c main_arg11 (by decide)).trans <| (U3_of m c main_arg11 (by decide)).trans <| (U2_of m c main_arg11 (by decide)).trans <| (U1_of m c main_arg11 (by decide)))).trans (rowOf_spec _)
theorem T11_main_arg12 : T11 m c main_arg12 = m ((c : Thread nD τ).loc main_arg12) := (U11_of m c main_arg12 (by decide)).trans <| (U10_of m c main_arg12 (by decide)).trans <| (U9_of m c main_arg12 (by decide)).trans <| (U8_of m c main_arg12 (by decide)).trans <| (U7_of m c main_arg12 (by decide)).trans <| (U6_of m c main_arg12 (by decide)).trans <| (U5_of m c main_arg12 (by decide)).trans <| (U4_of m c main_arg12 (by decide)).trans <| (U3_of m c main_arg12 (by decide)).trans <| (U2_of m c main_arg12 (by decide)).trans <| (U1_of m c main_arg12 (by decide))
theorem T11_main_v80 : T11 m c main_v80 = Spec.row (m ((c : Thread nD τ).loc main_arg13)) :=
  (s5_row2 (U10 m c)).trans <| (congrArg rowOf ((U10_of m c main_arg13 (by decide)).trans <| (U9_of m c main_arg13 (by decide)).trans <| (U8_of m c main_arg13 (by decide)).trans <| (U7_of m c main_arg13 (by decide)).trans <| (U6_of m c main_arg13 (by decide)).trans <| (U5_of m c main_arg13 (by decide)).trans <| (U4_of m c main_arg13 (by decide)).trans <| (U3_of m c main_arg13 (by decide)).trans <| (U2_of m c main_arg13 (by decide)).trans <| (U1_of m c main_arg13 (by decide)))).trans (rowOf_spec _)

/-! ### Launch 6 -/

theorem T13_main_v82 : T13 m c main_v82
    = concatenate S50000x192 1 [⟨S50000x64, o2 m c⟩, ⟨S50000x64, o6 m c⟩, ⟨S50000x64, o12 m c⟩]
        concatenates_S50000x64_S50000x64_S50000x64_S50000x192_d1 :=
  (s6_join (U12 m c)).trans (joinOf_congr (U12_out2 m c) (U12_out6 m c) (U12_out m c))
theorem T13_main_arg14 : T13 m c main_arg14 = m ((c : Thread nD τ).loc main_arg14) := (U13_of m c main_arg14 (by decide)).trans <| (U12_of m c main_arg14 (by decide)).trans <| (U11_of m c main_arg14 (by decide)).trans <| (U10_of m c main_arg14 (by decide)).trans <| (U9_of m c main_arg14 (by decide)).trans <| (U8_of m c main_arg14 (by decide)).trans <| (U7_of m c main_arg14 (by decide)).trans <| (U6_of m c main_arg14 (by decide)).trans <| (U5_of m c main_arg14 (by decide)).trans <| (U4_of m c main_arg14 (by decide)).trans <| (U3_of m c main_arg14 (by decide)).trans <| (U2_of m c main_arg14 (by decide)).trans <| (U1_of m c main_arg14 (by decide))
theorem T13_main_v83 : T13 m c main_v83 = Spec.row (m ((c : Thread nD τ).loc main_arg15)) :=
  (s6_row (U12 m c)).trans <| (congrArg rowOf ((U12_of m c main_arg15 (by decide)).trans <| (U11_of m c main_arg15 (by decide)).trans <| (U10_of m c main_arg15 (by decide)).trans <| (U9_of m c main_arg15 (by decide)).trans <| (U8_of m c main_arg15 (by decide)).trans <| (U7_of m c main_arg15 (by decide)).trans <| (U6_of m c main_arg15 (by decide)).trans <| (U5_of m c main_arg15 (by decide)).trans <| (U4_of m c main_arg15 (by decide)).trans <| (U3_of m c main_arg15 (by decide)).trans <| (U2_of m c main_arg15 (by decide)).trans <| (U1_of m c main_arg15 (by decide)))).trans (rowOf_spec _)

end Windows

end Cert.KernelIdeal.Contents

end
-- ==== Proof.LayerRows.lean ====
/-
  A row of either dense map depends on that row of the row-indexed operands only.

  The dense layer reads, at `(r, q)`, `(∑ k, x (r, k) · w (k, q)) + b (0, q)`: of the left operand only row `r` occurs.
  So if row `r'` of `x'` and row `r` of `x` agree entry by entry, the two layers agree at `(r', q)` and `(r, q)`, whatever
  the two arrays' numbers of rows are. The same holds with a maximum against a fixed word behind the layer, for the sum
  of two arrays in front of it (both summands' rows agreeing), and hence for the two-layer map `conv` and for `proj`.
-/
import proofs.«169468_j20469814133013_1_alg».proof.Proof.Layers

namespace Cert.Layers

open Idealize.ShloMosaic Idealize.ShloMosaic.ValueIdx Cert.LibAffineTiles

/-- The dense layer at `(r', q)` and at `(r, q)` agree when the left operands' rows `r'` and `r` agree. -/
theorem affineAt_row {N N' K B : ℕ} (x : Mat N K) (x' : Mat N' K) (w : Mat K B) (b : Mat 1 B)
    (r : Fin N) (r' : Fin N') (q : Fin B) (hx : ∀ k : Fin K, x' (ix2 r' k) = x (ix2 r k)) :
    affineAt x' w b r' q = affineAt x w b r q := by
  unfold affineAt
  exact congrArg (· + b (ix2 (0 : Fin 1) q)) (Finset.sum_congr rfl fun k _ => by rw [hx k])

/-- The same for the whole-array form read at a coordinate pair. -/
theorem affine_row {N N' K B : ℕ} (x : Mat N K) (x' : Mat N' K) (w : Mat K B) (b : Mat 1 B)
    (r : Fin N) (r' : Fin N') (q : Fin B) (hx : ∀ k : Fin K, x' (ix2 r' k) = x (ix2 r k)) :
    affine x' w b (ix2 r' q) = affine x w b (ix2 r q) :=
  affineAt_row x x' w b r r' q hx

/-- The same with a maximum against a fixed word behind the layer. -/
theorem affineMax_row {N N' K B : ℕ} (x : Mat N K) (x' : Mat N' K) (w : Mat K B) (b : Mat 1 B) (z : BitVec 32)
    (r : Fin N) (r' : Fin N') (q : Fin B) (hx : ∀ k : Fin K, x' (ix2 r' k) = x (ix2 r k)) :
    affineMax x' w b z (ix2 r' q) = affineMax x w b z (ix2 r q) :=
  congrArg (max · (Ideal.ofBits .f32 z)) (affineAt_row x x' w b r r' q hx)

/-- Row `r'` of `conv h' a' …` is row `r` of `conv h a …` when rows `r'` of `h'`, `a'` are rows `r` of `h`, `a`. -/
theorem conv_row {N N' : ℕ} (h a : Mat N 64) (h' a' : Mat N' 64) (w1 : Mat 64 64) (b1 : Mat 1 64) (w2 : Mat 64 64)
    (b2 : Mat 1 64) (r : Fin N) (r' : Fin N') (q : Fin 64)
    (hh : ∀ k : Fin 64, h' (ix2 r' k) = h (ix2 r k)) (ha : ∀ k : Fin 64, a' (ix2 r' k) = a (ix2 r k)) :
    conv h' a' w1 b1 w2 b2 (ix2 r' q) = conv h a w1 b1 w2 b2 (ix2 r q) := by
  unfold conv
  refine affine_row _ _ w2 b2 r r' q fun k => ?_
  refine affineMax_row _ _ w1 b1 _ r r' k fun k' => ?_
  rw [addf_apply, addf_apply, hh k', ha k']

/-- Row `r'` of `proj x' …` is row `r` of `proj x …` when row `r'` of `x'` is row `r` of `x`. -/
theorem proj_row {N N' : ℕ} (x : Mat N 192) (x' : Mat N' 192) (wo : Mat 192 64) (bo : Mat 1 64) (r : Fin N) (r' : Fin N')
    (q : Fin 64) (hx : ∀ k : Fin 192, x' (ix2 r' k) = x (ix2 r k)) :
    proj x' wo bo (ix2 r' q) = proj x wo bo (ix2 r q) :=
  affine_row x x' wo bo r r' q hx

end Cert.Layers
-- ==== Proof.IdealPayloads.lean ====
/-
  A tile's arithmetic is the dense map on that tile.

  Each convolution kernel computes, on a tile of 2000 rows, `max ((h + a) · w1 + b1) 0 · w2 + b2`: every product is an
  accumulating matrix product into a zero accumulator whose operands are first narrowed to bf16, and every bias is a
  one-row matrix recast to its own shape and stretched over the tile's rows. On the extended reals a narrowing is the
  identity and a recast to the same shape changes nothing, so at `(p, q)` a layer reads
  `(∑ k, x (p, k) · w (k, q)) + b (0, q)`, and the two layers with the rectifier between them are `Layers.conv` of the
  tile's operands. The projection kernel is one such layer, `Layers.proj`. No finiteness is used: both sides are the
  same finite sums of products.
-/
import proofs.«169468_j20469814133013_1_alg».proof.Proof.Gen.KernelIdeal.Skeleton
import proofs.«169468_j20469814133013_1_alg».proof.Proof.LayerRows

namespace Cert.KernelIdeal.Payloads

open Cert.KernelIdeal Cert.KernelIdeal.Gen Idealize.ShloMosaic Idealize.ShloMosaic.ValueIdx
  Cert.LibAffineTiles Cert.Layers

section Narrowed
variable {A K B : ℕ}
  (d : DotDims ⟨2, ![A, K]⟩ ⟨2, ![K, B]⟩ ⟨2, ![A, B]⟩)
  (hr : d.contr.rank = 1) (hs : d.contr.size ⟨0, by omega⟩ = K)
  (hlc : d.lhsContracting = [1]) (hrc : d.rhsContracting = [0])
  (hl0 : ∀ j k, (d.lhsIdx j k 0).val = (j 0).val) (hr1 : ∀ j k, (d.rhsIdx j k 1).val = (j 1).val)
  (x : FVec Ideal ⟨2, ![A, K]⟩ .f32) (w : FVec Ideal ⟨2, ![K, B]⟩ .f32) (b : FVec Ideal ⟨2, ![1, B]⟩ .f32)
  (p : Fin A) (q : Fin B)

include hr hs hlc hrc hl0 hr1 in
/-- The tile's dense layer with both operands of the product narrowed to bf16 first: the narrowing is the identity on
the extended reals, so the layer reads the same sum. -/
theorem narrowed_apply (h16 : FTy.bits .bf16 < FTy.bits .f32)
    (hsc : (⟨2, ![1, B]⟩ : Shape).ShapeCasts ⟨2, ![1, B]⟩) (hbc : (⟨2, ![1, B]⟩ : Shape).Broadcasts ⟨2, ![A, B]⟩) :
    addf (matmul d none (truncf .bf16 x h16) (truncf .bf16 w h16) (constant ⟨2, ![A, B]⟩ .f32 0x00000000#32))
      (broadcastTo ⟨2, ![A, B]⟩ (shapeCast ⟨2, ![1, B]⟩ b hsc) hbc) (ix2 p q) = affineAt x w b p q := by
  rw [addf_apply, LibColumnBlocks.matmul_zero_apply d hr hs hlc hrc hl0 hr1, rowOver_apply]
  rfl

include hr hs hlc hrc hl0 hr1 in
/-- … followed by a maximum with a scalar word. -/
theorem narrowed_max_apply (z : BitVec 32) (h16 : FTy.bits .bf16 < FTy.bits .f32)
    (hsc : (⟨2, ![1, B]⟩ : Shape).ShapeCasts ⟨2, ![1, B]⟩) (hbc : (⟨2, ![1, B]⟩ : Shape).Broadcasts ⟨2, ![A, B]⟩) :
    maximumf (addf (matmul d none (truncf .bf16 x h16) (truncf .bf16 w h16) (constant ⟨2, ![A, B]⟩ .f32 0x00000000#32))
      (broadcastTo ⟨2, ![A, B]⟩ (shapeCast ⟨2, ![1, B]⟩ b hsc) hbc))
      (broadcast ⟨2, ![A, B]⟩ (Scalar.ofBits (F := Ideal) .f32 z)) (ix2 p q)
      = affineMax x w b z (ix2 p q) := by
  rw [maximumf_apply, narrowed_apply d hr hs hlc hrc hl0 hr1 x w b p q h16 hsc hbc]
  rfl

end Narrowed

/-! ## The two product records' facts -/

theorem d64_l0 (j : S2000x64.Idx) (k : dot_S2000x64_S64x64_S2000x64_1_0_0_1_n_n.contr.Idx) :
    (dot_S2000x64_S64x64_S2000x64_1_0_0_1_n_n.lhsIdx j k 0).val = (j 0).val := by
  unfold DotDims.lhsIdx
  rw [dif_neg (show ¬(0 : Fin S2000x64.rank) ∈ dot_S2000x64_S64x64_S2000x64_1_0_0_1_n_n.lhsBatch by decide),
    dif_pos (show (0 : Fin S2000x64.rank) ∈ dot_S2000x64_S64x64_S2000x64_1_0_0_1_n_n.lhsNonContracting by decide)]
  rfl

theorem d64_r1 (j : S2000x64.Idx) (k : dot_S2000x64_S64x64_S2000x64_1_0_0_1_n_n.contr.Idx) :
    (dot_S2000x64_S64x64_S2000x64_1_0_0_1_n_n.rhsIdx j k 1).val = (j 1).val := by
  unfold DotDims.rhsIdx
  rw [dif_neg (show ¬(1 : Fin S64x64.rank) ∈ dot_S2000x64_S64x64_S2000x64_1_0_0_1_n_n.rhsBatch by decide),
    dif_pos (show (1 : Fin S64x64.rank) ∈ dot_S2000x64_S64x64_S2000x64_1_0_0_1_n_n.rhsNonContracting by decide)]
  rfl

theorem d192_l0 (j : S2000x64.Idx) (k : dot_S2000x192_S192x64_S2000x64_1_0_0_1_n_n.contr.Idx) :
    (dot_S2000x192_S192x64_S2000x64_1_0_0_1_n_n.lhsIdx j k 0).val = (j 0).val := by
  unfold DotDims.lhsIdx
  rw [dif_neg (show ¬(0 : Fin S2000x192.rank) ∈ dot_S2000x192_S192x64_S2000x64_1_0_0_1_n_n.lhsBatch by decide),
    dif_pos (show (0 : Fin S2000x192.rank) ∈ dot_S2000x192_S192x64_S2000x64_1_0_0_1_n_n.lhsNonContracting by decide)]
  rfl

theorem d192_r1 (j : S2000x64.Idx) (k : dot_S2000x192_S192x64_S2000x64_1_0_0_1_n_n.contr.Idx) :
    (dot_S2000x192_S192x64_S2000x64_1_0_0_1_n_n.rhsIdx j k 1).val = (j 1).val := by
  unfold DotDims.rhsIdx
  rw [dif_neg (show ¬(1 : Fin S192x64.rank) ∈ dot_S2000x192_S192x64_S2000x64_1_0_0_1_n_n.rhsBatch by decide),
    dif_pos (show (1 : Fin S192x64.rank) ∈ dot_S2000x192_S192x64_S2000x64_1_0_0_1_n_n.rhsNonContracting by decide)]
  rfl

/-! ## The convolution tile -/

/-- The two narrowed layers with the rectifier between them, on a given input `X` of the first layer. -/
noncomputable def tileMlp (X : FVec Ideal S2000x64 .f32) (w1 : Vec Ideal S64x64 .f32) (b1 : Vec Ideal S1x64 .f32)
    (w2 : Vec Ideal S64x64 .f32) (b2 : Vec Ideal S1x64 .f32) : FVec Ideal S2000x64 .f32 :=
  addf (matmul dot_S2000x64_S64x64_S2000x64_1_0_0_1_n_n none
      (truncf .bf16 (maximumf (addf (matmul dot_S2000x64_S64x64_S2000x64_1_0_0_1_n_n none
            (truncf .bf16 X bitsLt_bf16_f32) (truncf .bf16 w1 bitsLt_bf16_f32) (constant S2000x64 .f32 0x00000000#32))
          (broadcastTo S2000x64 (shapeCast S1x64 b1 shapeCasts_S1x64_S1x64) broadcasts_S1x64_S2000x64))
        (broadcast S2000x64 (Scalar.ofBits (F := Ideal) .f32 0x00000000#32))) bitsLt_bf16_f32)
      (truncf .bf16 w2 bitsLt_bf16_f32) (constant S2000x64 .f32 0x00000000#32))
    (broadcastTo S2000x64 (shapeCast S1x64 b2 shapeCasts_S1x64_S1x64) broadcasts_S1x64_S2000x64)

/-- With the sum of the tile's two row blocks as the first layer's input, that is `Layers.conv` at every entry. -/
theorem tileMlp_apply (h a : Vec Ideal S2000x64 .f32) (w1 : Vec Ideal S64x64 .f32) (b1 : Vec Ideal S1x64 .f32)
    (w2 : Vec Ideal S64x64 .f32) (b2 : Vec Ideal S1x64 .f32) (p : Fin 2000) (q : Fin 64) :
    tileMlp (addf h a) w1 b1 w2 b2 (ix2 p q) = conv (N := 2000) h a w1 b1 w2 b2 (ix2 p q) := by
  unfold tileMlp conv
  refine (narrowed_apply dot_S2000x64_S64x64_S2000x64_1_0_0_1_n_n rfl rfl rfl rfl d64_l0 d64_r1 _ w2 b2 p q
    bitsLt_bf16_f32 shapeCasts_S1x64_S1x64 broadcasts_S1x64_S2000x64).trans ?_
  refine affineAt_row _ _ w2 b2 p p q fun k => ?_
  exact narrowed_max_apply dot_S2000x64_S64x64_S2000x64_1_0_0_1_n_n rfl rfl rfl rfl d64_l0 d64_r1 (addf h a) w1 b1 p k
    0x00000000#32 bitsLt_bf16_f32 shapeCasts_S1x64_S1x64 broadcasts_S1x64_S2000x64

/-- Kernels 0, 1, 3 recast the second row block to its own shape before the sum. -/
theorem gin_form_a (v0 v1 : Vec Ideal S2000x64 .f32) (w1 : Vec Ideal S64x64 .f32) (b1 : Vec Ideal S1x64 .f32)
    (w2 : Vec Ideal S64x64 .f32) (b2 : Vec Ideal S1x64 .f32) (p : Fin 2000) (q : Fin 64) :
    tileMlp (addf v0 (shapeCast S2000x64 v1 shapeCasts_S2000x64_S2000x64)) w1 b1 w2 b2 (ix2 p q)
      = conv (N := 2000) v0 v1 w1 b1 w2 b2 (ix2 p q) := by
  rw [shapeCast_self]
  exact tileMlp_apply v0 v1 w1 b1 w2 b2 p q

/-- Kernels 2, 4, 5 recast both row blocks. -/
theorem gin_form_b (v0 v1 : Vec Ideal S2000x64 .f32) (w1 : Vec Ideal S64x64 .f32) (b1 : Vec Ideal S1x64 .f32)
    (w2 : Vec Ideal S64x64 .f32) (b2 : Vec Ideal S1x64 .f32) (p : Fin 2000) (q : Fin 64) :
    tileMlp (addf (shapeCast S2000x64 v0 shapeCasts_S2000x64_S2000x64) (shapeCast S2000x64 v1 shapeCasts_S2000x64_S2000x64))
        w1 b1 w2 b2 (ix2 p q)
      = conv (N := 2000) v0 v1 w1 b1 w2 b2 (ix2 p q) := by
  rw [shapeCast_self, shapeCast_self]
  exact tileMlp_apply v0 v1 w1 b1 w2 b2 p q

theorem gin0 (v0 v1 : Vec Ideal S2000x64 .f32) (v5 : Vec Ideal S64x64 .f32) (v8 : Vec Ideal S1x64 .f32)
    (v15 : Vec Ideal S64x64 .f32) (v18 : Vec Ideal S1x64 .f32) (p : Fin 2000) (q : Fin 64) :
    k0_pay1 (F := Ideal) v0 v1 v5 v8 v15 v18 (ix2 p q) = conv (N := 2000) v0 v1 v5 v8 v15 v18 (ix2 p q) :=
  gin_form_a v0 v1 v5 v8 v15 v18 p q

theorem gin1 (v0 v1 : Vec Ideal S2000x64 .f32) (v5 : Vec Ideal S64x64 .f32) (v8 : Vec Ideal S1x64 .f32)
    (v15 : Vec Ideal S64x64 .f32) (v18 : Vec Ideal S1x64 .f32) (p : Fin 2000) (q : Fin 64) :
    k1_pay1 (F := Ideal) v0 v1 v5 v8 v15 v18 (ix2 p q) = conv (N := 2000) v0 v1 v5 v8 v15 v18 (ix2 p q) :=
  gin_form_a v0 v1 v5 v8 v15 v18 p q

theorem gin2 (v0 v1 : Vec Ideal S2000x64 .f32) (v5 : Vec Ideal S64x64 .f32) (v8 : Vec Ideal S1x64 .f32)
    (v15 : Vec Ideal S64x64 .f32) (v18 : Vec Ideal S1x64 .f32) (p : Fin 2000) (q : Fin 64) :
    k2_pay1 (F := Ideal) v0 v1 v5 v8 v15 v18 (ix2 p q) = conv (N := 2000) v0 v1 v5 v8 v15 v18 (ix2 p q) :=
  gin_form_b v0 v1 v5 v8 v15 v18 p q

theorem gin3 (v0 v1 : Vec Ideal S2000x64 .f32) (v5 : Vec Ideal S64x64 .f32) (v8 : Vec Ideal S1x64 .f32)
    (v15 : Vec Ideal S64x64 .f32) (v18 : Vec Ideal S1x64 .f32) (p : Fin 2000) (q : Fin 64) :
    k3_pay1 (F := Ideal) v0 v1 v5 v8 v15 v18 (ix2 p q) = conv (N := 2000) v0 v1 v5 v8 v15 v18 (ix2 p q) :=
  gin_form_a v0 v1 v5 v8 v15 v18 p q

theorem gin4 (v0 v1 : Vec Ideal S2000x64 .f32) (v5 : Vec Ideal S64x64 .f32) (v8 : Vec Ideal S1x64 .f32)
    (v15 : Vec Ideal S64x64 .f32) (v18 : Vec Ideal S1x64 .f32) (p : Fin 2000) (q : Fin 64) :
    k4_pay1 (F := Ideal) v0 v1 v5 v8 v15 v18 (ix2 p q) = conv (N := 2000) v0 v1 v5 v8 v15 v18 (ix2 p q) :=
  gin_form_b v0 v1 v5 v8 v15 v18 p q

theorem gin5 (v0 v1 : Vec Ideal S2000x64 .f32) (v5 : Vec Ideal S64x64 .f32) (v8 : Vec Ideal S1x64 .f32)
    (v15 : Vec Ideal S64x64 .f32) (v18 : Vec Ideal S1x64 .f32) (p : Fin 2000) (q : Fin 64) :
    k5_pay1 (F := Ideal) v0 v1 v5 v8 v15 v18 (ix2 p q) = conv (N := 2000) v0 v1 v5 v8 v15 v18 (ix2 p q) :=
  gin_form_b v0 v1 v5 v8 v15 v18 p q

/-! ## The projection tile -/

/-- The one narrowed layer of the projection kernel, on a given left operand. -/
noncomputable def tileProj (x : FVec Ideal S2000x192 .f32) (wo : Vec Ideal S192x64 .f32) (bo : Vec Ideal S1x64 .f32) :
    FVec Ideal S2000x64 .f32 :=
  addf (matmul dot_S2000x192_S192x64_S2000x64_1_0_0_1_n_n none (truncf .bf16 x bitsLt_bf16_f32)
      (truncf .bf16 wo bitsLt_bf16_f32) (constant S2000x64 .f32 0x00000000#32))
    (broadcastTo S2000x64 (shapeCast S1x64 bo shapeCasts_S1x64_S1x64) broadcasts_S1x64_S2000x64)

/-- It is `Layers.proj` at every entry. -/
theorem tileProj_apply (x : Vec Ideal S2000x192 .f32) (wo : Vec Ideal S192x64 .f32) (bo : Vec Ideal S1x64 .f32)
    (p : Fin 2000) (q : Fin 64) : tileProj x wo bo (ix2 p q) = proj (N := 2000) x wo bo (ix2 p q) :=
  narrowed_apply dot_S2000x192_S192x64_S2000x64_1_0_0_1_n_n rfl rfl rfl rfl d192_l0 d192_r1 x wo bo p q
    bitsLt_bf16_f32 shapeCasts_S1x64_S1x64 broadcasts_S1x64_S2000x64

theorem fin6 (v0 : Vec Ideal S2000x192 .f32) (v3 : Vec Ideal S192x64 .f32) (v6 : Vec Ideal S1x64 .f32) (p : Fin 2000)
    (q : Fin 64) : k6_pay1 (F := Ideal) v0 v3 v6 (ix2 p q) = proj (N := 2000) v0 v3 v6 (ix2 p q) := by
  show tileProj (shapeCast S2000x192 v0 shapeCasts_S2000x192_S2000x192) v3 v6 (ix2 p q) = _
  rw [shapeCast_self]
  exact tileProj_apply v0 v3 v6 p q

end Cert.KernelIdeal.Payloads
-- ==== Proof.IdealArrays.lean ====
/-
  Each launch's write-backs assemble to one whole-array dense map of the arrays the launch was entered with.

  A launch walks 25 tiles of 2000 rows. At tile `t` the row-blocked windows (the features, the neighbour sums and the
  result) hold rows `2000 t … 2000 t + 1999` of their arrays, and the parameter windows hold their arrays whole: the
  block index of a row-blocked window is `(t, 0)`, that of a parameter window `(0, 0)`, and a block's coordinate in its
  array is index × block size + the coordinate inside the block. The body's arithmetic on a tile is the dense map `conv`
  of the tile, and a row of `conv` depends on that row of the row-indexed operands only; so what tile `t` writes back is
  rows `2000 t … 2000 t + 1999` of `conv` of the whole arrays. Row `r` lies in tile `r / 2000`, so the 25 tiles cover the
  result array, which therefore ends holding `conv` of the arrays the launch was entered with. The last launch is the
  same with the projection `proj` of a 192-column array.
-/
import proofs.«169468_j20469814133013_1_alg».proof.Proof.IdealTile0
import proofs.«169468_j20469814133013_1_alg».proof.Proof.IdealTile1
import proofs.«169468_j20469814133013_1_alg».proof.Proof.IdealTile2
import proofs.«169468_j20469814133013_1_alg».proof.Proof.IdealTile3
import proofs.«169468_j20469814133013_1_alg».proof.Proof.IdealTile4
import proofs.«169468_j20469814133013_1_alg».proof.Proof.IdealTile5
import proofs.«169468_j20469814133013_1_alg».proof.Proof.IdealTile6
import proofs.«169468_j20469814133013_1_alg».proof.Proof.IdealPayloads
import Idealize.ShloMosaic.Lib.Pipeline.Value
import Idealize.ShloMosaic.Lib.ValueIdx

set_option maxRecDepth 16384

noncomputable section

namespace Cert.KernelIdeal.Arrays

open Cert.KernelIdeal Cert.KernelIdeal.Gen Cert.KernelIdeal.Tiles Cert.Layers
open Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

/-- The offsets of an access at a block's origin, as the zero function. -/
theorem hz : (![0, 0] : Fin 2 → Nat) = fun _ => 0 := funext fun a => by fin_cases a <;> rfl

/-- One tile of a graph convolution inside the whole array: if the tile's arithmetic is `conv` of the tile, row `p` of
    the two row-blocked operands is row `r` of the whole arrays, and the parameter blocks are the parameter arrays, then
    the tile's result at `(p, q)` is `conv` of the whole arrays at `(r, q)`. -/
theorem tileConv (pay : Vec Ideal S2000x64 .f32 → Vec Ideal S2000x64 .f32 → Vec Ideal S64x64 .f32 → Vec Ideal S1x64 .f32 →
      Vec Ideal S64x64 .f32 → Vec Ideal S1x64 .f32 → Vec Ideal S2000x64 .f32)
    (hpay : ∀ v0 v1 v5 v8 v15 v18 (p : Fin 2000) (q : Fin 64),
      pay v0 v1 v5 v8 v15 v18 (ix2 p q) = conv (N := 2000) v0 v1 v5 v8 v15 v18 (ix2 p q))
    (h a : Mat 50000 64) (w1 : Mat 64 64) (b1 : Mat 1 64) (w2 : Mat 64 64) (b2 : Mat 1 64)
    (x0 x1 : Vec Ideal S2000x64 .f32) (x2 : Vec Ideal S64x64 .f32) (x3 : Vec Ideal S1x64 .f32)
    (x4 : Vec Ideal S64x64 .f32) (x5 : Vec Ideal S1x64 .f32) (p : Fin 2000) (q : Fin 64) (r : Fin 50000)
    (h0 : ∀ k : Fin 64, x0 (ix2 p k) = h (ix2 r k)) (h1 : ∀ k : Fin 64, x1 (ix2 p k) = a (ix2 r k))
    (h2 : x2 = w1) (h3 : x3 = b1) (h4 : x4 = w2) (h5 : x5 = b2) :
    pay x0 x1 x2 x3 x4 x5 (ix2 p q) = conv h a w1 b1 w2 b2 (ix2 r q) := by
  subst h2 h3 h4 h5
  exact (hpay x0 x1 x2 x3 x4 x5 p q).trans (conv_row h a x0 x1 x2 x3 x4 x5 r p q h0 h1)

/-- One tile of the projection inside the whole array, likewise. -/
theorem tileProj (pay : Vec Ideal S2000x192 .f32 → Vec Ideal S192x64 .f32 → Vec Ideal S1x64 .f32 → Vec Ideal S2000x64 .f32)
    (hpay : ∀ v0 v3 v6 (p : Fin 2000) (q : Fin 64), pay v0 v3 v6 (ix2 p q) = proj (N := 2000) v0 v3 v6 (ix2 p q))
    (x : Mat 50000 192) (wo : Mat 192 64) (bo : Mat 1 64)
    (x0 : Vec Ideal S2000x192 .f32) (x1 : Vec Ideal S192x64 .f32) (x2 : Vec Ideal S1x64 .f32)
    (p : Fin 2000) (q : Fin 64) (r : Fin 50000)
    (h0 : ∀ k : Fin 192, x0 (ix2 p k) = x (ix2 r k)) (h1 : x1 = wo) (h2 : x2 = bo) :
    pay x0 x1 x2 (ix2 p q) = proj x wo bo (ix2 r q) := by
  subst h1 h2
  exact (hpay x0 x1 x2 p q).trans (proj_row x x0 x1 x2 r p q h0)

/-! ## Launch 0 -/

/-- The index maps over the grid: the row-blocked windows sit at block `(t, 0)`, the parameter windows at `(0, 0)`. -/
theorem idx0 : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = t.val ∧ win0_6.index t (1 : Fin 2) = 0) :=
  (by decide +kernel : ∀ t : Fin grid0.N, _)

/-- Window 0's block at tile `t` is rows `2000 t … 2000 t + 1999` of its array. -/
theorem blk0_0 (c : Dev nD) (t : Fin cfg0.N) (x : S2000x64.Idx) (k : S50000x64.Idx)
    (hk0 : (k 0).val = 2000 * t.val + (x 0).val) (hk1 : (k 1).val = (x 1).val) :
    (iblk0 V c 0 t : Vec Ideal S2000x64 .f32) x = (V c main_arg0 : S50000x64.Idx → Elt Ideal .f32) k := by
  have hi := (idx0 t).1
  unfold iblk0
  rw [View.read_apply]
  show V c main_arg0 _ = V c main_arg0 _
  congr 1
  funext a
  apply Fin.ext
  match a with
  | ⟨0, _⟩ => show win0_0.index t 0 * 2000 + 1 * (x 0).val = (k 0).val; rw [hi.1, hk0]; omega
  | ⟨1, _⟩ => show win0_0.index t 1 * 64 + 1 * (x 1).val = (k 1).val; rw [hi.2, hk1]; omega

/-- Window 1's block at tile `t` is rows `2000 t … 2000 t + 1999` of its array. -/
theorem blk0_1 (c : Dev nD) (t : Fin cfg0.N) (x : S2000x64.Idx) (k : S50000x64.Idx)
    (hk0 : (k 0).val = 2000 * t.val + (x 0).val) (hk1 : (k 1).val = (x 1).val) :
    (iblk0 V c 1 t : Vec Ideal S2000x64 .f32) x = (V c main_v13 : S50000x64.Idx → Elt Ideal .f32) k := by
  have hi := (idx0 t).2.1
  unfold iblk0
  rw [View.read_apply]
  show V c main_v13 _ = V c main_v13 _
  congr 1
  funext a
  apply Fin.ext
  match a with
  | ⟨0, _⟩ => show win0_1.index t 0 * 2000 + 1 * (x 0).val = (k 0).val; rw [hi.1, hk0]; omega
  | ⟨1, _⟩ => show win0_1.index t 1 * 64 + 1 * (x 1).val = (k 1).val; rw [hi.2, hk1]; omega

/-- Window 2's block at any tile is its whole array. -/
theorem blk0_2 (c : Dev nD) (t : Fin cfg0.N) :
    (iblk0 V c 2 t : Vec Ideal S64x64 .f32) = (V c main_arg2 : S64x64.Idx → Elt Ideal .f32) := by
  have hi := (idx0 t).2.2.1
  funext x
  unfold iblk0
  rw [View.read_apply]
  show V c main_arg2 _ = V c main_arg2 _
  congr 1
  funext a
  apply Fin.ext
  match a with
  | ⟨0, _⟩ => show win0_2.index t 0 * 64 + 1 * (x 0).val = (x 0).val; rw [hi.1]; omega
  | ⟨1, _⟩ => show win0_2.index t 1 * 64 + 1 * (x 1).val = (x 1).val; rw [hi.2]; omega

/-- Window 3's block at any tile is its whole array. -/
theorem blk0_3 (c : Dev nD) (t : Fin cfg0.N) :
    (iblk0 V c 3 t : Vec Ideal S1x64 .f32) = (V c main_v14 : S1x64.Idx → Elt Ideal .f32) := by
  have hi := (idx0 t).2.2.2.1
  funext x
  unfold iblk0
  rw [View.read_apply]
  show V c main_v14 _ = V c main_v14 _
  congr 1
  funext a
  apply Fin.ext
  match a with
  | ⟨0, _⟩ => show win0_3.index t 0 * 1 + 1 * (x 0).val = (x 0).val; rw [hi.1]; omega
  | ⟨1, _⟩ => show win0_3.index t 1 * 64 + 1 * (x 1).val = (x 1).val; rw [hi.2]; omega

/-- Window 4's block at any tile is its whole array. -/
theorem blk0_4 (c : Dev nD) (t : Fin cfg0.N) :
    (iblk0 V c 4 t : Vec Ideal S64x64 .f32) = (V c main_arg4 : S64x64.Idx → Elt Ideal .f32) := by
  have hi := (idx0 t).2.2.2.2.1
  funext x
  unfold iblk0
  rw [View.read_apply]
  show V c main_arg4 _ = V c main_arg4 _
  congr 1
  funext a
  apply Fin.ext
  match a with
  | ⟨0, _⟩ => show win0_4.index t 0 * 64 + 1 * (x 0).val = (x 0).val; rw [hi.1]; omega
  | ⟨1, _⟩ => show win0_4.index t 1 * 64 + 1 * (x 1).val = (x 1).val; rw [hi.2]; omega

/-- Window 5's block at any tile is its whole array. -/
theorem blk0_5 (c : Dev nD) (t : Fin cfg0.N) :
    (iblk0 V c 5 t : Vec Ideal S1x64 .f32) = (V c main_v15 : S1x64.Idx → Elt Ideal .f32) := by
  have hi := (idx0 t).2.2.2.2.2.1
  funext x
  unfold iblk0
  rw [View.read_apply]
  show V c main_v15 _ = V c main_v15 _
  congr 1
  funext a
  apply Fin.ext
  match a with
  | ⟨0, _⟩ => show win0_5.index t 0 * 1 + 1 * (x 0).val = (x 0).val; rw [hi.1]; omega
  | ⟨1, _⟩ => show win0_5.index t 1 * 64 + 1 * (x 1).val = (x 1).val; rw [hi.2]; omega

/-- What tile `t` writes back is rows `2000 t … 2000 t + 1999` of `conv` of the arrays the launch was entered with. -/
theorem flushed0 (c : Dev nD) (t : Fin cfg0.N) :
    (dat0 V c).flushed 6 t = ((cfg0.win 6).blk t).view.read (Elt Ideal)
      (conv (N := 50000) (V c main_arg0) (V c main_v13) (V c main_arg2) (V c main_v14) (V c main_arg4) (V c main_v15)) := by
  show (cfg0.win 6).cut (grid0.coords t) ((dat0 V c).after 6 t) = _
  rw [after0_6]
  unfold out0_6
  rw [View.canon_unit_zero hz]
  simp only [View.ld_unit_zero (S := S2000x64) hz, View.ld_unit_zero (S := S64x64) hz, View.ld_unit_zero (S := S1x64) hz]
  funext y
  obtain ⟨p, q, rfl⟩ : ∃ (p : Fin 2000) (q : Fin 64), y = ix2 p q := ⟨y 0, y 1, eq_ix2 y⟩
  rw [View.read_apply]
  have hi := (idx0 t).2.2.2.2.2.2
  have ht : t.val < 25 := lt_of_lt_of_eq t.isLt N_0
  have hp : p.val < 2000 := p.isLt
  have he : ((View.whole main_v16).slice ((win0 6).rect t)).emb (ix2 p q)
      = (ix2 (⟨2000 * t.val + p.val, by omega⟩ : Fin 50000) q : S50000x64.Idx) := by
    funext a
    apply Fin.ext
    match a with
    | ⟨0, _⟩ => show win0_6.index t 0 * 2000 + 1 * p.val = 2000 * t.val + p.val; rw [hi.1]; omega
    | ⟨1, _⟩ => show win0_6.index t 1 * 64 + 1 * q.val = q.val; rw [hi.2]; omega
  show k0_pay1 (F := Ideal) (iblk0 V c 0 t) (iblk0 V c 1 t) (iblk0 V c 2 t) (iblk0 V c 3 t) (iblk0 V c 4 t) (iblk0 V c 5 t) (ix2 p q)
      = conv (N := 50000) (V c main_arg0) (V c main_v13) (V c main_arg2) (V c main_v14) (V c main_arg4) (V c main_v15)
        (((View.whole main_v16).slice ((win0 6).rect t)).emb (ix2 p q))
  refine (tileConv k0_pay1 Payloads.gin0 (V c main_arg0) (V c main_v13) (V c main_arg2) (V c main_v14) (V c main_arg4) (V c main_v15)
    (iblk0 V c 0 t) (iblk0 V c 1 t) (iblk0 V c 2 t) (iblk0 V c 3 t) (iblk0 V c 4 t) (iblk0 V c 5 t) p q
    ⟨2000 * t.val + p.val, by omega⟩
    (fun k => blk0_0 V c t _ _ rfl rfl) (fun k => blk0_1 V c t _ _ rfl rfl)
    (blk0_2 V c t) (blk0_3 V c t) (blk0_4 V c t) (blk0_5 V c t)).trans ?_
  exact congrArg _ he.symm

/-- Row `r` of the result array lies in tile `r / 2000`'s block, and every tile writes back. -/
theorem cover0 (i : S50000x64.Idx) : ∃ t : Fin cfg0.N, (cfg0.win 6).flush t = true ∧ i ∈ ((cfg0.win 6).blk t).view.set := by
  have h0 : (i 0).val < 50000 := (i 0).isLt
  have h1 : (i 1).val < 64 := (i 1).isLt
  have hN : cfg0.N = 25 := N_0
  obtain ⟨t, htv⟩ : ∃ t : Fin cfg0.N, t.val = (i 0).val / 2000 := ⟨⟨(i 0).val / 2000, by rw [hN]; omega⟩, rfl⟩
  have hi := (idx0 t).2.2.2.2.2.2
  refine ⟨t, flush0_6 t, ?_⟩
  show i ∈ ((View.whole main_v16).slice (win0_6.rect t)).set
  rw [View.set_slice_whole, Rect.mem_set_unit]
  intro a
  match a with
  | ⟨0, _⟩ =>
    show win0_6.index t 0 * 2000 ≤ (i 0).val ∧ (i 0).val < win0_6.index t 0 * 2000 + 2000
    rw [hi.1, htv]; omega
  | ⟨1, _⟩ =>
    show win0_6.index t 1 * 64 ≤ (i 1).val ∧ (i 1).val < win0_6.index t 1 * 64 + 64
    rw [hi.2]; omega

/-- Launch 0's result array after its 25 write-backs: `conv` of the arrays the launch was entered with. -/
theorem arr0 (c : Dev nD) :
    (dat0 V c).arrAt 6 cfg0.N
      = conv (N := 50000) (V c main_arg0) (V c main_v13) (V c main_arg2) (V c main_v14) (V c main_arg4) (V c main_v15) :=
  (dat0 V c).arrAt_eq_of_cover 6 _ (fun t _ => flushed0 V c t) cover0

/-! ## Launch 1 -/

/-- The index maps over the grid: the row-blocked windows sit at block `(t, 0)`, the parameter windows at `(0, 0)`. -/
theorem idx1 : ∀ t : Fin cfg1.N,
    (win1_0.index t (0 : Fin 2) = t.val ∧ win1_0.index t (1 : Fin 2) = 0)
    ∧ (win1_1.index t (0 : Fin 2) = t.val ∧ win1_1.index t (1 : Fin 2) = 0)
    ∧ (win1_2.index t (0 : Fin 2) = 0 ∧ win1_2.index t (1 : Fin 2) = 0)
    ∧ (win1_3.index t (0 : Fin 2) = 0 ∧ win1_3.index t (1 : Fin 2) = 0)
    ∧ (win1_4.index t (0 : Fin 2) = 0 ∧ win1_4.index t (1 : Fin 2) = 0)
    ∧ (win1_5.index t (0 : Fin 2) = 0 ∧ win1_5.index t (1 : Fin 2) = 0)
    ∧ (win1_6.index t (0 : Fin 2) = t.val ∧ win1_6.index t (1 : Fin 2) = 0) :=
  (by decide +kernel : ∀ t : Fin grid1.N, _)

/-- Window 0's block at tile `t` is rows `2000 t … 2000 t + 1999` of its array. -/
theorem blk1_0 (c : Dev nD) (t : Fin cfg1.N) (x : S2000x64.Idx) (k : S50000x64.Idx)
    (hk0 : (k 0).val = 2000 * t.val + (x 0).val) (hk1 : (k 1).val = (x 1).val) :
    (iblk1 V c 0 t : Vec Ideal S2000x64 .f32) x = (V c main_arg0 : S50000x64.Idx → Elt Ideal .f32) k := by
  have hi := (idx1 t).1
  unfold iblk1
  rw [View.read_apply]
  show V c main_arg0 _ = V c main_arg0 _
  congr 1
  funext a
  apply Fin.ext
  match a with
  | ⟨0, _⟩ => show win1_0.index t 0 * 2000 + 1 * (x 0).val = (k 0).val; rw [hi.1, hk0]; omega
  | ⟨1, _⟩ => show win1_0.index t 1 * 64 + 1 * (x 1).val = (k 1).val; rw [hi.2, hk1]; omega

/-- Window 1's block at tile `t` is rows `2000 t … 2000 t + 1999` of its array. -/
theorem blk1_1 (c : Dev nD) (t : Fin cfg1.N) (x : S2000x64.Idx) (k : S50000x64.Idx)
    (hk0 : (k 0).val = 2000 * t.val + (x 0).val) (hk1 : (k 1).val = (x 1).val) :
    (iblk1 V c 1 t : Vec Ideal S2000x64 .f32) x = (V c main_v26 : S50000x64.Idx → Elt Ideal .f32) k := by
  have hi := (idx1 t).2.1
  unfold iblk1
  rw [View.read_apply]
  show V c main_v26 _ = V c main_v26 _
  congr 1
  funext a
  apply Fin.ext
  match a with
  | ⟨0, _⟩ => show win1_1.index t 0 * 2000 + 1 * (x 0).val = (k 0).val; rw [hi.1, hk0]; omega
  | ⟨1, _⟩ => show win1_1.index t 1 * 64 + 1 * (x 1).val = (k 1).val; rw [hi.2, hk1]; omega

/-- Window 2's block at any tile is its whole array. -/
theorem blk1_2 (c : Dev nD) (t : Fin cfg1.N) :
    (iblk1 V c 2 t : Vec Ideal S64x64 .f32) = (V c main_arg6 : S64x64.Idx → Elt Ideal .f32) := by
  have hi := (idx1 t).2.2.1
  funext x
  unfold iblk1
  rw [View.read_apply]
  show V c main_arg6 _ = V c main_arg6 _
  congr 1
  funext a
  apply Fin.ext
  match a with
  | ⟨0, _⟩ => show win1_2.index t 0 * 64 + 1 * (x 0).val = (x 0).val; rw [hi.1]; omega
  | ⟨1, _⟩ => show win1_2.index t 1 * 64 + 1 * (x 1).val = (x 1).val; rw [hi.2]; omega

/-- Window 3's block at any tile is its whole array. -/
theorem blk1_3 (c : Dev nD) (t : Fin cfg1.N) :
    (iblk1 V c 3 t : Vec Ideal S1x64 .f32) = (V c main_v27 : S1x64.Idx → Elt Ideal .f32) := by
  have hi := (idx1 t).2.2.2.1
  funext x
  unfold iblk1
  rw [View.read_apply]
  show V c main_v27 _ = V c main_v27 _
  congr 1
  funext a
  apply Fin.ext
  match a with
  | ⟨0, _⟩ => show win1_3.index t 0 * 1 + 1 * (x 0).val = (x 0).val; rw [hi.1]; omega
  | ⟨1, _⟩ => show win1_3.index t 1 * 64 + 1 * (x 1).val = (x 1).val; rw [hi.2]; omega

/-- Window 4's block at any tile is its whole array. -/
theorem blk1_4 (c : Dev nD) (t : Fin cfg1.N) :
    (iblk1 V c 4 t : Vec Ideal S64x64 .f32) = (V c main_arg8 : S64x64.Idx → Elt Ideal .f32) := by
  have hi := (idx1 t).2.2.2.2.1
  funext x
  unfold iblk1
  rw [View.read_apply]
  show V c main_arg8 _ = V c main_arg8 _
  congr 1
  funext a
  apply Fin.ext
  match a with
  | ⟨0, _⟩ => show win1_4.index t 0 * 64 + 1 * (x 0).val = (x 0).val; rw [hi.1]; omega
  | ⟨1, _⟩ => show win1_4.index t 1 * 64 + 1 * (x 1).val = (x 1).val; rw [hi.2]; omega

/-- Window 5's block at any tile is its whole array. -/
theorem blk1_5 (c : Dev nD) (t : Fin cfg1.N) :
    (iblk1 V c 5 t : Vec Ideal S1x64 .f32) = (V c main_v28 : S1x64.Idx → Elt Ideal .f32) := by
  have hi := (idx1 t).2.2.2.2.2.1
  funext x
  unfold iblk1
  rw [View.read_apply]
  show V c main_v28 _ = V c main_v28 _
  congr 1
  funext a
  apply Fin.ext
  match a with
  | ⟨0, _⟩ => show win1_5.index t 0 * 1 + 1 * (x 0).val = (x 0).val; rw [hi.1]; omega
  | ⟨1, _⟩ => show win1_5.index t 1 * 64 + 1 * (x 1).val = (x 1).val; rw [hi.2]; omega

/-- What tile `t` writes back is rows `2000 t … 2000 t + 1999` of `conv` of the arrays the launch was entered with. -/
theorem flushed1 (c : Dev nD) (t : Fin cfg1.N) :
    (dat1 V c).flushed 6 t = ((cfg1.win 6).blk t).view.read (Elt Ideal)
      (conv (N := 50000) (V c main_arg0) (V c main_v26) (V c main_arg6) (V c main_v27) (V c main_arg8) (V c main_v28)) := by
  show (cfg1.win 6).cut (grid1.coords t) ((dat1 V c).after 6 t) = _
  rw [after1_6]
  unfold out1_6
  rw [View.canon_unit_zero hz]
  simp only [View.ld_unit_zero (S := S2000x64) hz, View.ld_unit_zero (S := S64x64) hz, View.ld_unit_zero (S := S1x64) hz]
  funext y
  obtain ⟨p, q, rfl⟩ : ∃ (p : Fin 2000) (q : Fin 64), y = ix2 p q := ⟨y 0, y 1, eq_ix2 y⟩
  rw [View.read_apply]
  have hi := (idx1 t).2.2.2.2.2.2
  have ht : t.val < 25 := lt_of_lt_of_eq t.isLt N_1
  have hp : p.val < 2000 := p.isLt
  have he : ((View.whole main_v29).slice ((win1 6).rect t)).emb (ix2 p q)
      = (ix2 (⟨2000 * t.val + p.val, by omega⟩ : Fin 50000) q : S50000x64.Idx) := by
    funext a
    apply Fin.ext
    match a with
    | ⟨0, _⟩ => show win1_6.index t 0 * 2000 + 1 * p.val = 2000 * t.val + p.val; rw [hi.1]; omega
    | ⟨1, _⟩ => show win1_6.index t 1 * 64 + 1 * q.val = q.val; rw [hi.2]; omega
  show k1_pay1 (F := Ideal) (iblk1 V c 0 t) (iblk1 V c 1 t) (iblk1 V c 2 t) (iblk1 V c 3 t) (iblk1 V c 4 t) (iblk1 V c 5 t) (ix2 p q)
      = conv (N := 50000) (V c main_arg0) (V c main_v26) (V c main_arg6) (V c main_v27) (V c main_arg8) (V c main_v28)
        (((View.whole main_v29).slice ((win1 6).rect t)).emb (ix2 p q))
  refine (tileConv k1_pay1 Payloads.gin1 (V c main_arg0) (V c main_v26) (V c main_arg6) (V c main_v27) (V c main_arg8) (V c main_v28)
    (iblk1 V c 0 t) (iblk1 V c 1 t) (iblk1 V c 2 t) (iblk1 V c 3 t) (iblk1 V c 4 t) (iblk1 V c 5 t) p q
    ⟨2000 * t.val + p.val, by omega⟩
    (fun k => blk1_0 V c t _ _ rfl rfl) (fun k => blk1_1 V c t _ _ rfl rfl)
    (blk1_2 V c t) (blk1_3 V c t) (blk1_4 V c t) (blk1_5 V c t)).trans ?_
  exact congrArg _ he.symm

/-- Row `r` of the result array lies in tile `r / 2000`'s block, and every tile writes back. -/
theorem cover1 (i : S50000x64.Idx) : ∃ t : Fin cfg1.N, (cfg1.win 6).flush t = true ∧ i ∈ ((cfg1.win 6).blk t).view.set := by
  have h0 : (i 0).val < 50000 := (i 0).isLt
  have h1 : (i 1).val < 64 := (i 1).isLt
  have hN : cfg1.N = 25 := N_1
  obtain ⟨t, htv⟩ : ∃ t : Fin cfg1.N, t.val = (i 0).val / 2000 := ⟨⟨(i 0).val / 2000, by rw [hN]; omega⟩, rfl⟩
  have hi := (idx1 t).2.2.2.2.2.2
  refine ⟨t, flush1_6 t, ?_⟩
  show i ∈ ((View.whole main_v29).slice (win1_6.rect t)).set
  rw [View.set_slice_whole, Rect.mem_set_unit]
  intro a
  match a with
  | ⟨0, _⟩ =>
    show win1_6.index t 0 * 2000 ≤ (i 0).val ∧ (i 0).val < win1_6.index t 0 * 2000 + 2000
    rw [hi.1, htv]; omega
  | ⟨1, _⟩ =>
    show win1_6.index t 1 * 64 ≤ (i 1).val ∧ (i 1).val < win1_6.index t 1 * 64 + 64
    rw [hi.2]; omega

/-- Launch 1's result array after its 25 write-backs: `conv` of the arrays the launch was entered with. -/
theorem arr1 (c : Dev nD) :
    (dat1 V c).arrAt 6 cfg1.N
      = conv (N := 50000) (V c main_arg0) (V c main_v26) (V c main_arg6) (V c main_v27) (V c main_arg8) (V c main_v28) :=
  (dat1 V c).arrAt_eq_of_cover 6 _ (fun t _ => flushed1 V c t) cover1

/-! ## Launch 2 -/

/-- The index maps over the grid: the row-blocked windows sit at block `(t, 0)`, the parameter windows at `(0, 0)`. -/
theorem idx2 : ∀ t : Fin cfg2.N,
    (win2_0.index t (0 : Fin 2) = t.val ∧ win2_0.index t (1 : Fin 2) = 0)
    ∧ (win2_1.index t (0 : Fin 2) = t.val ∧ win2_1.index t (1 : Fin 2) = 0)
    ∧ (win2_2.index t (0 : Fin 2) = 0 ∧ win2_2.index t (1 : Fin 2) = 0)
    ∧ (win2_3.index t (0 : Fin 2) = 0 ∧ win2_3.index t (1 : Fin 2) = 0)
    ∧ (win2_4.index t (0 : Fin 2) = 0 ∧ win2_4.index t (1 : Fin 2) = 0)
    ∧ (win2_5.index t (0 : Fin 2) = 0 ∧ win2_5.index t (1 : Fin 2) = 0)
    ∧ (win2_6.index t (0 : Fin 2) = t.val ∧ win2_6.index t (1 : Fin 2) = 0) :=
  (by decide +kernel : ∀ t : Fin grid2.N, _)

/-- Window 0's block at tile `t` is rows `2000 t … 2000 t + 1999` of its array. -/
theorem blk2_0 (c : Dev nD) (t : Fin cfg2.N) (x : S2000x64.Idx) (k : S50000x64.Idx)
    (hk0 : (k 0).val = 2000 * t.val + (x 0).val) (hk1 : (k 1).val = (x 1).val) :
    (iblk2 V c 0 t : Vec Ideal S2000x64 .f32) x = (V c main_v29 : S50000x64.Idx → Elt Ideal .f32) k := by
  have hi := (idx2 t).1
  unfold iblk2
  rw [View.read_apply]
  show V c main_v29 _ = V c main_v29 _
  congr 1
  funext a
  apply Fin.ext
  match a with
  | ⟨0, _⟩ => show win2_0.index t 0 * 2000 + 1 * (x 0).val = (k 0).val; rw [hi.1, hk0]; omega
  | ⟨1, _⟩ => show win2_0.index t 1 * 64 + 1 * (x 1).val = (k 1).val; rw [hi.2, hk1]; omega

/-- Window 1's block at tile `t` is rows `2000 t … 2000 t + 1999` of its array. -/
theorem blk2_1 (c : Dev nD) (t : Fin cfg2.N) (x : S2000x64.Idx) (k : S50000x64.Idx)
    (hk0 : (k 0).val = 2000 * t.val + (x 0).val) (hk1 : (k 1).val = (x 1).val) :
    (iblk2 V c 1 t : Vec Ideal S2000x64 .f32) x = (V c main_v39 : S50000x64.Idx → Elt Ideal .f32) k := by
  have hi := (idx2 t).2.1
  unfold iblk2
  rw [View.read_apply]
  show V c main_v39 _ = V c main_v39 _
  congr 1
  funext a
  apply Fin.ext
  match a with
  | ⟨0, _⟩ => show win2_1.index t 0 * 2000 + 1 * (x 0).val = (k 0).val; rw [hi.1, hk0]; omega
  | ⟨1, _⟩ => show win2_1.index t 1 * 64 + 1 * (x 1).val = (k 1).val; rw [hi.2, hk1]; omega

/-- Window 2's block at any tile is its whole array. -/
theorem blk2_2 (c : Dev nD) (t : Fin cfg2.N) :
    (iblk2 V c 2 t : Vec Ideal S64x64 .f32) = (V c main_arg6 : S64x64.Idx → Elt Ideal .f32) := by
  have hi := (idx2 t).2.2.1
  funext x
  unfold iblk2
  rw [View.read_apply]
  show V c main_arg6 _ = V c main_arg6 _
  congr 1
  funext a
  apply Fin.ext
  match a with
  | ⟨0, _⟩ => show win2_2.index t 0 * 64 + 1 * (x 0).val = (x 0).val; rw [hi.1]; omega
  | ⟨1, _⟩ => show win2_2.index t 1 * 64 + 1 * (x 1).val = (x 1).val; rw [hi.2]; omega

/-- Window 3's block at any tile is its whole array. -/
theorem blk2_3 (c : Dev nD) (t : Fin cfg2.N) :
    (iblk2 V c 3 t : Vec Ideal S1x64 .f32) = (V c main_v40 : S1x64.Idx → Elt Ideal .f32) := by
  have hi := (idx2 t).2.2.2.1
  funext x
  unfold iblk2
  rw [View.read_apply]
  show V c main_v40 _ = V c main_v40 _
  congr 1
  funext a
  apply Fin.ext
  match a with
  | ⟨0, _⟩ => show win2_3.index t 0 * 1 + 1 * (x 0).val = (x 0).val; rw [hi.1]; omega
  | ⟨1, _⟩ => show win2_3.index t 1 * 64 + 1 * (x 1).val = (x 1).val; rw [hi.2]; omega

/-- Window 4's block at any tile is its whole array. -/
theorem blk2_4 (c : Dev nD) (t : Fin cfg2.N) :
    (iblk2 V c 4 t : Vec Ideal S64x64 .f32) = (V c main_arg8 : S64x64.Idx → Elt Ideal .f32) := by
  have hi := (idx2 t).2.2.2.2.1
  funext x
  unfold iblk2
  rw [View.read_apply]
  show V c main_arg8 _ = V c main_arg8 _
  congr 1
  funext a
  apply Fin.ext
  match a with
  | ⟨0, _⟩ => show win2_4.index t 0 * 64 + 1 * (x 0).val = (x 0).val; rw [hi.1]; omega
  | ⟨1, _⟩ => show win2_4.index t 1 * 64 + 1 * (x 1).val = (x 1).val; rw [hi.2]; omega

/-- Window 5's block at any tile is its whole array. -/
theorem blk2_5 (c : Dev nD) (t : Fin cfg2.N) :
    (iblk2 V c 5 t : Vec Ideal S1x64 .f32) = (V c main_v41 : S1x64.Idx → Elt Ideal .f32) := by
  have hi := (idx2 t).2.2.2.2.2.1
  funext x
  unfold iblk2
  rw [View.read_apply]
  show V c main_v41 _ = V c main_v41 _
  congr 1
  funext a
  apply Fin.ext
  match a with
  | ⟨0, _⟩ => show win2_5.index t 0 * 1 + 1 * (x 0).val = (x 0).val; rw [hi.1]; omega
  | ⟨1, _⟩ => show win2_5.index t 1 * 64 + 1 * (x 1).val = (x 1).val; rw [hi.2]; omega

/-- What tile `t` writes back is rows `2000 t … 2000 t + 1999` of `conv` of the arrays the launch was entered with. -/
theorem flushed2 (c : Dev nD) (t : Fin cfg2.N) :
    (dat2 V c).flushed 6 t = ((cfg2.win 6).blk t).view.read (Elt Ideal)
      (conv (N := 50000) (V c main_v29) (V c main_v39) (V c main_arg6) (V c main_v40) (V c main_arg8) (V c main_v41)) := by
  show (cfg2.win 6).cut (grid2.coords t) ((dat2 V c).after 6 t) = _
  rw [after2_6]
  unfold out2_6
  rw [View.canon_unit_zero hz]
  simp only [View.ld_unit_zero (S := S2000x64) hz, View.ld_unit_zero (S := S64x64) hz, View.ld_unit_zero (S := S1x64) hz]
  funext y
  obtain ⟨p, q, rfl⟩ : ∃ (p : Fin 2000) (q : Fin 64), y = ix2 p q := ⟨y 0, y 1, eq_ix2 y⟩
  rw [View.read_apply]
  have hi := (idx2 t).2.2.2.2.2.2
  have ht : t.val < 25 := lt_of_lt_of_eq t.isLt N_2
  have hp : p.val < 2000 := p.isLt
  have he : ((View.whole main_v42).slice ((win2 6).rect t)).emb (ix2 p q)
      = (ix2 (⟨2000 * t.val + p.val, by omega⟩ : Fin 50000) q : S50000x64.Idx) := by
    funext a
    apply Fin.ext
    match a with
    | ⟨0, _⟩ => show win2_6.index t 0 * 2000 + 1 * p.val = 2000 * t.val + p.val; rw [hi.1]; omega
    | ⟨1, _⟩ => show win2_6.index t 1 * 64 + 1 * q.val = q.val; rw [hi.2]; omega
  show k2_pay1 (F := Ideal) (iblk2 V c 0 t) (iblk2 V c 1 t) (iblk2 V c 2 t) (iblk2 V c 3 t) (iblk2 V c 4 t) (iblk2 V c 5 t) (ix2 p q)
      = conv (N := 50000) (V c main_v29) (V c main_v39) (V c main_arg6) (V c main_v40) (V c main_arg8) (V c main_v41)
        (((View.whole main_v42).slice ((win2 6).rect t)).emb (ix2 p q))
  refine (tileConv k2_pay1 Payloads.gin2 (V c main_v29) (V c main_v39) (V c main_arg6) (V c main_v40) (V c main_arg8) (V c main_v41)
    (iblk2 V c 0 t) (iblk2 V c 1 t) (iblk2 V c 2 t) (iblk2 V c 3 t) (iblk2 V c 4 t) (iblk2 V c 5 t) p q
    ⟨2000 * t.val + p.val, by omega⟩
    (fun k => blk2_0 V c t _ _ rfl rfl) (fun k => blk2_1 V c t _ _ rfl rfl)
    (blk2_2 V c t) (blk2_3 V c t) (blk2_4 V c t) (blk2_5 V c t)).trans ?_
  exact congrArg _ he.symm

/-- Row `r` of the result array lies in tile `r / 2000`'s block, and every tile writes back. -/
theorem cover2 (i : S50000x64.Idx) : ∃ t : Fin cfg2.N, (cfg2.win 6).flush t = true ∧ i ∈ ((cfg2.win 6).blk t).view.set := by
  have h0 : (i 0).val < 50000 := (i 0).isLt
  have h1 : (i 1).val < 64 := (i 1).isLt
  have hN : cfg2.N = 25 := N_2
  obtain ⟨t, htv⟩ : ∃ t : Fin cfg2.N, t.val = (i 0).val / 2000 := ⟨⟨(i 0).val / 2000, by rw [hN]; omega⟩, rfl⟩
  have hi := (idx2 t).2.2.2.2.2.2
  refine ⟨t, flush2_6 t, ?_⟩
  show i ∈ ((View.whole main_v42).slice (win2_6.rect t)).set
  rw [View.set_slice_whole, Rect.mem_set_unit]
  intro a
  match a with
  | ⟨0, _⟩ =>
    show win2_6.index t 0 * 2000 ≤ (i 0).val ∧ (i 0).val < win2_6.index t 0 * 2000 + 2000
    rw [hi.1, htv]; omega
  | ⟨1, _⟩ =>
    show win2_6.index t 1 * 64 ≤ (i 1).val ∧ (i 1).val < win2_6.index t 1 * 64 + 64
    rw [hi.2]; omega

/-- Launch 2's result array after its 25 write-backs: `conv` of the arrays the launch was entered with. -/
theorem arr2 (c : Dev nD) :
    (dat2 V c).arrAt 6 cfg2.N
      = conv (N := 50000) (V c main_v29) (V c main_v39) (V c main_arg6) (V c main_v40) (V c main_arg8) (V c main_v41) :=
  (dat2 V c).arrAt_eq_of_cover 6 _ (fun t _ => flushed2 V c t) cover2

/-! ## Launch 3 -/

/-- The index maps over the grid: the row-blocked windows sit at block `(t, 0)`, the parameter windows at `(0, 0)`. -/
theorem idx3 : ∀ t : Fin cfg3.N,
    (win3_0.index t (0 : Fin 2) = t.val ∧ win3_0.index t (1 : Fin 2) = 0)
    ∧ (win3_1.index t (0 : Fin 2) = t.val ∧ win3_1.index t (1 : Fin 2) = 0)
    ∧ (win3_2.index t (0 : Fin 2) = 0 ∧ win3_2.index t (1 : Fin 2) = 0)
    ∧ (win3_3.index t (0 : Fin 2) = 0 ∧ win3_3.index t (1 : Fin 2) = 0)
    ∧ (win3_4.index t (0 : Fin 2) = 0 ∧ win3_4.index t (1 : Fin 2) = 0)
    ∧ (win3_5.index t (0 : Fin 2) = 0 ∧ win3_5.index t (1 : Fin 2) = 0)
    ∧ (win3_6.index t (0 : Fin 2) = t.val ∧ win3_6.index t (1 : Fin 2) = 0) :=
  (by decide +kernel : ∀ t : Fin grid3.N, _)

/-- Window 0's block at tile `t` is rows `2000 t … 2000 t + 1999` of its array. -/
theorem blk3_0 (c : Dev nD) (t : Fin cfg3.N) (x : S2000x64.Idx) (k : S50000x64.Idx)
    (hk0 : (k 0).val = 2000 * t.val + (x 0).val) (hk1 : (k 1).val = (x 1).val) :
    (iblk3 V c 0 t : Vec Ideal S2000x64 .f32) x = (V c main_arg0 : S50000x64.Idx → Elt Ideal .f32) k := by
  have hi := (idx3 t).1
  unfold iblk3
  rw [View.read_apply]
  show V c main_arg0 _ = V c main_arg0 _
  congr 1
  funext a
  apply Fin.ext
  match a with
  | ⟨0, _⟩ => show win3_0.index t 0 * 2000 + 1 * (x 0).val = (k 0).val; rw [hi.1, hk0]; omega
  | ⟨1, _⟩ => show win3_0.index t 1 * 64 + 1 * (x 1).val = (k 1).val; rw [hi.2, hk1]; omega

/-- Window 1's block at tile `t` is rows `2000 t … 2000 t + 1999` of its array. -/
theorem blk3_1 (c : Dev nD) (t : Fin cfg3.N) (x : S2000x64.Idx) (k : S50000x64.Idx)
    (hk0 : (k 0).val = 2000 * t.val + (x 0).val) (hk1 : (k 1).val = (x 1).val) :
    (iblk3 V c 1 t : Vec Ideal S2000x64 .f32) x = (V c main_v52 : S50000x64.Idx → Elt Ideal .f32) k := by
  have hi := (idx3 t).2.1
  unfold iblk3
  rw [View.read_apply]
  show V c main_v52 _ = V c main_v52 _
  congr 1
  funext a
  apply Fin.ext
  match a with
  | ⟨0, _⟩ => show win3_1.index t 0 * 2000 + 1 * (x 0).val = (k 0).val; rw [hi.1, hk0]; omega
  | ⟨1, _⟩ => show win3_1.index t 1 * 64 + 1 * (x 1).val = (k 1).val; rw [hi.2, hk1]; omega

/-- Window 2's block at any tile is its whole array. -/
theorem blk3_2 (c : Dev nD) (t : Fin cfg3.N) :
    (iblk3 V c 2 t : Vec Ideal S64x64 .f32) = (V c main_arg10 : S64x64.Idx → Elt Ideal .f32) := by
  have hi := (idx3 t).2.2.1
  funext x
  unfold iblk3
  rw [View.read_apply]
  show V c main_arg10 _ = V c main_arg10 _
  congr 1
  funext a
  apply Fin.ext
  match a with
  | ⟨0, _⟩ => show win3_2.index t 0 * 64 + 1 * (x 0).val = (x 0).val; rw [hi.1]; omega
  | ⟨1, _⟩ => show win3_2.index t 1 * 64 + 1 * (x 1).val = (x 1).val; rw [hi.2]; omega

/-- Window 3's block at any tile is its whole array. -/
theorem blk3_3 (c : Dev nD) (t : Fin cfg3.N) :
    (iblk3 V c 3 t : Vec Ideal S1x64 .f32) = (V c main_v53 : S1x64.Idx → Elt Ideal .f32) := by
  have hi := (idx3 t).2.2.2.1
  funext x
  unfold iblk3
  rw [View.read_apply]
  show V c main_v53 _ = V c main_v53 _
  congr 1
  funext a
  apply Fin.ext
  match a with
  | ⟨0, _⟩ => show win3_3.index t 0 * 1 + 1 * (x 0).val = (x 0).val; rw [hi.1]; omega
  | ⟨1, _⟩ => show win3_3.index t 1 * 64 + 1 * (x 1).val = (x 1).val; rw [hi.2]; omega

/-- Window 4's block at any tile is its whole array. -/
theorem blk3_4 (c : Dev nD) (t : Fin cfg3.N) :
    (iblk3 V c 4 t : Vec Ideal S64x64 .f32) = (V c main_arg12 : S64x64.Idx → Elt Ideal .f32) := by
  have hi := (idx3 t).2.2.2.2.1
  funext x
  unfold iblk3
  rw [View.read_apply]
  show V c main_arg12 _ = V c main_arg12 _
  congr 1
  funext a
  apply Fin.ext
  match a with
  | ⟨0, _⟩ => show win3_4.index t 0 * 64 + 1 * (x 0).val = (x 0).val; rw [hi.1]; omega
  | ⟨1, _⟩ => show win3_4.index t 1 * 64 + 1 * (x 1).val = (x 1).val; rw [hi.2]; omega

/-- Window 5's block at any tile is its whole array. -/
theorem blk3_5 (c : Dev nD) (t : Fin cfg3.N) :
    (iblk3 V c 5 t : Vec Ideal S1x64 .f32) = (V c main_v54 : S1x64.Idx → Elt Ideal .f32) := by
  have hi := (idx3 t).2.2.2.2.2.1
  funext x
  unfold iblk3
  rw [View.read_apply]
  show V c main_v54 _ = V c main_v54 _
  congr 1
  funext a
  apply Fin.ext
  match a with
  | ⟨0, _⟩ => show win3_5.index t 0 * 1 + 1 * (x 0).val = (x 0).val; rw [hi.1]; omega
  | ⟨1, _⟩ => show win3_5.index t 1 * 64 + 1 * (x 1).val = (x 1).val; rw [hi.2]; omega

/-- What tile `t` writes back is rows `2000 t … 2000 t + 1999` of `conv` of the arrays the launch was entered with. -/
theorem flushed3 (c : Dev nD) (t : Fin cfg3.N) :
    (dat3 V c).flushed 6 t = ((cfg3.win 6).blk t).view.read (Elt Ideal)
      (conv (N := 50000) (V c main_arg0) (V c main_v52) (V c main_arg10) (V c main_v53) (V c main_arg12) (V c main_v54)) := by
  show (cfg3.win 6).cut (grid3.coords t) ((dat3 V c).after 6 t) = _
  rw [after3_6]
  unfold out3_6
  rw [View.canon_unit_zero hz]
  simp only [View.ld_unit_zero (S := S2000x64) hz, View.ld_unit_zero (S := S64x64) hz, View.ld_unit_zero (S := S1x64) hz]
  funext y
  obtain ⟨p, q, rfl⟩ : ∃ (p : Fin 2000) (q : Fin 64), y = ix2 p q := ⟨y 0, y 1, eq_ix2 y⟩
  rw [View.read_apply]
  have hi := (idx3 t).2.2.2.2.2.2
  have ht : t.val < 25 := lt_of_lt_of_eq t.isLt N_3
  have hp : p.val < 2000 := p.isLt
  have he : ((View.whole main_v55).slice ((win3 6).rect t)).emb (ix2 p q)
      = (ix2 (⟨2000 * t.val + p.val, by omega⟩ : Fin 50000) q : S50000x64.Idx) := by
    funext a
    apply Fin.ext
    match a with
    | ⟨0, _⟩ => show win3_6.index t 0 * 2000 + 1 * p.val = 2000 * t.val + p.val; rw [hi.1]; omega
    | ⟨1, _⟩ => show win3_6.index t 1 * 64 + 1 * q.val = q.val; rw [hi.2]; omega
  show k3_pay1 (F := Ideal) (iblk3 V c 0 t) (iblk3 V c 1 t) (iblk3 V c 2 t) (iblk3 V c 3 t) (iblk3 V c 4 t) (iblk3 V c 5 t) (ix2 p q)
      = conv (N := 50000) (V c main_arg0) (V c main_v52) (V c main_arg10) (V c main_v53) (V c main_arg12) (V c main_v54)
        (((View.whole main_v55).slice ((win3 6).rect t)).emb (ix2 p q))
  refine (tileConv k3_pay1 Payloads.gin3 (V c main_arg0) (V c main_v52) (V c main_arg10) (V c main_v53) (V c main_arg12) (V c main_v54)
    (iblk3 V c 0 t) (iblk3 V c 1 t) (iblk3 V c 2 t) (iblk3 V c 3 t) (iblk3 V c 4 t) (iblk3 V c 5 t) p q
    ⟨2000 * t.val + p.val, by omega⟩
    (fun k => blk3_0 V c t _ _ rfl rfl) (fun k => blk3_1 V c t _ _ rfl rfl)
    (blk3_2 V c t) (blk3_3 V c t) (blk3_4 V c t) (blk3_5 V c t)).trans ?_
  exact congrArg _ he.symm

/-- Row `r` of the result array lies in tile `r / 2000`'s block, and every tile writes back. -/
theorem cover3 (i : S50000x64.Idx) : ∃ t : Fin cfg3.N, (cfg3.win 6).flush t = true ∧ i ∈ ((cfg3.win 6).blk t).view.set := by
  have h0 : (i 0).val < 50000 := (i 0).isLt
  have h1 : (i 1).val < 64 := (i 1).isLt
  have hN : cfg3.N = 25 := N_3
  obtain ⟨t, htv⟩ : ∃ t : Fin cfg3.N, t.val = (i 0).val / 2000 := ⟨⟨(i 0).val / 2000, by rw [hN]; omega⟩, rfl⟩
  have hi := (idx3 t).2.2.2.2.2.2
  refine ⟨t, flush3_6 t, ?_⟩
  show i ∈ ((View.whole main_v55).slice (win3_6.rect t)).set
  rw [View.set_slice_whole, Rect.mem_set_unit]
  intro a
  match a with
  | ⟨0, _⟩ =>
    show win3_6.index t 0 * 2000 ≤ (i 0).val ∧ (i 0).val < win3_6.index t 0 * 2000 + 2000
    rw [hi.1, htv]; omega
  | ⟨1, _⟩ =>
    show win3_6.index t 1 * 64 ≤ (i 1).val ∧ (i 1).val < win3_6.index t 1 * 64 + 64
    rw [hi.2]; omega

/-- Launch 3's result array after its 25 write-backs: `conv` of the arrays the launch was entered with. -/
theorem arr3 (c : Dev nD) :
    (dat3 V c).arrAt 6 cfg3.N
      = conv (N := 50000) (V c main_arg0) (V c main_v52) (V c main_arg10) (V c main_v53) (V c main_arg12) (V c main_v54) :=
  (dat3 V c).arrAt_eq_of_cover 6 _ (fun t _ => flushed3 V c t) cover3

/-! ## Launch 4 -/

/-- The index maps over the grid: the row-blocked windows sit at block `(t, 0)`, the parameter windows at `(0, 0)`. -/
theorem idx4 : ∀ t : Fin cfg4.N,
    (win4_0.index t (0 : Fin 2) = t.val ∧ win4_0.index t (1 : Fin 2) = 0)
    ∧ (win4_1.index t (0 : Fin 2) = t.val ∧ win4_1.index t (1 : Fin 2) = 0)
    ∧ (win4_2.index t (0 : Fin 2) = 0 ∧ win4_2.index t (1 : Fin 2) = 0)
    ∧ (win4_3.index t (0 : Fin 2) = 0 ∧ win4_3.index t (1 : Fin 2) = 0)
    ∧ (win4_4.index t (0 : Fin 2) = 0 ∧ win4_4.index t (1 : Fin 2) = 0)
    ∧ (win4_5.index t (0 : Fin 2) = 0 ∧ win4_5.index t (1 : Fin 2) = 0)
    ∧ (win4_6.index t (0 : Fin 2) = t.val ∧ win4_6.index t (1 : Fin 2) = 0) :=
  (by decide +kernel : ∀ t : Fin grid4.N, _)

/-- Window 0's block at tile `t` is rows `2000 t … 2000 t + 1999` of its array. -/
theorem blk4_0 (c : Dev nD) (t : Fin cfg4.N) (x : S2000x64.Idx) (k : S50000x64.Idx)
    (hk0 : (k 0).val = 2000 * t.val + (x 0).val) (hk1 : (k 1).val = (x 1).val) :
    (iblk4 V c 0 t : Vec Ideal S2000x64 .f32) x = (V c main_v55 : S50000x64.Idx → Elt Ideal .f32) k := by
  have hi := (idx4 t).1
  unfold iblk4
  rw [View.read_apply]
  show V c main_v55 _ = V c main_v55 _
  congr 1
  funext a
  apply Fin.ext
  match a with
  | ⟨0, _⟩ => show win4_0.index t 0 * 2000 + 1 * (x 0).val = (k 0).val; rw [hi.1, hk0]; omega
  | ⟨1, _⟩ => show win4_0.index t 1 * 64 + 1 * (x 1).val = (k 1).val; rw [hi.2, hk1]; omega

/-- Window 1's block at tile `t` is rows `2000 t … 2000 t + 1999` of its array. -/
theorem blk4_1 (c : Dev nD) (t : Fin cfg4.N) (x : S2000x64.Idx) (k : S50000x64.Idx)
    (hk0 : (k 0).val = 2000 * t.val + (x 0).val) (hk1 : (k 1).val = (x 1).val) :
    (iblk4 V c 1 t : Vec Ideal S2000x64 .f32) x = (V c main_v65 : S50000x64.Idx → Elt Ideal .f32) k := by
  have hi := (idx4 t).2.1
  unfold iblk4
  rw [View.read_apply]
  show V c main_v65 _ = V c main_v65 _
  congr 1
  funext a
  apply Fin.ext
  match a with
  | ⟨0, _⟩ => show win4_1.index t 0 * 2000 + 1 * (x 0).val = (k 0).val; rw [hi.1, hk0]; omega
  | ⟨1, _⟩ => show win4_1.index t 1 * 64 + 1 * (x 1).val = (k 1).val; rw [hi.2, hk1]; omega

/-- Window 2's block at any tile is its whole array. -/
theorem blk4_2 (c : Dev nD) (t : Fin cfg4.N) :
    (iblk4 V c 2 t : Vec Ideal S64x64 .f32) = (V c main_arg10 : S64x64.Idx → Elt Ideal .f32) := by
  have hi := (idx4 t).2.2.1
  funext x
  unfold iblk4
  rw [View.read_apply]
  show V c main_arg10 _ = V c main_arg10 _
  congr 1
  funext a
  apply Fin.ext
  match a with
  | ⟨0, _⟩ => show win4_2.index t 0 * 64 + 1 * (x 0).val = (x 0).val; rw [hi.1]; omega
  | ⟨1, _⟩ => show win4_2.index t 1 * 64 + 1 * (x 1).val = (x 1).val; rw [hi.2]; omega

/-- Window 3's block at any tile is its whole array. -/
theorem blk4_3 (c : Dev nD) (t : Fin cfg4.N) :
    (iblk4 V c 3 t : Vec Ideal S1x64 .f32) = (V c main_v66 : S1x64.Idx → Elt Ideal .f32) := by
  have hi := (idx4 t).2.2.2.1
  funext x
  unfold iblk4
  rw [View.read_apply]
  show V c main_v66 _ = V c main_v66 _
  congr 1
  funext a
  apply Fin.ext
  match a with
  | ⟨0, _⟩ => show win4_3.index t 0 * 1 + 1 * (x 0).val = (x 0).val; rw [hi.1]; omega
  | ⟨1, _⟩ => show win4_3.index t 1 * 64 + 1 * (x 1).val = (x 1).val; rw [hi.2]; omega

/-- Window 4's block at any tile is its whole array. -/
theorem blk4_4 (c : Dev nD) (t : Fin cfg4.N) :
    (iblk4 V c 4 t : Vec Ideal S64x64 .f32) = (V c main_arg12 : S64x64.Idx → Elt Ideal .f32) := by
  have hi := (idx4 t).2.2.2.2.1
  funext x
  unfold iblk4
  rw [View.read_apply]
  show V c main_arg12 _ = V c main_arg12 _
  congr 1
  funext a
  apply Fin.ext
  match a with
  | ⟨0, _⟩ => show win4_4.index t 0 * 64 + 1 * (x 0).val = (x 0).val; rw [hi.1]; omega
  | ⟨1, _⟩ => show win4_4.index t 1 * 64 + 1 * (x 1).val = (x 1).val; rw [hi.2]; omega

/-- Window 5's block at any tile is its whole array. -/
theorem blk4_5 (c : Dev nD) (t : Fin cfg4.N) :
    (iblk4 V c 5 t : Vec Ideal S1x64 .f32) = (V c main_v67 : S1x64.Idx → Elt Ideal .f32) := by
  have hi := (idx4 t).2.2.2.2.2.1
  funext x
  unfold iblk4
  rw [View.read_apply]
  show V c main_v67 _ = V c main_v67 _
  congr 1
  funext a
  apply Fin.ext
  match a with
  | ⟨0, _⟩ => show win4_5.index t 0 * 1 + 1 * (x 0).val = (x 0).val; rw [hi.1]; omega
  | ⟨1, _⟩ => show win4_5.index t 1 * 64 + 1 * (x 1).val = (x 1).val; rw [hi.2]; omega

/-- What tile `t` writes back is rows `2000 t … 2000 t + 1999` of `conv` of the arrays the launch was entered with. -/
theorem flushed4 (c : Dev nD) (t : Fin cfg4.N) :
    (dat4 V c).flushed 6 t = ((cfg4.win 6).blk t).view.read (Elt Ideal)
      (conv (N := 50000) (V c main_v55) (V c main_v65) (V c main_arg10) (V c main_v66) (V c main_arg12) (V c main_v67)) := by
  show (cfg4.win 6).cut (grid4.coords t) ((dat4 V c).after 6 t) = _
  rw [after4_6]
  unfold out4_6
  rw [View.canon_unit_zero hz]
  simp only [View.ld_unit_zero (S := S2000x64) hz, View.ld_unit_zero (S := S64x64) hz, View.ld_unit_zero (S := S1x64) hz]
  funext y
  obtain ⟨p, q, rfl⟩ : ∃ (p : Fin 2000) (q : Fin 64), y = ix2 p q := ⟨y 0, y 1, eq_ix2 y⟩
  rw [View.read_apply]
  have hi := (idx4 t).2.2.2.2.2.2
  have ht : t.val < 25 := lt_of_lt_of_eq t.isLt N_4
  have hp : p.val < 2000 := p.isLt
  have he : ((View.whole main_v68).slice ((win4 6).rect t)).emb (ix2 p q)
      = (ix2 (⟨2000 * t.val + p.val, by omega⟩ : Fin 50000) q : S50000x64.Idx) := by
    funext a
    apply Fin.ext
    match a with
    | ⟨0, _⟩ => show win4_6.index t 0 * 2000 + 1 * p.val = 2000 * t.val + p.val; rw [hi.1]; omega
    | ⟨1, _⟩ => show win4_6.index t 1 * 64 + 1 * q.val = q.val; rw [hi.2]; omega
  show k4_pay1 (F := Ideal) (iblk4 V c 0 t) (iblk4 V c 1 t) (iblk4 V c 2 t) (iblk4 V c 3 t) (iblk4 V c 4 t) (iblk4 V c 5 t) (ix2 p q)
      = conv (N := 50000) (V c main_v55) (V c main_v65) (V c main_arg10) (V c main_v66) (V c main_arg12) (V c main_v67)
        (((View.whole main_v68).slice ((win4 6).rect t)).emb (ix2 p q))
  refine (tileConv k4_pay1 Payloads.gin4 (V c main_v55) (V c main_v65) (V c main_arg10) (V c main_v66) (V c main_arg12) (V c main_v67)
    (iblk4 V c 0 t) (iblk4 V c 1 t) (iblk4 V c 2 t) (iblk4 V c 3 t) (iblk4 V c 4 t) (iblk4 V c 5 t) p q
    ⟨2000 * t.val + p.val, by omega⟩
    (fun k => blk4_0 V c t _ _ rfl rfl) (fun k => blk4_1 V c t _ _ rfl rfl)
    (blk4_2 V c t) (blk4_3 V c t) (blk4_4 V c t) (blk4_5 V c t)).trans ?_
  exact congrArg _ he.symm

/-- Row `r` of the result array lies in tile `r / 2000`'s block, and every tile writes back. -/
theorem cover4 (i : S50000x64.Idx) : ∃ t : Fin cfg4.N, (cfg4.win 6).flush t = true ∧ i ∈ ((cfg4.win 6).blk t).view.set := by
  have h0 : (i 0).val < 50000 := (i 0).isLt
  have h1 : (i 1).val < 64 := (i 1).isLt
  have hN : cfg4.N = 25 := N_4
  obtain ⟨t, htv⟩ : ∃ t : Fin cfg4.N, t.val = (i 0).val / 2000 := ⟨⟨(i 0).val / 2000, by rw [hN]; omega⟩, rfl⟩
  have hi := (idx4 t).2.2.2.2.2.2
  refine ⟨t, flush4_6 t, ?_⟩
  show i ∈ ((View.whole main_v68).slice (win4_6.rect t)).set
  rw [View.set_slice_whole, Rect.mem_set_unit]
  intro a
  match a with
  | ⟨0, _⟩ =>
    show win4_6.index t 0 * 2000 ≤ (i 0).val ∧ (i 0).val < win4_6.index t 0 * 2000 + 2000
    rw [hi.1, htv]; omega
  | ⟨1, _⟩ =>
    show win4_6.index t 1 * 64 ≤ (i 1).val ∧ (i 1).val < win4_6.index t 1 * 64 + 64
    rw [hi.2]; omega

/-- Launch 4's result array after its 25 write-backs: `conv` of the arrays the launch was entered with. -/
theorem arr4 (c : Dev nD) :
    (dat4 V c).arrAt 6 cfg4.N
      = conv (N := 50000) (V c main_v55) (V c main_v65) (V c main_arg10) (V c main_v66) (V c main_arg12) (V c main_v67) :=
  (dat4 V c).arrAt_eq_of_cover 6 _ (fun t _ => flushed4 V c t) cover4

/-! ## Launch 5 -/

/-- The index maps over the grid: the row-blocked windows sit at block `(t, 0)`, the parameter windows at `(0, 0)`. -/
theorem idx5 : ∀ t : Fin cfg5.N,
    (win5_0.index t (0 : Fin 2) = t.val ∧ win5_0.index t (1 : Fin 2) = 0)
    ∧ (win5_1.index t (0 : Fin 2) = t.val ∧ win5_1.index t (1 : Fin 2) = 0)
    ∧ (win5_2.index t (0 : Fin 2) = 0 ∧ win5_2.index t (1 : Fin 2) = 0)
    ∧ (win5_3.index t (0 : Fin 2) = 0 ∧ win5_3.index t (1 : Fin 2) = 0)
    ∧ (win5_4.index t (0 : Fin 2) = 0 ∧ win5_4.index t (1 : Fin 2) = 0)
    ∧ (win5_5.index t (0 : Fin 2) = 0 ∧ win5_5.index t (1 : Fin 2) = 0)
    ∧ (win5_6.index t (0 : Fin 2) = t.val ∧ win5_6.index t (1 : Fin 2) = 0) :=
  (by decide +kernel : ∀ t : Fin grid5.N, _)

/-- Window 0's block at tile `t` is rows `2000 t … 2000 t + 1999` of its array. -/
theorem blk5_0 (c : Dev nD) (t : Fin cfg5.N) (x : S2000x64.Idx) (k : S50000x64.Idx)
    (hk0 : (k 0).val = 2000 * t.val + (x 0).val) (hk1 : (k 1).val = (x 1).val) :
    (iblk5 V c 0 t : Vec Ideal S2000x64 .f32) x = (V c main_v68 : S50000x64.Idx → Elt Ideal .f32) k := by
  have hi := (idx5 t).1
  unfold iblk5
  rw [View.read_apply]
  show V c main_v68 _ = V c main_v68 _
  congr 1
  funext a
  apply Fin.ext
  match a with
  | ⟨0, _⟩ => show win5_0.index t 0 * 2000 + 1 * (x 0).val = (k 0).val; rw [hi.1, hk0]; omega
  | ⟨1, _⟩ => show win5_0.index t 1 * 64 + 1 * (x 1).val = (k 1).val; rw [hi.2, hk1]; omega

/-- Window 1's block at tile `t` is rows `2000 t … 2000 t + 1999` of its array. -/
theorem blk5_1 (c : Dev nD) (t : Fin cfg5.N) (x : S2000x64.Idx) (k : S50000x64.Idx)
    (hk0 : (k 0).val = 2000 * t.val + (x 0).val) (hk1 : (k 1).val = (x 1).val) :
    (iblk5 V c 1 t : Vec Ideal S2000x64 .f32) x = (V c main_v78 : S50000x64.Idx → Elt Ideal .f32) k := by
  have hi := (idx5 t).2.1
  unfold iblk5
  rw [View.read_apply]
  show V c main_v78 _ = V c main_v78 _
  congr 1
  funext a
  apply Fin.ext
  match a with
  | ⟨0, _⟩ => show win5_1.index t 0 * 2000 + 1 * (x 0).val = (k 0).val; rw [hi.1, hk0]; omega
  | ⟨1, _⟩ => show win5_1.index t 1 * 64 + 1 * (x 1).val = (k 1).val; rw [hi.2, hk1]; omega

/-- Window 2's block at any tile is its whole array. -/
theorem blk5_2 (c : Dev nD) (t : Fin cfg5.N) :
    (iblk5 V c 2 t : Vec Ideal S64x64 .f32) = (V c main_arg10 : S64x64.Idx → Elt Ideal .f32) := by
  have hi := (idx5 t).2.2.1
  funext x
  unfold iblk5
  rw [View.read_apply]
  show V c main_arg10 _ = V c main_arg10 _
  congr 1
  funext a
  apply Fin.ext
  match a with
  | ⟨0, _⟩ => show win5_2.index t 0 * 64 + 1 * (x 0).val = (x 0).val; rw [hi.1]; omega
  | ⟨1, _⟩ => show win5_2.index t 1 * 64 + 1 * (x 1).val = (x 1).val; rw [hi.2]; omega

/-- Window 3's block at any tile is its whole array. -/
theorem blk5_3 (c : Dev nD) (t : Fin cfg5.N) :
    (iblk5 V c 3 t : Vec Ideal S1x64 .f32) = (V c main_v79 : S1x64.Idx → Elt Ideal .f32) := by
  have hi := (idx5 t).2.2.2.1
  funext x
  unfold iblk5
  rw [View.read_apply]
  show V c main_v79 _ = V c main_v79 _
  congr 1
  funext a
  apply Fin.ext
  match a with
  | ⟨0, _⟩ => show win5_3.index t 0 * 1 + 1 * (x 0).val = (x 0).val; rw [hi.1]; omega
  | ⟨1, _⟩ => show win5_3.index t 1 * 64 + 1 * (x 1).val = (x 1).val; rw [hi.2]; omega

/-- Window 4's block at any tile is its whole array. -/
theorem blk5_4 (c : Dev nD) (t : Fin cfg5.N) :
    (iblk5 V c 4 t : Vec Ideal S64x64 .f32) = (V c main_arg12 : S64x64.Idx → Elt Ideal .f32) := by
  have hi := (idx5 t).2.2.2.2.1
  funext x
  unfold iblk5
  rw [View.read_apply]
  show V c main_arg12 _ = V c main_arg12 _
  congr 1
  funext a
  apply Fin.ext
  match a with
  | ⟨0, _⟩ => show win5_4.index t 0 * 64 + 1 * (x 0).val = (x 0).val; rw [hi.1]; omega
  | ⟨1, _⟩ => show win5_4.index t 1 * 64 + 1 * (x 1).val = (x 1).val; rw [hi.2]; omega

/-- Window 5's block at any tile is its whole array. -/
theorem blk5_5 (c : Dev nD) (t : Fin cfg5.N) :
    (iblk5 V c 5 t : Vec Ideal S1x64 .f32) = (V c main_v80 : S1x64.Idx → Elt Ideal .f32) := by
  have hi := (idx5 t).2.2.2.2.2.1
  funext x
  unfold iblk5
  rw [View.read_apply]
  show V c main_v80 _ = V c main_v80 _
  congr 1
  funext a
  apply Fin.ext
  match a with
  | ⟨0, _⟩ => show win5_5.index t 0 * 1 + 1 * (x 0).val = (x 0).val; rw [hi.1]; omega
  | ⟨1, _⟩ => show win5_5.index t 1 * 64 + 1 * (x 1).val = (x 1).val; rw [hi.2]; omega

/-- What tile `t` writes back is rows `2000 t … 2000 t + 1999` of `conv` of the arrays the launch was entered with. -/
theorem flushed5 (c : Dev nD) (t : Fin cfg5.N) :
    (dat5 V c).flushed 6 t = ((cfg5.win 6).blk t).view.read (Elt Ideal)
      (conv (N := 50000) (V c main_v68) (V c main_v78) (V c main_arg10) (V c main_v79) (V c main_arg12) (V c main_v80)) := by
  show (cfg5.win 6).cut (grid5.coords t) ((dat5 V c).after 6 t) = _
  rw [after5_6]
  unfold out5_6
  rw [View.canon_unit_zero hz]
  simp only [View.ld_unit_zero (S := S2000x64) hz, View.ld_unit_zero (S := S64x64) hz, View.ld_unit_zero (S := S1x64) hz]
  funext y
  obtain ⟨p, q, rfl⟩ : ∃ (p : Fin 2000) (q : Fin 64), y = ix2 p q := ⟨y 0, y 1, eq_ix2 y⟩
  rw [View.read_apply]
  have hi := (idx5 t).2.2.2.2.2.2
  have ht : t.val < 25 := lt_of_lt_of_eq t.isLt N_5
  have hp : p.val < 2000 := p.isLt
  have he : ((View.whole main_v81).slice ((win5 6).rect t)).emb (ix2 p q)
      = (ix2 (⟨2000 * t.val + p.val, by omega⟩ : Fin 50000) q : S50000x64.Idx) := by
    funext a
    apply Fin.ext
    match a with
    | ⟨0, _⟩ => show win5_6.index t 0 * 2000 + 1 * p.val = 2000 * t.val + p.val; rw [hi.1]; omega
    | ⟨1, _⟩ => show win5_6.index t 1 * 64 + 1 * q.val = q.val; rw [hi.2]; omega
  show k5_pay1 (F := Ideal) (iblk5 V c 0 t) (iblk5 V c 1 t) (iblk5 V c 2 t) (iblk5 V c 3 t) (iblk5 V c 4 t) (iblk5 V c 5 t) (ix2 p q)
      = conv (N := 50000) (V c main_v68) (V c main_v78) (V c main_arg10) (V c main_v79) (V c main_arg12) (V c main_v80)
        (((View.whole main_v81).slice ((win5 6).rect t)).emb (ix2 p q))
  refine (tileConv k5_pay1 Payloads.gin5 (V c main_v68) (V c main_v78) (V c main_arg10) (V c main_v79) (V c main_arg12) (V c main_v80)
    (iblk5 V c 0 t) (iblk5 V c 1 t) (iblk5 V c 2 t) (iblk5 V c 3 t) (iblk5 V c 4 t) (iblk5 V c 5 t) p q
    ⟨2000 * t.val + p.val, by omega⟩
    (fun k => blk5_0 V c t _ _ rfl rfl) (fun k => blk5_1 V c t _ _ rfl rfl)
    (blk5_2 V c t) (blk5_3 V c t) (blk5_4 V c t) (blk5_5 V c t)).trans ?_
  exact congrArg _ he.symm

/-- Row `r` of the result array lies in tile `r / 2000`'s block, and every tile writes back. -/
theorem cover5 (i : S50000x64.Idx) : ∃ t : Fin cfg5.N, (cfg5.win 6).flush t = true ∧ i ∈ ((cfg5.win 6).blk t).view.set := by
  have h0 : (i 0).val < 50000 := (i 0).isLt
  have h1 : (i 1).val < 64 := (i 1).isLt
  have hN : cfg5.N = 25 := N_5
  obtain ⟨t, htv⟩ : ∃ t : Fin cfg5.N, t.val = (i 0).val / 2000 := ⟨⟨(i 0).val / 2000, by rw [hN]; omega⟩, rfl⟩
  have hi := (idx5 t).2.2.2.2.2.2
  refine ⟨t, flush5_6 t, ?_⟩
  show i ∈ ((View.whole main_v81).slice (win5_6.rect t)).set
  rw [View.set_slice_whole, Rect.mem_set_unit]
  intro a
  match a with
  | ⟨0, _⟩ =>
    show win5_6.index t 0 * 2000 ≤ (i 0).val ∧ (i 0).val < win5_6.index t 0 * 2000 + 2000
    rw [hi.1, htv]; omega
  | ⟨1, _⟩ =>
    show win5_6.index t 1 * 64 ≤ (i 1).val ∧ (i 1).val < win5_6.index t 1 * 64 + 64
    rw [hi.2]; omega

/-- Launch 5's result array after its 25 write-backs: `conv` of the arrays the launch was entered with. -/
theorem arr5 (c : Dev nD) :
    (dat5 V c).arrAt 6 cfg5.N
      = conv (N := 50000) (V c main_v68) (V c main_v78) (V c main_arg10) (V c main_v79) (V c main_arg12) (V c main_v80) :=
  (dat5 V c).arrAt_eq_of_cover 6 _ (fun t _ => flushed5 V c t) cover5

/-! ## Launch 6 -/

/-- The index maps over the grid: the joined features and the result sit at block `(t, 0)`, the parameters at `(0, 0)`. -/
theorem idx6 : ∀ t : Fin cfg6.N,
    (win6_0.index t (0 : Fin 2) = t.val ∧ win6_0.index t (1 : Fin 2) = 0)
    ∧ (win6_1.index t (0 : Fin 2) = 0 ∧ win6_1.index t (1 : Fin 2) = 0)
    ∧ (win6_2.index t (0 : Fin 2) = 0 ∧ win6_2.index t (1 : Fin 2) = 0)
    ∧ (win6_3.index t (0 : Fin 2) = t.val ∧ win6_3.index t (1 : Fin 2) = 0) :=
  (by decide +kernel : ∀ t : Fin grid6.N, _)

/-- Window 0's block at tile `t` is rows `2000 t … 2000 t + 1999` of the joined features. -/
theorem blk6_0 (c : Dev nD) (t : Fin cfg6.N) (x : S2000x192.Idx) (k : S50000x192.Idx)
    (hk0 : (k 0).val = 2000 * t.val + (x 0).val) (hk1 : (k 1).val = (x 1).val) :
    (iblk6 V c 0 t : Vec Ideal S2000x192 .f32) x = (V c main_v82 : S50000x192.Idx → Elt Ideal .f32) k := by
  have hi := (idx6 t).1
  unfold iblk6
  rw [View.read_apply]
  show V c main_v82 _ = V c main_v82 _
  congr 1
  funext a
  apply Fin.ext
  match a with
  | ⟨0, _⟩ => show win6_0.index t 0 * 2000 + 1 * (x 0).val = (k 0).val; rw [hi.1, hk0]; omega
  | ⟨1, _⟩ => show win6_0.index t 1 * 192 + 1 * (x 1).val = (k 1).val; rw [hi.2, hk1]; omega

/-- Window 1's block at any tile is its whole array. -/
theorem blk6_1 (c : Dev nD) (t : Fin cfg6.N) :
    (iblk6 V c 1 t : Vec Ideal S192x64 .f32) = (V c main_arg14 : S192x64.Idx → Elt Ideal .f32) := by
  have hi := (idx6 t).2.1
  funext x
  unfold iblk6
  rw [View.read_apply]
  show V c main_arg14 _ = V c main_arg14 _
  congr 1
  funext a
  apply Fin.ext
  match a with
  | ⟨0, _⟩ => show win6_1.index t 0 * 192 + 1 * (x 0).val = (x 0).val; rw [hi.1]; omega
  | ⟨1, _⟩ => show win6_1.index t 1 * 64 + 1 * (x 1).val = (x 1).val; rw [hi.2]; omega

/-- Window 2's block at any tile is its whole array. -/
theorem blk6_2 (c : Dev nD) (t : Fin cfg6.N) :
    (iblk6 V c 2 t : Vec Ideal S1x64 .f32) = (V c main_v83 : S1x64.Idx → Elt Ideal .f32) := by
  have hi := (idx6 t).2.2.1
  funext x
  unfold iblk6
  rw [View.read_apply]
  show V c main_v83 _ = V c main_v83 _
  congr 1
  funext a
  apply Fin.ext
  match a with
  | ⟨0, _⟩ => show win6_2.index t 0 * 1 + 1 * (x 0).val = (x 0).val; rw [hi.1]; omega
  | ⟨1, _⟩ => show win6_2.index t 1 * 64 + 1 * (x 1).val = (x 1).val; rw [hi.2]; omega

/-- What tile `t` writes back is rows `2000 t … 2000 t + 1999` of `proj` of the arrays the launch was entered with. -/
theorem flushed6 (c : Dev nD) (t : Fin cfg6.N) :
    (dat6 V c).flushed 3 t = ((cfg6.win 3).blk t).view.read (Elt Ideal)
      (proj (N := 50000) (V c main_v82) (V c main_arg14) (V c main_v83)) := by
  show (cfg6.win 3).cut (grid6.coords t) ((dat6 V c).after 3 t) = _
  rw [after6_3]
  unfold out6_3
  rw [View.canon_unit_zero hz]
  simp only [View.ld_unit_zero (S := S2000x192) hz, View.ld_unit_zero (S := S192x64) hz, View.ld_unit_zero (S := S1x64) hz]
  funext y
  obtain ⟨p, q, rfl⟩ : ∃ (p : Fin 2000) (q : Fin 64), y = ix2 p q := ⟨y 0, y 1, eq_ix2 y⟩
  rw [View.read_apply]
  have hi := (idx6 t).2.2.2
  have ht : t.val < 25 := lt_of_lt_of_eq t.isLt N_6
  have hp : p.val < 2000 := p.isLt
  have he : ((View.whole main_v84).slice ((win6 3).rect t)).emb (ix2 p q)
      = (ix2 (⟨2000 * t.val + p.val, by omega⟩ : Fin 50000) q : S50000x64.Idx) := by
    funext a
    apply Fin.ext
    match a with
    | ⟨0, _⟩ => show win6_3.index t 0 * 2000 + 1 * p.val = 2000 * t.val + p.val; rw [hi.1]; omega
    | ⟨1, _⟩ => show win6_3.index t 1 * 64 + 1 * q.val = q.val; rw [hi.2]; omega
  show k6_pay1 (F := Ideal) (iblk6 V c 0 t) (iblk6 V c 1 t) (iblk6 V c 2 t) (ix2 p q)
      = proj (N := 50000) (V c main_v82) (V c main_arg14) (V c main_v83)
        (((View.whole main_v84).slice ((win6 3).rect t)).emb (ix2 p q))
  refine (tileProj k6_pay1 Payloads.fin6 (V c main_v82) (V c main_arg14) (V c main_v83)
    (iblk6 V c 0 t) (iblk6 V c 1 t) (iblk6 V c 2 t) p q ⟨2000 * t.val + p.val, by omega⟩
    (fun k => blk6_0 V c t _ _ rfl rfl) (blk6_1 V c t) (blk6_2 V c t)).trans ?_
  exact congrArg _ he.symm

/-- Row `r` of the result array lies in tile `r / 2000`'s block, and every tile writes back. -/
theorem cover6 (i : S50000x64.Idx) : ∃ t : Fin cfg6.N, (cfg6.win 3).flush t = true ∧ i ∈ ((cfg6.win 3).blk t).view.set := by
  have h0 : (i 0).val < 50000 := (i 0).isLt
  have h1 : (i 1).val < 64 := (i 1).isLt
  have hN : cfg6.N = 25 := N_6
  obtain ⟨t, htv⟩ : ∃ t : Fin cfg6.N, t.val = (i 0).val / 2000 := ⟨⟨(i 0).val / 2000, by rw [hN]; omega⟩, rfl⟩
  have hi := (idx6 t).2.2.2
  refine ⟨t, flush6_3 t, ?_⟩
  show i ∈ ((View.whole main_v84).slice (win6_3.rect t)).set
  rw [View.set_slice_whole, Rect.mem_set_unit]
  intro a
  match a with
  | ⟨0, _⟩ =>
    show win6_3.index t 0 * 2000 ≤ (i 0).val ∧ (i 0).val < win6_3.index t 0 * 2000 + 2000
    rw [hi.1, htv]; omega
  | ⟨1, _⟩ =>
    show win6_3.index t 1 * 64 ≤ (i 1).val ∧ (i 1).val < win6_3.index t 1 * 64 + 64
    rw [hi.2]; omega

/-- Launch 6's result array after its 25 write-backs: `proj` of the arrays the launch was entered with. -/
theorem arr6 (c : Dev nD) :
    (dat6 V c).arrAt 3 cfg6.N = proj (N := 50000) (V c main_v82) (V c main_arg14) (V c main_v83) :=
  (dat6 V c).arrAt_eq_of_cover 3 _ (fun t _ => flushed6 V c t) cover6

end Cert.KernelIdeal.Arrays

end
-- ==== Proof.IdealResult.lean ====
/-
  The last launch's result is the network function of the sixteen arguments.

  Each convolution launch writes, over its whole grid, `Layers.conv` of its six window arrays; entered with the features
  `h`, their neighbour sums `Spec.nbrs h e`, two weight matrices and the two bias vectors recast as rows, that is
  `Spec.hop h e w1 b1 w2 b2`. The launches chain as the three stacks do: launch 0 is the one-level stack, launches 1 and 2
  the two levels of the second stack, launches 3, 4 and 5 the three levels of the third. The last launch writes
  `Layers.proj` of the three stacks' results side by side, which is `Spec.kspec`.
-/
import proofs.«169468_j20469814133013_1_alg».proof.Proof.IdealContents
import proofs.«169468_j20469814133013_1_alg».proof.Proof.IdealArrays

noncomputable section

namespace Cert.KernelIdeal.Result

open Cert.KernelIdeal Cert.KernelIdeal.Gen Cert.KernelIdeal.Tiles Cert.KernelIdeal.Stretches Cert.KernelIdeal.Contents
  Cert.KernelIdeal.Arrays Cert.Layers
open Idealize.ShloMosaic Idealize.ShloMosaic.TcCoe Idealize.SL.Sem

theorem conv_congr {N : ℕ} {h h' a a' : Mat N 64} {w1 w1' w2 w2' : Mat 64 64} {b1 b1' b2 b2' : Mat 1 64}
    (eh : h = h') (ea : a = a') (e1 : w1 = w1') (f1 : b1 = b1') (e2 : w2 = w2') (f2 : b2 = b2') :
    conv h a w1 b1 w2 b2 = conv h' a' w1' b1' w2' b2' := by rw [eh, ea, e1, f1, e2, f2]

theorem proj_congr {N : ℕ} {x x' : Mat N 192} {wo wo' : Mat 192 64} {bo bo' : Mat 1 64}
    (ex : x = x') (ew : wo = wo') (eb : bo = bo') : proj x wo bo = proj x' wo' bo' := by rw [ex, ew, eb]

variable (m : (ℓ : Loc nD τ sig) → Buf (Elt Ideal) ℓ) (c : Dev nD)

/-- Launch 0 writes the one-level stack's result. -/
theorem o2_eq : o2 m c = Spec.hop (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  (arr0 (T1 m) c).trans <| (conv_congr (T1_main_arg0 m c) (T1_main_v13 m c) (T1_main_arg2 m c) (T1_main_v14 m c)
    (T1_main_arg4 m c) (T1_main_v15 m c)).trans rfl

/-- Launch 1 writes the second stack's first level. -/
theorem o4_eq : o4 m c = Spec.hop (m ((c : Thread nD τ).loc main_arg0)) (m ((c : Thread nD τ).loc main_arg1)) (m ((c : Thread nD τ).loc main_arg6)) (m ((c : Thread nD τ).loc main_arg7)) (m ((c : Thread nD τ).loc main_arg8)) (m ((c : Thread nD τ).loc main_arg9)) :=
  (arr1 (T3 m) c).trans <| (conv_congr (T3_main_arg0 m c) (T3_main_v26 m c) (T3_main_arg6 m c) (T3_main_v27 m c)
    (T3_main_arg8 m c) (T3_main_v28 m c)).trans rfl

/-- Launch 2 writes the second stack's second level, of launch 1's result. -/
theorem o6_step : o6 m c = Spec.hop (o4 m c) (m ((c : Thread nD τ).loc main_arg1)) (m ((c : Thread nD τ).loc main_arg6)) (m ((c : Thread nD τ).loc main_arg7)) (m ((c : Thread nD τ).loc main_arg8)) (m ((c : Thread nD τ).loc main_arg9)) :=
  (arr2 (T5 m) c).trans <| (conv_congr (T5_main_v29 m c) (T5_main_v39 m c) (T5_main_arg6 m c) (T5_main_v40 m c)
    (T5_main_arg8 m c) (T5_main_v41 m c)).trans rfl

theorem o6_eq : o6 m c = Spec.hop (Spec.hop (m ((c : Thread nD τ).loc main_arg0)) (m ((c : Thread nD τ).loc main_arg1)) (m ((c : Thread nD τ).loc main_arg6)) (m ((c : Thread nD τ).loc main_arg7)) (m ((c : Thread nD τ).loc main_arg8)) (m ((c : Thread nD τ).loc main_arg9)))
    (m ((c : Thread nD τ).loc main_arg1)) (m ((c : Thread nD τ).loc main_arg6)) (m ((c : Thread nD τ).loc main_arg7)) (m ((c : Thread nD τ).loc main_arg8)) (m ((c : Thread nD τ).loc main_arg9)) :=
  (o6_step m c).trans (congrArg (fun h => Spec.hop h (m ((c : Thread nD τ).loc main_arg1)) (m ((c : Thread nD τ).loc main_arg6)) (m ((c : Thread nD τ).loc main_arg7)) (m ((c : Thread nD τ).loc main_arg8)) (m ((c : Thread nD τ).loc main_arg9))) (o4_eq m c))

/-- Launch 3 writes the third stack's first level. -/
theorem o8_eq : o8 m c = Spec.hop (m ((c : Thread nD τ).loc main_arg0)) (m ((c : Thread nD τ).loc main_arg1)) (m ((c : Thread nD τ).loc main_arg10)) (m ((c : Thread nD τ).loc main_arg11)) (m ((c : Thread nD τ).loc main_arg12)) (m ((c : Thread nD τ).loc main_arg13)) :=
  (arr3 (T7 m) c).trans <| (conv_congr (T7_main_arg0 m c) (T7_main_v52 m c) (T7_main_arg10 m c) (T7_main_v53 m c)
    (T7_main_arg12 m c) (T7_main_v54 m c)).trans rfl

/-- Launch 4 writes its second level, of launch 3's result. -/
theorem o10_step : o10 m c = Spec.hop (o8 m c) (m ((c : Thread nD τ).loc main_arg1)) (m ((c : Thread nD τ).loc main_arg10)) (m ((c : Thread nD τ).loc main_arg11)) (m ((c : Thread nD τ).loc main_arg12)) (m ((c : Thread nD τ).loc main_arg13)) :=
  (arr4 (T9 m) c).trans <| (conv_congr (T9_main_v55 m c) (T9_main_v65 m c) (T9_main_arg10 m c) (T9_main_v66 m c)
    (T9_main_arg12 m c) (T9_main_v67 m c)).trans rfl

theorem o10_eq : o10 m c = Spec.hop (Spec.hop (m ((c : Thread nD τ).loc main_arg0)) (m ((c : Thread nD τ).loc main_arg1)) (m ((c : Thread nD τ).loc main_arg10)) (m ((c : Thread nD τ).loc main_arg11)) (m ((c : Thread nD τ).loc main_arg12)) (m ((c : Thread nD τ).loc main_arg13)))
    (m ((c : Thread nD τ).loc main_arg1)) (m ((c : Thread nD τ).loc main_arg10)) (m ((c : Thread nD τ).loc main_arg11)) (m ((c : Thread nD τ).loc main_arg12)) (m ((c : Thread nD τ).loc main_arg13)) :=
  (o10_step m c).trans (congrArg (fun h => Spec.hop h (m ((c : Thread nD τ).loc main_arg1)) (m ((c : Thread nD τ).loc main_arg10)) (m ((c : Thread nD τ).loc main_arg11)) (m ((c : Thread nD τ).loc main_arg12)) (m ((c : Thread nD τ).loc main_arg13))) (o8_eq m c))

/-- Launch 5 writes its third level, of launch 4's result. -/
theorem o12_step : o12 m c = Spec.hop (o10 m c) (m ((c : Thread nD τ).loc main_arg1)) (m ((c : Thread nD τ).loc main_arg10)) (m ((c : Thread nD τ).loc main_arg11)) (m ((c : Thread nD τ).loc main_arg12)) (m ((c : Thread nD τ).loc main_arg13)) :=
  (arr5 (T11 m) c).trans <| (conv_congr (T11_main_v68 m c) (T11_main_v78 m c) (T11_main_arg10 m c) (T11_main_v79 m c)
    (T11_main_arg12 m c) (T11_main_v80 m c)).trans rfl

theorem o12_eq : o12 m c = Spec.hop (Spec.hop (Spec.hop (m ((c : Thread nD τ).loc main_arg0)) (m ((c : Thread nD τ).loc main_arg1)) (m ((c : Thread nD τ).loc main_arg10)) (m ((c : Thread nD τ).loc main_arg11)) (m ((c : Thread nD τ).loc main_arg12)) (m ((c : Thread nD τ).loc main_arg13)))
    (m ((c : Thread nD τ).loc main_arg1)) (m ((c : Thread nD τ).loc main_arg10)) (m ((c : Thread nD τ).loc main_arg11)) (m ((c : Thread nD τ).loc main_arg12)) (m ((c : Thread nD τ).loc main_arg13))) (m ((c : Thread nD τ).loc main_arg1)) (m ((c : Thread nD τ).loc main_arg10)) (m ((c : Thread nD τ).loc main_arg11)) (m ((c : Thread nD τ).loc main_arg12)) (m ((c : Thread nD τ).loc main_arg13)) :=
  (o12_step m c).trans (congrArg (fun h => Spec.hop h (m ((c : Thread nD τ).loc main_arg1)) (m ((c : Thread nD τ).loc main_arg10)) (m ((c : Thread nD τ).loc main_arg11)) (m ((c : Thread nD τ).loc main_arg12)) (m ((c : Thread nD τ).loc main_arg13))) (o10_eq m c))

/-- The last launch's input is the three stacks' results side by side. -/
theorem joined_eq : T13 m c main_v82 = Spec.joined (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))
    (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) :=
  (T13_main_v82 m c).trans <| (joinOf_congr (o2_eq m c) (o6_eq m c) (o12_eq m c)).trans rfl

/-- The last launch writes the network function of the arguments. -/
theorem result_eq : o14 m c = Spec.kspec (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))
    (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) :=
  (arr6 (T13 m) c).trans <| (proj_congr (joined_eq m c) (T13_main_arg14 m c) (T13_main_v83 m c)).trans rfl

end Cert.KernelIdeal.Result

end
-- ==== Proof.ReferenceValue.lean ====
/-
  The reference computes the network function `Spec.kspec` of its sixteen arguments.

  The reference spells one graph convolution with host operations only: the neighbour sums (gather at the edges' source
  nodes, accumulating scatter at their target nodes) are added to the features, and each dense layer is the host's
  product plus the bias vector placed as a one-row matrix and stretched over all rows, with a maximum against a broadcast
  zero between the two layers. Placing a vector as a row is recasting it as a row, and the host's product plus the
  stretched row is, entry by entry, `(∑ k, x (a, k) · w (k, b)) + bias (0, b)`: so the convolution is `Spec.hop` and the
  final product is `Layers.proj`. The gather–scatter chain and the side-by-side join are the same terms in both
  programs and are never opened. No finiteness is used.
-/
import proofs.«169468_j20469814133013_1_alg».proof.Proof.Gen.ReferenceIdeal.Run
import proofs.«169468_j20469814133013_1_alg».proof.Proof.IdealSpec

noncomputable section

namespace Cert.ReferenceIdeal.RefValue

open Cert.ReferenceIdeal Cert.ReferenceIdeal.Gen Idealize.ShloMosaic Idealize.ShloMosaic.ValueIdx Idealize.SL.Sem
  Idealize.ShloMosaic.StableHlo Cert.LibAffineTiles Cert.Layers

abbrev Feat (F : FTy → Type) : Type := (⟨S50000x64, .f32⟩ : BufTy).Contents (Elt F)
abbrev Edges (F : FTy → Type) : Type := (⟨S2x800000, .i32⟩ : BufTy).Contents (Elt F)
abbrev Wt (F : FTy → Type) : Type := (⟨S64x64, .f32⟩ : BufTy).Contents (Elt F)
abbrev WtOut (F : FTy → Type) : Type := (⟨S192x64, .f32⟩ : BufTy).Contents (Elt F)
abbrev Bias (F : FTy → Type) : Type := (⟨S64, .f32⟩ : BufTy).Contents (Elt F)
abbrev Row (F : FTy → Type) : Type := (⟨S1x64, .f32⟩ : BufTy).Contents (Elt F)

/-! ## The two product records' facts -/

theorem d64_l0 (j : S50000x64.Idx) (k : dot_S50000x64_S64x64_S50000x64_1_0_0_1_n_n.contr.Idx) :
    (dot_S50000x64_S64x64_S50000x64_1_0_0_1_n_n.lhsIdx j k 0).val = (j 0).val := by
  unfold DotDims.lhsIdx
  rw [dif_neg (show ¬(0 : Fin S50000x64.rank) ∈ dot_S50000x64_S64x64_S50000x64_1_0_0_1_n_n.lhsBatch by decide),
    dif_pos (show (0 : Fin S50000x64.rank) ∈ dot_S50000x64_S64x64_S50000x64_1_0_0_1_n_n.lhsNonContracting by decide)]
  rfl

theorem d64_r1 (j : S50000x64.Idx) (k : dot_S50000x64_S64x64_S50000x64_1_0_0_1_n_n.contr.Idx) :
    (dot_S50000x64_S64x64_S50000x64_1_0_0_1_n_n.rhsIdx j k 1).val = (j 1).val := by
  unfold DotDims.rhsIdx
  rw [dif_neg (show ¬(1 : Fin S64x64.rank) ∈ dot_S50000x64_S64x64_S50000x64_1_0_0_1_n_n.rhsBatch by decide),
    dif_pos (show (1 : Fin S64x64.rank) ∈ dot_S50000x64_S64x64_S50000x64_1_0_0_1_n_n.rhsNonContracting by decide)]
  rfl

theorem d192_l0 (j : S50000x64.Idx) (k : dot_S50000x192_S192x64_S50000x64_1_0_0_1_n_n.contr.Idx) :
    (dot_S50000x192_S192x64_S50000x64_1_0_0_1_n_n.lhsIdx j k 0).val = (j 0).val := by
  unfold DotDims.lhsIdx
  rw [dif_neg (show ¬(0 : Fin S50000x192.rank) ∈ dot_S50000x192_S192x64_S50000x64_1_0_0_1_n_n.lhsBatch by decide),
    dif_pos (show (0 : Fin S50000x192.rank) ∈ dot_S50000x192_S192x64_S50000x64_1_0_0_1_n_n.lhsNonContracting by decide)]
  rfl

theorem d192_r1 (j : S50000x64.Idx) (k : dot_S50000x192_S192x64_S50000x64_1_0_0_1_n_n.contr.Idx) :
    (dot_S50000x192_S192x64_S50000x64_1_0_0_1_n_n.rhsIdx j k 1).val = (j 1).val := by
  unfold DotDims.rhsIdx
  rw [dif_neg (show ¬(1 : Fin S192x64.rank) ∈ dot_S50000x192_S192x64_S50000x64_1_0_0_1_n_n.rhsBatch by decide),
    dif_pos (show (1 : Fin S192x64.rank) ∈ dot_S50000x192_S192x64_S50000x64_1_0_0_1_n_n.rhsNonContracting by decide)]
  rfl

/-! ## The reference's spelling of the pieces, at any float instance -/

section Spelling
variable {F : FTy → Type} [FloatOps F]

/-- Every node's sum of its in-neighbours' feature rows, in the reference's spelling. -/
def hostNbrs (h : Feat F) (e : Edges F) : Feat F :=
  Host.scatterAdd scatter_S50000x64_S800000x1_S800000x64_1_0_0_1
    (broadcastInDim S50000x64 ![] bcast_S_S50000x64 (constant S_ .f32 0x00000000#32))
    (broadcastInDim S800000x1 ![0] bcast_S800000_S800000x1_0
      (shapeCast S800000 (extractStridedSlice S1x800000 ![1, 0] e slices_S2x800000_S1x800000_1_0) shapeCasts_S1x800000_S800000))
    (Host.gather gather_S50000x64_S800000x1_S800000x64_1_0_n_n_0_1_164 h
      (broadcastInDim S800000x1 ![0] bcast_S800000_S800000x1_0
        (select (cmpi .slt (shapeCast S800000 (extractStridedSlice S1x800000 ![0, 0] e slices_S2x800000_S1x800000_0_0) shapeCasts_S1x800000_S800000)
            (broadcastInDim S800000 ![] bcast_S_S800000 (constantI S_ 32 0#32)))
          (addi (shapeCast S800000 (extractStridedSlice S1x800000 ![0, 0] e slices_S2x800000_S1x800000_0_0) shapeCasts_S1x800000_S800000)
            (broadcastInDim S800000 ![] bcast_S_S800000 (constantI S_ 32 50000#32)))
          (shapeCast S800000 (extractStridedSlice S1x800000 ![0, 0] e slices_S2x800000_S1x800000_0_0) shapeCasts_S1x800000_S800000))))

/-- A bias vector placed as a one-row matrix. -/
def hostRow (b : Bias F) : Row F := broadcastInDim S1x64 ![1] bcast_S64_S1x64_1 b

/-- The host's dense layer on all rows of a 64-column array: product plus the bias row stretched over the rows. -/
def hostDense (x : Feat F) (w : Wt F) (b : Row F) : Feat F :=
  addf (Host.dotGeneral dot_S50000x64_S64x64_S50000x64_1_0_0_1_n_n none x w)
    (broadcastInDim S50000x64 ![0, 1] bcast_S1x64_S50000x64_0_1 b)

/-- … followed by the maximum with a broadcast zero. -/
def hostDenseMax (x : Feat F) (w : Wt F) (b : Row F) : Feat F :=
  maximumf (hostDense x w b) (broadcastInDim S50000x64 ![] bcast_S_S50000x64 (constant S_ .f32 0x00000000#32))

/-- The host's output layer on all rows of the 192-column array. -/
def hostOut (x : (⟨S50000x192, .f32⟩ : BufTy).Contents (Elt F)) (w : WtOut F) (b : Row F) : Feat F :=
  addf (Host.dotGeneral dot_S50000x192_S192x64_S50000x64_1_0_0_1_n_n none x w)
    (broadcastInDim S50000x64 ![0, 1] bcast_S1x64_S50000x64_0_1 b)

/-- One graph convolution in the reference's spelling. -/
def hostHop (h : Feat F) (e : Edges F) (w1 : Wt F) (b1 : Bias F) (w2 : Wt F) (b2 : Bias F) : Feat F :=
  hostDense (hostDenseMax (addf h (hostNbrs h e)) w1 (hostRow b1)) w2 (hostRow b2)

/-- The three stacks' outputs side by side, in the reference's spelling. -/
def hostJoined (x : Feat F) (e : Edges F) (w10 : Wt F) (b10 : Bias F) (w20 : Wt F) (b20 : Bias F) (w11 : Wt F) (b11 : Bias F)
    (w21 : Wt F) (b21 : Bias F) (w12 : Wt F) (b12 : Bias F) (w22 : Wt F) (b22 : Bias F) :
    (⟨S50000x192, .f32⟩ : BufTy).Contents (Elt F) :=
  concatenate S50000x192 1
    [⟨S50000x64, hostHop x e w10 b10 w20 b20⟩,
     ⟨S50000x64, hostHop (hostHop x e w11 b11 w21 b21) e w11 b11 w21 b21⟩,
     ⟨S50000x64, hostHop (hostHop (hostHop x e w12 b12 w22 b22) e w12 b12 w22 b22) e w12 b12 w22 b22⟩]
    concatenates_S50000x64_S50000x64_S50000x64_S50000x192_d1

/-- The whole network in the reference's spelling. -/
def hostNet (x : Feat F) (e : Edges F) (w10 : Wt F) (b10 : Bias F) (w20 : Wt F) (b20 : Bias F) (w11 : Wt F) (b11 : Bias F)
    (w21 : Wt F) (b21 : Bias F) (w12 : Wt F) (b12 : Bias F) (w22 : Wt F) (b22 : Bias F) (wo : WtOut F) (bo : Bias F) : Feat F :=
  hostOut (hostJoined x e w10 b10 w20 b20 w11 b11 w21 b21 w12 b12 w22 b22) wo (hostRow bo)

end Spelling

/-! ## Each piece, on the extended reals, is the specification's -/

/-- The neighbour sums are the same term in both programs' vocabularies. -/
theorem hostNbrs_eq (h : Feat Ideal) (e : Edges Ideal) : hostNbrs h e = Cert.KernelIdeal.Spec.nbrs h e := rfl

/-- Placing a bias vector as a row is recasting it as a row. -/
theorem hostRow_eq (b : Bias Ideal) : hostRow b = Cert.KernelIdeal.Spec.row b :=
  (LibCastForms.row_cast_eq_bcast (B := 64) b _ bcast_S64_S1x64_1).symm

/-- The host's dense layer is the dense layer. -/
theorem hostDense_eq (x : Feat Ideal) (w : Wt Ideal) (b : Row Ideal) :
    hostDense x w b = affine (A := 50000) (K := 64) (B := 64) x w b :=
  whole_eq (A := 50000) (K := 64) (B := 64) dot_S50000x64_S64x64_S50000x64_1_0_0_1_n_n rfl rfl rfl rfl d64_l0 d64_r1
    x w b bcast_S1x64_S50000x64_0_1

/-- The host's clamped dense layer is the clamped dense layer. -/
theorem hostDenseMax_eq (x : Feat Ideal) (w : Wt Ideal) (b : Row Ideal) :
    hostDenseMax x w b = affineMax (A := 50000) (K := 64) (B := 64) x w b 0x00000000#32 :=
  whole_max_eq (A := 50000) (K := 64) (B := 64) dot_S50000x64_S64x64_S50000x64_1_0_0_1_n_n rfl rfl rfl rfl d64_l0 d64_r1
    x w b 0x00000000#32 bcast_S1x64_S50000x64_0_1 bcast_S_S50000x64

/-- The host's output layer is the dense layer on 192 columns. -/
theorem hostOut_eq (x : (⟨S50000x192, .f32⟩ : BufTy).Contents (Elt Ideal)) (w : WtOut Ideal) (b : Row Ideal) :
    hostOut x w b = affine (A := 50000) (K := 192) (B := 64) x w b :=
  whole_eq (A := 50000) (K := 192) (B := 64) dot_S50000x192_S192x64_S50000x64_1_0_0_1_n_n rfl rfl rfl rfl d192_l0 d192_r1
    x w b bcast_S1x64_S50000x64_0_1

/-- The reference's convolution is the specification's. -/
theorem hostHop_eq (h : Feat Ideal) (e : Edges Ideal) (w1 : Wt Ideal) (b1 : Bias Ideal) (w2 : Wt Ideal) (b2 : Bias Ideal) :
    hostHop h e w1 b1 w2 b2 = Cert.KernelIdeal.Spec.hop h e w1 b1 w2 b2 := by
  unfold hostHop
  rw [hostDense_eq, hostDenseMax_eq, hostRow_eq, hostRow_eq, hostNbrs_eq]
  rfl

/-- The reference's join is the specification's. -/
theorem hostJoined_eq (x : Feat Ideal) (e : Edges Ideal) (w10 : Wt Ideal) (b10 : Bias Ideal) (w20 : Wt Ideal) (b20 : Bias Ideal)
    (w11 : Wt Ideal) (b11 : Bias Ideal) (w21 : Wt Ideal) (b21 : Bias Ideal) (w12 : Wt Ideal) (b12 : Bias Ideal) (w22 : Wt Ideal)
    (b22 : Bias Ideal) :
    hostJoined x e w10 b10 w20 b20 w11 b11 w21 b21 w12 b12 w22 b22
      = Cert.KernelIdeal.Spec.joined x e w10 b10 w20 b20 w11 b11 w21 b21 w12 b12 w22 b22 := by
  unfold hostJoined
  rw [hostHop_eq x e w10 b10 w20 b20,
    hostHop_eq (hostHop x e w11 b11 w21 b21) e w11 b11 w21 b21, hostHop_eq x e w11 b11 w21 b21,
    hostHop_eq (hostHop (hostHop x e w12 b12 w22 b22) e w12 b12 w22 b22) e w12 b12 w22 b22,
    hostHop_eq (hostHop x e w12 b12 w22 b22) e w12 b12 w22 b22, hostHop_eq x e w12 b12 w22 b22]
  rfl

/-- The reference's network is the specification's. -/
theorem hostNet_eq (x : Feat Ideal) (e : Edges Ideal) (w10 : Wt Ideal) (b10 : Bias Ideal) (w20 : Wt Ideal) (b20 : Bias Ideal)
    (w11 : Wt Ideal) (b11 : Bias Ideal) (w21 : Wt Ideal) (b21 : Bias Ideal) (w12 : Wt Ideal) (b12 : Bias Ideal) (w22 : Wt Ideal)
    (b22 : Bias Ideal) (wo : WtOut Ideal) (bo : Bias Ideal) :
    hostNet x e w10 b10 w20 b20 w11 b11 w21 b21 w12 b12 w22 b22 wo bo
      = Cert.KernelIdeal.Spec.kspec x e w10 b10 w20 b20 w11 b11 w21 b21 w12 b12 w22 b22 wo bo := by
  unfold hostNet
  rw [hostOut_eq, hostJoined_eq, hostRow_eq]
  rfl

/-! ## The reference's result -/

/-- The reference's composed term is the network in the reference's spelling: the same term, named. -/
theorem res_host (m' : (ℓ : Loc nD τ sig) → Buf (Elt Ideal) ℓ) (c : Dev nD) :
    Cert.ReferenceIdeal.Value.res_main_v128 (F := Ideal) m' c
      = hostNet (F := Ideal) (m' ((c.tc : Thread nD τ).loc main_arg0)) (m' ((c.tc : Thread nD τ).loc main_arg1))
          (m' ((c.tc : Thread nD τ).loc main_arg2)) (m' ((c.tc : Thread nD τ).loc main_arg3))
          (m' ((c.tc : Thread nD τ).loc main_arg4)) (m' ((c.tc : Thread nD τ).loc main_arg5))
          (m' ((c.tc : Thread nD τ).loc main_arg6)) (m' ((c.tc : Thread nD τ).loc main_arg7))
          (m' ((c.tc : Thread nD τ).loc main_arg8)) (m' ((c.tc : Thread nD τ).loc main_arg9))
          (m' ((c.tc : Thread nD τ).loc main_arg10)) (m' ((c.tc : Thread nD τ).loc main_arg11))
          (m' ((c.tc : Thread nD τ).loc main_arg12)) (m' ((c.tc : Thread nD τ).loc main_arg13))
          (m' ((c.tc : Thread nD τ).loc main_arg14)) (m' ((c.tc : Thread nD τ).loc main_arg15)) := rfl

/-- The reference computes `Spec.kspec` of its arguments. -/
theorem res_eq (m' : (ℓ : Loc Cert.ReferenceIdeal.nD Cert.ReferenceIdeal.τ Cert.ReferenceIdeal.sig) → Buf (Elt Ideal) ℓ)
    (c : Dev Cert.ReferenceIdeal.nD) :
    Cert.ReferenceIdeal.Value.res_main_v128 (F := Ideal) m' c
      = Cert.KernelIdeal.Spec.kspec (m' ((c.tc : Thread nD τ).loc main_arg0)) (m' ((c.tc : Thread nD τ).loc main_arg1))
          (m' ((c.tc : Thread nD τ).loc main_arg2)) (m' ((c.tc : Thread nD τ).loc main_arg3))
          (m' ((c.tc : Thread nD τ).loc main_arg4)) (m' ((c.tc : Thread nD τ).loc main_arg5))
          (m' ((c.tc : Thread nD τ).loc main_arg6)) (m' ((c.tc : Thread nD τ).loc main_arg7))
          (m' ((c.tc : Thread nD τ).loc main_arg8)) (m' ((c.tc : Thread nD τ).loc main_arg9))
          (m' ((c.tc : Thread nD τ).loc main_arg10)) (m' ((c.tc : Thread nD τ).loc main_arg11))
          (m' ((c.tc : Thread nD τ).loc main_arg12)) (m' ((c.tc : Thread nD τ).loc main_arg13))
          (m' ((c.tc : Thread nD τ).loc main_arg14)) (m' ((c.tc : Thread nD τ).loc main_arg15)) :=
  (res_host m' c).trans (hostNet_eq _ _ _ _ _ _ _ _ _ _ _ _ _ _ _ _)

end Cert.ReferenceIdeal.RefValue

end
-- ==== Proof.lean ====
/-
  The certificate of a three-stack graph network (50000 nodes, 64 features, 800000 edges): a Pallas program that runs the
  dense part of every graph convolution and the output projection tile by tile, against a reference made of host
  operations only.

  One graph convolution sends features `h` to `max ((h + N h) · W1 + b1) 0 · W2 + b2`, where `N h` sums, for every node,
  the feature rows of its in-neighbours. Three stacks of one, two and three convolutions (each stack with its own
  parameters) start from the input features; their outputs are joined side by side and projected by `· Wo + bo`.

  The program computes `N h` on the host exactly as the reference does and hands `h`, `N h` and the parameters to a launch
  that works on 25 tiles of 2000 nodes: a tile's result depends on the tile's rows of `h` and `N h` only, so the 25
  write-backs assemble to the dense map of the whole arrays. Rounding the operands of the two products to a shorter
  format is the identity over the extended reals, a product into a zero accumulator is the host's product, and a bias
  recast as a row is the bias broadcast to a row. So both programs compute one function of the sixteen arguments
  (`Spec.kspec`), with no finiteness needed: both are the same finite sums of products.

  The frames: each of the seven launches gives its input arrays back unchanged and replaces its result array; the host
  stretches between them write fresh buffers only; hence every argument array ends as launched. The reference has no
  launch: its frame is its run with the result dropped. The idealized kernel program is the kernel program's own text
  read over the extended reals: nothing was rewritten, so there is nothing to preserve.
-/
import proofs.«169468_j20469814133013_1_alg».proof.Defs
import proofs.«169468_j20469814133013_1_alg».proof.Proof.Gen.Kernel
import proofs.«169468_j20469814133013_1_alg».proof.Proof.Gen.KernelIdeal
import proofs.«169468_j20469814133013_1_alg».proof.Proof.Gen.ReferenceIdeal
import proofs.«169468_j20469814133013_1_alg».proof.Proof.Gen.Pre_finite_inputs
import proofs.«169468_j20469814133013_1_alg».proof.Proof.Gen.ReferenceIdeal.Run
import proofs.«169468_j20469814133013_1_alg».proof.Proof.BitsLaunches
import proofs.«169468_j20469814133013_1_alg».proof.Proof.IdealLaunches
import proofs.«169468_j20469814133013_1_alg».proof.Proof.IdealResult
import proofs.«169468_j20469814133013_1_alg».proof.Proof.ReferenceValue
import Idealize.ShloMosaic.Adequacy
import Idealize.ShloMosaic.Init

noncomputable section

namespace Cert.Proof

open Idealize.ShloMosaic Idealize.SL.Sem

/-- The kernel program, at the machine's words: every argument array ends as launched. -/
theorem frame_kernel : Cert.frame_Kernel := fun m ρ _ => Cert.Kernel.Tiles.frame (F := Bits) m ρ

/-- The same program read over the extended reals. -/
theorem frame_ideal : Cert.frame_KernelIdeal := fun m ρ _ => Cert.KernelIdeal.Tiles.frame (F := Ideal) m ρ

/-- The reference is host operations only: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Nothing was rewritten on the way to the extended reals. -/
theorem preserves : Cert.preserves_Kernel_KernelIdeal := trivial

/-- Over the extended reals both programs end with the network's function of the sixteen arguments: the kernel program's
    result array holds it because each launch's write-backs assemble to the dense map of the arrays it was entered with
    and the host stretches compute the neighbour sums, the bias rows and the joined array; the reference's composed
    term is it by the same dense maps read off the host's spelling. The arguments agree, so the results do. -/
theorem algebraic : Cert.algebraic_KernelIdeal_ReferenceIdeal := by
  intro m ρ m' ρ' _ hagree
  refine ⟨fun c => Cert.KernelIdeal.Tiles.o14 (F := Ideal) m c, Cert.KernelIdeal.Tiles.run_out (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10, h11, h12, h13, h14, h15⟩ := hagree c
  rw [Cert.ReferenceIdeal.RefValue.res_eq, h0, h1, h2, h3, h4, h5, h6, h7, h8, h9, h10, h11, h12, h13, h14, h15]
  exact (Cert.KernelIdeal.Result.result_eq m c).symm

theorem claim : Cert.Claim :=
  ⟨Cert.Kernel.Gen.facts, Cert.KernelIdeal.Gen.facts, Cert.ReferenceIdeal.Gen.facts, Cert.Pre_finite_inputs.Gen.facts,
    frame_kernel, frame_ideal, frame_reference, preserves, algebraic⟩

end Cert.Proof

end
